-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x128 : Shape := ⟨2, ![1024, 128]⟩
abbrev S1024 : Shape := ⟨1, ![1024]⟩
abbrev S1024x2 : Shape := ⟨2, ![1024, 2]⟩
abbrev S100000 : Shape := ⟨1, ![100000]⟩
abbrev S100000x128 : Shape := ⟨2, ![100000, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S1024 : S_.BroadcastsInDim S1024 (![] : Fin 0 → Fin S1024.rank)
  reducesTo_S1024_S_d0 : S1024.ReducesTo [0] S_
  bcast_S_S1024x2 : S_.BroadcastsInDim S1024x2 (![] : Fin 0 → Fin S1024x2.rank)
  reducesTo_S1024x2_S_d0_1 : S1024x2.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg4 : IVec S100000 32) (main_v29 : IVec S_ 1) (main_v31 : IVec S100000 1) (main_v32 : IVec S100000 32) : IVec S_ 1 :=
  let main_v33 : IVec S100000 1 := cmpi .sle main_arg4 main_v32
  let main_v34 : IVec S100000 1 := andi main_v31 main_v33
  let main_c_13 : IVec S_ 1 := constantI S_ 1 1#1
  let main_v35 : IVec S_ 1 := (fun x v => Host.reduce IntOp.andi x v reducesTo_S100000_S_d0 h_S_) main_v34 main_c_13
  let main_v36 : IVec S_ 1 := andi main_v29 main_v35
  main_v36

def fn_part1 {F : FTy → Type} [FloatOps F] (main_arg2 : IVec S1024 32) (main_arg3 : IVec S1024x2 32) (main_arg4 : IVec S100000 32) (main_v15 : IVec S_ 1) (main_c_5 : IVec S_ 32) : IVec S_ 1 :=
  let main_v16 : IVec S1024 32 := broadcastInDim S1024 ![] bcast_S_S1024 main_c_5
  let main_v17 : IVec S1024 1 := cmpi .sge main_arg2 main_v16
  let main_c_6 : IVec S_ 32 := constantI S_ 32 1023#32
  let main_v18 : IVec S1024 32 := broadcastInDim S1024 ![] bcast_S_S1024 main_c_6
  let main_v19 : IVec S1024 1 := cmpi .sle main_arg2 main_v18
  let main_v20 : IVec S1024 1 := andi main_v17 main_v19
  let main_c_7 : IVec S_ 1 := constantI S_ 1 1#1
  let main_v21 : IVec S_ 1 := (fun x v => Host.reduce IntOp.andi x v reducesTo_S1024_S_d0 h_S_) main_v20 main_c_7
  let main_v22 : IVec S_ 1 := andi main_v15 main_v21
  let main_c_8 : IVec S_ 32 := constantI S_ 32 0#32
  let main_v23 : IVec S1024x2 32 := broadcastInDim S1024x2 ![] bcast_S_S1024x2 main_c_8
  let main_v24 : IVec S1024x2 1 := cmpi .sge main_arg3 main_v23
  let main_c_9 : IVec S_ 32 := constantI S_ 32 0#32
  let main_v25 : IVec S1024x2 32 := broadcastInDim S1024x2 ![] bcast_S_S1024x2 main_c_9
  let main_v26 : IVec S1024x2 1 := cmpi .sle main_arg3 main_v25
  let main_v27 : IVec S1024x2 1 := andi main_v24 main_v26
  let main_c_10 : IVec S_ 1 := constantI S_ 1 1#1
  let main_v28 : IVec S_ 1 := (fun x v => Host.reduce IntOp.andi x v reducesTo_S1024x2_S_d0_1 h_S_) main_v27 main_c_10
  let main_v29 : IVec S_ 1 := andi main_v22 main_v28
  let main_c_11 : IVec S_ 32 := constantI S_ 32 0#32
  let main_v30 : IVec S100000 32 := broadcastInDim S100000 ![] bcast_S_S100000 main_c_11
  let main_v31 : IVec S100000 1 := cmpi .sge main_arg4 main_v30
  let main_c_12 : IVec S_ 32 := constantI S_ 32 99999#32
  let main_v32 : IVec S100000 32 := broadcastInDim S100000 ![] bcast_S_S100000 main_c_12
  fn_part2 (F := F) main_arg4 main_v29 main_v31 main_v32

def fn {F : FTy → Type} [FloatOps F] (main_arg0 : FVec F S1024x128 .f32) (main_arg1 : IVec S1024 32) (main_arg2 : IVec S1024 32) (main_arg3 : IVec S1024x2 32) (main_arg4 : IVec S100000 32) (main_arg5 : FVec F S100000x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S100000x128 .f32 := Host.absf main_arg5
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg1 main_v9
  let main_c_3 : IVec S_ 32 := constantI S_ 32 99999#32
  let main_v11 : IVec S1024 32 := broadcastInDim S1024 ![] bcast_S_S1024 main_c_3
  let main_v12 : IVec S1024 1 := cmpi .sle main_arg1 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  let main_c_5 : IVec S_ 32 := constantI S_ 32 0#32
  fn_part1 (F := F) main_arg2 main_arg3 main_arg4 main_v15 main_c_5
-- ==== Kernel.lean ====
abbrev S1024x128 : Shape := ⟨2, ![1024, 128]⟩
abbrev S1024 : Shape := ⟨1, ![1024]⟩
abbrev S1024x2 : Shape := ⟨2, ![1024, 2]⟩
abbrev S100000 : Shape := ⟨1, ![100000]⟩
abbrev S100000x128 : Shape := ⟨2, ![100000, 128]⟩
abbrev S32 : Shape := ⟨1, ![32]⟩
abbrev S32x128 : Shape := ⟨2, ![32, 128]⟩
abbrev S_ : Shape := ⟨0, ![]⟩
abbrev S100000x1024 : Shape := ⟨2, ![100000, 1024]⟩
abbrev S1x1024 : Shape := ⟨2, ![1, 1024]⟩
abbrev S4000x128 : Shape := ⟨2, ![4000, 128]⟩
abbrev S4000x1024 : Shape := ⟨2, ![4000, 1024]⟩
abbrev S400x128 : Shape := ⟨2, ![400, 128]⟩
abbrev S400x1024 : Shape := ⟨2, ![400, 1024]⟩
abbrev S1x1 : Shape := ⟨2, ![1, 1]⟩
abbrev S1x1024x128 : Shape := ⟨3, ![1, 1024, 128]⟩
abbrev S1 : Shape := ⟨1, ![1]⟩
abbrev S1x1x1 : Shape := ⟨3, ![1, 1, 1]⟩
abbrev S1x1x1024 : Shape := ⟨3, ![1, 1, 1024]⟩
abbrev S1024x100000 : Shape := ⟨2, ![1024, 100000]⟩

abbrev nBuf : Table → Nat
  | .hbm => 12
  | .local .tc .vmem => 11
  | .local .scVector .vmem => 2
  | _ => 0

abbrev bufTy : (tb : Table) → Fin (nBuf tb) → BufTy
  | .hbm, ⟨0, _⟩ => ⟨S1024x128, .f32⟩
  | .hbm, ⟨1, _⟩ => ⟨S1024, .i32⟩
  | .hbm, ⟨2, _⟩ => ⟨S1024, .i32⟩
  | .hbm, ⟨3, _⟩ => ⟨S1024x2, .i32⟩
  | .hbm, ⟨4, _⟩ => ⟨S100000, .i32⟩
  | .hbm, ⟨5, _⟩ => ⟨S100000x128, .f32⟩
  | .hbm, ⟨6, _⟩ => ⟨S1024x128, .f32⟩
  | .hbm, ⟨7, _⟩ => ⟨S100000x1024, .f32⟩
  | .hbm, ⟨8, _⟩ => ⟨S1x1024, .f32⟩
  | .hbm, ⟨9, _⟩ => ⟨S1x1, .f32⟩
  | .hbm, ⟨10, _⟩ => ⟨S_, .f32⟩
  | .hbm, ⟨11, _⟩ => ⟨S1024x100000, .f32⟩
  | .local .tc .vmem, ⟨0, _⟩ => ⟨S1024x128, .f32⟩
  | .local .tc .vmem, ⟨1, _⟩ => ⟨S4000x128, .f32⟩
  | .local .tc .vmem, ⟨2, _⟩ => ⟨S4000x128, .f32⟩
  | .local .tc .vmem, ⟨3, _⟩ => ⟨S4000x1024, .f32⟩
  | .local .tc .vmem, ⟨4, _⟩ => ⟨S4000x1024, .f32⟩
  | .local .tc .vmem, ⟨5, _⟩ => ⟨S1x1024, .f32⟩
  | .local .tc .vmem, ⟨6, _⟩ => ⟨S1x1024, .f32⟩
  | .local .tc .vmem, ⟨7, _⟩ => ⟨S1024x128, .f32⟩
  | .local .tc .vmem, ⟨8, _⟩ => ⟨S1024x128, .f32⟩
  | .local .tc .vmem, ⟨9, _⟩ => ⟨S1x1024, .f32⟩
  | .local .tc .vmem, ⟨10, _⟩ => ⟨S1x1, .f32⟩
  | .local .scVector .vmem, ⟨0, _⟩ => ⟨S32, .i32⟩
  | .local .scVector .vmem, ⟨1, _⟩ => ⟨S32x128, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg5_scv : Ref sig .scVector := ⟨.hbm, 5, rfl⟩
abbrev main_arg1_scv : Ref sig .scVector := ⟨.hbm, 1, rfl⟩
abbrev main_v0_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_scratch0 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc2_sem0_0 : DmaSem sig := 9
abbrev cc2_sem1_0 : DmaSem sig := 10
abbrev cc2_sem2_0 : DmaSem sig := 11
abbrev cc2_sem3_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v80 : BitVec 1 := Scalar.cmpi .eq arg0 c24_i32
  let v81 : BitVec 32 := Scalar.extui v80
  let c0_i32_57 : BitVec 32 := 0#32
  let v82 : BitVec 1 := Scalar.cmpi .ne v81 c0_i32_57
  v82

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000x128_S100000x128_0_0 : ∀ a, (![0, 0] : Fin 2 → Nat) a + S100000x128.size a ≤ S100000x128.size a
  gathers_S100000x128_S32x128 : S100000x128.Gathers 0 S32x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x128_S1024x128_0_0 : ∀ a, (![0, 0] : Fin 2 → Nat) a + S1024x128.size a ≤ S1024x128.size a
  h_S1024x128 : 0 < S1024x128.numel
  inb_S4000x128_S400x128_0_0 : ∀ a, (![0, 0] : Fin 2 → Nat) a + S400x128.size a ≤ S4000x128.size a
  h_S400x128 : 0 < S400x128.numel
  inb_S4000x1024_S400x1024_0_0 : ∀ a, (![0, 0] : Fin 2 → Nat) a + S400x1024.size a ≤ S4000x1024.size a
  h_S400x1024 : 0 < S400x1024.numel
  reduces_S400x1024_S1024 : S400x1024.Reduces [0] S1024
  shapeCasts_S1024_S1x1024 : S1024.ShapeCasts S1x1024
  inb_S4000x128_S400x128_400_0 : ∀ a, (![400, 0] : Fin 2 → Nat) a + S400x128.size a ≤ S4000x128.size a
  inb_S4000x1024_S400x1024_400_0 : ∀ a, (![400, 0] : Fin 2 → Nat) a + S400x1024.size a ≤ S4000x1024.size a
  inb_S4000x128_S400x128_800_0 : ∀ a, (![800, 0] : Fin 2 → Nat) a + S400x128.size a ≤ S4000x128.size a
  inb_S4000x1024_S400x1024_800_0 : ∀ a, (![800, 0] : Fin 2 → Nat) a + S400x1024.size a ≤ S4000x1024.size a
  inb_S4000x128_S400x128_1200_0 : ∀ a, (![1200, 0] : Fin 2 → Nat) a + S400x128.size a ≤ S4000x128.size a
  inb_S4000x1024_S400x1024_1200_0 : ∀ a, (![1200, 0] : Fin 2 → Nat) a + S400x1024.size a ≤ S4000x1024.size a
  inb_S4000x128_S400x128_1600_0 : ∀ a, (![1600, 0] : Fin 2 → Nat) a + S400x128.size a ≤ S4000x128.size a
  inb_S4000x1024_S400x1024_1600_0 : ∀ a, (![1600, 0] : Fin 2 → Nat) a + S400x1024.size a ≤ S4000x1024.size a
  inb_S4000x128_S400x128_2000_0 : ∀ a, (![2000, 0] : Fin 2 → Nat) a + S400x128.size a ≤ S4000x128.size a
  inb_S4000x1024_S400x1024_2000_0 : ∀ a, (![2000, 0] : Fin 2 → Nat) a + S400x1024.size a ≤ S4000x1024.size a
  inb_S4000x128_S400x128_2400_0 : ∀ a, (![2400, 0] : Fin 2 → Nat) a + S400x128.size a ≤ S4000x128.size a
  inb_S4000x1024_S400x1024_2400_0 : ∀ a, (![2400, 0] : Fin 2 → Nat) a + S400x1024.size a ≤ S4000x1024.size a
  inb_S4000x128_S400x128_2800_0 : ∀ a, (![2800, 0] : Fin 2 → Nat) a + S400x128.size a ≤ S4000x128.size a
  inb_S4000x1024_S400x1024_2800_0 : ∀ a, (![2800, 0] : Fin 2 → Nat) a + S400x1024.size a ≤ S4000x1024.size a
  inb_S4000x128_S400x128_3200_0 : ∀ a, (![3200, 0] : Fin 2 → Nat) a + S400x128.size a ≤ S4000x128.size a
  inb_S4000x1024_S400x1024_3200_0 : ∀ a, (![3200, 0] : Fin 2 → Nat) a + S400x1024.size a ≤ S4000x1024.size a
  inb_S4000x128_S400x128_3600_0 : ∀ a, (![3600, 0] : Fin 2 → Nat) a + S400x128.size a ≤ S4000x128.size a
  inb_S4000x1024_S400x1024_3600_0 : ∀ a, (![3600, 0] : Fin 2 → Nat) a + S400x1024.size a ≤ S4000x1024.size a
  shapeCasts_S1024x128_S1024x128 : S1024x128.ShapeCasts S1024x128
  shapeCasts_S1024x128_S1x1024x128 : S1024x128.ShapeCasts S1x1024x128
  reduces_S1x1024x128_S1 : S1x1024x128.Reduces [1, 2] S1
  shapeCasts_S1_S1x1x1 : S1.ShapeCasts S1x1x1
  inpos_S1x1x1_p0_0_0 : ∀ a, (![0, 0, 0] : Fin 3 → Nat) a < S1x1x1.size a
  shapeCasts_S1x1024_S1x1x1024 : S1x1024.ShapeCasts S1x1x1024
  reduces_S1x1x1024_S1 : S1x1x1024.Reduces [1, 2] S1
  inb_S1x1_S1x1_0_0 : ∀ a, (![0, 0] : Fin 2 → Nat) a + S1x1.size a ≤ S1x1.size a
  h_S1x1 : 0 < S1x1.numel
  shapeCasts_S1x1_S_ : S1x1.ShapeCasts S_
  transposes_S100000x1024_S1024x100000_1_0 : S100000x1024.Transposes [1, 0] S1024x100000
  dot_S400x128_S1024x128_S400x1024_1_1_0_0_n_n_wf : DotDims.WF S400x128 S1024x128 S400x1024 [1] [1] [0] [0] [] []
  hcc0_scratch2 : 0 + S_.numel ≤ 13
  hcc0_scoped0 : 1 + S_.numel ≤ 13
  hcc0_scoped1 : 2 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32.size a ≤ S1024.size a
  k0_off2_inb : ∀ i : grid0.Coords, ∀ a, (k0_off2 i) a + S32x128.size a ≤ S1024x128.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x128.size a
  hwx1_0 : ∀ i : grid1.Coords, EltTy.bits .f32 = 32 ∨ (Rect.block (s := S1024x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1024.size a ≤ S100000x1024.size a
  hwx1_2 : ∀ i : grid1.Coords, EltTy.bits .f32 = 32 ∨ (Rect.block (s := S100000x1024) S4000x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def dot_S400x128_S1024x128_S400x1024_1_1_0_0_n_n : DotDims S400x128 S1024x128 S400x1024 where
  lhsContracting := [1]
  rhsContracting := [1]
  lhsNonContracting := [0]
  rhsNonContracting := [0]
  lhsBatch := []
  rhsBatch := []
  wf := dot_S400x128_S1024x128_S400x1024_1_1_0_0_n_n_wf

abbrev win1_0 : Pipeline.Window sig grid1 :=
  Pipeline.Window.ofSpec (Memref.whole main_arg0) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S4000x1024.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.whole (Memref.whole main_arg0) false false (stage2_0 0) (sem2_0 0) (Memref.isWhole_whole _) (hstage2_0 0)

abbrev win2_1 : Pipeline.Window sig grid2 :=
  Pipeline.Window.whole (Memref.whole main_v0) false false (stage2_1 0) (sem2_1 0) (Memref.isWhole_whole _) (hstage2_1 0)

abbrev win2_2 : Pipeline.Window sig grid2 :=
  Pipeline.Window.whole (Memref.whole main_v1_1) false false (stage2_2 0) (sem2_2 0) (Memref.isWhole_whole _) (hstage2_2 0)

abbrev win2_3 : Pipeline.Window sig grid2 :=
  Pipeline.Window.whole (Memref.whole main_v2) true false (stage2_3 0) (sem2_3 0) (Memref.isWhole_whole _) (hstage2_3 0)

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1024x128 : Shape := ⟨2, ![1024, 128]⟩
abbrev S1024 : Shape := ⟨1, ![1024]⟩
abbrev S1024x2 : Shape := ⟨2, ![1024, 2]⟩
abbrev S100000 : Shape := ⟨1, ![100000]⟩
abbrev S100000x128 : Shape := ⟨2, ![100000, 128]⟩
abbrev S128x100000 : Shape := ⟨2, ![128, 100000]⟩
abbrev S1024x100000 : Shape := ⟨2, ![1024, 100000]⟩
abbrev S_ : Shape := ⟨0, ![]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S128x1024 : Shape := ⟨2, ![128, 1024]⟩
abbrev S1024x1024 : Shape := ⟨2, ![1024, 1024]⟩
abbrev S1x1024 : Shape := ⟨2, ![1, 1024]⟩

abbrev nBuf : Space → Nat
  | .hbm => 174
  | .vmem => 0
  | .smem => 0
  | _ => 0

abbrev hbmTy0_0 (i : Nat) : BufTy := match i % 128 with
  | 0 => ⟨S1024x128, .f32⟩
  | 1 => ⟨S1024, .i32⟩
  | 2 => ⟨S1024, .i32⟩
  | 3 => ⟨S1024x2, .i32⟩
  | 4 => ⟨S100000, .i32⟩
  | 5 => ⟨S100000x128, .f32⟩
  | 6 => ⟨S128x100000, .f32⟩
  | 7 => ⟨S1024x100000, .f32⟩
  | 8 => ⟨S_, .f32⟩
  | 9 => ⟨S1024x100000, .f32⟩
  | 10 => ⟨S1024x100000, .f32⟩
  | 11 => ⟨S_, .f32⟩
  | 12 => ⟨S1024, .f32⟩
  | 13 => ⟨S_, .f32⟩
  | 14 => ⟨S1024, .f32⟩
  | 15 => ⟨S1024, .f32⟩
  | 16 => ⟨S1024x1, .f32⟩
  | 17 => ⟨S1024x100000, .f32⟩
  | 18 => ⟨S1024x100000, .f32⟩
  | 19 => ⟨S1024x100000, .f32⟩
  | 20 => ⟨S_, .f32⟩
  | 21 => ⟨S1024, .f32⟩
  | 22 => ⟨S1024x1, .f32⟩
  | 23 => ⟨S1024x1, .f32⟩
  | 24 => ⟨S1024x100000, .f32⟩
  | 25 => ⟨S1024x100000, .f32⟩
  | 26 => ⟨S1024x1, .i32⟩
  | 27 => ⟨S_, .i32⟩
  | 28 => ⟨S1024x1, .i32⟩
  | 29 => ⟨S1024x1, .i1⟩
  | 30 => ⟨S_, .i32⟩
  | 31 => ⟨S1024x1, .i32⟩
  | 32 => ⟨S1024x1, .i32⟩
  | 33 => ⟨S1024x1, .i32⟩
  | 34 => ⟨S1024x1x1, .i32⟩
  | 35 => ⟨S1, .i32⟩
  | 36 => ⟨S_, .i32⟩
  | 37 => ⟨S1024x1x1, .i32⟩
  | 38 => ⟨S1024x1x1, .i1⟩
  | 39 => ⟨S1x1x1, .i32⟩
  | 40 => ⟨S1024x1x1, .i32⟩
  | 41 => ⟨S1024x1x1, .i1⟩
  | 42 => ⟨S1024x1x1, .i1⟩
  | 43 => ⟨S_, .i1⟩
  | 44 => ⟨S1024x1, .i1⟩
  | 45 => ⟨S1024x1, .f32⟩
  | 46 => ⟨S_, .f32⟩
  | 47 => ⟨S1024x1, .f32⟩
  | 48 => ⟨S1024x1, .f32⟩
  | 49 => ⟨S_, .f32⟩
  | 50 => ⟨S_, .f32⟩
  | 51 => ⟨S_, .f32⟩
  | 52 => ⟨S_, .f32⟩
  | 53 => ⟨S_, .f32⟩
  | 54 => ⟨S128x1024, .f32⟩
  | 55 => ⟨S1024x1024, .f32⟩
  | 56 => ⟨S1024x1, .i32⟩
  | 57 => ⟨S1x1024, .i32⟩
  | 58 => ⟨S1024x1024, .i32⟩
  | 59 => ⟨S1024x1024, .i32⟩
  | 60 => ⟨S1024x1024, .i1⟩
  | 61 => ⟨S1024x1024, .i1⟩
  | 62 => ⟨S_, .f32⟩
  | 63 => ⟨S_, .f32⟩
  | 64 => ⟨S1024x1024, .f32⟩
  | 65 => ⟨S1024x1024, .f32⟩
  | 66 => ⟨S_, .f32⟩
  | 67 => ⟨S1024, .f32⟩
  | 68 => ⟨S_, .i1⟩
  | 69 => ⟨S1024, .i1⟩
  | 70 => ⟨S_, .f32⟩
  | 71 => ⟨S_, .f32⟩
  | 72 => ⟨S1024, .f32⟩
  | 73 => ⟨S1024, .f32⟩
  | 74 => ⟨S_, .f32⟩
  | 75 => ⟨S1024, .f32⟩
  | 76 => ⟨S1024, .f32⟩
  | 77 => ⟨S_, .f32⟩
  | 78 => ⟨S_, .f32⟩
  | 79 => ⟨S1024x1024, .f32⟩
  | 80 => ⟨S1024x1024, .f32⟩
  | 81 => ⟨S_, .f32⟩
  | 82 => ⟨S1024, .f32⟩
  | 83 => ⟨S_, .i1⟩
  | 84 => ⟨S1024, .i1⟩
  | 85 => ⟨S_, .f32⟩
  | 86 => ⟨S_, .f32⟩
  | 87 => ⟨S1024, .f32⟩
  | 88 => ⟨S1024, .f32⟩
  | 89 => ⟨S_, .f32⟩
  | 90 => ⟨S1024, .f32⟩
  | 91 => ⟨S1024, .f32⟩
  | 92 => ⟨S1024x1, .f32⟩
  | 93 => ⟨S1024x1024, .f32⟩
  | 94 => ⟨S1024x1024, .i1⟩
  | 95 => ⟨S1024x1024, .i1⟩
  | 96 => ⟨S1024x1, .f32⟩
  | 97 => ⟨S1024x1024, .f32⟩
  | 98 => ⟨S1024x1024, .i1⟩
  | 99 => ⟨S1024x1024, .i1⟩
  | 100 => ⟨S_, .f32⟩
  | 101 => ⟨S1024x1024, .f32⟩
  | 102 => ⟨S1024x1024, .i1⟩
  | 103 => ⟨S1024x1024, .i1⟩
  | 104 => ⟨S1024x1024, .i32⟩
  | 105 => ⟨S_, .i32⟩
  | 106 => ⟨S_, .i32⟩
  | 107 => ⟨S1024x1024, .i32⟩
  | 108 => ⟨S_, .i32⟩
  | 109 => ⟨S_, .i32⟩
  | 110 => ⟨S_, .i32⟩
  | 111 => ⟨S_, .i1⟩
  | 112 => ⟨S1024x1024, .f32⟩
  | 113 => ⟨S_, .f32⟩
  | 114 => ⟨S1024x1024, .f32⟩
  | 115 => ⟨S1024x1024, .f32⟩
  | 116 => ⟨S1024x1024, .f32⟩
  | 117 => ⟨S1024x1024, .f32⟩
  | 118 => ⟨S1024x1024, .i1⟩
  | 119 => ⟨S1024x1024, .f32⟩
  | 120 => ⟨S1024x1024, .f32⟩
  | 121 => ⟨S1024x1024, .f32⟩
  | 122 => ⟨S1024x1024, .f32⟩
  | 123 => ⟨S1024x1024, .f32⟩
  | 124 => ⟨S1024x1024, .f32⟩
  | 125 => ⟨S1024x1024, .f32⟩
  | 126 => ⟨S1024x1024, .f32⟩
  | 127 => ⟨S1024x1024, .f32⟩
  | _ => ⟨S1024x128, .f32⟩

abbrev hbmTy0_1 (i : Nat) : BufTy := match i % 128 with
  | 0 => ⟨S1024x1024, .f32⟩
  | 1 => ⟨S_, .f32⟩
  | 2 => ⟨S_, .f32⟩
  | 3 => ⟨S_, .i32⟩
  | 4 => ⟨S_, .i32⟩
  | 5 => ⟨S_, .f32⟩
  | 6 => ⟨S_, .f32⟩
  | 7 => ⟨S_, .f32⟩
  | 8 => ⟨S_, .f32⟩
  | 9 => ⟨S_, .f32⟩
  | 10 => ⟨S_, .i32⟩
  | 11 => ⟨S_, .i1⟩
  | 12 => ⟨S_, .f32⟩
  | 13 => ⟨S1024x1024, .f32⟩
  | 14 => ⟨S1024x1024, .f32⟩
  | 15 => ⟨S1024x1024, .f32⟩
  | 16 => ⟨S1024x1024, .f32⟩
  | 17 => ⟨S1024x1024, .i1⟩
  | 18 => ⟨S1024x1024, .f32⟩
  | 19 => ⟨S1024x1024, .f32⟩
  | 20 => ⟨S1024x1024, .f32⟩
  | 21 => ⟨S1024x1024, .f32⟩
  | 22 => ⟨S1024x1024, .f32⟩
  | 23 => ⟨S1024x1024, .f32⟩
  | 24 => ⟨S1024x1024, .f32⟩
  | 25 => ⟨S1024x1024, .f32⟩
  | 26 => ⟨S1024x1024, .f32⟩
  | 27 => ⟨S1024x1024, .f32⟩
  | 28 => ⟨S_, .f32⟩
  | 29 => ⟨S_, .f32⟩
  | 30 => ⟨S_, .i32⟩
  | 31 => ⟨S_, .i32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S1024x100000, .f32⟩
  | 45 => ⟨S1024x100000, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v4 : Ref sig .tc := ⟨.hbm, 25, rfl⟩
abbrev main_v5 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v6 : Ref sig .tc := ⟨.hbm, 48, rfl⟩
abbrev main_cst_0 : Ref sig .tc := ⟨.hbm, 49, rfl⟩
abbrev main_v7 : Ref sig .tc := ⟨.hbm, 50, rfl⟩
abbrev main_cst_1 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst_2 : Ref sig .tc := ⟨.hbm, 62, rfl⟩
abbrev main_call2_v0 : Ref sig .tc := ⟨.hbm, 63, rfl⟩
abbrev main_call2_v1 : Ref sig .tc := ⟨.hbm, 64, rfl⟩
abbrev main_v18 : Ref sig .tc := ⟨.hbm, 65, rfl⟩
abbrev main_cst_3 : Ref sig .tc := ⟨.hbm, 66, rfl⟩
abbrev main_v19 : Ref sig .tc := ⟨.hbm, 67, rfl⟩
abbrev main_c : Ref sig .tc := ⟨.hbm, 68, rfl⟩
abbrev main_v20 : Ref sig .tc := ⟨.hbm, 69, rfl⟩
abbrev main_cst_4 : Ref sig .tc := ⟨.hbm, 70, rfl⟩
abbrev main_call3_v0 : Ref sig .tc := ⟨.hbm, 71, rfl⟩
abbrev main_call3_v1 : Ref sig .tc := ⟨.hbm, 72, rfl⟩
abbrev main_v21 : Ref sig .tc := ⟨.hbm, 73, rfl⟩
abbrev main_cst_5 : Ref sig .tc := ⟨.hbm, 74, rfl⟩
abbrev main_v22 : Ref sig .tc := ⟨.hbm, 75, rfl⟩
abbrev main_v23 : Ref sig .tc := ⟨.hbm, 76, rfl⟩
abbrev main_cst_6 : Ref sig .tc := ⟨.hbm, 77, rfl⟩
abbrev main_call4_v0 : Ref sig .tc := ⟨.hbm, 78, rfl⟩
abbrev main_call4_v1 : Ref sig .tc := ⟨.hbm, 79, rfl⟩
abbrev main_v24 : Ref sig .tc := ⟨.hbm, 80, rfl⟩
abbrev main_cst_7 : Ref sig .tc := ⟨.hbm, 81, rfl⟩
abbrev main_v25 : Ref sig .tc := ⟨.hbm, 82, rfl⟩
abbrev main_c_8 : Ref sig .tc := ⟨.hbm, 83, rfl⟩
abbrev main_v26 : Ref sig .tc := ⟨.hbm, 84, rfl⟩
abbrev main_cst_9 : Ref sig .tc := ⟨.hbm, 85, rfl⟩
abbrev main_call5_v0 : Ref sig .tc := ⟨.hbm, 86, rfl⟩
abbrev main_call5_v1 : Ref sig .tc := ⟨.hbm, 87, rfl⟩
abbrev main_v27 : Ref sig .tc := ⟨.hbm, 88, rfl⟩
abbrev main_cst_10 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_cst_11 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_c_12 : Ref sig .tc := ⟨.hbm, 105, rfl⟩
abbrev main_v42 : Ref sig .tc := ⟨.hbm, 106, rfl⟩
abbrev main_v43 : Ref sig .tc := ⟨.hbm, 107, rfl⟩
abbrev main_c_13 : Ref sig .tc := ⟨.hbm, 108, rfl⟩
abbrev main_v44 : Ref sig .tc := ⟨.hbm, 109, rfl⟩
abbrev main_c_14 : Ref sig .tc := ⟨.hbm, 110, rfl⟩
abbrev main_v45 : Ref sig .tc := ⟨.hbm, 111, rfl⟩
abbrev main_v46 : Ref sig .tc := ⟨.hbm, 112, rfl⟩
abbrev main_call6_cst : Ref sig .tc := ⟨.hbm, 113, rfl⟩
abbrev main_call6_v0 : Ref sig .tc := ⟨.hbm, 114, rfl⟩
abbrev main_call6_v1 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_call6_v5 : Ref sig .tc := ⟨.hbm, 119, rfl⟩
abbrev main_call6_v6 : Ref sig .tc := ⟨.hbm, 120, rfl⟩
abbrev main_call6_v7 : Ref sig .tc := ⟨.hbm, 121, rfl⟩
abbrev main_call6_v8 : Ref sig .tc := ⟨.hbm, 122, rfl⟩
abbrev main_call6_v9 : Ref sig .tc := ⟨.hbm, 123, rfl⟩
abbrev main_call6_v10 : Ref sig .tc := ⟨.hbm, 124, rfl⟩
abbrev main_call6_v11 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_cst_15 : Ref sig .tc := ⟨.hbm, 129, rfl⟩
abbrev main_v50 : Ref sig .tc := ⟨.hbm, 130, rfl⟩
abbrev main_c_16 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_cst_17 : Ref sig .tc := ⟨.hbm, 135, rfl⟩
abbrev main_call7_v0 : Ref sig .tc := ⟨.hbm, 136, rfl⟩
abbrev main_v54 : Ref sig .tc := ⟨.hbm, 137, rfl⟩
abbrev main_c_18 : Ref sig .tc := ⟨.hbm, 138, rfl⟩
abbrev main_v55 : Ref sig .tc := ⟨.hbm, 139, rfl⟩
abbrev main_call8_cst : Ref sig .tc := ⟨.hbm, 140, rfl⟩
abbrev main_call8_v0 : Ref sig .tc := ⟨.hbm, 141, rfl⟩
abbrev main_call8_v1 : Ref sig .tc := ⟨.hbm, 142, rfl⟩
abbrev main_call8_v2 : Ref sig .tc := ⟨.hbm, 143, rfl⟩
abbrev main_call8_v3 : Ref sig .tc := ⟨.hbm, 144, rfl⟩
abbrev main_call8_v4 : Ref sig .tc := ⟨.hbm, 145, rfl⟩
abbrev main_call8_v5 : Ref sig .tc := ⟨.hbm, 146, rfl⟩
abbrev main_call8_v6 : Ref sig .tc := ⟨.hbm, 147, rfl⟩
abbrev main_call8_v7 : Ref sig .tc := ⟨.hbm, 148, rfl⟩
abbrev main_call8_v8 : Ref sig .tc := ⟨.hbm, 149, rfl⟩
abbrev main_call8_v9 : Ref sig .tc := ⟨.hbm, 150, rfl⟩
abbrev main_call8_v10 : Ref sig .tc := ⟨.hbm, 151, rfl⟩
abbrev main_call8_v11 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_cst_19 : Ref sig .tc := ⟨.hbm, 156, rfl⟩
abbrev main_v59 : Ref sig .tc := ⟨.hbm, 157, rfl⟩
abbrev main_c_20 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_cst_21 : Ref sig .tc := ⟨.hbm, 162, rfl⟩
abbrev main_call9_v0 : Ref sig .tc := ⟨.hbm, 163, rfl⟩
abbrev main_v63 : Ref sig .tc := ⟨.hbm, 164, rfl⟩
abbrev main_v64 : Ref sig .tc := ⟨.hbm, 165, rfl⟩
abbrev main_cst_22 : Ref sig .tc := ⟨.hbm, 166, rfl⟩
abbrev main_v65 : Ref sig .tc := ⟨.hbm, 167, rfl⟩
abbrev main_cst_23 : Ref sig .tc := ⟨.hbm, 168, rfl⟩
abbrev main_v66 : Ref sig .tc := ⟨.hbm, 169, rfl⟩
abbrev main_v67 : Ref sig .tc := ⟨.hbm, 170, rfl⟩
abbrev main_cst_24 : Ref sig .tc := ⟨.hbm, 171, rfl⟩
abbrev main_v68 : Ref sig .tc := ⟨.hbm, 172, rfl⟩
abbrev main_v69 : Ref sig .tc := ⟨.hbm, 173, rfl⟩

abbrev nD : Nat := 1
abbrev τ : Topo := Topo.v7x

variable {F : FTy → Type} [FloatOps F]

class Facts₀ : Prop where
  transposes_S100000x128_S128x100000_1_0 : S100000x128.Transposes [1, 0] S128x100000
  bcast_S_S1024x100000 : S_.BroadcastsInDim S1024x100000 (![] : Fin 0 → Fin S1024x100000.rank)
  reducesTo_S1024x100000_S1024_d1 : S1024x100000.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  reducesTo_S1024x1_S_d0_1 : S1024x1.ReducesTo [0, 1] S_
  transposes_S1024x128_S128x1024_1_0 : S1024x128.Transposes [1, 0] S128x1024
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  reducesTo_S1024x1024_S1024_d1 : S1024x1024.ReducesTo [1] S1024
  natLt_1_32 : 1 < 32
  reducesTo_S1024x1024_S_d0_1 : S1024x1024.ReducesTo [0, 1] S_
  dot_S1024x128_S128x100000_S1024x100000_1_0_0_1_n_n_wf : DotDims.WF S1024x128 S128x100000 S1024x100000 [1] [0] [0] [1] [] []
  gather_S1024x100000_S1024x1x1_S1024x1_n_1_0_0_1_2_11_wf : GatherDims.WF S1024x100000 S1024x1x1 S1024x1 [] [1] [0] [1] [0] 2 ![1, 1]
  dot_S1024x128_S128x1024_S1024x1024_1_0_0_1_n_n_wf : DotDims.WF S1024x128 S128x1024 S1024x1024 [1] [0] [0] [1] [] []

variable [Facts₀]

def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf
def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

class Facts : Prop extends Facts₀ where

variable [Facts]
-- ==== Proof.ScBase.lean ====
/-
  The idealized kernel program as the SparseCore launch theorem sees it: its one SparseCore call's configuration,
  the body table of the kernels' functions, the variants, and the configuration's side facts. The arrays of the
  one call: the class numbers (main_arg1), the table of class rows (main_arg5) and the gathered rows (main_v0).
-/
import proofs.«207136_g6528350290482_cont_9to1c4b_434_22_alg».proof.KernelIdeal
import proofs.«207136_g6528350290482_cont_9to1c4b_434_22_alg».proof.Proof.Gen.KernelIdeal
import Idealize.ShloMosaic.Lib.SparseCore.Launch
import Idealize.ShloMosaic.Lib.SparseCore.Ops
import Idealize.ShloMosaic.Lib.SparseCore.Stream
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem

variable {F : FTy → Type}

/-- The label signature of the certificate's body table: the kernels' labels and the two pallas_calls' pipelines. -/
abbrev ΛP : Labels := Pipeline.Sig Λ₀ (Fin 2) fun p => (pcfgs (F := F) p).Adm
/-- The SparseCore configuration: one call, a vector-subcore kernel on 2 cores of 16 subcores. -/
abbrev K : SparseCore.Cfg τ sig (ΛP (F := F)) 1 := sc (F := F)
theorem nSub_zero : (K (F := F)).nSub 0 = 16 := rfl
theorem nCore_zero : (K (F := F)).nCore 0 = 2 := rfl
/-- The body table under the SparseCore launch: the kernels' functions and the pipelines' regions. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The TensorCore's names for the three arrays of the SparseCore call, and for the batch of feature rows. -/
abbrev xLoc (d : Dev nD) : Loc nD τ sig := (SparseCore.T d).loc main_arg0
abbrev tLoc (d : Dev nD) : Loc nD τ sig := (SparseCore.T d).loc main_arg1
abbrev vLoc (d : Dev nD) : Loc nD τ sig := (SparseCore.T d).loc main_arg5
abbrev oLoc (d : Dev nD) : Loc nD τ sig := (SparseCore.T d).loc main_v0

end Cert.Proof.KI

end
-- ==== Proof.Launch.lean ====
/-
  The launch of the idealized kernel program.

  The program's threads are @main on the TensorCore and the SparseCore call's sequencers and tiles. Its run is the
  SparseCore launch theorem at: the gather kernel's obligations (a tile's task; how a SparseCore's operands split into
  its tiles'), and @main's proof on the TensorCore. @main is the SparseCore call — its three arrays (the class numbers,
  the table, the gathered rows) split out of the unscoped buffers, handed over, and taken back with the gathered rows
  written — followed by the two pallas_calls and two host operations, which are run, in the certificate's own
  signature, as a list of segments: a kernel region per pallas_call, a host segment for the operations.

  The proof's user algebra has three components side by side: the rounds of the four handshake semaphores of the
  SparseCore call, the rounds of the two pallas_calls' staging cells, and the counters of the SparseCore tiles' own
  transfers. The launch element funds the first with the handshake cells' initial rounds, the second with the staging
  cells' (dealt per core and per pipeline), the third with nothing.

  After the one SparseCore call the TensorCore owes no handshake unit; the segments borrow its record of what it owes
  (nothing) and hand it back, the waits recorded meanwhile (the pipelines' own, on their staging cells) all at the
  lowest level, within the bound the handshake state keeps.
-/
import proofs.«207136_g6528350290482_cont_9to1c4b_434_22_alg».proof.Proof.ScBase
import proofs.«207136_g6528350290482_cont_9to1c4b_434_22_alg».proof.Proof.Gen.KernelIdeal.Launch
import proofs.«207136_g6528350290482_cont_9to1c4b_434_22_alg».proof.Proof.Gen.KernelIdeal.Points
import Idealize.ShloMosaic.Lib.Pipeline.Regions
import Idealize.ShloMosaic.Lib.Pipeline.Kit
import Idealize.ShloMosaic.Lib.Pipeline.Frame
import Idealize.ShloMosaic.Lib.Pipeline.RegionsLoop
import Idealize.ShloMosaic.Lib.StableHlo.Run

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The handshakes' rounds. -/
abbrev UH : Type := URounds (GSem nD τ sig) ℕ
/-- The whole user algebra: handshakes, staging cells, transfer counters. -/
abbrev UU : Type := UH × (UR sig nD τ × Counters)

local notation "𝕄" => MT nD τ sig (HIx 1) (Elt F) ℕ UU ℕ

abbrev EH : Emb UH (MT nD τ sig (HIx 1) (Elt F) ℕ UU ℕ) := embL
/-- The staging cells' component: the left of the right. -/
abbrev EP : Emb (UR sig nD τ) (MT nD τ sig (HIx 1) (Elt F) ℕ UU ℕ) :=
  (Emb.inl : Emb (UR sig nD τ) (UR sig nD τ × Counters)).trans embR

instance EP_landsIn : (EP (F := F)).LandsIn (upEmb : UEmb _ (MT nD τ sig (HIx 1) (Elt F) ℕ UU ℕ)) := by
  unfold EP; infer_instance

variable [FloatOps F]

/-- No pipeline has a prefetched table. -/
abbrev adm : (p : Fin 2) → (pcfgs (F := F) p).Adm := fun p => (cfgs p).toPCfg_adm

/-- What the launch deals device `d`'s TensorCore for the two pallas_calls: each pipeline's staging cells' ghost
    state and duty tokens. -/
abbrev G (d : Dev nD) : sProp 𝕄 := Pipeline.ghostOn (pcfgs (F := F)) adm EP Finset.univ d

def u₀ : UU :=
  (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

/-- The launch element yields the handshake cells' rounds, each core's staging-cell ghost state, and (the kernels'
    proofs consuming nothing at their calls) nothing else. -/
theorem hu₀ (P : (K (F := F)).Pay (nD := nD) (Val := Elt F) (Name := ℕ) (U := UU)) (hPx : ∀ q thr, P.x q thr = iprop(emp)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => P.x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)) : UR sig nD τ × Counters)) $$ Hu
  icases H with ⟨HH, HR⟩
  ihave HR' := (own_pair_emb (embR : Emb (UR sig nD τ × Counters) 𝕄) (initOf (Pipeline.cells cfgs cellOf_inj) (Pipeline.launchToks cfgs cellOf_inj)) (1 : Counters)) $$ HR
  icases HR' with ⟨HP, -⟩
  imod (Pipeline.fund_ghost (cfgs) (EP (F := F)) cellOf_inj) $$ HP with ⟨Hg, Ht⟩
  imodintro
  isplitl [HH]; · iexact HH
  isplitl [Hg Ht]
  · rw [show (bigSep Finset.univ fun d : Dev nD => G (F := F) d)
        = iprop((bigSep Finset.univ fun c : Dev nD => bigSep Finset.univ fun p => Pipeline.cellsGhost cfgs (EP (F := F)) p c)
          ∗ (bigSep Finset.univ fun c : Dev nD => bigSep Finset.univ fun p => (Pipeline.toksInit cfgs (EP (F := F)) p c : sProp 𝕄))) from by
      rw [← bigSep_sep']; exact bigSep_congr fun c _ => by unfold G Pipeline.ghostOn Pipeline.PerCore.ghostOn; rw [bigSep_sep']]
    isplitl [Hg] <;> iassumption
  · rw [show (bigSep Finset.univ fun thr : Thread nD τ => bigSep Finset.univ fun q : Fin 1 => P.x q thr) = bigSep Finset.univ fun _ => iprop(emp) from
      bigSep_congr fun thr _ => (bigSep_congr fun q _ => hPx q thr).trans (bigSep_emp' _), bigSep_emp']
    iempintro

/-! ## @main after the SparseCore call -/

/-- The two host operations after the pallas_calls: the scalar result out of the 1x1 array, the similarity matrix
    transposed. -/
def tailOps : List (HloOp τ sig (Elt F)) :=
  [StableHlo.reshape main_v2 main_v3 rfl shapeCasts_S1x1_S_,
   StableHlo.unary main_v1_0 main_v4 ((transpose S1024x100000 [1, 0] · transposes_S100000x1024_S1024x100000_1_0) : (⟨S100000x1024, .f32⟩ : BufTy).Contents (Elt F) → (⟨S1024x100000, .f32⟩ : BufTy).Contents (Elt F))]

/-- @main after the SparseCore call, in the certificate's own signature: the two regions, then the host operations. -/
def tail : Prog (TpuEff nD τ sig (Elt F) (ΛP (F := F)) .tc) PUnit :=
  .op (.customCall (Pipeline.entry 0) ()) fun _ => .op (.customCall (Pipeline.entry 1) ()) fun _ => (StableHlo.seq (tailOps (F := F)) >>= fun _ => .ret ⟨⟩)

/-- @main is the SparseCore call followed by that, lifted. -/
theorem main_eq_tail (d : Dev nD) : main (F := F) d = (K (F := F)).run d 0 >>= fun _ => SparseCore.liftProg (tail (F := F)) := rfl

/-! ## @main on the TensorCore -/

variable (m : (ℓ : Loc nD τ sig) → Buf (Elt F) ℓ) (ρ : Dev nD → PrngReg)

/-- The bound the TensorCore's recorded waits keep after the one SparseCore call: every recorded pair at level at most 8. -/
def Rec (d : Dev nD) : Set (SemLoc sig × HIx 1) := {p | (K (F := F)).lev ((T d : Thread nD τ), p.1) p.2 ≤ 8}

/-- What rides beside the buffers through the two pallas_calls and the host operations: the generator register at some
    state, and the core owing nothing with its recorded waits within the bound. -/
abbrev Rr (d : Dev nD) : sProp 𝕄 :=
  iprop((∃ r, prngReg d r) ∗ Pipeline.owesWithin d (0 : CellTallies nD τ sig (HIx 1)) (Rec (F := F) d))

/-- The device's buffers at launch. -/
abbrev W0 (d : Dev nD) : Valuation τ sig (Elt F) := fun b => m (d, b)

theorem Otc_one (d : Dev nD) : (K (F := F)).Otc d 1 = 0 := (K (F := F)).Otc_end d le_rfl

/-- The three arrays of the SparseCore call among the TensorCore's unscoped buffers. -/
abbrev tArr (d : Dev nD) : sProp 𝕄 := tLoc d ↦{fullShare} m (tLoc d)
abbrev vArr (d : Dev nD) : sProp 𝕄 := vLoc d ↦{fullShare} m (vLoc d)
abbrev oArr (d : Dev nD) (f : Buf (Elt F) (oLoc d)) : sProp 𝕄 := oLoc d ↦{fullShare} f

/-- The device's buffers after the SparseCore call: `main_v0` at the gathered rows, every other buffer as launched. -/
def W1 (gath : (d : Dev nD) → Buf (Elt F) (oLoc d)) (d : Dev nD) : Valuation τ sig (Elt F) :=
  Function.update (W0 m d) (Proc.devRef .tc main_v0) (gath d)

/-- What the TensorCores' final assertions hold: every unscoped buffer at the last boundary's contents. -/
abbrev FIN (Wn : Dev nD → Valuation τ sig (Elt F)) (d : Dev nD) : sProp 𝕄 :=
  StableHlo.held (d.tc : Thread nD τ) (Pipeline.ucRefs τ sig) (Wn d)

/-- The three arrays of the SparseCore call, as device buffers. -/
abbrev T3 : Finset (DevRef τ sig) := {Proc.devRef .tc main_arg1, Proc.devRef .tc main_arg5, Proc.devRef .tc main_v0}
theorem T3_sub : (T3 : Finset (DevRef τ sig)) ⊆ Pipeline.ucRefs τ sig := by decide

theorem held_T3 (d : Dev nD) (Vv : Valuation τ sig (Elt F)) :
    (StableHlo.held (d.tc : Thread nD τ) T3 Vv : sProp 𝕄)
      = iprop((tLoc d ↦{fullShare} Vv (Proc.devRef .tc main_arg1)) ∗ (vLoc d ↦{fullShare} Vv (Proc.devRef .tc main_arg5))
          ∗ (oLoc d ↦{fullShare} Vv (Proc.devRef .tc main_v0))) := by
  unfold StableHlo.held T3
  rw [SparseCore.bigSep_insert' (by decide), SparseCore.bigSep_insert' (by decide), bigSep_singleton]

/-- After the call: the three arrays, `main_v0` at the gathered rows, and the other unscoped buffers as launched are
    every unscoped buffer at the contents after the call. -/
theorem held_W1 (gath : (d : Dev nD) → Buf (Elt F) (oLoc d)) (d : Dev nD) :
    iprop(tArr m d ∗ vArr m d ∗ oArr d (gath d) ∗ StableHlo.held (d.tc : Thread nD τ) (Pipeline.ucRefs τ sig \ T3) (W0 m d))
      ⊢ (StableHlo.held (d.tc : Thread nD τ) (Pipeline.ucRefs τ sig) (W1 m gath d) : sProp 𝕄) := by
  rw [StableHlo.held_sub_split (c := (d.tc : Thread nD τ)) T3_sub (W1 m gath d), held_T3]
  have h1 : W1 m gath d (Proc.devRef .tc main_arg1) = m (tLoc d) := Function.update_of_ne (by decide) _ _
  have h5 : W1 m gath d (Proc.devRef .tc main_arg5) = m (vLoc d) := Function.update_of_ne (by decide) _ _
  have h0 : W1 m gath d (Proc.devRef .tc main_v0) = gath d := Function.update_self _ _ _
  rw [h1, h5, h0]
  have hrest : (StableHlo.held (d.tc : Thread nD τ) (Pipeline.ucRefs τ sig \ T3) (W1 m gath d) : sProp 𝕄)
      = StableHlo.held (d.tc : Thread nD τ) (Pipeline.ucRefs τ sig \ T3) (W0 m d) := by
    unfold StableHlo.held
    refine bigSep_congr fun b hb => ?_
    have hne : b ≠ Proc.devRef .tc main_v0 := fun e => by
      subst e; exact (Finset.mem_sdiff.mp hb).2 (by decide)
    rw [show W1 m gath d b = W0 m d b from Function.update_of_ne hne _ _]
  rw [hrest]
  iintro ⟨Ht, Hv, Ho, Hr⟩
  isplitl [Ht Hv Ho]
  · isplitl [Ht]; · iexact Ht
    isplitl [Hv]; · iexact Hv
    iexact Ho
  iexact Hr

/-- The TensorCore's handshake state after the one call, its `owes` apart: it owes nothing. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) :
    ((K (F := F)).tcSt EH d 1 : sProp 𝕄)
      = iprop((∃ W, ⌜(K (F := F)).WBelow (SparseCore.T d) W (8 * 1)⌝ ∗ owes (SparseCore.T d) (0 : CellTallies nD τ sig (HIx 1)) W) ∗ tcRest (F := F) d) := by
  unfold SparseCore.Cfg.tcSt tcRest
  rw [Otc_one]

set_option backward.isDefEq.respectTransparency.types false in
/-- @main on device `d`'s TensorCore, given the SparseCore call's split and join of its three arrays and the rest of
    @main as segments that chain from the buffers after the call to the last boundary's: the call by the launch's rule,
    the segments one after the other by the library's rule for a list of segments, inside the lifted signature, the core's `owes` lent to them and taken back within
    the bound its handshake state keeps. -/
theorem hmain_of_segs
    (P : (K (F := F)).Pay (nD := nD) (Val := Elt F) (Name := ℕ) (U := UU))
    (gath : (d : Dev nD) → Buf (Elt F) (oLoc d))
    (hst : ∀ d, iprop(tArr m d ∗ vArr m d ∗ oArr d (m (oLoc d))) ⊢ bigSep Finset.univ fun c : Fin ((K (F := F)).nCore 0) => P.st 0 d c)
    (hdn : ∀ d, (bigSep Finset.univ fun c : Fin ((K (F := F)).nCore 0) => P.dn 0 d c) ⊢ iprop(tArr m d ∗ vArr m d ∗ oArr d (gath d)))
    (pdats : (p : Fin 2) → (c : Dev nD) → Pipeline.Dat τ (Elt F) (HIx 1) ℕ UU ℕ (Pipeline.pin (pcfgs (F := F)) adm p) c)
    (segs : List (Pipeline.Seg (pcfgs (F := F)) adm pdats (none : HIx 1) defs₀ 𝒱₀ (K (F := F)).L (K (F := F)).lev))
    (hnd : (Pipeline.Seg.pipes segs).Nodup)
    (Wn : Dev nD → Valuation τ sig (Elt F))
    (hch : Pipeline.Seg.Chains (fun d => iprop(StableHlo.held (d.tc : Thread nD τ) (Pipeline.ucRefs τ sig) (W1 m gath d) ∗ Rr (F := F) d)) segs
      (fun d => iprop(StableHlo.held (d.tc : Thread nD τ) (Pipeline.ucRefs τ sig) (Wn d) ∗ Rr (F := F) d)))
    (hmainEq : ∀ d, main (F := F) d = (K (F := F)).run d 0 >>= fun _ => SparseCore.liftProg (Pipeline.Seg.run segs))
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN Wn d) := by
  unfold SparseCore.Cfg.tcRes
  rw [hmainEq d]
  simp only [wp_bind]
  iintro ⟨#Hctx, Hst, ⟨Hb, Hub, Hsems, Hprng⟩, HG⟩
  -- the unscoped buffers: the call's three arrays and the rest
  ihave Hub' := (Entails.of_eq (show (unscopedBufs d (fun b => m ((SparseCore.T d).loc b)) : sProp 𝕄)
      = StableHlo.held (d.tc : Thread nD τ) (Pipeline.ucRefs τ sig) (W0 m d) from Pipeline.unscopedBufs_held d (W0 m d))) $$ Hub
  ihave Hsp := (Entails.of_eq (StableHlo.held_sub_split (c := (d.tc : Thread nD τ)) T3_sub (W0 m d))) $$ Hub'
  icases Hsp with ⟨H3, Hrest⟩
  ihave H3' := (Entails.of_eq (held_T3 (F := F) d (W0 m d))) $$ H3
  icases H3' with ⟨Ht, Hv, Ho⟩
  iapply ((K (F := F)).wp_run (D (F := F)) 𝒱 (EH := EH) (P := P) κ d 0) $$ [Hst Ht Hv Ho Hb Hrest Hsems Hprng HG]
  isplitr; · iexact Hctx
  isplitl [Hst]; · iexact Hst
  isplitl [Ht Hv Ho]
  · iapply (hst d)
    isplitl [Ht]; · iexact Ht
    isplitl [Hv]; · iexact Hv
    iexact Ho
  iintro ⟨Hst, Hdn⟩
  ihave Hdn' := (hdn d) $$ Hdn
  icases Hdn' with ⟨Ht, Hv, Ho⟩
  ihave Hh := (held_W1 m gath d) $$ [Ht Hv Ho Hrest]
  · isplitl [Ht]; · iexact Ht
    isplitl [Hv]; · iexact Hv
    isplitl [Ho]; · iexact Ho
    iexact Hrest
  ihave Hst' := (Entails.of_eq (show ((K (F := F)).tcSt EH d ((0 : Fin 1).val + 1) : sProp 𝕄) = _ from tcSt_one (F := F) d)) $$ Hst
  icases Hst' with ⟨⟨%W, %hW, HO⟩, Hpos⟩
  -- the rest of @main, in the certificate's own signature, as segments
  iapply ((K (F := F)).wp_liftProg (D (F := F)) 𝒱 (SparseCore.T d) Set.univ none _ _)
  iapply (Pipeline.wp_segs (pcfgs (F := F)) adm pdats (none : HIx 1) cellOf_inj (EP (F := F)) defs₀ 𝒱₀ (K (F := F)).L (K (F := F)).lev d segs Finset.univ _ _
      hnd (fun _ _ => Finset.mem_univ _) hch) $$ [Hb Hh Hprng HO HG Hpos Hsems]
  isplitl [Hpos Hsems]
  · iintro ⟨-, Hh, -, %W', %hW', HO⟩
    isplitl [Hpos HO]
    · iapply (Entails.of_eq (tcSt_one (F := F) d).symm)
      isplitl [HO]
      · iexists W'; isplitr
        · ipureintro; intro p hp; exact hW' (Finset.mem_coe.mpr hp)
        iexact HO
      iexact Hpos
    iexact Hh
  isplitl [Hb]; · iexact Hb
  isplitl [Hh Hprng HO]
  · isplitl [Hh]; · iexact Hh
    isplitl [Hprng]; · iexists _; iexact Hprng
    iexists W; isplitr
    · ipureintro; intro p hp; have := hW p hp; simpa [Rec] using this
    iexact HO
  isplitr; · iapply (SparseCore.Cfg.ctx_levAts κ); iexact Hctx
  iexact HG

/-! ## The program's run -/

/-- What is read off a final state on device `d`: every unscoped buffer at the last boundary's contents. -/
def fq (Wn : Dev nD → Valuation τ sig (Elt F)) (d : Dev nD) (s' : Phys nD τ sig (Elt F)) : Prop :=
  ∀ b ∈ Pipeline.ucRefs τ sig, s'.mem.mem ((d, b) : Loc nD τ sig) = Wn d b

theorem hfin (Wn : Dev nD → Valuation τ sig (Elt F)) (d : Dev nD) (s' : Phys nD τ sig (Elt F)) :
    iprop(FIN Wn d ∗ SI s') ⊢ (⌜fq Wn d s'⌝ : sProp 𝕄) := by
  unfold FIN fq
  unfold StableHlo.held
  iintro ⟨Hh, HSI⟩
  ihave H := (pointsTo_read_all (Pipeline.ucRefs τ sig) (fun b => ((d, b) : Loc nD τ sig)) (Wn d) s') $$ [Hh HSI]
  · isplitl [Hh] <;> iassumption
  icases H with ⟨%h, -⟩
  ipureintro; exact h

/-- The idealized kernel program's run, given the SparseCore kernel's obligations and the rest of @main as segments:
    every weakly fair execution of all the threads terminates, nothing faulting, and every final state has every
    unscoped buffer of every device at the last boundary's contents. -/
theorem run_of_segs [∀ e, Nonempty (Elt F e)]
    (P : (K (F := F)).Pay (nD := nD) (Val := Elt F) (Name := ℕ) (U := UU)) [P.IsStorable]
    (hPx : ∀ q thr, P.x q thr = iprop(emp)) (hheld : P.held = ∅)
    (htile : (K (F := F)).TileObl (D (F := F)) 𝒱 P v₀ 0) (hvec : (K (F := F)).VecSplit' P 0)
    (gath : (d : Dev nD) → Buf (Elt F) (oLoc d))
    (hst : ∀ d, iprop(tArr m d ∗ vArr m d ∗ oArr d (m (oLoc d))) ⊢ bigSep Finset.univ fun c : Fin ((K (F := F)).nCore 0) => P.st 0 d c)
    (hdn : ∀ d, (bigSep Finset.univ fun c : Fin ((K (F := F)).nCore 0) => P.dn 0 d c) ⊢ iprop(tArr m d ∗ vArr m d ∗ oArr d (gath d)))
    (pdats : (p : Fin 2) → (c : Dev nD) → Pipeline.Dat τ (Elt F) (HIx 1) ℕ UU ℕ (Pipeline.pin (pcfgs (F := F)) adm p) c)
    (segs : List (Pipeline.Seg (pcfgs (F := F)) adm pdats (none : HIx 1) defs₀ 𝒱₀ (K (F := F)).L (K (F := F)).lev))
    (hnd : (Pipeline.Seg.pipes segs).Nodup)
    (Wn : Dev nD → Valuation τ sig (Elt F))
    (hch : Pipeline.Seg.Chains (fun d => iprop(StableHlo.held (d.tc : Thread nD τ) (Pipeline.ucRefs τ sig) (W1 m gath d) ∗ Rr (F := F) d)) segs
      (fun d => iprop(StableHlo.held (d.tc : Thread nD τ) (Pipeline.ucRefs τ sig) (Wn d) ∗ Rr (F := F) d)))
    (hmainEq : ∀ d, main (F := F) d = (K (F := F)).run d 0 >>= fun _ => SparseCore.liftProg (Pipeline.Seg.run segs))
    (Q' : PUnit × MemSt nD τ sig (Elt F) → Prop) (hQ : ∀ s' : Phys nD τ sig (Elt F), (∀ d, fq Wn d s') → Q' (⟨⟩, s'.mem)) :
    θ_run (Cert.KernelIdeal.defs (F := F)) (Cert.KernelIdeal.threads (F := F)) ⟨m, fun _ => 0, ρ⟩ Q' :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => SparseCore.Cfg.VecSplit.of_plain hvec)
    m ρ main (G (F := F)) (FIN Wn) (u₀ (F := F)) (sep_elim_left.trans (hu₀ P hPx))
    (hmain_of_segs m ρ P gath hst hdn pdats segs hnd Wn hch hmainEq) (fq Wn) (hfin Wn) Q' hQ hheld

end Cert.Proof.KI

end
-- ==== Proof.Tc2Base.lean ====
/-
  What the two TensorCore calls' proofs share: the resource algebra they are stated in (the one the whole
  program is run under, its tallies indexed by the SparseCore handshakes' index type) and the plain region
  invariant at that algebra — the TensorCore's scoped buffers that are no staging buffer of the call, each at
  some contents, and the core's generator register at some state: what a body may use and need not describe.
-/
import proofs.«207136_g6528350290482_cont_9to1c4b_434_22_alg».proof.Proof.Gen.KernelIdeal.Launch
import proofs.«207136_g6528350290482_cont_9to1c4b_434_22_alg».proof.Proof.Gen.KernelIdeal.Skeleton
import proofs.«207136_g6528350290482_cont_9to1c4b_434_22_alg».proof.Proof.Gen.KernelIdeal.Points
import Idealize.ShloMosaic.Lib.Pipeline.FrameBody
import Idealize.ShloMosaic.Lib.SparseCore.Cells
import Idealize.ShloMosaic.Lib.Ring
import Idealize.ShloMosaic.Lib.Tactic

noncomputable section

namespace Cert.Proof.KI

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] {UU : Type} [URA UU]

local notation "𝕄" => MT nD τ sig (HIx 1) (Elt F) ℕ UU ℕ

/-- The plain region invariant of a call with windows `win` on core `c`: the scoped buffers that are no
    staging buffer of the call at some contents each, and the generator register at some state. -/
def ΦS {gr : Nat} {W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

end Cert.Proof.KI

end
-- ==== Proof.Tc2.lean ====
/-
  The third call of the program, the loss combiner, as a pipeline of one point: what its body leaves, its proof
  data and its body obligation.

  The body reads three whole arrays — the batch of feature rows x [1024, 128], the gathered class rows g
  [1024, 128] and the row of log-sums l [1, 1024] — and stores one number, (Σ l − Σ x·g) / 1024, into the
  [1, 1] result. Nothing is carried from point to point (there is one point), no scratch is used: the region
  invariant is the plain one throughout, and the result's staging buffer after the body is the one store's
  payload of the three input blocks.
-/
import proofs.«207136_g6528350290482_cont_9to1c4b_434_22_alg».proof.Proof.Tc2Base

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

-- the TensorCore's buffer contents when the region is entered, per core: the parameter everything here is stated at
variable (V : (c : Dev nD) → (b : Ref sig .tc) → Buf (Elt F) ((c : Thread nD τ).loc b))
variable (Rec : Set (SemLoc sig × HIx 1))

/-! ## The windows' blocks -/

/-- Window `w`'s block at the point, read off its array as the region finds it (`V`): the whole array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block, for any proof data whose array is `V`'s and whose
    body leaves the block in place. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S1024x128 := Rect.unit (s := S1024x128) ![0, 0] S1024x128.size inb_S1024x128_S1024x128_0_0
abbrev r2_l : Rect S1x1024 := Rect.unit (s := S1x1024) ![0, 0] S1x1024.size inb_S1x1024_S1x1024_0_0
abbrev r2_o : Rect S1x1 := Rect.unit (s := S1x1) ![0, 0] S1x1.size inb_S1x1_S1x1_0_0

/-! ## What the body leaves in the result's buffer -/

/-- The result's staging buffer after the body, from the three input blocks: its one store. -/
def out2_3 (x0 : Vec F S1024x128 .f32) (x1 : Vec F S1024x128 .f32) (x2 : Vec F S1x1024 .f32) : Vec F S1x1 .f32 :=
  View.canon [⟨r2_o, k2_pay1 (View.ld x0 r2_x) (View.ld x1 r2_x) (View.ld x2 r2_l)⟩]

/-- The store fills the buffer. -/
theorem cover2_3 (p0 : Vec F S1x1 .f32) (y : S1x1.Idx) :
    ∃ pc ∈ ([⟨r2_o, p0⟩] : List (View.Piece (Elt F) S1x1 .f32)), y ∈ pc.1.set :=
  View.cover_of_tiled [⟨r2_o, p0⟩] S1x1.size (by rfl) y

/-! ## The body's triple -/

set_option maxHeartbeats 1000000 in
/-- The body on whole staging memrefs, the inputs' at read contents `x·` and the result's at anything, runs to the
    continuation holding the inputs' as they were and the result's at `out2_3` of them. -/
theorem sound_kernel2 (c : Dev nD) (E : Set ℕ) (arg0 : Memref sig .tc .vmem S1024x128 .f32) (harg0 : arg0.IsWhole) (arg1 : Memref sig .tc .vmem S1024x128 .f32) (harg1 : arg1.IsWhole)
    (arg2 : Memref sig .tc .vmem S1x1024 .f32) (harg2 : arg2.IsWhole) (arg3 : Memref sig .tc .vmem S1x1 .f32) (harg3 : arg3.IsWhole)
    (x0 : Vec F S1024x128 .f32) (x1 : Vec F S1024x128 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__loss_kernel arg0 harg0 arg1 harg1 arg2 harg2 arg3 harg3) K := by
  simp only [cc2__loss_kernel_eq_skeleton]; unfold cc2__loss_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the call on core `c`: the arrays as the region finds them (`V`); after the body each input's
    buffer at its block and the result's at `out2_3` of the input blocks; the plain invariant; nothing owed; full
    shares; the core's recorded waits within `Rec` throughout (the body waits on nothing). -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := ΦS spec2 c
  q _ := fullShare
  owed _ := 0
  recorded _ := Rec

/-- The proof data's arrays are the region-entry contents. -/
theorem A_eq2 (c : Dev nD) (w : Fin cfg2.W) : (dat2 (UU := UU) V Rec c).A w = V c (Pipeline.arrRef spec2 w) := by
  dsimp only [dat2]

/-- What the body leaves, window by window. -/
theorem after2_0 (c : Dev nD) (t : Fin cfg2.N) : (dat2 (UU := UU) V Rec c).after 0 t = iblk2 V c 0 t := by dsimp only [dat2]
theorem after2_1 (c : Dev nD) (t : Fin cfg2.N) : (dat2 (UU := UU) V Rec c).after 1 t = iblk2 V c 1 t := by dsimp only [dat2]
theorem after2_2 (c : Dev nD) (t : Fin cfg2.N) : (dat2 (UU := UU) V Rec c).after 2 t = iblk2 V c 2 t := by dsimp only [dat2]
theorem after2_3 (c : Dev nD) (t : Fin cfg2.N) :
    (dat2 (UU := UU) V Rec c).after 3 t = out2_3 (iblk2 V c 0 t) (iblk2 V c 1 t) (iblk2 V c 2 t) := by dsimp only [dat2]

/-- Each input's current staging buffer holds its block. -/
theorem before2_0 (c : Dev nD) (t : Fin cfg2.N) (d) : (dat2 (UU := UU) V Rec c).before 0 t d = iblk2 V c 0 t :=
  before2_0_of V (dat2 (UU := UU) V Rec c) (A_eq2 V Rec c 0) (after2_0 V Rec c) t d
theorem before2_1 (c : Dev nD) (t : Fin cfg2.N) (d) : (dat2 (UU := UU) V Rec c).before 1 t d = iblk2 V c 1 t :=
  before2_1_of V (dat2 (UU := UU) V Rec c) (A_eq2 V Rec c 1) (after2_1 V Rec c) t d
theorem before2_2 (c : Dev nD) (t : Fin cfg2.N) (d) : (dat2 (UU := UU) V Rec c).before 2 t d = iblk2 V c 2 t :=
  before2_2_of V (dat2 (UU := UU) V Rec c) (A_eq2 V Rec c 2) (after2_2 V Rec c) t d

/-! ## The body obligation -/

/-- What the body is called with at the point, the windows one by one, -/
def bodyPre2 (c : Dev nD) (t : Fin cfg2.N) : sProp 𝕄 :=
  iprop((dat2 (UU := UU) V Rec c).Φ t.castSucc ∗ (dat2 (UU := UU) V Rec c).owesAt (none : HIx 1) t.castSucc
    ∗ (∃ d, owns (c : Thread nD τ) (st2_0 t) fullShare ((dat2 (UU := UU) V Rec c).before 0 t d))
    ∗ (∃ d, owns (c : Thread nD τ) (st2_1 t) fullShare ((dat2 (UU := UU) V Rec c).before 1 t d))
    ∗ (∃ d, owns (c : Thread nD τ) (st2_2 t) fullShare ((dat2 (UU := UU) V Rec c).before 2 t d))
    ∗ (∃ d, owns (c : Thread nD τ) (st2_3 t) fullShare ((dat2 (UU := UU) V Rec c).before 3 t d)))

/-- and what it returns. -/
def bodyPost2 (c : Dev nD) (t : Fin cfg2.N) : sProp 𝕄 :=
  iprop((dat2 (UU := UU) V Rec c).Φ t.succ ∗ (dat2 (UU := UU) V Rec c).owesAt (none : HIx 1) t.succ
    ∗ owns (c : Thread nD τ) (st2_0 t) fullShare ((dat2 (UU := UU) V Rec c).after 0 t)
    ∗ owns (c : Thread nD τ) (st2_1 t) fullShare ((dat2 (UU := UU) V Rec c).after 1 t)
    ∗ owns (c : Thread nD τ) (st2_2 t) fullShare ((dat2 (UU := UU) V Rec c).after 2 t)
    ∗ owns (c : Thread nD τ) (st2_3 t) fullShare ((dat2 (UU := UU) V Rec c).after 3 t))

set_option maxHeartbeats 800000 in
/-- The body at the point: the inputs' memrefs hold their blocks, so `sound_kernel2` applies; the invariant and the
    core's owes pass through unread. -/
theorem sound_body2 (c : Dev nD) (t : Fin cfg2.N) :
    bodyPre2 (UU := UU) V Rec c t ⊢ wp frame (wpE (defs₀ (F := F)) Variants.none c none) Set.univ (bodyAt2 t) (fun _ => bodyPost2 (UU := UU) V Rec c t) := by
  unfold bodyPre2 bodyPost2 bodyAt2
  simp only [before2_0, before2_1, before2_2]
  rw [show (dat2 (UU := UU) V Rec c).Φ t.succ = (dat2 (UU := UU) V Rec c).Φ t.castSucc from rfl,
    show (dat2 (UU := UU) V Rec c).owesAt (none : HIx 1) t.succ = (dat2 (UU := UU) V Rec c).owesAt (none : HIx 1) t.castSucc from rfl,
    after2_0, after2_1, after2_2, after2_3]
  iintro ⟨HΦ, Ho, ⟨%d0, H0⟩, ⟨%d1, H1⟩, ⟨%d2, H2⟩, ⟨%d3, H3⟩⟩
  iapply (sound_kernel2 (UU := UU) c Set.univ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the point. -/
theorem body_obligation2 (c : Dev nD) :
    BodyObligation (dat2 (F := F) (UU := UU) V Rec c) (defs₀ (F := F)) Variants.none (none : HIx 1) Set.univ := fun t => by
  rw [bigSep_W2, bigSep_W2]
  exact sound_body2 (UU := UU) V Rec c t

end Cert.Proof.KI

end
-- ==== Proof.Tc2Seg.lean ====
/-
  How the loss combiner's region takes its invariant from what the launch hands it — the generator register and
  the scoped buffers that are no staging buffer of the call — and gives it back: the invariant is those two.
-/
import proofs.«207136_g6528350290482_cont_9to1c4b_434_22_alg».proof.Proof.Tc2

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

variable (V : (c : Dev nD) → (b : Ref sig .tc) → Buf (Elt F) ((c : Thread nD τ).loc b))
variable (Rec : Set (SemLoc sig × HIx 1))

theorem hin2 (c : Dev nD) :
    iprop((∃ r, prngReg c r) ∗ Pipeline.scopedRest (Ix := HIx 1) (Name := ℕ) (U := UU) (Lvl := ℕ) (Val := Elt F) spec2 c) ⊢ (dat2 (UU := UU) V Rec c).Φ 0 := by
  rw [show (dat2 (UU := UU) V Rec c).Φ 0 = ΦS spec2 c from rfl]; unfold ΦS
  iintro ⟨Hp, Hr⟩
  isplitl [Hr]; · iexact Hr
  iexact Hp

theorem hout2 (c : Dev nD) :
    (dat2 (UU := UU) V Rec c).Φ (Fin.last cfg2.N) ⊢ iprop((∃ r, prngReg c r) ∗ Pipeline.scopedRest (Ix := HIx 1) (Name := ℕ) (U := UU) (Lvl := ℕ) (Val := Elt F) spec2 c) := by
  rw [show (dat2 (UU := UU) V Rec c).Φ (Fin.last cfg2.N) = ΦS spec2 c from rfl]; unfold ΦS
  iintro ⟨Hr, Hp⟩
  isplitl [Hp]; · iexact Hp
  iexact Hr

end Cert.Proof.KI

end
-- ==== Proof.Assemble.lean ====
/-
  @main of the idealized kernel program as segments, and the program's run.

  After the SparseCore call the device's unscoped buffers hold the launch contents with `main_v0` at the gathered
  rows. The first pallas_call's region is entered from them and leaves its two result arrays at what its pipeline
  computes, every other buffer as it was; the second likewise with its one result; the two host operations then write
  the scalar result and the transposed similarity matrix. Each region's account is the same: its windows' arrays are
  split out of the unscoped buffers at entry and put back at the exit contents, the generator register goes into the
  body's invariant and comes back, the core owes nothing, and the waits the pipeline records on its own staging cells
  sit at the lowest level, inside the bound carried along.
-/
import proofs.«207136_g6528350290482_cont_9to1c4b_434_22_alg».proof.Proof.Launch
import proofs.«207136_g6528350290482_cont_9to1c4b_434_22_alg».proof.Proof.Tc2Seg
import Idealize.ShloMosaic.Lib.Pipeline.FrameSuffix
import Idealize.ShloMosaic.Lib.Pipeline.RegionsLoop

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (gath : (d : Dev nD) → Buf (Elt F) (oLoc d))

/-- The first pallas_call's proof data, as a function of the region-entry contents and the bound on recorded waits,
    with what the assembly needs of it. -/
structure Reg1Data where
  dat : (Vv : (c : Dev nD) → (b : Ref sig .tc) → Buf (Elt F) ((c : Thread nD τ).loc b)) → (Rc : Set (SemLoc sig × HIx 1)) → (c : Dev nD) →
    Dat τ (Elt F) (HIx 1) ℕ UU ℕ cfg1 c
  hA : ∀ Vv Rc c (w : Fin cfg1.W), (dat Vv Rc c).A w = Vv c (Pipeline.arrRef spec1 w)
  hq : ∀ Vv Rc c (w : Fin cfg1.W), (dat Vv Rc c).q w = fullShare
  howed : ∀ Vv Rc c t, (dat Vv Rc c).owed t = 0
  hrec : ∀ Vv Rc c t, (dat Vv Rc c).recorded t = Rc
  hin : ∀ Vv Rc c, iprop((∃ r, prngReg c r) ∗ Pipeline.scopedRest (Ix := HIx 1) (Name := ℕ) (U := UU) (Lvl := ℕ) (Val := Elt F) spec1 c) ⊢ (dat Vv Rc c).Φ 0
  hout : ∀ Vv Rc c, (dat Vv Rc c).Φ (Fin.last cfg1.N) ⊢ iprop((∃ r, prngReg c r) ∗ Pipeline.scopedRest (Ix := HIx 1) (Name := ℕ) (U := UU) (Lvl := ℕ) (Val := Elt F) spec1 c)
  hbody : ∀ Vv Rc c, Pipeline.BodyObligation (dat Vv Rc c) (defs₀ (F := F)) Variants.none (none : HIx 1) Set.univ

variable (R1 : Reg1Data (F := F))

/-! ## The buffer contents at each segment boundary -/

/-- The contents after the SparseCore call, read at the TensorCore's references. -/
abbrev V1 : (c : Dev nD) → (b : Ref sig .tc) → Buf (Elt F) ((c : Thread nD τ).loc b) := fun c b => W1 m gath c b
/-- At the first region's exit: its arrays at what the pipeline leaves, every other buffer as entered. -/
def W2 (c : Dev nD) : Valuation τ sig (Elt F) :=
  Pipeline.withArrays spec1 c (W1 m gath c) fun w => (R1.dat (V1 m gath) (Rec (F := F) c) c).arrAt w cfg1.N
abbrev V2 : (c : Dev nD) → (b : Ref sig .tc) → Buf (Elt F) ((c : Thread nD τ).loc b) := fun c b => W2 m gath R1 c b
/-- At the second region's exit. -/
def W3 (c : Dev nD) : Valuation τ sig (Elt F) :=
  Pipeline.withArrays spec2 c (W2 m gath R1 c) fun w => (dat2 (UU := UU) (V2 m gath R1) (Rec (F := F) c) c).arrAt w cfg2.N
/-- After the two host operations. -/
abbrev W4 (c : Dev nD) : Valuation τ sig (Elt F) := StableHlo.after (tailOps (F := F)) (W3 m gath R1 c)

theorem W2_arr (c : Dev nD) (w : Fin cfg1.W) :
    W2 m gath R1 c (Proc.devRef .tc (Pipeline.arrRef spec1 w)) = (R1.dat (V1 m gath) (Rec (F := F) c) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m gath R1 c (Proc.devRef .tc b) = W1 m gath c (Proc.devRef .tc b) := by
  unfold W2; exact Pipeline.withArrays_of_ne spec1 c _ _ b hb
theorem W3_arr (c : Dev nD) (w : Fin cfg2.W) :
    W3 m gath R1 c (Proc.devRef .tc (Pipeline.arrRef spec2 w)) = (dat2 (UU := UU) (V2 m gath R1) (Rec (F := F) c) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m gath R1 c (Proc.devRef .tc b) = W2 m gath R1 c (Proc.devRef .tc b) := by
  unfold W3; exact Pipeline.withArrays_of_ne spec2 c _ _ b hb

/-! ## The proof data family -/

/-- Both pipelines' proof data, each at its region's entry contents: a literal match on the pipeline. -/
def pdats : (p : Fin 2) → (c : Dev nD) → Dat τ (Elt F) (HIx 1) ℕ UU ℕ (Pipeline.pin (pcfgs (F := F)) adm p) c
  | ⟨0, _⟩ => fun c => R1.dat (V1 m gath) (Rec (F := F) c) c
  | ⟨1, _⟩ => fun c => dat2 (UU := UU) (V2 m gath R1) (Rec (F := F) c) c

/-- The pipelines' own waits, on their staging cells at the lowest index, lie inside the bound. -/
theorem waitPairs_sub (cfg : Pipeline.Cfg sig Λ₀) (c : Dev nD) : cfg.waitPairs (none : HIx 1) ⊆ Rec (F := F) c := by
  rintro p ⟨w, s, rfl⟩
  show (K (F := F)).lev _ none ≤ 8
  rw [SparseCore.Cfg.lev_none]; exact Nat.zero_le _

/-! ## What the core owes, lent to a region and taken back -/

theorem owes_in1 (c : Dev nD) :
    Pipeline.owesWithin c (0 : CellTallies nD τ sig (HIx 1)) (Rec (F := F) c) ⊢ ((pdats m gath R1 0 c).owesAt (none : HIx 1) 0 : sProp 𝕄) := by
  show _ ⊢ Pipeline.owesWithin c ((R1.dat (V1 m gath) (Rec (F := F) c) c).owed 0) ((R1.dat (V1 m gath) (Rec (F := F) c) c).bound none 0)
  rw [R1.howed]; unfold Pipeline.Dat.bound; rw [R1.hrec]
  exact Pipeline.owesWithin_mono c 0 Set.subset_union_left
theorem owes_out1 (c : Dev nD) :
    ((pdats m gath R1 0 c).owesAt (none : HIx 1) (Fin.last cfg1.N) : sProp 𝕄) ⊢ Pipeline.owesWithin c (0 : CellTallies nD τ sig (HIx 1)) (Rec (F := F) c) := by
  show Pipeline.owesWithin c ((R1.dat (V1 m gath) (Rec (F := F) c) c).owed _) ((R1.dat (V1 m gath) (Rec (F := F) c) c).bound none _) ⊢ _
  rw [R1.howed]; unfold Pipeline.Dat.bound; rw [R1.hrec]
  exact Pipeline.owesWithin_mono c 0 (Set.union_subset le_rfl (waitPairs_sub cfg1 c))
theorem owes_in2 (c : Dev nD) :
    Pipeline.owesWithin c (0 : CellTallies nD τ sig (HIx 1)) (Rec (F := F) c) ⊢ ((pdats m gath R1 1 c).owesAt (none : HIx 1) 0 : sProp 𝕄) :=
  Pipeline.owesWithin_mono c 0 Set.subset_union_left
theorem owes_out2 (c : Dev nD) :
    ((pdats m gath R1 1 c).owesAt (none : HIx 1) (Fin.last cfg2.N) : sProp 𝕄) ⊢ Pipeline.owesWithin c (0 : CellTallies nD τ sig (HIx 1)) (Rec (F := F) c) :=
  Pipeline.owesWithin_mono c 0 (Set.union_subset le_rfl (waitPairs_sub cfg2 c))

/-! ## The regions as segments -/

/-- The thread state at a boundary: every unscoped buffer at the boundary's contents, and what rides along. -/
abbrev Tst (W : Dev nD → Valuation τ sig (Elt F)) (c : Dev nD) : sProp 𝕄 :=
  iprop(StableHlo.held (c.tc : Thread nD τ) (Pipeline.ucRefs τ sig) (W c) ∗ Rr (F := F) c)

theorem hrest1 (c : Dev nD) : ∀ b, b ∉ Finset.univ.image (Pipeline.arrRef spec1) → V2 m gath R1 c b = V1 m gath c b :=
  fun b hb => W2_of_ne m gath R1 c b fun w e => hb (Finset.mem_image.mpr ⟨w, Finset.mem_univ _, e⟩)
theorem hrest2 (c : Dev nD) : ∀ b, b ∉ Finset.univ.image (Pipeline.arrRef spec2) → (fun b : Ref sig .tc => W3 m gath R1 c b) b = V2 m gath R1 c b :=
  fun b hb => W3_of_ne m gath R1 c b fun w e => hb (Finset.mem_image.mpr ⟨w, Finset.mem_univ _, e⟩)

set_option backward.isDefEq.respectTransparency.types false in
/-- The first pallas_call's region: entered from the buffers after the SparseCore call, left at `W2`. -/
def reg1 : Pipeline.RegionSeg (pcfgs (F := F)) adm (pdats m gath R1) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (R1.hbody _ _ c).loose
  hwaits := Pipeline.hwaits_of_owed_zero _ _ _ _ _ _ 0 fun c t => R1.howed _ _ c t
  pre c := Tst (W1 m gath) c
  post c := Tst (W2 m gath R1) c
  X c := iprop(∃ r, prngReg c r)
  Y c := iprop(∃ r, prngReg c r)
  Z c := Pipeline.unscopedRest (Ix := HIx 1) (Name := ℕ) (U := UU) (Lvl := ℕ) spec1 c (V1 m gath c)
  hentry c := by
    rw [Pipeline.ownSems0_none]
    have hsplit := Pipeline.arrays_of_unscopedBufs (p := 0) (pcfgs (F := F)) adm (pdats m gath R1) launch1.win launch1.arr_whole c
      ((pdats m gath R1 0 c).share_full fun w => R1.hq _ _ c w) (V1 m gath c) fun w => R1.hA _ _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in1 m gath R1 c); iexact HO
    isplitl [Hp]; · iexact Hp
    iexact Hrest
  hin c := by
    rw [show (pdats m gath R1 0 c).Φ 0 = (R1.dat (V1 m gath) (Rec (F := F) c) c).Φ 0 from rfl]
    iintro ⟨Hp, -, Hr⟩
    iapply (R1.hin (V1 m gath) (Rec (F := F) c) c)
    isplitl [Hp]; · iexact Hp
    iexact Hr
  hout c := by
    rw [Pipeline.ownSems0_none, show (pdats m gath R1 0 c).Φ (Fin.last _) = (R1.dat (V1 m gath) (Rec (F := F) c) c).Φ (Fin.last cfg1.N) from rfl]
    iintro H
    ihave H' := (R1.hout (V1 m gath) (Rec (F := F) c) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m gath R1) ((pdats m gath R1 0 c).share_full fun w => R1.hq _ _ c w)
      (V1 m gath c) (V2 m gath R1 c) ((pdats m gath R1 0 c).arrAt · cfg1.N) (fun w => (W2_arr m gath R1 c w).symm) (hrest1 m gath R1 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out1 m gath R1 c); iexact HO

set_option backward.isDefEq.respectTransparency.types false in
/-- The second pallas_call's region: entered from `W2`, left at `W3`. -/
def reg2 : Pipeline.RegionSeg (pcfgs (F := F)) adm (pdats m gath R1) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (UU := UU) (V2 m gath R1) (Rec (F := F) c) c).loose
  hwaits := Pipeline.hwaits_of_owed_zero _ _ _ _ _ _ 1 fun _ _ => rfl
  pre c := Tst (W2 m gath R1) c
  post c := Tst (W3 m gath R1) c
  X c := iprop(∃ r, prngReg c r)
  Y c := iprop(∃ r, prngReg c r)
  Z c := Pipeline.unscopedRest (Ix := HIx 1) (Name := ℕ) (U := UU) (Lvl := ℕ) spec2 c (V2 m gath R1 c)
  hentry c := by
    rw [Pipeline.ownSems0_none]
    have hsplit := Pipeline.arrays_of_unscopedBufs (p := 1) (pcfgs (F := F)) adm (pdats m gath R1) launch2.win launch2.arr_whole c
      ((pdats m gath R1 1 c).share_full fun _ => rfl) (V2 m gath R1 c) fun w => A_eq2 (UU := UU) (V2 m gath R1) (Rec (F := F) c) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in2 m gath R1 c); iexact HO
    isplitl [Hp]; · iexact Hp
    iexact Hrest
  hin c := by
    rw [show (pdats m gath R1 1 c).Φ 0 = (dat2 (UU := UU) (V2 m gath R1) (Rec (F := F) c) c).Φ 0 from rfl]
    iintro ⟨Hp, -, Hr⟩
    iapply (hin2 (UU := UU) (V2 m gath R1) (Rec (F := F) c) c)
    isplitl [Hp]; · iexact Hp
    iexact Hr
  hout c := by
    rw [Pipeline.ownSems0_none, show (pdats m gath R1 1 c).Φ (Fin.last _) = (dat2 (UU := UU) (V2 m gath R1) (Rec (F := F) c) c).Φ (Fin.last cfg2.N) from rfl]
    iintro H
    ihave H' := (hout2 (UU := UU) (V2 m gath R1) (Rec (F := F) c) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m gath R1) ((pdats m gath R1 1 c).share_full fun _ => rfl)
      (V2 m gath R1 c) (fun b : Ref sig .tc => W3 m gath R1 c b) ((pdats m gath R1 1 c).arrAt · cfg2.N) (fun w => (W3_arr m gath R1 c w).symm) (hrest2 m gath R1 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out2 m gath R1 c); iexact HO

/-! ## The host operations as a segment, @main as segments, the run -/

theorem tailOps_sub : (tailOps (F := F)).Forall fun op => op.bufs ⊆ StableHlo.tcRefs τ sig :=
  ⟨StableHlo.reshape_bufs_sub .., StableHlo.unary_bufs_sub ..⟩
theorem tailOps_fresh : (tailOps (F := F)).Forall fun op => op.fresh = ∅ := by
  unfold tailOps; simp only [List.Forall]; repeat' constructor

/-- The two host operations over the unscoped buffers from `W3`: they end at `W4`. -/
def hsegT : Pipeline.HostSeg (Name := ℕ) (U := UU) (pcfgs (F := F)) defs₀ 𝒱₀ (K (F := F)).L (K (F := F)).lev :=
  Pipeline.HostSeg.ofOps _ _ _ _ _ (Pipeline.ucRefs τ sig) (tailOps (F := F))
    (fun op h => Pipeline.sub_ucRefs op ((List.forall_iff_forall_mem.mp tailOps_sub) op h))
    (fun op h => (List.forall_iff_forall_mem.mp tailOps_fresh) op h) (W3 m gath R1) (Rr (F := F))

/-- @main after the SparseCore call: the two regions, then the host operations. -/
abbrev segs : List (Pipeline.Seg (pcfgs (F := F)) adm (pdats m gath R1) (none : HIx 1) defs₀ 𝒱₀ (K (F := F)).L (K (F := F)).lev) :=
  [.region (reg1 m gath R1), .region (reg2 m gath R1), .host (hsegT m gath R1)]

theorem tail_run : tail (F := F) = Pipeline.Seg.run (segs m gath R1) := rfl

/-- The idealized kernel program's run from the gather kernel's obligations and the first pallas_call's data: every weakly
    fair execution of all the threads terminates, nothing faulting, and every final state has every unscoped buffer of
    every device at `W4`. -/
theorem run_KI [∀ e, Nonempty (Elt F e)] (ρ : Dev nD → PrngReg)
    (P : (K (F := F)).Pay (nD := nD) (Val := Elt F) (Name := ℕ) (U := UU)) [P.IsStorable]
    (hPx : ∀ q thr, P.x q thr = iprop(emp)) (hheld : P.held = ∅)
    (htile : (K (F := F)).TileObl (D (F := F)) 𝒱 P v₀ 0) (hvec : (K (F := F)).VecSplit' P 0)
    (hst : ∀ d, iprop(tArr m d ∗ vArr m d ∗ oArr d (m (oLoc d))) ⊢ bigSep Finset.univ fun c : Fin ((K (F := F)).nCore 0) => P.st 0 d c)
    (hdn : ∀ d, (bigSep Finset.univ fun c : Fin ((K (F := F)).nCore 0) => P.dn 0 d c) ⊢ iprop(tArr m d ∗ vArr m d ∗ oArr d (gath d)))
    (Q' : PUnit × MemSt nD τ sig (Elt F) → Prop) (hQ : ∀ s' : Phys nD τ sig (Elt F), (∀ d, fq (W4 m gath R1) d s') → Q' (⟨⟩, s'.mem)) :
    θ_run (Cert.KernelIdeal.defs (F := F)) (Cert.KernelIdeal.threads (F := F)) ⟨m, fun _ => 0, ρ⟩ Q' :=
  run_of_segs m ρ P hPx hheld htile hvec gath hst hdn (pdats m gath R1) (segs m gath R1)
    (by simp only [segs, Pipeline.Seg.pipes_host, Pipeline.Seg.pipes_region, Pipeline.Seg.pipes_nil]; decide)
    (W4 m gath R1) ⟨fun _ => .rfl, fun _ => .rfl, fun _ => .rfl, fun _ => .rfl⟩
    (fun d => (main_eq_tail d).trans (by rw [tail_run m gath R1])) Q' hQ

end Cert.Proof.KI

end
-- ==== Proof.Reads.lean ====
/-
  What the last boundary holds: each of the six arguments is as launched — no host operation and no region writes
  one; a region reads it through an input window or not at all — the scalar result is the loss combiner's 1x1 result
  reshaped, and the matrix result is the transpose of the first pallas_call's first result array.
-/
import proofs.«207136_g6528350290482_cont_9to1c4b_434_22_alg».proof.Proof.Assemble

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.Sem
open Idealize.ShloMosaic.Pipeline (Dat)

variable {F : FTy → Type} [FloatOps F]

variable (m : (ℓ : Loc nD τ sig) → Buf (Elt F) ℓ) (gath : (d : Dev nD) → Buf (Elt F) (oLoc d)) (R1 : Reg1Data (F := F))

/-- A buffer the two host operations do not write is as the second region left it. -/
theorem W4_keep (c : Dev nD) (b : Ref sig .tc) (h3 : main_v3 ≠ b) (h4 : main_v4 ≠ b) :
    W4 m gath R1 c (Proc.devRef .tc b) = W3 m gath R1 c (Proc.devRef .tc b) :=
  StableHlo.after_of_forall_not_mem (b := Proc.devRef .tc b) _ _ (List.forall_iff_forall_mem.mp (by
    simp only [tailOps, List.Forall, StableHlo.unary_writes, StableHlo.reshape_writes, Finset.mem_singleton]
    exact ⟨(StableHlo.devRef_ne_of_ne h3).symm, (StableHlo.devRef_ne_of_ne h4).symm⟩))

/-- A buffer that is no window of either pallas_call, is not `main_v0`, and is not written by the host operations, is as launched. -/
theorem W4_bypass (c : Dev nD) (b : Ref sig .tc) (h3 : main_v3 ≠ b) (h4 : main_v4 ≠ b)
    (h2 : ∀ w, Pipeline.arrRef spec2 w ≠ b) (h1 : ∀ w, Pipeline.arrRef spec1 w ≠ b) (h0 : b ≠ main_v0) :
    W4 m gath R1 c (Proc.devRef .tc b) = m ((c.tc : Thread nD τ).loc b) :=
  calc W4 m gath R1 c (Proc.devRef .tc b)
    _ = W3 m gath R1 c (Proc.devRef .tc b) := W4_keep m gath R1 c b h3 h4
    _ = W2 m gath R1 c (Proc.devRef .tc b) := W3_of_ne m gath R1 c b h2
    _ = W1 m gath c (Proc.devRef .tc b) := W2_of_ne m gath R1 c b h1
    _ = W0 m c (Proc.devRef .tc b) := Function.update_of_ne (StableHlo.devRef_ne_of_ne h0) _ _
    _ = m ((c.tc : Thread nD τ).loc b) := rfl

theorem W4_arg1 (c : Dev nD) : W4 m gath R1 c (Proc.devRef .tc main_arg1) = m ((c.tc : Thread nD τ).loc main_arg1) :=
  W4_bypass m gath R1 c main_arg1 (by decide) (by decide) (by decide) (by decide) (by decide)
theorem W4_arg2 (c : Dev nD) : W4 m gath R1 c (Proc.devRef .tc main_arg2) = m ((c.tc : Thread nD τ).loc main_arg2) :=
  W4_bypass m gath R1 c main_arg2 (by decide) (by decide) (by decide) (by decide) (by decide)
theorem W4_arg3 (c : Dev nD) : W4 m gath R1 c (Proc.devRef .tc main_arg3) = m ((c.tc : Thread nD τ).loc main_arg3) :=
  W4_bypass m gath R1 c main_arg3 (by decide) (by decide) (by decide) (by decide) (by decide)
theorem W4_arg4 (c : Dev nD) : W4 m gath R1 c (Proc.devRef .tc main_arg4) = m ((c.tc : Thread nD τ).loc main_arg4) :=
  W4_bypass m gath R1 c main_arg4 (by decide) (by decide) (by decide) (by decide) (by decide)

/-- The table is an input window of the first pallas_call only. -/
theorem W2_arg5 (c : Dev nD) : W2 m gath R1 c (Proc.devRef .tc main_arg5) = m ((c.tc : Thread nD τ).loc main_arg5) :=
  calc W2 m gath R1 c (Proc.devRef .tc main_arg5)
    _ = (R1.dat (V1 m gath) (Rec (F := F) c) c).arrAt 1 cfg1.N := W2_arr m gath R1 c 1
    _ = (R1.dat (V1 m gath) (Rec (F := F) c) c).A 1 := Dat.arrAt_in _ 1 rfl _
    _ = V1 m gath c (Pipeline.arrRef spec1 1) := R1.hA _ _ c 1
    _ = W0 m c (Proc.devRef .tc main_arg5) := Function.update_of_ne (StableHlo.devRef_ne_of_ne (by decide)) _ _
    _ = m ((c.tc : Thread nD τ).loc main_arg5) := rfl
theorem W4_arg5 (c : Dev nD) : W4 m gath R1 c (Proc.devRef .tc main_arg5) = m ((c.tc : Thread nD τ).loc main_arg5) :=
  ((W4_keep m gath R1 c main_arg5 (by decide) (by decide)).trans (W3_of_ne m gath R1 c main_arg5 (by decide))).trans (W2_arg5 m gath R1 c)

/-- The batch of feature rows is an input window of both pallas_calls. -/
theorem W2_arg0 (c : Dev nD) : W2 m gath R1 c (Proc.devRef .tc main_arg0) = m ((c.tc : Thread nD τ).loc main_arg0) :=
  calc W2 m gath R1 c (Proc.devRef .tc main_arg0)
    _ = (R1.dat (V1 m gath) (Rec (F := F) c) c).arrAt 0 cfg1.N := W2_arr m gath R1 c 0
    _ = (R1.dat (V1 m gath) (Rec (F := F) c) c).A 0 := Dat.arrAt_in _ 0 rfl _
    _ = V1 m gath c (Pipeline.arrRef spec1 0) := R1.hA _ _ c 0
    _ = W0 m c (Proc.devRef .tc main_arg0) := Function.update_of_ne (StableHlo.devRef_ne_of_ne (by decide)) _ _
    _ = m ((c.tc : Thread nD τ).loc main_arg0) := rfl
theorem W3_arg0 (c : Dev nD) : W3 m gath R1 c (Proc.devRef .tc main_arg0) = m ((c.tc : Thread nD τ).loc main_arg0) :=
  calc W3 m gath R1 c (Proc.devRef .tc main_arg0)
    _ = (dat2 (UU := UU) (V2 m gath R1) (Rec (F := F) c) c).arrAt 0 cfg2.N := W3_arr m gath R1 c 0
    _ = (dat2 (UU := UU) (V2 m gath R1) (Rec (F := F) c) c).A 0 := Dat.arrAt_in _ 0 rfl _
    _ = V2 m gath R1 c (Pipeline.arrRef spec2 0) := A_eq2 (UU := UU) _ _ c 0
    _ = m ((c.tc : Thread nD τ).loc main_arg0) := W2_arg0 m gath R1 c
theorem W4_arg0 (c : Dev nD) : W4 m gath R1 c (Proc.devRef .tc main_arg0) = m ((c.tc : Thread nD τ).loc main_arg0) :=
  (W4_keep m gath R1 c main_arg0 (by decide) (by decide)).trans (W3_arg0 m gath R1 c)

/-! ## The results -/

/-- The gathered rows reach the second pallas_call untouched (no window of the first). -/
theorem W2_v0 (c : Dev nD) : W2 m gath R1 c (Proc.devRef .tc main_v0) = gath c :=
  (W2_of_ne m gath R1 c main_v0 (by decide)).trans (Function.update_self _ _ _)

/-- The matrix result: the transpose of the first pallas_call's first result array. -/
theorem W4_v4 (c : Dev nD) :
    W4 m gath R1 c (Proc.devRef .tc main_v4)
      = transpose S1024x100000 [1, 0] ((R1.dat (V1 m gath) (Rec (F := F) c) c).arrAt 2 cfg1.N) transposes_S100000x1024_S1024x100000_1_0 := by
  have h : W3 m gath R1 c (Proc.devRef .tc main_v1_0) = (R1.dat (V1 m gath) (Rec (F := F) c) c).arrAt 2 cfg1.N :=
    (W3_of_ne m gath R1 c main_v1_0 (by decide)).trans (W2_arr m gath R1 c 2)
  rw [← h]
  unfold W4 tailOps
  after_results

/-- The scalar result: the loss combiner's 1x1 result, reshaped. -/
theorem W4_v3 (c : Dev nD) :
    W4 m gath R1 c (Proc.devRef .tc main_v3)
      = shapeCast S_ ((dat2 (UU := UU) (V2 m gath R1) (Rec (F := F) c) c).arrAt 3 cfg2.N) shapeCasts_S1x1_S_ := by
  rw [← W3_arr m gath R1 c 3]
  unfold W4 tailOps
  after_results
  rfl

end Cert.Proof.KI

end
-- ==== Proof.Tc1Runs.lean ====
/-
  The second call of the program — the similarity matrix and the running sum of exponentials — as a pipeline of
  25 points: what its three control cases share.

  At point t the body holds the whole batch x [1024, 128] (window 0) and block t of the class table, rows
  4000 t … 4000 t + 3999 of V (window 1). In ten steps of 400 rows it stores the products V_rows · xᵀ into the
  result block [4000, 1024] (window 2) and adds, per batch column, the sum over the 400 rows of their exponentials
  into a running row acc; then the scratch row s, carried from point to point, becomes s + acc. At the first point
  s is zeroed first; at the last point log s is stored into the row of log-sums (window 3), which is idle — handed
  back as found — at every other point.
-/
import proofs.«207136_g6528350290482_cont_9to1c4b_434_22_alg».proof.Proof.Tc2Base
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

/-! ## The body's branch conditions, in closed form over the 25 points -/

/-- The first conditional's condition (the scratch is zeroed), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional's condition (the log-sums are stored). -/
abbrev cond1_1 (i : grid1.Coords) : Prop := k1_cond2 i = 1#1
/-- It holds at the last point only. -/
theorem hcond1_1 : ∀ t : Fin cfg1.N, cond1_1 (grid1.coords t) ↔ t.val = 24 :=
  (by decide +kernel : ∀ t : Fin grid1.N, cond1_1 (grid1.coords t) ↔ t.val = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point the row of log-sums is idle, and not written back; -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- at the last point it is live. -/
theorem liveAt1_3 : ∀ t : Fin cfg1.N, cond1_1 (grid1.coords t) → cfg1.idle 3 (grid1.coords t) = false := by decide +kernel

/-! ## The staging memrefs at a point, and the scratch -/

abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4000x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
/-- The scratch row: a whole scoped buffer of the kernel's own. -/
abbrev scM1 : Memref sig .tc .vmem S1x1024 .f32 := Memref.whole cc1_scratch0

/-- The TensorCore's scoped buffers that are neither a staging buffer of this call nor its scratch: the next
    call's four staging buffers, each at some contents. -/
abbrev rest1 (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f))

/-- The plain invariant with the scratch row as a memref owned at some contents. -/
theorem ΦS1_eq (c : Dev nD) :
    (ΦS spec1 c : sProp 𝕄)
      = iprop(iprop((∃ d, owns (c : Thread nD τ) scM1 fullShare d) ∗ rest1 (F := F) (UU := UU) c) ∗ (∃ r, prngReg c r)) := by
  unfold ΦS; rw [scopedRest1_eq]; simp only [scM1, owns_whole]; try rfl

/-! ## The body's accesses -/

theorem hz1 : (![0, 0] : Fin 2 → Nat) = fun _ => 0 := funext fun a => by fin_cases a <;> rfl

abbrev r1_x : Rect S1024x128 := Rect.unit (s := S1024x128) ![0, 0] S1024x128.size inb_S1024x128_S1024x128_0_0
abbrev r1_s : Rect S1x1024 := Rect.unit (s := S1x1024) ![0, 0] S1x1024.size inb_S1x1024_S1x1024_0_0
abbrev r1_v0 : Rect S4000x128 := Rect.unit (s := S4000x128) ![0, 0] S400x128.size inb_S4000x128_S400x128_0_0
abbrev r1_v1 : Rect S4000x128 := Rect.unit (s := S4000x128) ![400, 0] S400x128.size inb_S4000x128_S400x128_400_0
abbrev r1_v2 : Rect S4000x128 := Rect.unit (s := S4000x128) ![800, 0] S400x128.size inb_S4000x128_S400x128_800_0
abbrev r1_v3 : Rect S4000x128 := Rect.unit (s := S4000x128) ![1200, 0] S400x128.size inb_S4000x128_S400x128_1200_0
abbrev r1_v4 : Rect S4000x128 := Rect.unit (s := S4000x128) ![1600, 0] S400x128.size inb_S4000x128_S400x128_1600_0
abbrev r1_v5 : Rect S4000x128 := Rect.unit (s := S4000x128) ![2000, 0] S400x128.size inb_S4000x128_S400x128_2000_0
abbrev r1_v6 : Rect S4000x128 := Rect.unit (s := S4000x128) ![2400, 0] S400x128.size inb_S4000x128_S400x128_2400_0
abbrev r1_v7 : Rect S4000x128 := Rect.unit (s := S4000x128) ![2800, 0] S400x128.size inb_S4000x128_S400x128_2800_0
abbrev r1_v8 : Rect S4000x128 := Rect.unit (s := S4000x128) ![3200, 0] S400x128.size inb_S4000x128_S400x128_3200_0
abbrev r1_v9 : Rect S4000x128 := Rect.unit (s := S4000x128) ![3600, 0] S400x128.size inb_S4000x128_S400x128_3600_0
abbrev r1_o0 : Rect S4000x1024 := Rect.unit (s := S4000x1024) ![0, 0] S400x1024.size inb_S4000x1024_S400x1024_0_0
abbrev r1_o1 : Rect S4000x1024 := Rect.unit (s := S4000x1024) ![400, 0] S400x1024.size inb_S4000x1024_S400x1024_400_0
abbrev r1_o2 : Rect S4000x1024 := Rect.unit (s := S4000x1024) ![800, 0] S400x1024.size inb_S4000x1024_S400x1024_800_0
abbrev r1_o3 : Rect S4000x1024 := Rect.unit (s := S4000x1024) ![1200, 0] S400x1024.size inb_S4000x1024_S400x1024_1200_0
abbrev r1_o4 : Rect S4000x1024 := Rect.unit (s := S4000x1024) ![1600, 0] S400x1024.size inb_S4000x1024_S400x1024_1600_0
abbrev r1_o5 : Rect S4000x1024 := Rect.unit (s := S4000x1024) ![2000, 0] S400x1024.size inb_S4000x1024_S400x1024_2000_0
abbrev r1_o6 : Rect S4000x1024 := Rect.unit (s := S4000x1024) ![2400, 0] S400x1024.size inb_S4000x1024_S400x1024_2400_0
abbrev r1_o7 : Rect S4000x1024 := Rect.unit (s := S4000x1024) ![2800, 0] S400x1024.size inb_S4000x1024_S400x1024_2800_0
abbrev r1_o8 : Rect S4000x1024 := Rect.unit (s := S4000x1024) ![3200, 0] S400x1024.size inb_S4000x1024_S400x1024_3200_0
abbrev r1_o9 : Rect S4000x1024 := Rect.unit (s := S4000x1024) ![3600, 0] S400x1024.size inb_S4000x1024_S400x1024_3600_0

/-! ## What the body leaves, from the batch block x0, the class-row block x1 and the scratch row as loaded -/

/-- The result block [4000, 1024] after the body: its ten stores of 400 rows, last first. -/
def out1_2 (x0 : Vec F S1024x128 .f32) (x1 : Vec F S4000x128 .f32) : Vec F S4000x1024 .f32 :=
  View.canon [⟨r1_o9, k1_pay2 (View.ld x0 r1_x) (View.ld x1 r1_v9)⟩,
    ⟨r1_o8, k1_pay1 (View.ld x0 r1_x) (View.ld x1 r1_v8)⟩,
    ⟨r1_o7, k1_pay16 (View.ld x0 r1_x) (View.ld x1 r1_v7)⟩,
    ⟨r1_o6, k1_pay14 (View.ld x0 r1_x) (View.ld x1 r1_v6)⟩,
    ⟨r1_o5, k1_pay13 (View.ld x0 r1_x) (View.ld x1 r1_v5)⟩,
    ⟨r1_o4, k1_pay12 (View.ld x0 r1_x) (View.ld x1 r1_v4)⟩,
    ⟨r1_o3, k1_pay11 (View.ld x0 r1_x) (View.ld x1 r1_v3)⟩,
    ⟨r1_o2, k1_pay9 (View.ld x0 r1_x) (View.ld x1 r1_v2)⟩,
    ⟨r1_o1, k1_pay8 (View.ld x0 r1_x) (View.ld x1 r1_v1)⟩,
    ⟨r1_o0, k1_pay7 (View.ld x0 r1_x) (View.ld x1 r1_v0)⟩]

/-- The ten stores tile the block. -/
theorem cover1_2 (p0 p1 p2 p3 p4 p5 p6 p7 p8 p9 : Vec F S400x1024 .f32) (y : S4000x1024.Idx) :
    ∃ pc ∈ ([⟨r1_o9, p9⟩, ⟨r1_o8, p8⟩, ⟨r1_o7, p7⟩, ⟨r1_o6, p6⟩, ⟨r1_o5, p5⟩, ⟨r1_o4, p4⟩, ⟨r1_o3, p3⟩, ⟨r1_o2, p2⟩, ⟨r1_o1, p1⟩, ⟨r1_o0, p0⟩] : List (View.Piece (Elt F) S4000x1024 .f32)), y ∈ pc.1.set :=
  View.cover_of_tiledL [⟨r1_o9, p9⟩, ⟨r1_o8, p8⟩, ⟨r1_o7, p7⟩, ⟨r1_o6, p6⟩, ⟨r1_o5, p5⟩, ⟨r1_o4, p4⟩, ⟨r1_o3, p3⟩, ⟨r1_o2, p2⟩, ⟨r1_o1, p1⟩, ⟨r1_o0, p0⟩] S400x1024.size (by sl_kernel_rfl) y

/-- The running row of sums of exponentials over the point's 4000 rows, in the body's association (three partial
    sums into a zero row, four more, one more, two more), added to the scratch row `s` as loaded: the scratch's new
    contents. -/
def sNext (x0 : Vec F S1024x128 .f32) (x1 : Vec F S4000x128 .f32) (s : Vec F S1x1024 .f32) : Vec F S1x1024 .f32 :=
  k1_pay4 (View.ld x0 r1_x)
    (k1_pay15 (View.ld x0 r1_x) (k1_pay10 (View.ld x0 r1_x) (View.ld x1 r1_v0) (View.ld x1 r1_v1) (View.ld x1 r1_v2))
      (k1_pay11 (View.ld x0 r1_x) (View.ld x1 r1_v3)) (View.ld x1 r1_v4) (View.ld x1 r1_v5) (View.ld x1 r1_v6))
    (k1_pay17 (View.ld x0 r1_x) (View.ld x1 r1_v7)) (View.ld x1 r1_v8) (View.ld x1 r1_v9) s

/-- The log of that new row: what the last point stores into the row of log-sums. -/
def lseNext (x0 : Vec F S1024x128 .f32) (x1 : Vec F S4000x128 .f32) (s : Vec F S1x1024 .f32) : Vec F S1x1024 .f32 :=
  k1_pay5 (View.ld x0 r1_x)
    (k1_pay15 (View.ld x0 r1_x) (k1_pay10 (View.ld x0 r1_x) (View.ld x1 r1_v0) (View.ld x1 r1_v1) (View.ld x1 r1_v2))
      (k1_pay11 (View.ld x0 r1_x) (View.ld x1 r1_v3)) (View.ld x1 r1_v4) (View.ld x1 r1_v5) (View.ld x1 r1_v6))
    (k1_pay17 (View.ld x0 r1_x) (View.ld x1 r1_v7)) (View.ld x1 r1_v8) (View.ld x1 r1_v9) s

/-- The scratch row after a point that found it at `xs`: its one store. -/
def sout1 (x0 : Vec F S1024x128 .f32) (x1 : Vec F S4000x128 .f32) (xs : Vec F S1x1024 .f32) : Vec F S1x1024 .f32 :=
  View.canon [⟨r1_s, sNext x0 x1 (View.ld xs r1_s)⟩]

/-- The scratch row after the first point: zeroed, then stored as at any point. -/
def sout1A (x0 : Vec F S1024x128 .f32) (x1 : Vec F S4000x128 .f32) : Vec F S1x1024 .f32 :=
  View.canon [⟨r1_s, sNext x0 x1 (k1_pay6 (F := F))⟩, ⟨r1_s, k1_pay6 (F := F)⟩]

/-- The row of log-sums after the last point, which found the scratch at `xs`: its one store. -/
def out1_3 (x0 : Vec F S1024x128 .f32) (x1 : Vec F S4000x128 .f32) (xs : Vec F S1x1024 .f32) : Vec F S1x1024 .f32 :=
  View.canon [⟨r1_s, lseNext x0 x1 (View.ld xs r1_s)⟩]

/-- A store of the whole row covers it, whatever came before. -/
theorem cover1_s (p0 : Vec F S1x1024 .f32) (L : List (View.Piece (Elt F) S1x1024 .f32)) (y : S1x1024.Idx) :
    ∃ pc ∈ ((⟨r1_s, p0⟩ : View.Piece (Elt F) S1x1024 .f32) :: L), y ∈ pc.1.set :=
  ⟨_, List.mem_cons_self, View.mem_set_unit_zero hz1 inb_S1x1024_S1x1024_0_0 y⟩

end Cert.Proof.KI

end
-- ==== Proof.Tc1RunB.lean ====
/-
  The body of the second call at a MIDDLE point (not the first, not the last): the scratch row is found at what
  the point before left and left at that plus this point's sums; the result block is filled; the row of log-sums
  is handed back as found.
-/
import proofs.«207136_g6528350290482_cont_9to1c4b_434_22_alg».proof.Proof.Tc1Runs

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

set_option maxHeartbeats 4000000 in
/-- On whole staging memrefs — the batch at `x0`, the class-row block at `x1`, the result block at anything, the
    row of log-sums at `xi3`, the scratch row at `xs` — the body runs to the continuation holding the inputs as
    they were, the result block at `out1_2 x0 x1`, the row of log-sums as found, the scratch at `sout1 x0 x1 xs`. -/
theorem sound_kernel1_B (c : Dev nD) (E : Set ℕ) (i : grid1.Coords) (arg1 : Memref sig .tc .vmem S1024x128 .f32) (harg1 : arg1.IsWhole) (arg2 : Memref sig .tc .vmem S4000x128 .f32) (harg2 : arg2.IsWhole) (arg3 : Memref sig .tc .vmem S4000x1024 .f32) (harg3 : arg3.IsWhole) (arg4 : Memref sig .tc .vmem S1x1024 .f32) (harg4 : arg4.IsWhole) (arg5 : Memref sig .tc .vmem S1x1024 .f32) (harg5 : arg5.IsWhole)
    (hc0 : ¬cond1_0 i) (hc1 : ¬cond1_1 i)
    (x0 : Vec F S1024x128 .f32) (x1 : Vec F S4000x128 .f32) (xi3 : Vec F S1x1024 .f32) (xs : Vec F S1x1024 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare xi3 ∗ owns (c : Thread nD τ) arg5 fullShare (sout1 x0 x1 xs)) -∗ K ⟨⟩))
      ⊢ wp frame (wpE (defs₀ (F := F)) Variants.none c none) E (cc1__exloss_kernel i arg1 harg1 arg2 harg2 arg3 harg3 arg4 harg4 arg5 harg5) K := by
  simp only [cc1__exloss_kernel_eq_skeleton]; unfold cc1__exloss_kernel_skel
  simp only [k1_part1_eq_skeleton, k1_part2_eq_skeleton]
  unfold owns
  iintro ⟨⟨%f0, %hf0, H0⟩, ⟨%f1, %hf1, H1⟩, ⟨%d2, %f2, -, H2⟩, ⟨%f3, %hf3, H3⟩, ⟨%fs, %hfs, HS⟩, Hk⟩
  subst hf0; subst hf1; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _ _ _ _ _ _ _ _ _ _)
  isplitl [H3]
  · iexists f3; isplitr; · ipureintro; rfl
    iexact H3
  iexists _; isplitr
  swap; · iexact HS
  ipureintro
  exact View.read_writes_eq_canon _ _ _ (cover1_s _ _)

end Cert.Proof.KI

end
-- ==== Proof.Tc1RunA.lean ====
/-
  The body of the second call at the FIRST point: the scratch row, found at anything, is zeroed and left at this
  point's sums; the result block is filled; the row of log-sums is handed back as found.
-/
import proofs.«207136_g6528350290482_cont_9to1c4b_434_22_alg».proof.Proof.Tc1RunB

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

set_option maxHeartbeats 4000000 in
/-- On whole staging memrefs — the batch at `x0`, the class-row block at `x1`, the result block at anything, the
    row of log-sums at `xi3`, the scratch row at anything — the body runs to the continuation holding the inputs as
    they were, the result block at `out1_2 x0 x1`, the row of log-sums as found, the scratch at `sout1A x0 x1`. -/
theorem sound_kernel1_A (c : Dev nD) (E : Set ℕ) (i : grid1.Coords) (arg1 : Memref sig .tc .vmem S1024x128 .f32) (harg1 : arg1.IsWhole) (arg2 : Memref sig .tc .vmem S4000x128 .f32) (harg2 : arg2.IsWhole) (arg3 : Memref sig .tc .vmem S4000x1024 .f32) (harg3 : arg3.IsWhole) (arg4 : Memref sig .tc .vmem S1x1024 .f32) (harg4 : arg4.IsWhole) (arg5 : Memref sig .tc .vmem S1x1024 .f32) (harg5 : arg5.IsWhole)
    (hc0 : cond1_0 i) (hc1 : ¬cond1_1 i)
    (x0 : Vec F S1024x128 .f32) (x1 : Vec F S4000x128 .f32) (xi3 : Vec F S1x1024 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare xi3 ∗ owns (c : Thread nD τ) arg5 fullShare (sout1A x0 x1)) -∗ K ⟨⟩))
      ⊢ wp frame (wpE (defs₀ (F := F)) Variants.none c none) E (cc1__exloss_kernel i arg1 harg1 arg2 harg2 arg3 harg3 arg4 harg4 arg5 harg5) K := by
  simp only [cc1__exloss_kernel_eq_skeleton]; unfold cc1__exloss_kernel_skel
  simp only [k1_part1_eq_skeleton, k1_part2_eq_skeleton]
  unfold owns
  iintro ⟨⟨%f0, %hf0, H0⟩, ⟨%f1, %hf1, H1⟩, ⟨%d2, %f2, -, H2⟩, ⟨%f3, %hf3, H3⟩, ⟨%ds, %fs, -, HS⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _ _ _ _ _ _ _ _ _ _)
  isplitl [H3]
  · iexists f3; isplitr; · ipureintro; rfl
    iexact H3
  iexists _; isplitr
  swap; · iexact HS
  ipureintro
  refine (View.read_writes_eq_canon _ _ _ (cover1_s _ _)).trans ?_
  unfold sout1A
  sl_unfold_run_names
  first
    | rw [View.readCov_unit_zero arg5.view hz1]
    | rw [View.readCov_cons_toLoadRect]
  rfl

end Cert.Proof.KI

end
-- ==== Proof.Tc1RunC.lean ====
/-
  The body of the second call at the LAST point: the scratch row is found at what the point before left and left
  at that plus this point's sums; the result block is filled; the log of the new scratch row is stored into the row
  of log-sums.
-/
import proofs.«207136_g6528350290482_cont_9to1c4b_434_22_alg».proof.Proof.Tc1RunA

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

set_option maxHeartbeats 4000000 in
/-- On whole staging memrefs — the batch at `x0`, the class-row block at `x1`, the result block and the row of
    log-sums at anything, the scratch row at `xs` — the body runs to the continuation holding the inputs as they
    were, the result block at `out1_2 x0 x1`, the row of log-sums at `out1_3 x0 x1 xs`, the scratch at
    `sout1 x0 x1 xs`. -/
theorem sound_kernel1_C (c : Dev nD) (E : Set ℕ) (i : grid1.Coords) (arg1 : Memref sig .tc .vmem S1024x128 .f32) (harg1 : arg1.IsWhole) (arg2 : Memref sig .tc .vmem S4000x128 .f32) (harg2 : arg2.IsWhole) (arg3 : Memref sig .tc .vmem S4000x1024 .f32) (harg3 : arg3.IsWhole) (arg4 : Memref sig .tc .vmem S1x1024 .f32) (harg4 : arg4.IsWhole) (arg5 : Memref sig .tc .vmem S1x1024 .f32) (harg5 : arg5.IsWhole)
    (hc0 : ¬cond1_0 i) (hc1 : cond1_1 i)
    (x0 : Vec F S1024x128 .f32) (x1 : Vec F S4000x128 .f32) (xs : Vec F S1x1024 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1 xs) ∗ owns (c : Thread nD τ) arg5 fullShare (sout1 x0 x1 xs)) -∗ K ⟨⟩))
      ⊢ wp frame (wpE (defs₀ (F := F)) Variants.none c none) E (cc1__exloss_kernel i arg1 harg1 arg2 harg2 arg3 harg3 arg4 harg4 arg5 harg5) K := by
  simp only [cc1__exloss_kernel_eq_skeleton]; unfold cc1__exloss_kernel_skel
  simp only [k1_part1_eq_skeleton, k1_part2_eq_skeleton]
  unfold owns
  iintro ⟨⟨%f0, %hf0, H0⟩, ⟨%f1, %hf1, H1⟩, ⟨%d2, %f2, -, H2⟩, ⟨%d3, %f3, -, H3⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _ _ _ _ _ _ _ _ _ _)
  isplitl [H3]
  · iexists _; isplitr
    swap; · iexact H3
    ipureintro
    exact View.read_writes_eq_canon _ _ _ (cover1_s _ _)
  iexists _; isplitr
  swap; · iexact HS
  ipureintro
  exact View.read_writes_eq_canon _ _ _ (cover1_s _ _)

end Cert.Proof.KI

end
-- ==== Proof.Tc1.lean ====
/-
  The second call of the program as a pipeline of 25 points: what the scratch row holds point by point, the proof
  data, the body obligation, and how the region takes and returns its invariant.

  The scratch row after point t is s_t = s_{t-1} + (this point's sums of exponentials), s_{-1} the zero row the first
  point writes; the invariant before point t > 0 holds the scratch at s_{t-1}. The result block after point t is the
  ten products of the point's 4000 class rows with the batch; the row of log-sums is stored at the last point only,
  as log s_24, and is idle elsewhere.
-/
import proofs.«207136_g6528350290482_cont_9to1c4b_434_22_alg».proof.Proof.Tc1RunC

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

variable (V : (c : Dev nD) → (b : Ref sig .tc) → Buf (Elt F) ((c : Thread nD τ).loc b))
variable (Rec : Set (SemLoc sig × HIx 1))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The scratch row, point by point -/

/-- THE ACCUMULATION. The scratch row after the body at position `n`: at the first point the zeroed row plus the
    point's sums; afterwards what the point before left plus the point's sums. -/
def sAt1 (c : Dev nD) : (n : ℕ) → n < cfg1.N → Vec F S1x1024 .f32
  | 0, hn => sout1A (iblk1 V c 0 ⟨0, hn⟩) (iblk1 V c 1 ⟨0, hn⟩)
  | n + 1, hn => sout1 (iblk1 V c 0 ⟨n + 1, hn⟩) (iblk1 V c 1 ⟨n + 1, hn⟩) (sAt1 c n (Nat.lt_of_succ_lt hn))

theorem sAt1_zero (c : Dev nD) (t : Fin cfg1.N) (h0 : t.val = 0) :
    sAt1 V c t.val t.isLt = sout1A (iblk1 V c 0 t) (iblk1 V c 1 t) := by
  obtain ⟨n, hn⟩ := t
  cases n with
  | zero => rfl
  | succ n => exact absurd h0 (Nat.succ_ne_zero n)

theorem sAt1_pos (c : Dev nD) (t : Fin cfg1.N) (h0 : ¬t.val = 0) :
    sAt1 V c t.val t.isLt
      = sout1 (iblk1 V c 0 t) (iblk1 V c 1 t) (sAt1 V c (t.val - 1) (Nat.lt_of_le_of_lt (Nat.sub_le _ _) t.isLt)) := by
  obtain ⟨n, hn⟩ := t
  cases n with
  | zero => exact absurd rfl h0
  | succ n => rfl

/-- The scratch row as point `t` finds it (for `t` not the first): what the point before left. -/
def sPrev (c : Dev nD) (t : Fin cfg1.N) : Vec F S1x1024 .f32 :=
  sAt1 V c (t.val - 1) (Nat.lt_of_le_of_lt (Nat.sub_le _ _) t.isLt)

/-! ## The region invariant -/

/-- Before position `n`: at the first point the plain invariant (the scratch at anything); afterwards the scratch at
    what the point before left, the other scoped buffers at anything, the generator register at some state. -/
def PhiS1 (c : Dev nD) : (n : ℕ) → n ≤ cfg1.N → sProp 𝕄
  | 0, _ => ΦS spec1 c
  | n + 1, hn => iprop(iprop(owns (c : Thread nD τ) scM1 fullShare (sAt1 V c n hn) ∗ rest1 (F := F) (UU := UU) c) ∗ (∃ r, prngReg c r))

theorem PhiS1_zero (c : Dev nD) (n : ℕ) (h : n ≤ cfg1.N) (hz : n = 0) : PhiS1 (UU := UU) V c n h = ΦS spec1 c := by
  subst hz; rfl

theorem PhiS1_succ (c : Dev nD) (n : ℕ) (hn : n < cfg1.N) :
    PhiS1 (UU := UU) V c (n + 1) hn
      = iprop(iprop(owns (c : Thread nD τ) scM1 fullShare (sAt1 V c n hn) ∗ rest1 (F := F) (UU := UU) c) ∗ (∃ r, prngReg c r)) := rfl

theorem PhiS1_pos (c : Dev nD) (n : ℕ) (h : n ≤ cfg1.N) (hz : n ≠ 0) :
    PhiS1 (UU := UU) V c n h
      = iprop(iprop(owns (c : Thread nD τ) scM1 fullShare (sAt1 V c (n - 1) (by omega)) ∗ rest1 (F := F) (UU := UU) c) ∗ (∃ r, prngReg c r)) := by
  cases n with
  | zero => exact absurd rfl hz
  | succ n => rfl

/-! ## The pipeline's proof data -/

/-- The proof data of the call on core `c`: the arrays as the region finds them (`V`); after the body at point `t`
    each input's buffer at its block, the result block at the point's ten products, the row of log-sums (consulted
    at the last point only) at the log of the new scratch row; the invariant carrying the scratch row; nothing owed;
    full shares; the core's recorded waits within `Rec` throughout. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t) (sPrev V c t)
  Φ t := PhiS1 V c t.val (Nat.le_of_lt_succ t.isLt)
  q _ := fullShare
  owed _ := 0
  recorded _ := Rec

theorem A_eq1 (c : Dev nD) (w : Fin cfg1.W) : (dat1 (UU := UU) V Rec c).A w = V c (Pipeline.arrRef spec1 w) := by
  dsimp only [dat1]

theorem PhiS1_castSucc (c : Dev nD) (t : Fin cfg1.N) :
    (dat1 (UU := UU) V Rec c).Φ t.castSucc = PhiS1 (UU := UU) V c t.val (Nat.le_of_lt t.isLt) := by
  dsimp only [dat1]; simp only [Fin.coe_castSucc]

theorem after1_0 (c : Dev nD) (t : Fin cfg1.N) : (dat1 (UU := UU) V Rec c).after 0 t = iblk1 V c 0 t := by dsimp only [dat1]
theorem after1_1 (c : Dev nD) (t : Fin cfg1.N) : (dat1 (UU := UU) V Rec c).after 1 t = iblk1 V c 1 t := by dsimp only [dat1]
theorem after1_2 (c : Dev nD) (t : Fin cfg1.N) : (dat1 (UU := UU) V Rec c).after 2 t = out1_2 (iblk1 V c 0 t) (iblk1 V c 1 t) := by dsimp only [dat1]
theorem after1_3 (c : Dev nD) (t : Fin cfg1.N) :
    (dat1 (UU := UU) V Rec c).after 3 t = out1_3 (iblk1 V c 0 t) (iblk1 V c 1 t) (sPrev V c t) := by dsimp only [dat1]

theorem before1_0 (c : Dev nD) (t : Fin cfg1.N) (d) : (dat1 (UU := UU) V Rec c).before 0 t d = iblk1 V c 0 t :=
  before1_0_of V (dat1 (UU := UU) V Rec c) (A_eq1 V Rec c 0) (after1_0 V Rec c) t d
theorem before1_1 (c : Dev nD) (t : Fin cfg1.N) (d) : (dat1 (UU := UU) V Rec c).before 1 t d = iblk1 V c 1 t :=
  before1_1_of V (dat1 (UU := UU) V Rec c) (A_eq1 V Rec c 1) (after1_1 V Rec c) t d

/-! ## The body obligation, at a generic point -/

def bodyPre1 (c : Dev nD) (t : Fin cfg1.N) : sProp 𝕄 :=
  iprop((dat1 (UU := UU) V Rec c).Φ t.castSucc ∗ (dat1 (UU := UU) V Rec c).owesAt (none : HIx 1) t.castSucc
    ∗ (∃ d, owns (c : Thread nD τ) (ms1_0 t) fullShare ((dat1 (UU := UU) V Rec c).before 0 t d))
    ∗ (∃ d, owns (c : Thread nD τ) (ms1_1 t) fullShare ((dat1 (UU := UU) V Rec c).before 1 t d))
    ∗ (∃ d, owns (c : Thread nD τ) (ms1_2 t) fullShare ((dat1 (UU := UU) V Rec c).before 2 t d))
    ∗ (∃ d, owns (c : Thread nD τ) (ms1_3 t) fullShare ((dat1 (UU := UU) V Rec c).before 3 t d)))

def bodyPost1 (c : Dev nD) (t : Fin cfg1.N) : sProp 𝕄 :=
  iprop((dat1 (UU := UU) V Rec c).Φ t.succ ∗ (dat1 (UU := UU) V Rec c).owesAt (none : HIx 1) t.succ
    ∗ (dat1 (UU := UU) V Rec c).leavesExact 0 t
    ∗ (dat1 (UU := UU) V Rec c).leavesExact 1 t
    ∗ (dat1 (UU := UU) V Rec c).leavesExact 2 t
    ∗ (dat1 (UU := UU) V Rec c).leavesExact 3 t)

set_option maxHeartbeats 4800000 in
/-- The body at any point: the inputs' memrefs hold their blocks; the closed forms say which case the point is in;
    the invariant hands the body the scratch row at what the point before left (at anything at the first point) and
    takes it back at this point's contents; the core owes nothing throughout. -/
theorem sound_body1 (c : Dev nD) (t : Fin cfg1.N) :
    bodyPre1 (UU := UU) V Rec c t ⊢ wp frame (wpE (defs₀ (F := F)) Variants.none c none) Set.univ (bodyAt1 t) (fun _ => bodyPost1 (UU := UU) V Rec c t) := by
  unfold bodyPre1 bodyPost1 bodyAt1
  simp only [before1_0, before1_1]
  rw [show (dat1 (UU := UU) V Rec c).owesAt (none : HIx 1) t.succ = (dat1 (UU := UU) V Rec c).owesAt (none : HIx 1) t.castSucc from rfl]
  rw [show (dat1 (UU := UU) V Rec c).Φ t.succ = PhiS1 (UU := UU) V c (t.val + 1) t.isLt from rfl, PhiS1_succ]
  rw [show (dat1 (UU := UU) V Rec c).leavesExact 0 t = owns (c : Thread nD τ) (ms1_0 t) fullShare ((dat1 (UU := UU) V Rec c).after 0 t) from by
    unfold Dat.leavesExact; rw [liveAt1_0 t], after1_0]
  rw [show (dat1 (UU := UU) V Rec c).leavesExact 1 t = owns (c : Thread nD τ) (ms1_1 t) fullShare ((dat1 (UU := UU) V Rec c).after 1 t) from by
    unfold Dat.leavesExact; rw [liveAt1_1 t], after1_1]
  rw [show (dat1 (UU := UU) V Rec c).leavesExact 2 t = owns (c : Thread nD τ) (ms1_2 t) fullShare ((dat1 (UU := UU) V Rec c).after 2 t) from by
    unfold Dat.leavesExact; rw [liveAt1_2 t], after1_2]
  have hN : t.val < 25 := lt_of_lt_of_eq t.isLt (show cfg1.N = 25 from N_1)
  by_cases h0 : t.val = 0
  · have h1 : ¬t.val = 24 := by omega
    rw [Dat.leavesExact_idle (dat1 (UU := UU) V Rec c) 3 t (idleAt1_3 t (fun h => h1 ((hcond1_1 t).mp h))) (noFlush1_3 t (fun h => h1 ((hcond1_1 t).mp h)))]
    rw [sAt1_zero V c t h0, PhiS1_castSucc, PhiS1_zero V c _ _ h0, ΦS1_eq]
    iintro ⟨⟨⟨HS, Hrest⟩, Hg⟩, Ho, ⟨%d0, H0⟩, ⟨%d1, H1⟩, ⟨%d2, H2⟩, ⟨%d3, H3⟩⟩
    iapply (sound_kernel1_A (UU := UU) c Set.univ (grid1.coords t) _ _ _ _ _ _ _ _ _ _ ((hcond1_0 t).mpr h0) (fun h => h1 ((hcond1_1 t).mp h)) (iblk1 V c 0 t) (iblk1 V c 1 t) ((dat1 (UU := UU) V Rec c).before 3 t d3) _)
    isplitl [H0]; · iexact H0
    isplitl [H1]; · iexact H1
    isplitl [H2]; · iexists _; iexact H2
    isplitl [H3]; · iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexists _; iexact H3
  · rw [sAt1_pos V c t h0, PhiS1_castSucc, PhiS1_pos V c _ _ h0]
    by_cases h1 : t.val = 24
    · rw [show (dat1 (UU := UU) V Rec c).leavesExact 3 t = owns (c : Thread nD τ) (ms1_3 t) fullShare ((dat1 (UU := UU) V Rec c).after 3 t) from by
        unfold Dat.leavesExact; rw [liveAt1_3 t ((hcond1_1 t).mpr h1)], after1_3]
      unfold sPrev
      iintro ⟨⟨⟨HS, Hrest⟩, Hg⟩, Ho, ⟨%d0, H0⟩, ⟨%d1, H1⟩, ⟨%d2, H2⟩, ⟨%d3, H3⟩⟩
      iapply (sound_kernel1_C (UU := UU) c Set.univ (grid1.coords t) _ _ _ _ _ _ _ _ _ _ (fun h => h0 ((hcond1_0 t).mp h)) ((hcond1_1 t).mpr h1) (iblk1 V c 0 t) (iblk1 V c 1 t) _ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [Dat.leavesExact_idle (dat1 (UU := UU) V Rec c) 3 t (idleAt1_3 t (fun h => h1 ((hcond1_1 t).mp h))) (noFlush1_3 t (fun h => h1 ((hcond1_1 t).mp h)))]
      iintro ⟨⟨⟨HS, Hrest⟩, Hg⟩, Ho, ⟨%d0, H0⟩, ⟨%d1, H1⟩, ⟨%d2, H2⟩, ⟨%d3, H3⟩⟩
      iapply (sound_kernel1_B (UU := UU) c Set.univ (grid1.coords t) _ _ _ _ _ _ _ _ _ _ (fun h => h0 ((hcond1_0 t).mp h)) (fun h => h1 ((hcond1_1 t).mp h)) (iblk1 V c 0 t) (iblk1 V c 1 t) ((dat1 (UU := UU) V Rec c).before 3 t d3) _ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) :
    BodyObligation (dat1 (F := F) (UU := UU) V Rec c) (defs₀ (F := F)) Variants.none (none : HIx 1) Set.univ := fun t => by
  rw [bigSep_W1, bigSep_W1]
  exact sound_body1 (UU := UU) V Rec c t

/-! ## Into the region and out of it -/

/-- What the launch hands the region is the invariant before the first point. -/
theorem hin1 (c : Dev nD) :
    iprop((∃ r, prngReg c r) ∗ Pipeline.scopedRest (Ix := HIx 1) (Name := ℕ) (U := UU) (Lvl := ℕ) (Val := Elt F) spec1 c) ⊢ (dat1 (UU := UU) V Rec c).Φ 0 := by
  rw [show (dat1 (UU := UU) V Rec c).Φ 0 = ΦS spec1 c from rfl]; unfold ΦS
  iintro ⟨Hp, Hr⟩
  isplitl [Hr]; · iexact Hr
  iexact Hp

/-- After the last point the invariant gives the plain one back: the scratch row's contents are forgotten. -/
theorem hout1 (c : Dev nD) :
    (dat1 (UU := UU) V Rec c).Φ (Fin.last cfg1.N) ⊢ iprop((∃ r, prngReg c r) ∗ Pipeline.scopedRest (Ix := HIx 1) (Name := ℕ) (U := UU) (Lvl := ℕ) (Val := Elt F) spec1 c) := by
  have hne : (Fin.last cfg1.N).val ≠ 0 := by rw [Fin.val_last]; have : cfg1.N = 25 := N_1; omega
  have hΦ : (dat1 (UU := UU) V Rec c).Φ (Fin.last cfg1.N) ⊢ (ΦS spec1 c : sProp 𝕄) := by
    rw [show (dat1 (UU := UU) V Rec c).Φ (Fin.last cfg1.N) = PhiS1 (UU := UU) V c (Fin.last cfg1.N).val (Nat.le_of_lt_succ (Fin.last cfg1.N).isLt) from rfl,
      PhiS1_pos V c _ _ hne, ΦS1_eq]
    iintro ⟨⟨HS, Hrest⟩, Hg⟩
    isplitl [HS Hrest]
    · isplitl [HS]; · iexists _; iexact HS
      iexact Hrest
    iexact Hg
  refine hΦ.trans ?_
  unfold ΦS
  iintro ⟨Hr, Hp⟩
  isplitl [Hp]; · iexact Hp
  iexact Hr

end Cert.Proof.KI

end
-- ==== Proof.Reg1.lean ====
/-
  The first pallas_call's proof data as the assembly takes it: the data (each input's staging buffer at its block, the
  similarity block and the running sum of exponentials after each grid point, the log of the sum written at the last
  point), what it owes (nothing), the bound on its recorded waits, how its invariant is entered and left, and the body
  obligation.
-/
import proofs.«207136_g6528350290482_cont_9to1c4b_434_22_alg».proof.Proof.Reads
import proofs.«207136_g6528350290482_cont_9to1c4b_434_22_alg».proof.Proof.Tc1

noncomputable section

namespace Cert.Proof.KI

open Cert.KernelIdeal Cert.KernelIdeal.Gen
open Idealize.ShloMosaic Idealize.ShloMosaic.TcCoe
open Idealize.ShloMosaic.SparseCore.Cfg (HIx)
open Idealize.SL Idealize.SL.Sem

variable {F : FTy → Type} [FloatOps F]

def reg1Data : Reg1Data (F := F) where
  dat := fun Vv Rc c => dat1 (UU := UU) Vv Rc c
  hA := fun Vv Rc c w => A_eq1 (UU := UU) Vv Rc c w
  hq := fun _ _ _ _ => rfl
  howed := fun _ _ _ _ => rfl
  hrec := fun _ _ _ _ => rfl
  hin := fun Vv Rc c => hin1 (UU := UU) Vv Rc c
  hout := fun Vv Rc c => hout1 (UU := UU) Vv Rc c
  hbody := fun Vv Rc c => body_obligation1 (UU := UU) Vv Rc c

end Cert.Proof.KI

end
-- ==== Proof.ScPay.lean ====
/-
  What the handshakes of the one SparseCore call carry, and the array it computes.

  The call gathers, for each of the 1024 batch rows b, row t[b] of the table of class rows (100000 rows of 128
  features) into row b of the result. The work is cut among 2 SparseCores of 16 vector subcores each: subcore s of
  SparseCore c is task w = 2 s + c of 32, and task w handles the 32 batch rows 32 w, …, 32 w + 31.

  * `PreOK`: every class number names a row of the table.
  * `gathered`: the whole result as one function of the launch memory: entry (b, f) is the table at
    (t[b], f) (the row reduced into the table's range, which changes nothing under `PreOK`).
  * `P`: what task w is handed — its 32 class numbers, a share of the whole table (the full share cut in 32
    pieces), its block of 32 rows of the result at the launch contents — and what it hands back — the same, its block
    at `gathered`. A SparseCore is handed, and hands back, what its sixteen tasks are.
-/
import proofs.«207136_g6528350290482_cont_9to1c4b_434_22_alg».proof.Proof.ScBase
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

/-! ## The precondition and the result -/

/-- Every class number names a row of the table. -/
def PreOK : Prop := ∀ (d : Dev nD) (j : S1024.Idx), (m (tLoc d) j).toNat < 100000

/-- The class row of batch row `b`, as a row of the table (reduced into range). -/
def rowOfB (d : Dev nD) (b : Fin 1024) : Fin 100000 :=
  ⟨(m (tLoc d) (ix1 b)).toNat % 100000, Nat.mod_lt _ (by omega)⟩

/-- The gathered rows: entry `(b, f)` is the table at `(t[b], f)`. -/
def gathered (d : Dev nD) : Buf (Elt F) (oLoc d) :=
  fun x : S1024x128.Idx => m (vLoc d) (ix2 (rowOfB m d (x 0)) (x 1))

theorem gathered_apply (d : Dev nD) (b : Fin 1024) (f : Fin 128) :
    gathered m d (ix2 b f) = m (vLoc d) (ix2 (rowOfB m d b) f) := rfl

theorem rowOfB_val (hpre : PreOK m) (d : Dev nD) (b : Fin 1024) : (rowOfB m d b).val = (m (tLoc d) (ix1 b)).toNat :=
  Nat.mod_eq_of_lt (hpre d _)

/-! ## The arrays as the vector subcores name them; the 32 blocks of rows; the 32 shares of the table -/

local notation "tV" => (Memref.whole Cert.KernelIdeal.main_arg1_scv : Memref Cert.KernelIdeal.sig Kind.scVector Space.hbm Cert.KernelIdeal.S1024 EltTy.i32)
local notation "oV" => (Memref.whole Cert.KernelIdeal.main_v0_scv : Memref Cert.KernelIdeal.sig Kind.scVector Space.hbm Cert.KernelIdeal.S1024x128 EltTy.f32)

theorem tdiv : 32 ∣ S1024.size 0 := ⟨32, rfl⟩
theorem odiv : 32 ∣ S1024x128.size 0 := ⟨32, rfl⟩
/-- Block `w` of the class numbers: 32 consecutive ones. -/
abbrev trow (w : Fin 32) : Rect S1024 := Rect.part (s := S1024) (a₀ := 0) tdiv w
/-- Block `w` of the result: 32 consecutive rows, whole. -/
abbrev orow (w : Fin 32) : Rect S1024x128 := Rect.part (s := S1024x128) (a₀ := 0) odiv w
abbrev tRowSet (w : Fin 32) : Finset S1024.Idx := ((tV).view.slice (trow w)).set
abbrev oRowSet (w : Fin 32) : Finset S1024x128.Idx := ((oV).view.slice (orow w)).set

/-- Task `w`'s share of the table: piece `w` of the full share cut in 32. -/
abbrev vq (w : Fin 32) : PosShare TreeShare := pieceOf fullShare 32 (by omega) w

/-- The task that vector subcore `i` of SparseCore `c` is. -/
def wOf (c : Fin 2) (i : Fin 16) : Fin 32 := ⟨2 * i.val + c.val, by omega⟩

/-! ## What the handshakes carry -/

abbrev tPts (d : Dev nD) : sProp 𝕄 := tLoc d ↦{fullShare} m (tLoc d)
abbrev vPts (d : Dev nD) : sProp 𝕄 := vLoc d ↦{fullShare} m (vLoc d)
abbrev oPts (d : Dev nD) (f : Buf (Elt F) (oLoc d)) : sProp 𝕄 := oLoc d ↦{fullShare} f
abbrev tRowPts (d : Dev nD) (w : Fin 32) : sProp 𝕄 := tLoc d ↦[tRowSet w]{fullShare} m (tLoc d)
abbrev vShPts (d : Dev nD) (w : Fin 32) : sProp 𝕄 := vLoc d ↦{vq w} m (vLoc d)
abbrev oRowPts (d : Dev nD) (w : Fin 32) (f : Buf (Elt F) (oLoc d)) : sProp 𝕄 := oLoc d ↦[oRowSet w]{fullShare} f

/-- What task `w` takes: its class numbers, its share of the table, its block of the result as launched. -/
abbrev goA (d : Dev nD) (w : Fin 32) : sProp 𝕄 := iprop(tRowPts m d w ∗ vShPts m d w ∗ oRowPts d w (m (oLoc d)))
/-- What task `w` brings back: the same, its block of the result holding the gathered rows. -/
abbrev tdA (d : Dev nD) (w : Fin 32) : sProp 𝕄 := iprop(tRowPts m d w ∗ vShPts m d w ∗ oRowPts d w (gathered m d))

/-- The one call: each vector subcore takes and brings back its task's part; a SparseCore what its sixteen do. -/
def P : (K (F := F)).Pay (nD := nD) (Val := Elt F) (Name := ℕ) (U := UU) where
  st := fun q d c => match q with
    | 0 => bigSep Finset.univ fun i : Fin ((K (F := F)).nSub 0) => goA m d (wOf (Fin.cast nCore_zero c) (Fin.cast nSub_zero i))
  dn := fun q d c => match q with
    | 0 => bigSep Finset.univ fun i : Fin ((K (F := F)).nSub 0) => tdA m d (wOf (Fin.cast nCore_zero c) (Fin.cast nSub_zero i))
  go := fun q d c i => match q with
    | 0 => goA m d (wOf (Fin.cast nCore_zero c) (Fin.cast nSub_zero i))
  td := fun q d c i => match q with
    | 0 => tdA m d (wOf (Fin.cast nCore_zero c) (Fin.cast nSub_zero i))
  x := fun _ _ => iprop(emp)

theorem P_st (d : Dev nD) (c : Fin ((K (F := F)).nCore 0)) :
    (P (UU := UU) m).st 0 d c = bigSep Finset.univ fun i : Fin ((K (F := F)).nSub 0) => goA m d (wOf (Fin.cast nCore_zero c) (Fin.cast nSub_zero i)) := rfl
theorem P_dn (d : Dev nD) (c : Fin ((K (F := F)).nCore 0)) :
    (P (UU := UU) m).dn 0 d c = bigSep Finset.univ fun i : Fin ((K (F := F)).nSub 0) => tdA m d (wOf (Fin.cast nCore_zero c) (Fin.cast nSub_zero i)) := rfl
theorem P_go (d : Dev nD) (c : Fin ((K (F := F)).nCore 0)) (i : Fin ((K (F := F)).nSub 0)) :
    (P (UU := UU) m).go 0 d c i = goA m d (wOf (Fin.cast nCore_zero c) (Fin.cast nSub_zero i)) := rfl
theorem P_td (d : Dev nD) (c : Fin ((K (F := F)).nCore 0)) (i : Fin ((K (F := F)).nSub 0)) :
    (P (UU := UU) m).td 0 d c i = tdA m d (wOf (Fin.cast nCore_zero c) (Fin.cast nSub_zero i)) := rfl
theorem P_x (q : Fin 1) (thr : Thread nD τ) : (P (UU := UU) m).x q thr = iprop(emp) := rfl
theorem P_ox : (P (UU := UU) m).ox = fun _ _ => 0 := rfl

instance P_storable : (P (UU := UU) m).IsStorable where
  st q d c := match q with
    | 0 => (inferInstance : BI.Storable (upEmb : UEmb _ 𝕄)
      (bigSep Finset.univ fun i : Fin ((K (F := F)).nSub 0) => goA m d (wOf (Fin.cast nCore_zero c) (Fin.cast nSub_zero i))))
  dn q d c := match q with
    | 0 => (inferInstance : BI.Storable (upEmb : UEmb _ 𝕄)
      (bigSep Finset.univ fun i : Fin ((K (F := F)).nSub 0) => tdA m d (wOf (Fin.cast nCore_zero c) (Fin.cast nSub_zero i))))
  go q d c i := match q with
    | 0 => (inferInstance : BI.Storable (upEmb : UEmb _ 𝕄) (goA m d (wOf (Fin.cast nCore_zero c) (Fin.cast nSub_zero i))))
  td q d c i := match q with
    | 0 => (inferInstance : BI.Storable (upEmb : UEmb _ 𝕄) (tdA m d (wOf (Fin.cast nCore_zero c) (Fin.cast nSub_zero i))))

end Cert.Proof.KI

end
-- ==== Proof.ScPlace.lean ====
/-
  The place of one task of the SparseCore call: grid point L = (c, s) is task w = 2 s + c of 32. The blocks of the
  class numbers and of the result that the task addresses (through the offsets the program computes) are blocks w
  of the cut of those arrays into 32; the task's own scratch buffers and DMA semaphores among its subcore's.
-/
import proofs.«207136_g6528350290482_cont_9to1c4b_434_22_alg».proof.Proof.ScPay
import proofs.«207136_g6528350290482_cont_9to1c4b_434_22_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

local notation "tV" => (Memref.whole Cert.KernelIdeal.main_arg1_scv : Memref Cert.KernelIdeal.sig Kind.scVector Space.hbm Cert.KernelIdeal.S1024 EltTy.i32)
local notation "vV" => (Memref.whole Cert.KernelIdeal.main_arg5_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

/-! ## The place -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The task at grid point `L`. -/
abbrev wL (L : grid0.Coords) : Fin 32 :=
  ⟨2 * (L 1).val + (L 0).val, by have h0 : (L 0).val < 2 := (L 0).isLt; have h1 : (L 1).val < 16 := (L 1).isLt; omega⟩

theorem wL_val : (wL L).val = 2 * (L 1).val + (L 0).val := rfl

abbrev trowK (L : grid0.Coords) : Rect S1024 := Rect.unit (s := S1024) (k0_off1 L) S32.size (k0_off1_inb L)
abbrev orowK (L : grid0.Coords) : Rect S1024x128 := Rect.unit (s := S1024x128) (k0_off2 L) S32x128.size (k0_off2_inb L)
/-- Block `wL L` of the class numbers and of the result, and all of the table, as the task addresses them. -/
abbrev tRowK (L : grid0.Coords) : Memref sig .scVector .hbm S32 .i32 := (tV).slice (trowK L) (fun _ => rfl)
abbrev oRowK (L : grid0.Coords) : Memref sig .scVector .hbm S32x128 .f32 := (oV).slice (orowK L) (fun _ => rfl)
abbrev vAllK : Memref sig .scVector .hbm S100000x128 .f32 := (vV).slice (Rect.unit (s := S100000x128) ![0, 0] S100000x128.size inb_S100000x128_S100000x128_0_0) (fun _ => rfl)

theorem trowK_eq : trowK L = trow (wL L) := by
  unfold trowK trow Rect.part Rect.block
  congr 1 <;> funext a
  · rw [k0_off1_eq]
    match a with
    | 0 => simp [Shape.partIx, Shape.partSize]; omega
  · match a with
    | 0 => simp [Shape.partSize]
theorem orowK_eq : orowK L = orow (wL L) := by
  unfold orowK orow Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

theorem set_tRowK : (tRowK L).view.set = tRowSet (wL L) := by
  show ((tV).view.slice (trowK L)).set = ((tV).view.slice (trow (wL L))).set
  rw [trowK_eq]
theorem set_oRowK : (oRowK L).view.set = oRowSet (wL L) := by
  show ((oV).view.slice (orowK L)).set = ((oV).view.slice (orow (wL L))).set
  rw [orowK_eq]

theorem pts_tRowK (f : Buf (Elt F) (tLoc d)) :
    ((tRowK L).view.loc (V d (cV L) (jV L)) ↦[(tRowK L).view.set]{fullShare} f : sProp 𝕄) = tLoc d ↦[tRowSet (wL L)]{fullShare} f := by
  rw [set_tRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_vV (q : PosShare TreeShare) (f : Buf (Elt F) (vLoc d)) :
    ((vV).view.loc (V d (cV L) (jV L)) ↦{q} f : sProp 𝕄) = vLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

end Tile

section Own

variable (d : Dev nD) (L : grid0.Coords)

/-- The three DMA semaphores of the task: the index fetch's, the gather's, the copy-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Own

end Cert.Proof.KI

end
-- ==== Proof.ScValue.lean ====
/-
  The value one task leaves in its block of the result.

  The index fetch lands block w of the class numbers t in the index scratch; the stream's payload is, at (k, f), the
  table at (row named by word k of the scratch, f); the copy-out writes the row scratch's contents to rows
  32 w .. 32 w + 31 of the result. So entry (32 w + k, f) of the result is the table at (t[32 w + k], f): the
  whole-array function `gathered` on the block.
-/
import proofs.«207136_g6528350290482_cont_9to1c4b_434_22_alg».proof.Proof.ScPlace

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

local notation "tV" => (Memref.whole Cert.KernelIdeal.main_arg1_scv : Memref Cert.KernelIdeal.sig Kind.scVector Space.hbm Cert.KernelIdeal.S1024 EltTy.i32)
local notation "vV" => (Memref.whole Cert.KernelIdeal.main_arg5_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

variable (d : Dev nD) (L : grid0.Coords)

/-- What the index fetch lands: block `wL L` of the class numbers. -/
abbrev landed (L : grid0.Coords) : S32.Idx → Elt F .i32 := (tRowK L).view.read (Elt F) (m (tLoc d))

/-- Word `k` of what the fetch lands is class number `32 w + k`. -/
theorem landed_apply (k : S32.Idx) : landed m d L k = m (tLoc d) ((tRowK L).view.emb k) :=
  (View.read_apply _ _).trans (cast_eq _ _)

/-- The offsets the stream reads are in range: what the index fetch landed in its scratch is block `wL L` of the
    class numbers, each naming a row of the table. -/
theorem inb_of_pre (hpre : PreOK m) (fs : Buf (Elt F) ((V d (cV L) (jV L)).loc cc0_scratch0)) (pay : S32.Idx → Elt F .i32)
    (hpay : pay = landed m d L) :
    ∀ x, ((sV).view.read (Elt F) (View.write (Elt F) (sV).view fs pay Finset.univ) x).toNat < S100000x128.size gathers_S100000x128_S32x128.axis := by
  subst hpay; intro x
  rw [View.read_write_univ, landed_apply]
  exact hpre d _

/-- The class number under word `k` of block `wL L` sits at `32 w + k`; so does row `k` of block `wL L` of the result. -/
theorem tRowK_emb_val (k : S32.Idx) : (((tRowK L).view.emb k) 0).val = 32 * (wL L).val + (k 0).val := by
  show (k0_off1 L) 0 + 1 * (k 0).val = _
  rw [k0_off1_eq]; simp; omega
theorem oRowK_emb_val0 (j : S32x128.Idx) : (((oRowK L).view.emb j) 0).val = 32 * (wL L).val + (j 0).val := by
  show (k0_off2 L) 0 + 1 * (j 0).val = _
  rw [k0_off2_eq]; simp; omega
theorem oRowK_emb_val1 (j : S32x128.Idx) : (((oRowK L).view.emb j) 1).val = (j 1).val := by
  show (k0_off2 L) 1 + 1 * (j 1).val = _
  rw [k0_off2_eq]; simp

/-- A rank-one index of 32 is its row-major position. -/
theorem rowMajor_symm_val (k : Fin S32.numel) : ((S32.rowMajor.symm k) 0).val = k.val := by
  have h := Shape.rowMajor_val_one (d := ![32]) (S32.rowMajor.symm k)
  rw [Equiv.apply_symm_apply] at h
  exact h.symm

/-- The table as the stream addresses it is the table. -/
theorem vAllK_emb (y : S100000x128.Idx) : (vAllK).view.emb y = y := by
  funext a
  match a with
  | 0 => exact Fin.ext (by show 0 + 1 * (y 0).val = (y 0).val; omega)
  | 1 => exact Fin.ext (by show 0 + 1 * (y 1).val = (y 1).val; omega)

/-- The row the stream reads for its entry `k`: the class number of batch row `32 w + k`. -/
theorem row_val (fs : Buf (Elt F) ((V d (cV L) (jV L)).loc cc0_scratch0))
    (hin : ∀ x, ((sV).view.read (Elt F) (View.write (Elt F) (sV).view fs (landed m d L) Finset.univ) x).toNat < S100000x128.size gathers_S100000x128_S32x128.axis)
    (k : Fin (S32x128.size gathers_S100000x128_S32x128.axis')) (b : Fin 1024) (hb : b.val = 32 * (wL L).val + k.val) :
    (SparseCore.rows ((sV).view.read (Elt F) (View.write (Elt F) (sV).view fs (landed m d L) Finset.univ)) (rfl : S32.numel = S32x128.size gathers_S100000x128_S32x128.axis') hin k).val
      = (m (tLoc d) (ix1 b)).toNat := by
  show ((sV).view.read (Elt F) (View.write (Elt F) (sV).view fs (landed m d L) Finset.univ) (S32.rowMajor.symm (k.cast rfl))).toNat = _
  rw [View.read_write_univ, landed_apply]
  congr 2
  funext a
  match a with
  | 0 => exact Fin.ext (by rw [tRowK_emb_val, rowMajor_symm_val]; exact hb.symm)

/-- The gather's payload over what the fetch landed, read through the row scratch and written through block `wL L`
    of the result, is `gathered` on that block. -/
theorem out_value (hpre : PreOK m) (fs : Buf (Elt F) ((V d (cV L) (jV L)).loc cc0_scratch0)) (fr : Buf (Elt F) ((V d (cV L) (jV L)).loc cc0_scratch1))
    (hin : ∀ x, ((sV).view.read (Elt F) (View.write (Elt F) (sV).view fs (landed m d L) Finset.univ) x).toNat < S100000x128.size gathers_S100000x128_S32x128.axis)
    (pay : S32x128.Idx → Elt F .f32)
    (hpay : pay = (rV).view.read (Elt F) ((rV).view.write (Elt F) fr
        (SparseCore.gatherPayload gathers_S100000x128_S32x128 ((vAllK).view.read (Elt F) (m (vLoc d)))
          (SparseCore.rows ((sV).view.read (Elt F) (View.write (Elt F) (sV).view fs (landed m d L) Finset.univ)) rfl hin)) Finset.univ)) :
    ∀ i ∈ (oRowK L).view.set, View.write (Elt F) (oRowK L).view (m (oLoc d)) pay Finset.univ i = gathered m d i := by
  subst hpay
  intro i hi
  obtain ⟨j, -, rfl⟩ := Finset.mem_map.mp hi
  rw [View.write_emb_of_mem _ _ (Finset.mem_univ j), View.read_write_univ]
  unfold SparseCore.gatherPayload
  rw [View.read_apply]
  simp only [cast_eq]
  unfold gathered
  refine congrArg (m (vLoc d)) ?_
  rw [vAllK_emb]
  funext a
  match a with
  | 0 =>
    refine Fin.ext ?_
    have h1 := congrArg Fin.val (Shape.Gathers.idx_axis gathers_S100000x128_S32x128
      (SparseCore.rows ((sV).view.read (Elt F) (View.write (Elt F) (sV).view fs (landed m d L) Finset.univ)) (rfl : S32.numel = S32x128.size gathers_S100000x128_S32x128.axis') hin) j)
    have h2 := row_val m d L fs hin (j gathers_S100000x128_S32x128.axis') (((oRowK L).view.emb j) 0) (oRowK_emb_val0 L j)
    exact h1.trans (h2.trans (rowOfB_val m hpre d _).symm)
  | 1 =>
    refine Fin.ext ?_
    have h1 := Shape.Gathers.idx_of_ne gathers_S100000x128_S32x128
      (SparseCore.rows ((sV).view.read (Elt F) (View.write (Elt F) (sV).view fs (landed m d L) Finset.univ)) (rfl : S32.numel = S32x128.size gathers_S100000x128_S32x128.axis') hin) j 1 (by decide)
    exact h1.trans (oRowK_emb_val1 L j).symm

/-- The whole rectangle of the row scratch's shape places every index at itself. -/
theorem whole_emb32 (j : S32x128.Idx) : (Rect.whole S32x128).emb j = j := by
  funext a; exact Fin.ext (by show 0 + 1 * (j a).val = (j a).val; omega)

/-- The same, the copy-out's write kept as the one whole piece of a list of writes. -/
theorem out_value_writes (hpre : PreOK m) (fs : Buf (Elt F) ((V d (cV L) (jV L)).loc cc0_scratch0)) (fr : Buf (Elt F) ((V d (cV L) (jV L)).loc cc0_scratch1))
    (hin : ∀ x, ((sV).view.read (Elt F) (View.write (Elt F) (sV).view fs (landed m d L) Finset.univ) x).toNat < S100000x128.size gathers_S100000x128_S32x128.axis)
    (pay : S32x128.Idx → Elt F .f32)
    (hpay : pay = (rV).view.read (Elt F) ((rV).view.write (Elt F) fr
        (SparseCore.gatherPayload gathers_S100000x128_S32x128 ((vAllK).view.read (Elt F) (m (vLoc d)))
          (SparseCore.rows ((sV).view.read (Elt F) (View.write (Elt F) (sV).view fs (landed m d L) Finset.univ)) rfl hin)) Finset.univ)) :
    ∀ i ∈ (oRowK L).view.set, (oRowK L).view.writes (Elt F) (m (oLoc d)) [⟨Rect.whole S32x128, pay⟩] i = gathered m d i := by
  intro i hi
  rw [← out_value m d L hpre fs fr hin pay hpay i hi]
  obtain ⟨j, -, rfl⟩ := Finset.mem_map.mp hi
  have e : ((oRowK L).view.slice (Rect.whole S32x128)).emb j = (oRowK L).view.emb j := by
    show (oRowK L).view.emb ((Rect.whole S32x128).emb j) = _
    rw [whole_emb32]
  rw [View.writes_singleton]
  conv_lhs => rw [← e]
  rw [View.write_emb_of_mem _ _ (Finset.mem_univ j), View.write_emb_of_mem _ _ (Finset.mem_univ j)]

end Cert.Proof.KI

end
-- ==== Proof.ScTile.lean ====
/-
  The task of one vector subcore of the SparseCore call, at a symbolic place, and the call's obligation.

  Task w = 2 s + c (subcore s of SparseCore c) fetches class numbers t[32 w .. 32 w + 31] into its index scratch
  and waits; gathers the rows of the table those numbers name into its row scratch (the indirect stream) and waits;
  copies the row scratch out to rows 32 w .. 32 w + 31 of the result and waits. Each transfer completes on a DMA
  semaphore of its own, held at zero before and after. The task returns its class numbers and its share of the
  table unchanged and its block of the result holding the gathered rows.
-/
import proofs.«207136_g6528350290482_cont_9to1c4b_434_22_alg».proof.Proof.ScValue
import proofs.«207136_g6528350290482_cont_9to1c4b_434_22_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

local notation "tV" => (Memref.whole Cert.KernelIdeal.main_arg1_scv : Memref Cert.KernelIdeal.sig Kind.scVector Space.hbm Cert.KernelIdeal.S1024 EltTy.i32)
local notation "vV" => (Memref.whole Cert.KernelIdeal.main_arg5_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

variable [FloatOps F]

section Tile

variable (d : Dev nD) (L : grid0.Coords)

set_option maxHeartbeats 4000000 in
/-- The task on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tRowPts m d (wL L) ∗ vShPts m d (wL L) ∗ oRowPts d (wL L) (m (oLoc d)))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0_k L vV (Memref.isWhole_whole _) tV (Memref.isWhole_whole _) oV (Memref.isWhole_whole _)
            sV (Memref.isWhole_whole _) rV (Memref.isWhole_whole _) cc0_scratch2 cc0_scoped0 cc0_scoped1)
          fun _ => iprop((tRowPts m d (wL L) ∗ vShPts m d (wL L) ∗ oRowPts d (wL L) (gathered m d))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_tRowK (F := F) d L _).symm) $$ Hi
  ihave Ho' := (Entails.of_eq (pts_oRowK (F := F) d L _).symm) $$ Ho
  ihave Hx' := (Entails.of_eq (pts_vV (F := F) d L _ _).symm) $$ Hx
  ihave Hs' := (Entails.of_eq (pts_sV (F := F) d L _).symm) $$ Hs
  ihave Hr' := (Entails.of_eq (pts_rV (F := F) d L _).symm) $$ Hr
  sl_exec
  -- THE INDIRECT GATHER: the stream over the fetched class numbers. The task hands in its share of the table, the row
  -- scratch, the index scratch whole and the gather's cell at zero; the words are in range by the precondition.
  ihave Hxs := (pointsTo_split_subset (q := vq (wL L)) (f := m (vLoc d)) (S := Finset.univ) (Finset.subset_univ (vAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hN : ∀ h : S100000x128.Gathers 0 S32x128, ∑ j, ((rV).slice (S32x128.rowRect h.axis' j) (S32x128.stride_rowRect h.axis' j)).view.dmaCredit
      = (rV).view.dmaCredit := by decide
  iapply (SparseCore.wp_indirectGatherLocal countersEmb 𝒱₀ (V d (cV L) (jV L)) none (hg := gathers_S100000x128_S32x128) (default : HIx 1)
      (rV).view.dmaCredit (hN _) (by decide) (inb_of_pre m d L hpre fs _ rfl)) $$ [Hxs Hr'' Hs'' HsemB]
  · isplitl [Hxs]; · iexact Hxs
    isplitl [Hr'']; · iexact Hr''
    isplitl [Hs'']; · iexact Hs''
    iexact HsemB
  iintro Hfl
  sl_exec
  -- ITS WAIT: the row scratch written with the gathered rows, the share of the table and the index scratch back,
  -- the cell at zero, the wait recorded.
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := vq (wL L)) (f := m (vLoc d)) (S := Finset.univ) (Finset.subset_univ (vAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  -- The post: the class numbers and the share of the table as they came; the block of the result, written with the
  -- row scratch's contents, holds the gathered rows there (out_value_writes); scratch, cells, the waits recorded.
  isplitl [Hi' Hx' Ho']
  · isplitl [Hi']; · iapply (Entails.of_eq (pts_tRowK (F := F) d L _)); iexact Hi'
    isplitl [Hx']; · iexact Hx'
    iapply (Entails.of_eq ((pointsTo_congr (out_value_writes m d L hpre fs fr (inb_of_pre m d L hpre fs _ rfl) _ rfl)).trans
      (pts_oRowK (F := F) d L (gathered m d)))); iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          vV (Memref.isWhole_whole _) tV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P (UU := UU) m) v₀ 0 := by
  intro d c i O W hO _ _
  simp only [show (P (UU := UU) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.KI

end
-- ==== Proof.ScSplit.lean ====
/-
  How the arrays of the SparseCore call split among its 32 tasks and join again.

  The 1024 class numbers and the 1024 rows of the result are cut into 32 blocks of 32 (disjoint, covering); the
  table, which every task reads whole, goes out as the 32 pieces of its full share. Task w = 2 s + c is subcore
  s of SparseCore c, so the family over the 32 tasks is the family over the 2 SparseCores of the families over
  their 16 subcores. A SparseCore is handed exactly what its subcores are (the split is the identity).
-/
import proofs.«207136_g6528350290482_cont_9to1c4b_434_22_alg».proof.Proof.ScPay

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

/-! ## The blocks split and join; the shares of the table -/

theorem tRowSet_eq (w : Fin 32) : tRowSet w = (trow w).set := by
  show ((View.whole (main_arg1_scv : Ref sig .scVector)).slice (trow w)).set = _
  rw [View.set_slice]; exact Finset.map_refl
theorem oRowSet_eq (w : Fin 32) : oRowSet w = (orow w).set := by
  show ((View.whole (main_v0_scv : Ref sig .scVector)).slice (orow w)).set = _
  rw [View.set_slice]; exact Finset.map_refl
theorem trows_disjoint : ∀ i ∈ (Finset.univ : Finset (Fin 32)), ∀ j ∈ (Finset.univ : Finset (Fin 32)), i ≠ j → Disjoint (tRowSet i) (tRowSet j) :=
  fun i _ j _ h => by rw [tRowSet_eq, tRowSet_eq]; exact Rect.part_disjoint tdiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem trows_cover : (Finset.univ : Finset (Fin 32)).biUnion tRowSet = Finset.univ :=
  (Finset.biUnion_congr rfl fun i _ => tRowSet_eq i).trans (Rect.biUnion_part tdiv)
theorem orows_cover : (Finset.univ : Finset (Fin 32)).biUnion oRowSet = Finset.univ :=
  (Finset.biUnion_congr rfl fun i _ => oRowSet_eq i).trans (Rect.biUnion_part odiv)

theorem tPts_rows (d : Dev nD) (f : Buf (Elt F) (tLoc d)) :
    (tLoc d ↦{fullShare} f : sProp 𝕄) = bigSep Finset.univ fun w : Fin 32 => tLoc d ↦[tRowSet w]{fullShare} f := by
  rw [← pointsTo_biUnion Finset.univ (ℓ := tLoc d) tRowSet trows_disjoint, trows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
theorem vPts_shares (d : Dev nD) (f : Buf (Elt F) (vLoc d)) :
    (vLoc d ↦{fullShare} f : sProp 𝕄) = bigSep Finset.univ fun w : Fin 32 => vLoc d ↦{vq w} f :=
  pointsTo_piecesOf Finset.univ f (by omega) fullShare

/-! ## Tasks by SparseCore and subcore -/

/-- Subcore `i` of SparseCore `c` is task `2 i + c`: a bijection onto the 32 tasks. -/
def tileEquiv : Fin 2 × Fin 16 ≃ Fin 32 where
  toFun p := wOf p.1 p.2
  invFun w := (⟨w.val % 2, Nat.mod_lt _ (by omega)⟩, ⟨w.val / 2, by omega⟩)
  left_inv p := by
    obtain ⟨c, i⟩ := p
    refine Prod.ext (Fin.ext ?_) (Fin.ext ?_)
    · show (2 * i.val + c.val) % 2 = c.val
      omega
    · show (2 * i.val + c.val) / 2 = i.val
      omega
  right_inv w := Fin.ext (by show 2 * (w.val / 2) + w.val % 2 = w.val; omega)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A family over the 32 tasks is the family over the SparseCores of the families over their subcores. -/
theorem bigSep_byCore (Ψ : Fin 32 → sProp 𝕄) :
    bigSep Finset.univ Ψ
      = bigSep Finset.univ fun c : Fin ((K (F := F)).nCore 0) => bigSep Finset.univ fun i : Fin ((K (F := F)).nSub 0) =>
          Ψ (wOf (Fin.cast nCore_zero c) (Fin.cast nSub_zero i)) := by
  rw [bigSep_univ_equiv tileEquiv Ψ, bigSep_univ_prod (fun p : Fin 2 × Fin 16 => Ψ (tileEquiv p)),
    bigSep_cores (F := F) (fun c => bigSep Finset.univ fun i : Fin ((K (F := F)).nSub 0) => Ψ (wOf c (Fin.cast nSub_zero i)))]
  exact bigSep_congr fun c _ => (bigSep_tasks (F := F) (fun i => Ψ (wOf c i))).symm

/-- The three arrays whole, the result at `f`, are the tasks' parts, the blocks of the result at `f`. -/
theorem arrays_eq (d : Dev nD) (f : Buf (Elt F) (oLoc d)) :
    (iprop(tPts m d ∗ vPts m d ∗ oPts d f) : sProp 𝕄)
      = bigSep Finset.univ fun c : Fin ((K (F := F)).nCore 0) => bigSep Finset.univ fun i : Fin ((K (F := F)).nSub 0) =>
          iprop(tRowPts m d (wOf (Fin.cast nCore_zero c) (Fin.cast nSub_zero i)) ∗ vShPts m d (wOf (Fin.cast nCore_zero c) (Fin.cast nSub_zero i))
            ∗ oRowPts d (wOf (Fin.cast nCore_zero c) (Fin.cast nSub_zero i)) f) := by
  rw [← bigSep_byCore (F := F) (fun w => iprop(tRowPts m d w ∗ vShPts m d w ∗ oRowPts d w f)), bigSep_sep', bigSep_sep']
  unfold tPts vPts oPts tRowPts vShPts oRowPts
  rw [tPts_rows, vPts_shares, oPts_rows]

theorem st_of_arrays (d : Dev nD) :
    (iprop(tPts m d ∗ vPts m d ∗ oPts d (m (oLoc d))) : sProp 𝕄) ⊢ bigSep Finset.univ fun c : Fin ((K (F := F)).nCore 0) => (P (UU := UU) m).st 0 d c :=
  Entails.of_eq ((arrays_eq m d (m (oLoc d))).trans (bigSep_congr fun c _ => (P_st m d c).symm))

theorem arrays_of_dn (d : Dev nD) :
    (bigSep Finset.univ fun c : Fin ((K (F := F)).nCore 0) => (P (UU := UU) m).dn 0 d c) ⊢ (iprop(tPts m d ∗ vPts m d ∗ oPts d (gathered m d)) : sProp 𝕄) :=
  Entails.of_eq ((arrays_eq m d (gathered m d)).trans (bigSep_congr fun c _ => (P_dn m d c).symm)).symm

/-- A SparseCore is handed what its sixteen subcores take, and hands back what they bring. -/
theorem vecSplit : (K (F := F)).VecSplit' (P (UU := UU) m) 0 := by
  intro d c
  show (bigSep Finset.univ fun i : Fin ((K (F := F)).nSub 0) => goA m d (wOf (Fin.cast nCore_zero c) (Fin.cast nSub_zero i)))
    ⊢ |={Set.univ}=> iprop(
      (bigSep Finset.univ fun i : Fin ((K (F := F)).nSub 0) => goA m d (wOf (Fin.cast nCore_zero c) (Fin.cast nSub_zero i)))
      ∗ ((bigSep Finset.univ fun i : Fin ((K (F := F)).nSub 0) => tdA m d (wOf (Fin.cast nCore_zero c) (Fin.cast nSub_zero i)))
          -∗ (bigSep Finset.univ fun i : Fin ((K (F := F)).nSub 0) => tdA m d (wOf (Fin.cast nCore_zero c) (Fin.cast nSub_zero i)))))
  iintro H; imodintro
  isplitl [H]; · iexact H
  iintro H; iexact H

end Cert.Proof.KI

end
-- ==== Proof.FrameRun.lean ====
/-
  The kernel program's run, at any float instance: from a launch memory whose class numbers are in the table's range,
  every weakly fair execution of @main on the TensorCore and of the gather kernel's sequencers and tiles terminates,
  nothing faulting, with every unscoped buffer at the last boundary's contents; in particular the six arguments are as
  launched (the frame).
-/
import proofs.«207136_g6528350290482_cont_9to1c4b_434_22_alg».proof.Proof.Reg1
import proofs.«207136_g6528350290482_cont_9to1c4b_434_22_alg».proof.Proof.ScTile
import proofs.«207136_g6528350290482_cont_9to1c4b_434_22_alg».proof.Proof.ScSplit

noncomputable section

namespace Cert.Proof.KI

open Cert.KernelIdeal Cert.KernelIdeal.Gen
open Idealize.ShloMosaic Idealize.ShloMosaic.TcCoe
open Idealize.ShloMosaic.SparseCore.Cfg (HIx)
open Idealize.SL Idealize.SL.Sem

variable {F : FTy → Type} [FloatOps F] [∀ e, Nonempty (Elt F e)]

variable (m : (ℓ : Loc nD τ sig) → Buf (Elt F) ℓ) (ρ : Dev nD → PrngReg)

/-- An unscoped TensorCore reference is among those the final assertions hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last boundary's contents: after the gather, the two pallas_calls and the two host operations. -/
abbrev Wend (c : Dev nD) : Valuation τ sig (Elt F) := W4 m (gathered m) reg1Data c

/-- The run, with every unscoped buffer read off the final state. -/
theorem run_full (hpre : PreOK m) (Q' : PUnit × MemSt nD τ sig (Elt F) → Prop)
    (hQ : ∀ s' : Phys nD τ sig (Elt F), (∀ d, fq (Wend m) d s') → Q' (⟨⟩, s'.mem)) :
    θ_run (Cert.KernelIdeal.defs (F := F)) (Cert.KernelIdeal.threads (F := F)) ⟨m, fun _ => 0, ρ⟩ Q' :=
  run_KI m (gathered m) reg1Data ρ (P (UU := UU) m) (P_x m) rfl (tileObl m facts hpre) (vecSplit m) (st_of_arrays m) (arrays_of_dn m) Q' hQ

/-- The frame: the six arguments end as launched. -/
theorem frame_run (hpre : PreOK m) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_full m ρ hpre _ fun s' h c =>
    ⟨(h c _ (mem_uc main_arg0 (by decide))).trans (W4_arg0 m _ _ c),
     (h c _ (mem_uc main_arg1 (by decide))).trans (W4_arg1 m _ _ c),
     (h c _ (mem_uc main_arg2 (by decide))).trans (W4_arg2 m _ _ c),
     (h c _ (mem_uc main_arg3 (by decide))).trans (W4_arg3 m _ _ c),
     (h c _ (mem_uc main_arg4 (by decide))).trans (W4_arg4 m _ _ c),
     (h c _ (mem_uc main_arg5 (by decide))).trans (W4_arg5 m _ _ c)⟩

end Cert.Proof.KI

end
-- ==== Proof.Bits.ScBase.lean ====
/-
  The kernel program as printed as the SparseCore launch theorem sees it: its one SparseCore call's configuration,
  the body table of the kernels' functions, the variants, and the configuration's side facts. The arrays of the
  one call: the class numbers (main_arg1), the table of class rows (main_arg5) and the gathered rows (main_v0).
-/
import proofs.«207136_g6528350290482_cont_9to1c4b_434_22_alg».proof.Kernel
import proofs.«207136_g6528350290482_cont_9to1c4b_434_22_alg».proof.Proof.Gen.Kernel
import Idealize.ShloMosaic.Lib.SparseCore.Launch
import Idealize.ShloMosaic.Lib.SparseCore.Ops
import Idealize.ShloMosaic.Lib.SparseCore.Stream
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem

variable {F : FTy → Type}

/-- The label signature of the certificate's body table: the kernels' labels and the two pallas_calls' pipelines. -/
abbrev ΛP : Labels := Pipeline.Sig Λ₀ (Fin 2) fun p => (pcfgs (F := F) p).Adm
/-- The SparseCore configuration: one call, a vector-subcore kernel on 2 cores of 16 subcores. -/
abbrev K : SparseCore.Cfg τ sig (ΛP (F := F)) 1 := sc (F := F)
theorem nSub_zero : (K (F := F)).nSub 0 = 16 := rfl
theorem nCore_zero : (K (F := F)).nCore 0 = 2 := rfl
/-- The body table under the SparseCore launch: the kernels' functions and the pipelines' regions. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The TensorCore's names for the three arrays of the SparseCore call, and for the batch of feature rows. -/
abbrev xLoc (d : Dev nD) : Loc nD τ sig := (SparseCore.T d).loc main_arg0
abbrev tLoc (d : Dev nD) : Loc nD τ sig := (SparseCore.T d).loc main_arg1
abbrev vLoc (d : Dev nD) : Loc nD τ sig := (SparseCore.T d).loc main_arg5
abbrev oLoc (d : Dev nD) : Loc nD τ sig := (SparseCore.T d).loc main_v0

end Cert.Proof.KB

end
-- ==== Proof.Bits.Launch.lean ====
/-
  The launch of the kernel program as printed.

  The program's threads are @main on the TensorCore and the SparseCore call's sequencers and tiles. Its run is the
  SparseCore launch theorem at: the gather kernel's obligations (a tile's task; how a SparseCore's operands split into
  its tiles'), and @main's proof on the TensorCore. @main is the SparseCore call — its three arrays (the class numbers,
  the table, the gathered rows) split out of the unscoped buffers, handed over, and taken back with the gathered rows
  written — followed by the two pallas_calls and two host operations, which are run, in the certificate's own
  signature, as a list of segments: a kernel region per pallas_call, a host segment for the operations.

  The proof's user algebra has three components side by side: the rounds of the four handshake semaphores of the
  SparseCore call, the rounds of the two pallas_calls' staging cells, and the counters of the SparseCore tiles' own
  transfers. The launch element funds the first with the handshake cells' initial rounds, the second with the staging
  cells' (dealt per core and per pipeline), the third with nothing.

  After the one SparseCore call the TensorCore owes no handshake unit; the segments borrow its record of what it owes
  (nothing) and hand it back, the waits recorded meanwhile (the pipelines' own, on their staging cells) all at the
  lowest level, within the bound the handshake state keeps.
-/
import proofs.«207136_g6528350290482_cont_9to1c4b_434_22_alg».proof.Proof.Bits.ScBase
import proofs.«207136_g6528350290482_cont_9to1c4b_434_22_alg».proof.Proof.Gen.Kernel.Launch
import proofs.«207136_g6528350290482_cont_9to1c4b_434_22_alg».proof.Proof.Gen.Kernel.Points
import Idealize.ShloMosaic.Lib.Pipeline.Regions
import Idealize.ShloMosaic.Lib.Pipeline.Kit
import Idealize.ShloMosaic.Lib.Pipeline.Frame
import Idealize.ShloMosaic.Lib.Pipeline.RegionsLoop
import Idealize.ShloMosaic.Lib.StableHlo.Run

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The handshakes' rounds. -/
abbrev UH : Type := URounds (GSem nD τ sig) ℕ
/-- The whole user algebra: handshakes, staging cells, transfer counters. -/
abbrev UU : Type := UH × (UR sig nD τ × Counters)

local notation "𝕄" => MT nD τ sig (HIx 1) (Elt F) ℕ UU ℕ

abbrev EH : Emb UH (MT nD τ sig (HIx 1) (Elt F) ℕ UU ℕ) := embL
/-- The staging cells' component: the left of the right. -/
abbrev EP : Emb (UR sig nD τ) (MT nD τ sig (HIx 1) (Elt F) ℕ UU ℕ) :=
  (Emb.inl : Emb (UR sig nD τ) (UR sig nD τ × Counters)).trans embR

instance EP_landsIn : (EP (F := F)).LandsIn (upEmb : UEmb _ (MT nD τ sig (HIx 1) (Elt F) ℕ UU ℕ)) := by
  unfold EP; infer_instance

variable [FloatOps F]

/-- No pipeline has a prefetched table. -/
abbrev adm : (p : Fin 2) → (pcfgs (F := F) p).Adm := fun p => (cfgs p).toPCfg_adm

/-- What the launch deals device `d`'s TensorCore for the two pallas_calls: each pipeline's staging cells' ghost
    state and duty tokens. -/
abbrev G (d : Dev nD) : sProp 𝕄 := Pipeline.ghostOn (pcfgs (F := F)) adm EP Finset.univ d

def u₀ : UU :=
  (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

/-- The launch element yields the handshake cells' rounds, each core's staging-cell ghost state, and (the kernels'
    proofs consuming nothing at their calls) nothing else. -/
theorem hu₀ (P : (K (F := F)).Pay (nD := nD) (Val := Elt F) (Name := ℕ) (U := UU)) (hPx : ∀ q thr, P.x q thr = iprop(emp)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => P.x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)) : UR sig nD τ × Counters)) $$ Hu
  icases H with ⟨HH, HR⟩
  ihave HR' := (own_pair_emb (embR : Emb (UR sig nD τ × Counters) 𝕄) (initOf (Pipeline.cells cfgs cellOf_inj) (Pipeline.launchToks cfgs cellOf_inj)) (1 : Counters)) $$ HR
  icases HR' with ⟨HP, -⟩
  imod (Pipeline.fund_ghost (cfgs) (EP (F := F)) cellOf_inj) $$ HP with ⟨Hg, Ht⟩
  imodintro
  isplitl [HH]; · iexact HH
  isplitl [Hg Ht]
  · rw [show (bigSep Finset.univ fun d : Dev nD => G (F := F) d)
        = iprop((bigSep Finset.univ fun c : Dev nD => bigSep Finset.univ fun p => Pipeline.cellsGhost cfgs (EP (F := F)) p c)
          ∗ (bigSep Finset.univ fun c : Dev nD => bigSep Finset.univ fun p => (Pipeline.toksInit cfgs (EP (F := F)) p c : sProp 𝕄))) from by
      rw [← bigSep_sep']; exact bigSep_congr fun c _ => by unfold G Pipeline.ghostOn Pipeline.PerCore.ghostOn; rw [bigSep_sep']]
    isplitl [Hg] <;> iassumption
  · rw [show (bigSep Finset.univ fun thr : Thread nD τ => bigSep Finset.univ fun q : Fin 1 => P.x q thr) = bigSep Finset.univ fun _ => iprop(emp) from
      bigSep_congr fun thr _ => (bigSep_congr fun q _ => hPx q thr).trans (bigSep_emp' _), bigSep_emp']
    iempintro

/-! ## @main after the SparseCore call -/

/-- The two host operations after the pallas_calls: the scalar result out of the 1x1 array, the similarity matrix
    transposed. -/
def tailOps : List (HloOp τ sig (Elt F)) :=
  [StableHlo.reshape main_v2 main_v3 rfl shapeCasts_S1x1_S_,
   StableHlo.unary main_v1_0 main_v4 ((transpose S1024x100000 [1, 0] · transposes_S100000x1024_S1024x100000_1_0) : (⟨S100000x1024, .f32⟩ : BufTy).Contents (Elt F) → (⟨S1024x100000, .f32⟩ : BufTy).Contents (Elt F))]

/-- @main after the SparseCore call, in the certificate's own signature: the two regions, then the host operations. -/
def tail : Prog (TpuEff nD τ sig (Elt F) (ΛP (F := F)) .tc) PUnit :=
  .op (.customCall (Pipeline.entry 0) ()) fun _ => .op (.customCall (Pipeline.entry 1) ()) fun _ => (StableHlo.seq (tailOps (F := F)) >>= fun _ => .ret ⟨⟩)

/-- @main is the SparseCore call followed by that, lifted. -/
theorem main_eq_tail (d : Dev nD) : main (F := F) d = (K (F := F)).run d 0 >>= fun _ => SparseCore.liftProg (tail (F := F)) := rfl

/-! ## @main on the TensorCore -/

variable (m : (ℓ : Loc nD τ sig) → Buf (Elt F) ℓ) (ρ : Dev nD → PrngReg)

/-- The bound the TensorCore's recorded waits keep after the one SparseCore call: every recorded pair at level at most 8. -/
def Rec (d : Dev nD) : Set (SemLoc sig × HIx 1) := {p | (K (F := F)).lev ((T d : Thread nD τ), p.1) p.2 ≤ 8}

/-- What rides beside the buffers through the two pallas_calls and the host operations: the generator register at some
    state, and the core owing nothing with its recorded waits within the bound. -/
abbrev Rr (d : Dev nD) : sProp 𝕄 :=
  iprop((∃ r, prngReg d r) ∗ Pipeline.owesWithin d (0 : CellTallies nD τ sig (HIx 1)) (Rec (F := F) d))

/-- The device's buffers at launch. -/
abbrev W0 (d : Dev nD) : Valuation τ sig (Elt F) := fun b => m (d, b)

theorem Otc_one (d : Dev nD) : (K (F := F)).Otc d 1 = 0 := (K (F := F)).Otc_end d le_rfl

/-- The three arrays of the SparseCore call among the TensorCore's unscoped buffers. -/
abbrev tArr (d : Dev nD) : sProp 𝕄 := tLoc d ↦{fullShare} m (tLoc d)
abbrev vArr (d : Dev nD) : sProp 𝕄 := vLoc d ↦{fullShare} m (vLoc d)
abbrev oArr (d : Dev nD) (f : Buf (Elt F) (oLoc d)) : sProp 𝕄 := oLoc d ↦{fullShare} f

/-- The device's buffers after the SparseCore call: `main_v0` at the gathered rows, every other buffer as launched. -/
def W1 (gath : (d : Dev nD) → Buf (Elt F) (oLoc d)) (d : Dev nD) : Valuation τ sig (Elt F) :=
  Function.update (W0 m d) (Proc.devRef .tc main_v0) (gath d)

/-- What the TensorCores' final assertions hold: every unscoped buffer at the last boundary's contents. -/
abbrev FIN (Wn : Dev nD → Valuation τ sig (Elt F)) (d : Dev nD) : sProp 𝕄 :=
  StableHlo.held (d.tc : Thread nD τ) (Pipeline.ucRefs τ sig) (Wn d)

/-- The three arrays of the SparseCore call, as device buffers. -/
abbrev T3 : Finset (DevRef τ sig) := {Proc.devRef .tc main_arg1, Proc.devRef .tc main_arg5, Proc.devRef .tc main_v0}
theorem T3_sub : (T3 : Finset (DevRef τ sig)) ⊆ Pipeline.ucRefs τ sig := by decide

theorem held_T3 (d : Dev nD) (Vv : Valuation τ sig (Elt F)) :
    (StableHlo.held (d.tc : Thread nD τ) T3 Vv : sProp 𝕄)
      = iprop((tLoc d ↦{fullShare} Vv (Proc.devRef .tc main_arg1)) ∗ (vLoc d ↦{fullShare} Vv (Proc.devRef .tc main_arg5))
          ∗ (oLoc d ↦{fullShare} Vv (Proc.devRef .tc main_v0))) := by
  unfold StableHlo.held T3
  rw [SparseCore.bigSep_insert' (by decide), SparseCore.bigSep_insert' (by decide), bigSep_singleton]

/-- After the call: the three arrays, `main_v0` at the gathered rows, and the other unscoped buffers as launched are
    every unscoped buffer at the contents after the call. -/
theorem held_W1 (gath : (d : Dev nD) → Buf (Elt F) (oLoc d)) (d : Dev nD) :
    iprop(tArr m d ∗ vArr m d ∗ oArr d (gath d) ∗ StableHlo.held (d.tc : Thread nD τ) (Pipeline.ucRefs τ sig \ T3) (W0 m d))
      ⊢ (StableHlo.held (d.tc : Thread nD τ) (Pipeline.ucRefs τ sig) (W1 m gath d) : sProp 𝕄) := by
  rw [StableHlo.held_sub_split (c := (d.tc : Thread nD τ)) T3_sub (W1 m gath d), held_T3]
  have h1 : W1 m gath d (Proc.devRef .tc main_arg1) = m (tLoc d) := Function.update_of_ne (by decide) _ _
  have h5 : W1 m gath d (Proc.devRef .tc main_arg5) = m (vLoc d) := Function.update_of_ne (by decide) _ _
  have h0 : W1 m gath d (Proc.devRef .tc main_v0) = gath d := Function.update_self _ _ _
  rw [h1, h5, h0]
  have hrest : (StableHlo.held (d.tc : Thread nD τ) (Pipeline.ucRefs τ sig \ T3) (W1 m gath d) : sProp 𝕄)
      = StableHlo.held (d.tc : Thread nD τ) (Pipeline.ucRefs τ sig \ T3) (W0 m d) := by
    unfold StableHlo.held
    refine bigSep_congr fun b hb => ?_
    have hne : b ≠ Proc.devRef .tc main_v0 := fun e => by
      subst e; exact (Finset.mem_sdiff.mp hb).2 (by decide)
    rw [show W1 m gath d b = W0 m d b from Function.update_of_ne hne _ _]
  rw [hrest]
  iintro ⟨Ht, Hv, Ho, Hr⟩
  isplitl [Ht Hv Ho]
  · isplitl [Ht]; · iexact Ht
    isplitl [Hv]; · iexact Hv
    iexact Ho
  iexact Hr

/-- The TensorCore's handshake state after the one call, its `owes` apart: it owes nothing. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) :
    ((K (F := F)).tcSt EH d 1 : sProp 𝕄)
      = iprop((∃ W, ⌜(K (F := F)).WBelow (SparseCore.T d) W (8 * 1)⌝ ∗ owes (SparseCore.T d) (0 : CellTallies nD τ sig (HIx 1)) W) ∗ tcRest (F := F) d) := by
  unfold SparseCore.Cfg.tcSt tcRest
  rw [Otc_one]

set_option backward.isDefEq.respectTransparency.types false in
/-- @main on device `d`'s TensorCore, given the SparseCore call's split and join of its three arrays and the rest of
    @main as segments that chain from the buffers after the call to the last boundary's: the call by the launch's rule,
    the segments one after the other by the library's rule for a list of segments, inside the lifted signature, the core's `owes` lent to them and taken back within
    the bound its handshake state keeps. -/
theorem hmain_of_segs
    (P : (K (F := F)).Pay (nD := nD) (Val := Elt F) (Name := ℕ) (U := UU))
    (gath : (d : Dev nD) → Buf (Elt F) (oLoc d))
    (hst : ∀ d, iprop(tArr m d ∗ vArr m d ∗ oArr d (m (oLoc d))) ⊢ bigSep Finset.univ fun c : Fin ((K (F := F)).nCore 0) => P.st 0 d c)
    (hdn : ∀ d, (bigSep Finset.univ fun c : Fin ((K (F := F)).nCore 0) => P.dn 0 d c) ⊢ iprop(tArr m d ∗ vArr m d ∗ oArr d (gath d)))
    (pdats : (p : Fin 2) → (c : Dev nD) → Pipeline.Dat τ (Elt F) (HIx 1) ℕ UU ℕ (Pipeline.pin (pcfgs (F := F)) adm p) c)
    (segs : List (Pipeline.Seg (pcfgs (F := F)) adm pdats (none : HIx 1) defs₀ 𝒱₀ (K (F := F)).L (K (F := F)).lev))
    (hnd : (Pipeline.Seg.pipes segs).Nodup)
    (Wn : Dev nD → Valuation τ sig (Elt F))
    (hch : Pipeline.Seg.Chains (fun d => iprop(StableHlo.held (d.tc : Thread nD τ) (Pipeline.ucRefs τ sig) (W1 m gath d) ∗ Rr (F := F) d)) segs
      (fun d => iprop(StableHlo.held (d.tc : Thread nD τ) (Pipeline.ucRefs τ sig) (Wn d) ∗ Rr (F := F) d)))
    (hmainEq : ∀ d, main (F := F) d = (K (F := F)).run d 0 >>= fun _ => SparseCore.liftProg (Pipeline.Seg.run segs))
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN Wn d) := by
  unfold SparseCore.Cfg.tcRes
  rw [hmainEq d]
  simp only [wp_bind]
  iintro ⟨#Hctx, Hst, ⟨Hb, Hub, Hsems, Hprng⟩, HG⟩
  -- the unscoped buffers: the call's three arrays and the rest
  ihave Hub' := (Entails.of_eq (show (unscopedBufs d (fun b => m ((SparseCore.T d).loc b)) : sProp 𝕄)
      = StableHlo.held (d.tc : Thread nD τ) (Pipeline.ucRefs τ sig) (W0 m d) from Pipeline.unscopedBufs_held d (W0 m d))) $$ Hub
  ihave Hsp := (Entails.of_eq (StableHlo.held_sub_split (c := (d.tc : Thread nD τ)) T3_sub (W0 m d))) $$ Hub'
  icases Hsp with ⟨H3, Hrest⟩
  ihave H3' := (Entails.of_eq (held_T3 (F := F) d (W0 m d))) $$ H3
  icases H3' with ⟨Ht, Hv, Ho⟩
  iapply ((K (F := F)).wp_run (D (F := F)) 𝒱 (EH := EH) (P := P) κ d 0) $$ [Hst Ht Hv Ho Hb Hrest Hsems Hprng HG]
  isplitr; · iexact Hctx
  isplitl [Hst]; · iexact Hst
  isplitl [Ht Hv Ho]
  · iapply (hst d)
    isplitl [Ht]; · iexact Ht
    isplitl [Hv]; · iexact Hv
    iexact Ho
  iintro ⟨Hst, Hdn⟩
  ihave Hdn' := (hdn d) $$ Hdn
  icases Hdn' with ⟨Ht, Hv, Ho⟩
  ihave Hh := (held_W1 m gath d) $$ [Ht Hv Ho Hrest]
  · isplitl [Ht]; · iexact Ht
    isplitl [Hv]; · iexact Hv
    isplitl [Ho]; · iexact Ho
    iexact Hrest
  ihave Hst' := (Entails.of_eq (show ((K (F := F)).tcSt EH d ((0 : Fin 1).val + 1) : sProp 𝕄) = _ from tcSt_one (F := F) d)) $$ Hst
  icases Hst' with ⟨⟨%W, %hW, HO⟩, Hpos⟩
  -- the rest of @main, in the certificate's own signature, as segments
  iapply ((K (F := F)).wp_liftProg (D (F := F)) 𝒱 (SparseCore.T d) Set.univ none _ _)
  iapply (Pipeline.wp_segs (pcfgs (F := F)) adm pdats (none : HIx 1) cellOf_inj (EP (F := F)) defs₀ 𝒱₀ (K (F := F)).L (K (F := F)).lev d segs Finset.univ _ _
      hnd (fun _ _ => Finset.mem_univ _) hch) $$ [Hb Hh Hprng HO HG Hpos Hsems]
  isplitl [Hpos Hsems]
  · iintro ⟨-, Hh, -, %W', %hW', HO⟩
    isplitl [Hpos HO]
    · iapply (Entails.of_eq (tcSt_one (F := F) d).symm)
      isplitl [HO]
      · iexists W'; isplitr
        · ipureintro; intro p hp; exact hW' (Finset.mem_coe.mpr hp)
        iexact HO
      iexact Hpos
    iexact Hh
  isplitl [Hb]; · iexact Hb
  isplitl [Hh Hprng HO]
  · isplitl [Hh]; · iexact Hh
    isplitl [Hprng]; · iexists _; iexact Hprng
    iexists W; isplitr
    · ipureintro; intro p hp; have := hW p hp; simpa [Rec] using this
    iexact HO
  isplitr; · iapply (SparseCore.Cfg.ctx_levAts κ); iexact Hctx
  iexact HG

/-! ## The program's run -/

/-- What is read off a final state on device `d`: every unscoped buffer at the last boundary's contents. -/
def fq (Wn : Dev nD → Valuation τ sig (Elt F)) (d : Dev nD) (s' : Phys nD τ sig (Elt F)) : Prop :=
  ∀ b ∈ Pipeline.ucRefs τ sig, s'.mem.mem ((d, b) : Loc nD τ sig) = Wn d b

theorem hfin (Wn : Dev nD → Valuation τ sig (Elt F)) (d : Dev nD) (s' : Phys nD τ sig (Elt F)) :
    iprop(FIN Wn d ∗ SI s') ⊢ (⌜fq Wn d s'⌝ : sProp 𝕄) := by
  unfold FIN fq
  unfold StableHlo.held
  iintro ⟨Hh, HSI⟩
  ihave H := (pointsTo_read_all (Pipeline.ucRefs τ sig) (fun b => ((d, b) : Loc nD τ sig)) (Wn d) s') $$ [Hh HSI]
  · isplitl [Hh] <;> iassumption
  icases H with ⟨%h, -⟩
  ipureintro; exact h

/-- The kernel program as printed's run, given the SparseCore kernel's obligations and the rest of @main as segments:
    every weakly fair execution of all the threads terminates, nothing faulting, and every final state has every
    unscoped buffer of every device at the last boundary's contents. -/
theorem run_of_segs [∀ e, Nonempty (Elt F e)]
    (P : (K (F := F)).Pay (nD := nD) (Val := Elt F) (Name := ℕ) (U := UU)) [P.IsStorable]
    (hPx : ∀ q thr, P.x q thr = iprop(emp)) (hheld : P.held = ∅)
    (htile : (K (F := F)).TileObl (D (F := F)) 𝒱 P v₀ 0) (hvec : (K (F := F)).VecSplit' P 0)
    (gath : (d : Dev nD) → Buf (Elt F) (oLoc d))
    (hst : ∀ d, iprop(tArr m d ∗ vArr m d ∗ oArr d (m (oLoc d))) ⊢ bigSep Finset.univ fun c : Fin ((K (F := F)).nCore 0) => P.st 0 d c)
    (hdn : ∀ d, (bigSep Finset.univ fun c : Fin ((K (F := F)).nCore 0) => P.dn 0 d c) ⊢ iprop(tArr m d ∗ vArr m d ∗ oArr d (gath d)))
    (pdats : (p : Fin 2) → (c : Dev nD) → Pipeline.Dat τ (Elt F) (HIx 1) ℕ UU ℕ (Pipeline.pin (pcfgs (F := F)) adm p) c)
    (segs : List (Pipeline.Seg (pcfgs (F := F)) adm pdats (none : HIx 1) defs₀ 𝒱₀ (K (F := F)).L (K (F := F)).lev))
    (hnd : (Pipeline.Seg.pipes segs).Nodup)
    (Wn : Dev nD → Valuation τ sig (Elt F))
    (hch : Pipeline.Seg.Chains (fun d => iprop(StableHlo.held (d.tc : Thread nD τ) (Pipeline.ucRefs τ sig) (W1 m gath d) ∗ Rr (F := F) d)) segs
      (fun d => iprop(StableHlo.held (d.tc : Thread nD τ) (Pipeline.ucRefs τ sig) (Wn d) ∗ Rr (F := F) d)))
    (hmainEq : ∀ d, main (F := F) d = (K (F := F)).run d 0 >>= fun _ => SparseCore.liftProg (Pipeline.Seg.run segs))
    (Q' : PUnit × MemSt nD τ sig (Elt F) → Prop) (hQ : ∀ s' : Phys nD τ sig (Elt F), (∀ d, fq Wn d s') → Q' (⟨⟩, s'.mem)) :
    θ_run (Cert.Kernel.defs (F := F)) (Cert.Kernel.threads (F := F)) ⟨m, fun _ => 0, ρ⟩ Q' :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => SparseCore.Cfg.VecSplit.of_plain hvec)
    m ρ main (G (F := F)) (FIN Wn) (u₀ (F := F)) (sep_elim_left.trans (hu₀ P hPx))
    (hmain_of_segs m ρ P gath hst hdn pdats segs hnd Wn hch hmainEq) (fq Wn) (hfin Wn) Q' hQ hheld

end Cert.Proof.KB

end
-- ==== Proof.Bits.Tc2Base.lean ====
/-
  What the two TensorCore calls' proofs share: the resource algebra they are stated in (the one the whole
  program is run under, its tallies indexed by the SparseCore handshakes' index type) and the plain region
  invariant at that algebra — the TensorCore's scoped buffers that are no staging buffer of the call, each at
  some contents, and the core's generator register at some state: what a body may use and need not describe.
-/
import proofs.«207136_g6528350290482_cont_9to1c4b_434_22_alg».proof.Proof.Gen.Kernel.Launch
import proofs.«207136_g6528350290482_cont_9to1c4b_434_22_alg».proof.Proof.Gen.Kernel.Skeleton
import proofs.«207136_g6528350290482_cont_9to1c4b_434_22_alg».proof.Proof.Gen.Kernel.Points
import Idealize.ShloMosaic.Lib.Pipeline.FrameBody
import Idealize.ShloMosaic.Lib.SparseCore.Cells
import Idealize.ShloMosaic.Lib.Ring
import Idealize.ShloMosaic.Lib.Tactic

noncomputable section

namespace Cert.Proof.KB

open Cert.Kernel Cert.Kernel.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] {UU : Type} [URA UU]

local notation "𝕄" => MT nD τ sig (HIx 1) (Elt F) ℕ UU ℕ

/-- The plain region invariant of a call with windows `win` on core `c`: the scoped buffers that are no
    staging buffer of the call at some contents each, and the generator register at some state. -/
def ΦS {gr : Nat} {W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

end Cert.Proof.KB

end
-- ==== Proof.Bits.Tc2.lean ====
/-
  The third call of the program, the loss combiner, as a pipeline of one point: what its body leaves, its proof
  data and its body obligation.

  The body reads three whole arrays — the batch of feature rows x [1024, 128], the gathered class rows g
  [1024, 128] and the row of log-sums l [1, 1024] — and stores one number, (Σ l − Σ x·g) / 1024, into the
  [1, 1] result. Nothing is carried from point to point (there is one point), no scratch is used: the region
  invariant is the plain one throughout, and the result's staging buffer after the body is the one store's
  payload of the three input blocks.
-/
import proofs.«207136_g6528350290482_cont_9to1c4b_434_22_alg».proof.Proof.Bits.Tc2Base

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

-- the TensorCore's buffer contents when the region is entered, per core: the parameter everything here is stated at
variable (V : (c : Dev nD) → (b : Ref sig .tc) → Buf (Elt F) ((c : Thread nD τ).loc b))
variable (Rec : Set (SemLoc sig × HIx 1))

/-! ## The windows' blocks -/

/-- Window `w`'s block at the point, read off its array as the region finds it (`V`): the whole array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block, for any proof data whose array is `V`'s and whose
    body leaves the block in place. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S1024x128 := Rect.unit (s := S1024x128) ![0, 0] S1024x128.size inb_S1024x128_S1024x128_0_0
abbrev r2_l : Rect S1x1024 := Rect.unit (s := S1x1024) ![0, 0] S1x1024.size inb_S1x1024_S1x1024_0_0
abbrev r2_o : Rect S1x1 := Rect.unit (s := S1x1) ![0, 0] S1x1.size inb_S1x1_S1x1_0_0

/-! ## What the body leaves in the result's buffer -/

/-- The result's staging buffer after the body, from the three input blocks: its one store. -/
def out2_3 (x0 : Vec F S1024x128 .f32) (x1 : Vec F S1024x128 .f32) (x2 : Vec F S1x1024 .f32) : Vec F S1x1 .f32 :=
  View.canon [⟨r2_o, k2_pay1 (View.ld x0 r2_x) (View.ld x1 r2_x) (View.ld x2 r2_l)⟩]

/-- The store fills the buffer. -/
theorem cover2_3 (p0 : Vec F S1x1 .f32) (y : S1x1.Idx) :
    ∃ pc ∈ ([⟨r2_o, p0⟩] : List (View.Piece (Elt F) S1x1 .f32)), y ∈ pc.1.set :=
  View.cover_of_tiled [⟨r2_o, p0⟩] S1x1.size (by rfl) y

/-! ## The body's triple -/

set_option maxHeartbeats 1000000 in
/-- The body on whole staging memrefs, the inputs' at read contents `x·` and the result's at anything, runs to the
    continuation holding the inputs' as they were and the result's at `out2_3` of them. -/
theorem sound_kernel2 (c : Dev nD) (E : Set ℕ) (arg0 : Memref sig .tc .vmem S1024x128 .f32) (harg0 : arg0.IsWhole) (arg1 : Memref sig .tc .vmem S1024x128 .f32) (harg1 : arg1.IsWhole)
    (arg2 : Memref sig .tc .vmem S1x1024 .f32) (harg2 : arg2.IsWhole) (arg3 : Memref sig .tc .vmem S1x1 .f32) (harg3 : arg3.IsWhole)
    (x0 : Vec F S1024x128 .f32) (x1 : Vec F S1024x128 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__loss_kernel arg0 harg0 arg1 harg1 arg2 harg2 arg3 harg3) K := by
  simp only [cc2__loss_kernel_eq_skeleton]; unfold cc2__loss_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the call on core `c`: the arrays as the region finds them (`V`); after the body each input's
    buffer at its block and the result's at `out2_3` of the input blocks; the plain invariant; nothing owed; full
    shares; the core's recorded waits within `Rec` throughout (the body waits on nothing). -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := ΦS spec2 c
  q _ := fullShare
  owed _ := 0
  recorded _ := Rec

/-- The proof data's arrays are the region-entry contents. -/
theorem A_eq2 (c : Dev nD) (w : Fin cfg2.W) : (dat2 (UU := UU) V Rec c).A w = V c (Pipeline.arrRef spec2 w) := by
  dsimp only [dat2]

/-- What the body leaves, window by window. -/
theorem after2_0 (c : Dev nD) (t : Fin cfg2.N) : (dat2 (UU := UU) V Rec c).after 0 t = iblk2 V c 0 t := by dsimp only [dat2]
theorem after2_1 (c : Dev nD) (t : Fin cfg2.N) : (dat2 (UU := UU) V Rec c).after 1 t = iblk2 V c 1 t := by dsimp only [dat2]
theorem after2_2 (c : Dev nD) (t : Fin cfg2.N) : (dat2 (UU := UU) V Rec c).after 2 t = iblk2 V c 2 t := by dsimp only [dat2]
theorem after2_3 (c : Dev nD) (t : Fin cfg2.N) :
    (dat2 (UU := UU) V Rec c).after 3 t = out2_3 (iblk2 V c 0 t) (iblk2 V c 1 t) (iblk2 V c 2 t) := by dsimp only [dat2]

/-- Each input's current staging buffer holds its block. -/
theorem before2_0 (c : Dev nD) (t : Fin cfg2.N) (d) : (dat2 (UU := UU) V Rec c).before 0 t d = iblk2 V c 0 t :=
  before2_0_of V (dat2 (UU := UU) V Rec c) (A_eq2 V Rec c 0) (after2_0 V Rec c) t d
theorem before2_1 (c : Dev nD) (t : Fin cfg2.N) (d) : (dat2 (UU := UU) V Rec c).before 1 t d = iblk2 V c 1 t :=
  before2_1_of V (dat2 (UU := UU) V Rec c) (A_eq2 V Rec c 1) (after2_1 V Rec c) t d
theorem before2_2 (c : Dev nD) (t : Fin cfg2.N) (d) : (dat2 (UU := UU) V Rec c).before 2 t d = iblk2 V c 2 t :=
  before2_2_of V (dat2 (UU := UU) V Rec c) (A_eq2 V Rec c 2) (after2_2 V Rec c) t d

/-! ## The body obligation -/

/-- What the body is called with at the point, the windows one by one, -/
def bodyPre2 (c : Dev nD) (t : Fin cfg2.N) : sProp 𝕄 :=
  iprop((dat2 (UU := UU) V Rec c).Φ t.castSucc ∗ (dat2 (UU := UU) V Rec c).owesAt (none : HIx 1) t.castSucc
    ∗ (∃ d, owns (c : Thread nD τ) (st2_0 t) fullShare ((dat2 (UU := UU) V Rec c).before 0 t d))
    ∗ (∃ d, owns (c : Thread nD τ) (st2_1 t) fullShare ((dat2 (UU := UU) V Rec c).before 1 t d))
    ∗ (∃ d, owns (c : Thread nD τ) (st2_2 t) fullShare ((dat2 (UU := UU) V Rec c).before 2 t d))
    ∗ (∃ d, owns (c : Thread nD τ) (st2_3 t) fullShare ((dat2 (UU := UU) V Rec c).before 3 t d)))

/-- and what it returns. -/
def bodyPost2 (c : Dev nD) (t : Fin cfg2.N) : sProp 𝕄 :=
  iprop((dat2 (UU := UU) V Rec c).Φ t.succ ∗ (dat2 (UU := UU) V Rec c).owesAt (none : HIx 1) t.succ
    ∗ owns (c : Thread nD τ) (st2_0 t) fullShare ((dat2 (UU := UU) V Rec c).after 0 t)
    ∗ owns (c : Thread nD τ) (st2_1 t) fullShare ((dat2 (UU := UU) V Rec c).after 1 t)
    ∗ owns (c : Thread nD τ) (st2_2 t) fullShare ((dat2 (UU := UU) V Rec c).after 2 t)
    ∗ owns (c : Thread nD τ) (st2_3 t) fullShare ((dat2 (UU := UU) V Rec c).after 3 t))

set_option maxHeartbeats 800000 in
/-- The body at the point: the inputs' memrefs hold their blocks, so `sound_kernel2` applies; the invariant and the
    core's owes pass through unread. -/
theorem sound_body2 (c : Dev nD) (t : Fin cfg2.N) :
    bodyPre2 (UU := UU) V Rec c t ⊢ wp frame (wpE (defs₀ (F := F)) Variants.none c none) Set.univ (bodyAt2 t) (fun _ => bodyPost2 (UU := UU) V Rec c t) := by
  unfold bodyPre2 bodyPost2 bodyAt2
  simp only [before2_0, before2_1, before2_2]
  rw [show (dat2 (UU := UU) V Rec c).Φ t.succ = (dat2 (UU := UU) V Rec c).Φ t.castSucc from rfl,
    show (dat2 (UU := UU) V Rec c).owesAt (none : HIx 1) t.succ = (dat2 (UU := UU) V Rec c).owesAt (none : HIx 1) t.castSucc from rfl,
    after2_0, after2_1, after2_2, after2_3]
  iintro ⟨HΦ, Ho, ⟨%d0, H0⟩, ⟨%d1, H1⟩, ⟨%d2, H2⟩, ⟨%d3, H3⟩⟩
  iapply (sound_kernel2 (UU := UU) c Set.univ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the point. -/
theorem body_obligation2 (c : Dev nD) :
    BodyObligation (dat2 (F := F) (UU := UU) V Rec c) (defs₀ (F := F)) Variants.none (none : HIx 1) Set.univ := fun t => by
  rw [bigSep_W2, bigSep_W2]
  exact sound_body2 (UU := UU) V Rec c t

end Cert.Proof.KB

end
-- ==== Proof.Bits.Tc2Seg.lean ====
/-
  How the loss combiner's region takes its invariant from what the launch hands it — the generator register and
  the scoped buffers that are no staging buffer of the call — and gives it back: the invariant is those two.
-/
import proofs.«207136_g6528350290482_cont_9to1c4b_434_22_alg».proof.Proof.Bits.Tc2

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

variable (V : (c : Dev nD) → (b : Ref sig .tc) → Buf (Elt F) ((c : Thread nD τ).loc b))
variable (Rec : Set (SemLoc sig × HIx 1))

theorem hin2 (c : Dev nD) :
    iprop((∃ r, prngReg c r) ∗ Pipeline.scopedRest (Ix := HIx 1) (Name := ℕ) (U := UU) (Lvl := ℕ) (Val := Elt F) spec2 c) ⊢ (dat2 (UU := UU) V Rec c).Φ 0 := by
  rw [show (dat2 (UU := UU) V Rec c).Φ 0 = ΦS spec2 c from rfl]; unfold ΦS
  iintro ⟨Hp, Hr⟩
  isplitl [Hr]; · iexact Hr
  iexact Hp

theorem hout2 (c : Dev nD) :
    (dat2 (UU := UU) V Rec c).Φ (Fin.last cfg2.N) ⊢ iprop((∃ r, prngReg c r) ∗ Pipeline.scopedRest (Ix := HIx 1) (Name := ℕ) (U := UU) (Lvl := ℕ) (Val := Elt F) spec2 c) := by
  rw [show (dat2 (UU := UU) V Rec c).Φ (Fin.last cfg2.N) = ΦS spec2 c from rfl]; unfold ΦS
  iintro ⟨Hr, Hp⟩
  isplitl [Hp]; · iexact Hp
  iexact Hr

end Cert.Proof.KB

end
-- ==== Proof.Bits.Assemble.lean ====
/-
  @main of the kernel program as printed as segments, and the program's run.

  After the SparseCore call the device's unscoped buffers hold the launch contents with `main_v0` at the gathered
  rows. The first pallas_call's region is entered from them and leaves its two result arrays at what its pipeline
  computes, every other buffer as it was; the second likewise with its one result; the two host operations then write
  the scalar result and the transposed similarity matrix. Each region's account is the same: its windows' arrays are
  split out of the unscoped buffers at entry and put back at the exit contents, the generator register goes into the
  body's invariant and comes back, the core owes nothing, and the waits the pipeline records on its own staging cells
  sit at the lowest level, inside the bound carried along.
-/
import proofs.«207136_g6528350290482_cont_9to1c4b_434_22_alg».proof.Proof.Bits.Launch
import proofs.«207136_g6528350290482_cont_9to1c4b_434_22_alg».proof.Proof.Bits.Tc2Seg
import Idealize.ShloMosaic.Lib.Pipeline.FrameSuffix
import Idealize.ShloMosaic.Lib.Pipeline.RegionsLoop

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (gath : (d : Dev nD) → Buf (Elt F) (oLoc d))

/-- The first pallas_call's proof data, as a function of the region-entry contents and the bound on recorded waits,
    with what the assembly needs of it. -/
structure Reg1Data where
  dat : (Vv : (c : Dev nD) → (b : Ref sig .tc) → Buf (Elt F) ((c : Thread nD τ).loc b)) → (Rc : Set (SemLoc sig × HIx 1)) → (c : Dev nD) →
    Dat τ (Elt F) (HIx 1) ℕ UU ℕ cfg1 c
  hA : ∀ Vv Rc c (w : Fin cfg1.W), (dat Vv Rc c).A w = Vv c (Pipeline.arrRef spec1 w)
  hq : ∀ Vv Rc c (w : Fin cfg1.W), (dat Vv Rc c).q w = fullShare
  howed : ∀ Vv Rc c t, (dat Vv Rc c).owed t = 0
  hrec : ∀ Vv Rc c t, (dat Vv Rc c).recorded t = Rc
  hin : ∀ Vv Rc c, iprop((∃ r, prngReg c r) ∗ Pipeline.scopedRest (Ix := HIx 1) (Name := ℕ) (U := UU) (Lvl := ℕ) (Val := Elt F) spec1 c) ⊢ (dat Vv Rc c).Φ 0
  hout : ∀ Vv Rc c, (dat Vv Rc c).Φ (Fin.last cfg1.N) ⊢ iprop((∃ r, prngReg c r) ∗ Pipeline.scopedRest (Ix := HIx 1) (Name := ℕ) (U := UU) (Lvl := ℕ) (Val := Elt F) spec1 c)
  hbody : ∀ Vv Rc c, Pipeline.BodyObligation (dat Vv Rc c) (defs₀ (F := F)) Variants.none (none : HIx 1) Set.univ

variable (R1 : Reg1Data (F := F))

/-! ## The buffer contents at each segment boundary -/

/-- The contents after the SparseCore call, read at the TensorCore's references. -/
abbrev V1 : (c : Dev nD) → (b : Ref sig .tc) → Buf (Elt F) ((c : Thread nD τ).loc b) := fun c b => W1 m gath c b
/-- At the first region's exit: its arrays at what the pipeline leaves, every other buffer as entered. -/
def W2 (c : Dev nD) : Valuation τ sig (Elt F) :=
  Pipeline.withArrays spec1 c (W1 m gath c) fun w => (R1.dat (V1 m gath) (Rec (F := F) c) c).arrAt w cfg1.N
abbrev V2 : (c : Dev nD) → (b : Ref sig .tc) → Buf (Elt F) ((c : Thread nD τ).loc b) := fun c b => W2 m gath R1 c b
/-- At the second region's exit. -/
def W3 (c : Dev nD) : Valuation τ sig (Elt F) :=
  Pipeline.withArrays spec2 c (W2 m gath R1 c) fun w => (dat2 (UU := UU) (V2 m gath R1) (Rec (F := F) c) c).arrAt w cfg2.N
/-- After the two host operations. -/
abbrev W4 (c : Dev nD) : Valuation τ sig (Elt F) := StableHlo.after (tailOps (F := F)) (W3 m gath R1 c)

theorem W2_arr (c : Dev nD) (w : Fin cfg1.W) :
    W2 m gath R1 c (Proc.devRef .tc (Pipeline.arrRef spec1 w)) = (R1.dat (V1 m gath) (Rec (F := F) c) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m gath R1 c (Proc.devRef .tc b) = W1 m gath c (Proc.devRef .tc b) := by
  unfold W2; exact Pipeline.withArrays_of_ne spec1 c _ _ b hb
theorem W3_arr (c : Dev nD) (w : Fin cfg2.W) :
    W3 m gath R1 c (Proc.devRef .tc (Pipeline.arrRef spec2 w)) = (dat2 (UU := UU) (V2 m gath R1) (Rec (F := F) c) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m gath R1 c (Proc.devRef .tc b) = W2 m gath R1 c (Proc.devRef .tc b) := by
  unfold W3; exact Pipeline.withArrays_of_ne spec2 c _ _ b hb

/-! ## The proof data family -/

/-- Both pipelines' proof data, each at its region's entry contents: a literal match on the pipeline. -/
def pdats : (p : Fin 2) → (c : Dev nD) → Dat τ (Elt F) (HIx 1) ℕ UU ℕ (Pipeline.pin (pcfgs (F := F)) adm p) c
  | ⟨0, _⟩ => fun c => R1.dat (V1 m gath) (Rec (F := F) c) c
  | ⟨1, _⟩ => fun c => dat2 (UU := UU) (V2 m gath R1) (Rec (F := F) c) c

/-- The pipelines' own waits, on their staging cells at the lowest index, lie inside the bound. -/
theorem waitPairs_sub (cfg : Pipeline.Cfg sig Λ₀) (c : Dev nD) : cfg.waitPairs (none : HIx 1) ⊆ Rec (F := F) c := by
  rintro p ⟨w, s, rfl⟩
  show (K (F := F)).lev _ none ≤ 8
  rw [SparseCore.Cfg.lev_none]; exact Nat.zero_le _

/-! ## What the core owes, lent to a region and taken back -/

theorem owes_in1 (c : Dev nD) :
    Pipeline.owesWithin c (0 : CellTallies nD τ sig (HIx 1)) (Rec (F := F) c) ⊢ ((pdats m gath R1 0 c).owesAt (none : HIx 1) 0 : sProp 𝕄) := by
  show _ ⊢ Pipeline.owesWithin c ((R1.dat (V1 m gath) (Rec (F := F) c) c).owed 0) ((R1.dat (V1 m gath) (Rec (F := F) c) c).bound none 0)
  rw [R1.howed]; unfold Pipeline.Dat.bound; rw [R1.hrec]
  exact Pipeline.owesWithin_mono c 0 Set.subset_union_left
theorem owes_out1 (c : Dev nD) :
    ((pdats m gath R1 0 c).owesAt (none : HIx 1) (Fin.last cfg1.N) : sProp 𝕄) ⊢ Pipeline.owesWithin c (0 : CellTallies nD τ sig (HIx 1)) (Rec (F := F) c) := by
  show Pipeline.owesWithin c ((R1.dat (V1 m gath) (Rec (F := F) c) c).owed _) ((R1.dat (V1 m gath) (Rec (F := F) c) c).bound none _) ⊢ _
  rw [R1.howed]; unfold Pipeline.Dat.bound; rw [R1.hrec]
  exact Pipeline.owesWithin_mono c 0 (Set.union_subset le_rfl (waitPairs_sub cfg1 c))
theorem owes_in2 (c : Dev nD) :
    Pipeline.owesWithin c (0 : CellTallies nD τ sig (HIx 1)) (Rec (F := F) c) ⊢ ((pdats m gath R1 1 c).owesAt (none : HIx 1) 0 : sProp 𝕄) :=
  Pipeline.owesWithin_mono c 0 Set.subset_union_left
theorem owes_out2 (c : Dev nD) :
    ((pdats m gath R1 1 c).owesAt (none : HIx 1) (Fin.last cfg2.N) : sProp 𝕄) ⊢ Pipeline.owesWithin c (0 : CellTallies nD τ sig (HIx 1)) (Rec (F := F) c) :=
  Pipeline.owesWithin_mono c 0 (Set.union_subset le_rfl (waitPairs_sub cfg2 c))

/-! ## The regions as segments -/

/-- The thread state at a boundary: every unscoped buffer at the boundary's contents, and what rides along. -/
abbrev Tst (W : Dev nD → Valuation τ sig (Elt F)) (c : Dev nD) : sProp 𝕄 :=
  iprop(StableHlo.held (c.tc : Thread nD τ) (Pipeline.ucRefs τ sig) (W c) ∗ Rr (F := F) c)

theorem hrest1 (c : Dev nD) : ∀ b, b ∉ Finset.univ.image (Pipeline.arrRef spec1) → V2 m gath R1 c b = V1 m gath c b :=
  fun b hb => W2_of_ne m gath R1 c b fun w e => hb (Finset.mem_image.mpr ⟨w, Finset.mem_univ _, e⟩)
theorem hrest2 (c : Dev nD) : ∀ b, b ∉ Finset.univ.image (Pipeline.arrRef spec2) → (fun b : Ref sig .tc => W3 m gath R1 c b) b = V2 m gath R1 c b :=
  fun b hb => W3_of_ne m gath R1 c b fun w e => hb (Finset.mem_image.mpr ⟨w, Finset.mem_univ _, e⟩)

set_option backward.isDefEq.respectTransparency.types false in
/-- The first pallas_call's region: entered from the buffers after the SparseCore call, left at `W2`. -/
def reg1 : Pipeline.RegionSeg (pcfgs (F := F)) adm (pdats m gath R1) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (R1.hbody _ _ c).loose
  hwaits := Pipeline.hwaits_of_owed_zero _ _ _ _ _ _ 0 fun c t => R1.howed _ _ c t
  pre c := Tst (W1 m gath) c
  post c := Tst (W2 m gath R1) c
  X c := iprop(∃ r, prngReg c r)
  Y c := iprop(∃ r, prngReg c r)
  Z c := Pipeline.unscopedRest (Ix := HIx 1) (Name := ℕ) (U := UU) (Lvl := ℕ) spec1 c (V1 m gath c)
  hentry c := by
    rw [Pipeline.ownSems0_none]
    have hsplit := Pipeline.arrays_of_unscopedBufs (p := 0) (pcfgs (F := F)) adm (pdats m gath R1) launch1.win launch1.arr_whole c
      ((pdats m gath R1 0 c).share_full fun w => R1.hq _ _ c w) (V1 m gath c) fun w => R1.hA _ _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in1 m gath R1 c); iexact HO
    isplitl [Hp]; · iexact Hp
    iexact Hrest
  hin c := by
    rw [show (pdats m gath R1 0 c).Φ 0 = (R1.dat (V1 m gath) (Rec (F := F) c) c).Φ 0 from rfl]
    iintro ⟨Hp, -, Hr⟩
    iapply (R1.hin (V1 m gath) (Rec (F := F) c) c)
    isplitl [Hp]; · iexact Hp
    iexact Hr
  hout c := by
    rw [Pipeline.ownSems0_none, show (pdats m gath R1 0 c).Φ (Fin.last _) = (R1.dat (V1 m gath) (Rec (F := F) c) c).Φ (Fin.last cfg1.N) from rfl]
    iintro H
    ihave H' := (R1.hout (V1 m gath) (Rec (F := F) c) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m gath R1) ((pdats m gath R1 0 c).share_full fun w => R1.hq _ _ c w)
      (V1 m gath c) (V2 m gath R1 c) ((pdats m gath R1 0 c).arrAt · cfg1.N) (fun w => (W2_arr m gath R1 c w).symm) (hrest1 m gath R1 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out1 m gath R1 c); iexact HO

set_option backward.isDefEq.respectTransparency.types false in
/-- The second pallas_call's region: entered from `W2`, left at `W3`. -/
def reg2 : Pipeline.RegionSeg (pcfgs (F := F)) adm (pdats m gath R1) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (UU := UU) (V2 m gath R1) (Rec (F := F) c) c).loose
  hwaits := Pipeline.hwaits_of_owed_zero _ _ _ _ _ _ 1 fun _ _ => rfl
  pre c := Tst (W2 m gath R1) c
  post c := Tst (W3 m gath R1) c
  X c := iprop(∃ r, prngReg c r)
  Y c := iprop(∃ r, prngReg c r)
  Z c := Pipeline.unscopedRest (Ix := HIx 1) (Name := ℕ) (U := UU) (Lvl := ℕ) spec2 c (V2 m gath R1 c)
  hentry c := by
    rw [Pipeline.ownSems0_none]
    have hsplit := Pipeline.arrays_of_unscopedBufs (p := 1) (pcfgs (F := F)) adm (pdats m gath R1) launch2.win launch2.arr_whole c
      ((pdats m gath R1 1 c).share_full fun _ => rfl) (V2 m gath R1 c) fun w => A_eq2 (UU := UU) (V2 m gath R1) (Rec (F := F) c) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in2 m gath R1 c); iexact HO
    isplitl [Hp]; · iexact Hp
    iexact Hrest
  hin c := by
    rw [show (pdats m gath R1 1 c).Φ 0 = (dat2 (UU := UU) (V2 m gath R1) (Rec (F := F) c) c).Φ 0 from rfl]
    iintro ⟨Hp, -, Hr⟩
    iapply (hin2 (UU := UU) (V2 m gath R1) (Rec (F := F) c) c)
    isplitl [Hp]; · iexact Hp
    iexact Hr
  hout c := by
    rw [Pipeline.ownSems0_none, show (pdats m gath R1 1 c).Φ (Fin.last _) = (dat2 (UU := UU) (V2 m gath R1) (Rec (F := F) c) c).Φ (Fin.last cfg2.N) from rfl]
    iintro H
    ihave H' := (hout2 (UU := UU) (V2 m gath R1) (Rec (F := F) c) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m gath R1) ((pdats m gath R1 1 c).share_full fun _ => rfl)
      (V2 m gath R1 c) (fun b : Ref sig .tc => W3 m gath R1 c b) ((pdats m gath R1 1 c).arrAt · cfg2.N) (fun w => (W3_arr m gath R1 c w).symm) (hrest2 m gath R1 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out2 m gath R1 c); iexact HO

/-! ## The host operations as a segment, @main as segments, the run -/

theorem tailOps_sub : (tailOps (F := F)).Forall fun op => op.bufs ⊆ StableHlo.tcRefs τ sig :=
  ⟨StableHlo.reshape_bufs_sub .., StableHlo.unary_bufs_sub ..⟩
theorem tailOps_fresh : (tailOps (F := F)).Forall fun op => op.fresh = ∅ := by
  unfold tailOps; simp only [List.Forall]; repeat' constructor

/-- The two host operations over the unscoped buffers from `W3`: they end at `W4`. -/
def hsegT : Pipeline.HostSeg (Name := ℕ) (U := UU) (pcfgs (F := F)) defs₀ 𝒱₀ (K (F := F)).L (K (F := F)).lev :=
  Pipeline.HostSeg.ofOps _ _ _ _ _ (Pipeline.ucRefs τ sig) (tailOps (F := F))
    (fun op h => Pipeline.sub_ucRefs op ((List.forall_iff_forall_mem.mp tailOps_sub) op h))
    (fun op h => (List.forall_iff_forall_mem.mp tailOps_fresh) op h) (W3 m gath R1) (Rr (F := F))

/-- @main after the SparseCore call: the two regions, then the host operations. -/
abbrev segs : List (Pipeline.Seg (pcfgs (F := F)) adm (pdats m gath R1) (none : HIx 1) defs₀ 𝒱₀ (K (F := F)).L (K (F := F)).lev) :=
  [.region (reg1 m gath R1), .region (reg2 m gath R1), .host (hsegT m gath R1)]

theorem tail_run : tail (F := F) = Pipeline.Seg.run (segs m gath R1) := rfl

/-- The kernel program as printed's run from the gather kernel's obligations and the first pallas_call's data: every weakly
    fair execution of all the threads terminates, nothing faulting, and every final state has every unscoped buffer of
    every device at `W4`. -/
theorem run_KI [∀ e, Nonempty (Elt F e)] (ρ : Dev nD → PrngReg)
    (P : (K (F := F)).Pay (nD := nD) (Val := Elt F) (Name := ℕ) (U := UU)) [P.IsStorable]
    (hPx : ∀ q thr, P.x q thr = iprop(emp)) (hheld : P.held = ∅)
    (htile : (K (F := F)).TileObl (D (F := F)) 𝒱 P v₀ 0) (hvec : (K (F := F)).VecSplit' P 0)
    (hst : ∀ d, iprop(tArr m d ∗ vArr m d ∗ oArr d (m (oLoc d))) ⊢ bigSep Finset.univ fun c : Fin ((K (F := F)).nCore 0) => P.st 0 d c)
    (hdn : ∀ d, (bigSep Finset.univ fun c : Fin ((K (F := F)).nCore 0) => P.dn 0 d c) ⊢ iprop(tArr m d ∗ vArr m d ∗ oArr d (gath d)))
    (Q' : PUnit × MemSt nD τ sig (Elt F) → Prop) (hQ : ∀ s' : Phys nD τ sig (Elt F), (∀ d, fq (W4 m gath R1) d s') → Q' (⟨⟩, s'.mem)) :
    θ_run (Cert.Kernel.defs (F := F)) (Cert.Kernel.threads (F := F)) ⟨m, fun _ => 0, ρ⟩ Q' :=
  run_of_segs m ρ P hPx hheld htile hvec gath hst hdn (pdats m gath R1) (segs m gath R1)
    (by simp only [segs, Pipeline.Seg.pipes_host, Pipeline.Seg.pipes_region, Pipeline.Seg.pipes_nil]; decide)
    (W4 m gath R1) ⟨fun _ => .rfl, fun _ => .rfl, fun _ => .rfl, fun _ => .rfl⟩
    (fun d => (main_eq_tail d).trans (by rw [tail_run m gath R1])) Q' hQ

end Cert.Proof.KB

end
-- ==== Proof.Bits.Reads.lean ====
/-
  What the last boundary holds: each of the six arguments is as launched — no host operation and no region writes
  one; a region reads it through an input window or not at all — the scalar result is the loss combiner's 1x1 result
  reshaped, and the matrix result is the transpose of the first pallas_call's first result array.
-/
import proofs.«207136_g6528350290482_cont_9to1c4b_434_22_alg».proof.Proof.Bits.Assemble

noncomputable section

namespace Cert.Proof.KB

open Cert.Kernel Cert.Kernel.Gen

open Idealize.ShloMosaic Idealize.ShloMosaic.TcCoe
open Idealize.ShloMosaic.SparseCore.Cfg (HIx)
open Idealize.SL Idealize.SL.Sem
open Idealize.ShloMosaic.Pipeline (Dat)

variable {F : FTy → Type} [FloatOps F]

variable (m : (ℓ : Loc nD τ sig) → Buf (Elt F) ℓ) (gath : (d : Dev nD) → Buf (Elt F) (oLoc d)) (R1 : Reg1Data (F := F))

/-- A buffer the two host operations do not write is as the second region left it. -/
theorem W4_keep (c : Dev nD) (b : Ref sig .tc) (h3 : main_v3 ≠ b) (h4 : main_v4 ≠ b) :
    W4 m gath R1 c (Proc.devRef .tc b) = W3 m gath R1 c (Proc.devRef .tc b) :=
  StableHlo.after_of_forall_not_mem (b := Proc.devRef .tc b) _ _ (List.forall_iff_forall_mem.mp (by
    simp only [tailOps, List.Forall, StableHlo.unary_writes, StableHlo.reshape_writes, Finset.mem_singleton]
    exact ⟨(StableHlo.devRef_ne_of_ne h3).symm, (StableHlo.devRef_ne_of_ne h4).symm⟩))

/-- A buffer that is no window of either pallas_call, is not `main_v0`, and is not written by the host operations, is as launched. -/
theorem W4_bypass (c : Dev nD) (b : Ref sig .tc) (h3 : main_v3 ≠ b) (h4 : main_v4 ≠ b)
    (h2 : ∀ w, Pipeline.arrRef spec2 w ≠ b) (h1 : ∀ w, Pipeline.arrRef spec1 w ≠ b) (h0 : b ≠ main_v0) :
    W4 m gath R1 c (Proc.devRef .tc b) = m ((c.tc : Thread nD τ).loc b) :=
  calc W4 m gath R1 c (Proc.devRef .tc b)
    _ = W3 m gath R1 c (Proc.devRef .tc b) := W4_keep m gath R1 c b h3 h4
    _ = W2 m gath R1 c (Proc.devRef .tc b) := W3_of_ne m gath R1 c b h2
    _ = W1 m gath c (Proc.devRef .tc b) := W2_of_ne m gath R1 c b h1
    _ = W0 m c (Proc.devRef .tc b) := Function.update_of_ne (StableHlo.devRef_ne_of_ne h0) _ _
    _ = m ((c.tc : Thread nD τ).loc b) := rfl

theorem W4_arg1 (c : Dev nD) : W4 m gath R1 c (Proc.devRef .tc main_arg1) = m ((c.tc : Thread nD τ).loc main_arg1) :=
  W4_bypass m gath R1 c main_arg1 (by decide) (by decide) (by decide) (by decide) (by decide)
theorem W4_arg2 (c : Dev nD) : W4 m gath R1 c (Proc.devRef .tc main_arg2) = m ((c.tc : Thread nD τ).loc main_arg2) :=
  W4_bypass m gath R1 c main_arg2 (by decide) (by decide) (by decide) (by decide) (by decide)
theorem W4_arg3 (c : Dev nD) : W4 m gath R1 c (Proc.devRef .tc main_arg3) = m ((c.tc : Thread nD τ).loc main_arg3) :=
  W4_bypass m gath R1 c main_arg3 (by decide) (by decide) (by decide) (by decide) (by decide)
theorem W4_arg4 (c : Dev nD) : W4 m gath R1 c (Proc.devRef .tc main_arg4) = m ((c.tc : Thread nD τ).loc main_arg4) :=
  W4_bypass m gath R1 c main_arg4 (by decide) (by decide) (by decide) (by decide) (by decide)

/-- The table is an input window of the first pallas_call only. -/
theorem W2_arg5 (c : Dev nD) : W2 m gath R1 c (Proc.devRef .tc main_arg5) = m ((c.tc : Thread nD τ).loc main_arg5) :=
  calc W2 m gath R1 c (Proc.devRef .tc main_arg5)
    _ = (R1.dat (V1 m gath) (Rec (F := F) c) c).arrAt 1 cfg1.N := W2_arr m gath R1 c 1
    _ = (R1.dat (V1 m gath) (Rec (F := F) c) c).A 1 := Dat.arrAt_in _ 1 rfl _
    _ = V1 m gath c (Pipeline.arrRef spec1 1) := R1.hA _ _ c 1
    _ = W0 m c (Proc.devRef .tc main_arg5) := Function.update_of_ne (StableHlo.devRef_ne_of_ne (by decide)) _ _
    _ = m ((c.tc : Thread nD τ).loc main_arg5) := rfl
theorem W4_arg5 (c : Dev nD) : W4 m gath R1 c (Proc.devRef .tc main_arg5) = m ((c.tc : Thread nD τ).loc main_arg5) :=
  ((W4_keep m gath R1 c main_arg5 (by decide) (by decide)).trans (W3_of_ne m gath R1 c main_arg5 (by decide))).trans (W2_arg5 m gath R1 c)

/-- The batch of feature rows is an input window of both pallas_calls. -/
theorem W2_arg0 (c : Dev nD) : W2 m gath R1 c (Proc.devRef .tc main_arg0) = m ((c.tc : Thread nD τ).loc main_arg0) :=
  calc W2 m gath R1 c (Proc.devRef .tc main_arg0)
    _ = (R1.dat (V1 m gath) (Rec (F := F) c) c).arrAt 0 cfg1.N := W2_arr m gath R1 c 0
    _ = (R1.dat (V1 m gath) (Rec (F := F) c) c).A 0 := Dat.arrAt_in _ 0 rfl _
    _ = V1 m gath c (Pipeline.arrRef spec1 0) := R1.hA _ _ c 0
    _ = W0 m c (Proc.devRef .tc main_arg0) := Function.update_of_ne (StableHlo.devRef_ne_of_ne (by decide)) _ _
    _ = m ((c.tc : Thread nD τ).loc main_arg0) := rfl
theorem W3_arg0 (c : Dev nD) : W3 m gath R1 c (Proc.devRef .tc main_arg0) = m ((c.tc : Thread nD τ).loc main_arg0) :=
  calc W3 m gath R1 c (Proc.devRef .tc main_arg0)
    _ = (dat2 (UU := UU) (V2 m gath R1) (Rec (F := F) c) c).arrAt 0 cfg2.N := W3_arr m gath R1 c 0
    _ = (dat2 (UU := UU) (V2 m gath R1) (Rec (F := F) c) c).A 0 := Dat.arrAt_in _ 0 rfl _
    _ = V2 m gath R1 c (Pipeline.arrRef spec2 0) := A_eq2 (UU := UU) _ _ c 0
    _ = m ((c.tc : Thread nD τ).loc main_arg0) := W2_arg0 m gath R1 c
theorem W4_arg0 (c : Dev nD) : W4 m gath R1 c (Proc.devRef .tc main_arg0) = m ((c.tc : Thread nD τ).loc main_arg0) :=
  (W4_keep m gath R1 c main_arg0 (by decide) (by decide)).trans (W3_arg0 m gath R1 c)

/-! ## The results -/

/-- The gathered rows reach the second pallas_call untouched (no window of the first). -/
theorem W2_v0 (c : Dev nD) : W2 m gath R1 c (Proc.devRef .tc main_v0) = gath c :=
  (W2_of_ne m gath R1 c main_v0 (by decide)).trans (Function.update_self _ _ _)

/-- The matrix result: the transpose of the first pallas_call's first result array. -/
theorem W4_v4 (c : Dev nD) :
    W4 m gath R1 c (Proc.devRef .tc main_v4)
      = transpose S1024x100000 [1, 0] ((R1.dat (V1 m gath) (Rec (F := F) c) c).arrAt 2 cfg1.N) transposes_S100000x1024_S1024x100000_1_0 := by
  have h : W3 m gath R1 c (Proc.devRef .tc main_v1_0) = (R1.dat (V1 m gath) (Rec (F := F) c) c).arrAt 2 cfg1.N :=
    (W3_of_ne m gath R1 c main_v1_0 (by decide)).trans (W2_arr m gath R1 c 2)
  rw [← h]
  unfold W4 tailOps
  after_results

/-- The scalar result: the loss combiner's 1x1 result, reshaped. -/
theorem W4_v3 (c : Dev nD) :
    W4 m gath R1 c (Proc.devRef .tc main_v3)
      = shapeCast S_ ((dat2 (UU := UU) (V2 m gath R1) (Rec (F := F) c) c).arrAt 3 cfg2.N) shapeCasts_S1x1_S_ := by
  rw [← W3_arr m gath R1 c 3]
  unfold W4 tailOps
  after_results
  rfl

end Cert.Proof.KB

end
-- ==== Proof.Bits.Tc1Runs.lean ====
/-
  The second call of the program — the similarity matrix and the running sum of exponentials — as a pipeline of
  25 points: what its three control cases share.

  At point t the body holds the whole batch x [1024, 128] (window 0) and block t of the class table, rows
  4000 t … 4000 t + 3999 of V (window 1). In ten steps of 400 rows it stores the products V_rows · xᵀ into the
  result block [4000, 1024] (window 2) and adds, per batch column, the sum over the 400 rows of their exponentials
  into a running row acc; then the scratch row s, carried from point to point, becomes s + acc. At the first point
  s is zeroed first; at the last point log s is stored into the row of log-sums (window 3), which is idle — handed
  back as found — at every other point.
-/
import proofs.«207136_g6528350290482_cont_9to1c4b_434_22_alg».proof.Proof.Bits.Tc2Base
import Idealize.ShloMosaic.Lib.Pipeline.Value

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

/-! ## The body's branch conditions, in closed form over the 25 points -/

/-- The first conditional's condition (the scratch is zeroed), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional's condition (the log-sums are stored). -/
abbrev cond1_1 (i : grid1.Coords) : Prop := k1_cond2 i = 1#1
/-- It holds at the last point only. -/
theorem hcond1_1 : ∀ t : Fin cfg1.N, cond1_1 (grid1.coords t) ↔ t.val = 24 :=
  (by decide +kernel : ∀ t : Fin grid1.N, cond1_1 (grid1.coords t) ↔ t.val = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point the row of log-sums is idle, and not written back; -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- at the last point it is live. -/
theorem liveAt1_3 : ∀ t : Fin cfg1.N, cond1_1 (grid1.coords t) → cfg1.idle 3 (grid1.coords t) = false := by decide +kernel

/-! ## The staging memrefs at a point, and the scratch -/

abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4000x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
/-- The scratch row: a whole scoped buffer of the kernel's own. -/
abbrev scM1 : Memref sig .tc .vmem S1x1024 .f32 := Memref.whole cc1_scratch0

/-- The TensorCore's scoped buffers that are neither a staging buffer of this call nor its scratch: the next
    call's four staging buffers, each at some contents. -/
abbrev rest1 (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f))

/-- The plain invariant with the scratch row as a memref owned at some contents. -/
theorem ΦS1_eq (c : Dev nD) :
    (ΦS spec1 c : sProp 𝕄)
      = iprop(iprop((∃ d, owns (c : Thread nD τ) scM1 fullShare d) ∗ rest1 (F := F) (UU := UU) c) ∗ (∃ r, prngReg c r)) := by
  unfold ΦS; rw [scopedRest1_eq]; simp only [scM1, owns_whole]; try rfl

/-! ## The body's accesses -/

theorem hz1 : (![0, 0] : Fin 2 → Nat) = fun _ => 0 := funext fun a => by fin_cases a <;> rfl

abbrev r1_x : Rect S1024x128 := Rect.unit (s := S1024x128) ![0, 0] S1024x128.size inb_S1024x128_S1024x128_0_0
abbrev r1_s : Rect S1x1024 := Rect.unit (s := S1x1024) ![0, 0] S1x1024.size inb_S1x1024_S1x1024_0_0
abbrev r1_v0 : Rect S4000x128 := Rect.unit (s := S4000x128) ![0, 0] S400x128.size inb_S4000x128_S400x128_0_0
abbrev r1_v1 : Rect S4000x128 := Rect.unit (s := S4000x128) ![400, 0] S400x128.size inb_S4000x128_S400x128_400_0
abbrev r1_v2 : Rect S4000x128 := Rect.unit (s := S4000x128) ![800, 0] S400x128.size inb_S4000x128_S400x128_800_0
abbrev r1_v3 : Rect S4000x128 := Rect.unit (s := S4000x128) ![1200, 0] S400x128.size inb_S4000x128_S400x128_1200_0
abbrev r1_v4 : Rect S4000x128 := Rect.unit (s := S4000x128) ![1600, 0] S400x128.size inb_S4000x128_S400x128_1600_0
abbrev r1_v5 : Rect S4000x128 := Rect.unit (s := S4000x128) ![2000, 0] S400x128.size inb_S4000x128_S400x128_2000_0
abbrev r1_v6 : Rect S4000x128 := Rect.unit (s := S4000x128) ![2400, 0] S400x128.size inb_S4000x128_S400x128_2400_0
abbrev r1_v7 : Rect S4000x128 := Rect.unit (s := S4000x128) ![2800, 0] S400x128.size inb_S4000x128_S400x128_2800_0
abbrev r1_v8 : Rect S4000x128 := Rect.unit (s := S4000x128) ![3200, 0] S400x128.size inb_S4000x128_S400x128_3200_0
abbrev r1_v9 : Rect S4000x128 := Rect.unit (s := S4000x128) ![3600, 0] S400x128.size inb_S4000x128_S400x128_3600_0
abbrev r1_o0 : Rect S4000x1024 := Rect.unit (s := S4000x1024) ![0, 0] S400x1024.size inb_S4000x1024_S400x1024_0_0
abbrev r1_o1 : Rect S4000x1024 := Rect.unit (s := S4000x1024) ![400, 0] S400x1024.size inb_S4000x1024_S400x1024_400_0
abbrev r1_o2 : Rect S4000x1024 := Rect.unit (s := S4000x1024) ![800, 0] S400x1024.size inb_S4000x1024_S400x1024_800_0
abbrev r1_o3 : Rect S4000x1024 := Rect.unit (s := S4000x1024) ![1200, 0] S400x1024.size inb_S4000x1024_S400x1024_1200_0
abbrev r1_o4 : Rect S4000x1024 := Rect.unit (s := S4000x1024) ![1600, 0] S400x1024.size inb_S4000x1024_S400x1024_1600_0
abbrev r1_o5 : Rect S4000x1024 := Rect.unit (s := S4000x1024) ![2000, 0] S400x1024.size inb_S4000x1024_S400x1024_2000_0
abbrev r1_o6 : Rect S4000x1024 := Rect.unit (s := S4000x1024) ![2400, 0] S400x1024.size inb_S4000x1024_S400x1024_2400_0
abbrev r1_o7 : Rect S4000x1024 := Rect.unit (s := S4000x1024) ![2800, 0] S400x1024.size inb_S4000x1024_S400x1024_2800_0
abbrev r1_o8 : Rect S4000x1024 := Rect.unit (s := S4000x1024) ![3200, 0] S400x1024.size inb_S4000x1024_S400x1024_3200_0
abbrev r1_o9 : Rect S4000x1024 := Rect.unit (s := S4000x1024) ![3600, 0] S400x1024.size inb_S4000x1024_S400x1024_3600_0

/-! ## What the body leaves, from the batch block x0, the class-row block x1 and the scratch row as loaded -/

/-- The result block [4000, 1024] after the body: its ten stores of 400 rows, last first. -/
def out1_2 (x0 : Vec F S1024x128 .f32) (x1 : Vec F S4000x128 .f32) : Vec F S4000x1024 .f32 :=
  View.canon [⟨r1_o9, k1_pay2 (View.ld x0 r1_x) (View.ld x1 r1_v9)⟩,
    ⟨r1_o8, k1_pay1 (View.ld x0 r1_x) (View.ld x1 r1_v8)⟩,
    ⟨r1_o7, k1_pay16 (View.ld x0 r1_x) (View.ld x1 r1_v7)⟩,
    ⟨r1_o6, k1_pay14 (View.ld x0 r1_x) (View.ld x1 r1_v6)⟩,
    ⟨r1_o5, k1_pay13 (View.ld x0 r1_x) (View.ld x1 r1_v5)⟩,
    ⟨r1_o4, k1_pay12 (View.ld x0 r1_x) (View.ld x1 r1_v4)⟩,
    ⟨r1_o3, k1_pay11 (View.ld x0 r1_x) (View.ld x1 r1_v3)⟩,
    ⟨r1_o2, k1_pay9 (View.ld x0 r1_x) (View.ld x1 r1_v2)⟩,
    ⟨r1_o1, k1_pay8 (View.ld x0 r1_x) (View.ld x1 r1_v1)⟩,
    ⟨r1_o0, k1_pay7 (View.ld x0 r1_x) (View.ld x1 r1_v0)⟩]

/-- The ten stores tile the block. -/
theorem cover1_2 (p0 p1 p2 p3 p4 p5 p6 p7 p8 p9 : Vec F S400x1024 .f32) (y : S4000x1024.Idx) :
    ∃ pc ∈ ([⟨r1_o9, p9⟩, ⟨r1_o8, p8⟩, ⟨r1_o7, p7⟩, ⟨r1_o6, p6⟩, ⟨r1_o5, p5⟩, ⟨r1_o4, p4⟩, ⟨r1_o3, p3⟩, ⟨r1_o2, p2⟩, ⟨r1_o1, p1⟩, ⟨r1_o0, p0⟩] : List (View.Piece (Elt F) S4000x1024 .f32)), y ∈ pc.1.set :=
  View.cover_of_tiledL [⟨r1_o9, p9⟩, ⟨r1_o8, p8⟩, ⟨r1_o7, p7⟩, ⟨r1_o6, p6⟩, ⟨r1_o5, p5⟩, ⟨r1_o4, p4⟩, ⟨r1_o3, p3⟩, ⟨r1_o2, p2⟩, ⟨r1_o1, p1⟩, ⟨r1_o0, p0⟩] S400x1024.size (by sl_kernel_rfl) y

/-- The running row of sums of exponentials over the point's 4000 rows, in the body's association (three partial
    sums into a zero row, four more, one more, two more), added to the scratch row `s` as loaded: the scratch's new
    contents. -/
def sNext (x0 : Vec F S1024x128 .f32) (x1 : Vec F S4000x128 .f32) (s : Vec F S1x1024 .f32) : Vec F S1x1024 .f32 :=
  k1_pay4 (View.ld x0 r1_x)
    (k1_pay15 (View.ld x0 r1_x) (k1_pay10 (View.ld x0 r1_x) (View.ld x1 r1_v0) (View.ld x1 r1_v1) (View.ld x1 r1_v2))
      (k1_pay11 (View.ld x0 r1_x) (View.ld x1 r1_v3)) (View.ld x1 r1_v4) (View.ld x1 r1_v5) (View.ld x1 r1_v6))
    (k1_pay17 (View.ld x0 r1_x) (View.ld x1 r1_v7)) (View.ld x1 r1_v8) (View.ld x1 r1_v9) s

/-- The log of that new row: what the last point stores into the row of log-sums. -/
def lseNext (x0 : Vec F S1024x128 .f32) (x1 : Vec F S4000x128 .f32) (s : Vec F S1x1024 .f32) : Vec F S1x1024 .f32 :=
  k1_pay5 (View.ld x0 r1_x)
    (k1_pay15 (View.ld x0 r1_x) (k1_pay10 (View.ld x0 r1_x) (View.ld x1 r1_v0) (View.ld x1 r1_v1) (View.ld x1 r1_v2))
      (k1_pay11 (View.ld x0 r1_x) (View.ld x1 r1_v3)) (View.ld x1 r1_v4) (View.ld x1 r1_v5) (View.ld x1 r1_v6))
    (k1_pay17 (View.ld x0 r1_x) (View.ld x1 r1_v7)) (View.ld x1 r1_v8) (View.ld x1 r1_v9) s

/-- The scratch row after a point that found it at `xs`: its one store. -/
def sout1 (x0 : Vec F S1024x128 .f32) (x1 : Vec F S4000x128 .f32) (xs : Vec F S1x1024 .f32) : Vec F S1x1024 .f32 :=
  View.canon [⟨r1_s, sNext x0 x1 (View.ld xs r1_s)⟩]

/-- The scratch row after the first point: zeroed, then stored as at any point. -/
def sout1A (x0 : Vec F S1024x128 .f32) (x1 : Vec F S4000x128 .f32) : Vec F S1x1024 .f32 :=
  View.canon [⟨r1_s, sNext x0 x1 (k1_pay6 (F := F))⟩, ⟨r1_s, k1_pay6 (F := F)⟩]

/-- The row of log-sums after the last point, which found the scratch at `xs`: its one store. -/
def out1_3 (x0 : Vec F S1024x128 .f32) (x1 : Vec F S4000x128 .f32) (xs : Vec F S1x1024 .f32) : Vec F S1x1024 .f32 :=
  View.canon [⟨r1_s, lseNext x0 x1 (View.ld xs r1_s)⟩]

/-- A store of the whole row covers it, whatever came before. -/
theorem cover1_s (p0 : Vec F S1x1024 .f32) (L : List (View.Piece (Elt F) S1x1024 .f32)) (y : S1x1024.Idx) :
    ∃ pc ∈ ((⟨r1_s, p0⟩ : View.Piece (Elt F) S1x1024 .f32) :: L), y ∈ pc.1.set :=
  ⟨_, List.mem_cons_self, View.mem_set_unit_zero hz1 inb_S1x1024_S1x1024_0_0 y⟩

end Cert.Proof.KB

end
-- ==== Proof.Bits.Tc1RunB.lean ====
/-
  The body of the second call at a MIDDLE point (not the first, not the last): the scratch row is found at what
  the point before left and left at that plus this point's sums; the result block is filled; the row of log-sums
  is handed back as found.
-/
import proofs.«207136_g6528350290482_cont_9to1c4b_434_22_alg».proof.Proof.Bits.Tc1Runs

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

set_option maxHeartbeats 4000000 in
/-- On whole staging memrefs — the batch at `x0`, the class-row block at `x1`, the result block at anything, the
    row of log-sums at `xi3`, the scratch row at `xs` — the body runs to the continuation holding the inputs as
    they were, the result block at `out1_2 x0 x1`, the row of log-sums as found, the scratch at `sout1 x0 x1 xs`. -/
theorem sound_kernel1_B (c : Dev nD) (E : Set ℕ) (i : grid1.Coords) (arg1 : Memref sig .tc .vmem S1024x128 .f32) (harg1 : arg1.IsWhole) (arg2 : Memref sig .tc .vmem S4000x128 .f32) (harg2 : arg2.IsWhole) (arg3 : Memref sig .tc .vmem S4000x1024 .f32) (harg3 : arg3.IsWhole) (arg4 : Memref sig .tc .vmem S1x1024 .f32) (harg4 : arg4.IsWhole) (arg5 : Memref sig .tc .vmem S1x1024 .f32) (harg5 : arg5.IsWhole)
    (hc0 : ¬cond1_0 i) (hc1 : ¬cond1_1 i)
    (x0 : Vec F S1024x128 .f32) (x1 : Vec F S4000x128 .f32) (xi3 : Vec F S1x1024 .f32) (xs : Vec F S1x1024 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare xi3 ∗ owns (c : Thread nD τ) arg5 fullShare (sout1 x0 x1 xs)) -∗ K ⟨⟩))
      ⊢ wp frame (wpE (defs₀ (F := F)) Variants.none c none) E (cc1__exloss_kernel i arg1 harg1 arg2 harg2 arg3 harg3 arg4 harg4 arg5 harg5) K := by
  simp only [cc1__exloss_kernel_eq_skeleton]; unfold cc1__exloss_kernel_skel
  simp only [k1_part1_eq_skeleton, k1_part2_eq_skeleton]
  unfold owns
  iintro ⟨⟨%f0, %hf0, H0⟩, ⟨%f1, %hf1, H1⟩, ⟨%d2, %f2, -, H2⟩, ⟨%f3, %hf3, H3⟩, ⟨%fs, %hfs, HS⟩, Hk⟩
  subst hf0; subst hf1; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _ _ _ _ _ _ _ _ _ _)
  isplitl [H3]
  · iexists f3; isplitr; · ipureintro; rfl
    iexact H3
  iexists _; isplitr
  swap; · iexact HS
  ipureintro
  exact View.read_writes_eq_canon _ _ _ (cover1_s _ _)

end Cert.Proof.KB

end
-- ==== Proof.Bits.Tc1RunA.lean ====
/-
  The body of the second call at the FIRST point: the scratch row, found at anything, is zeroed and left at this
  point's sums; the result block is filled; the row of log-sums is handed back as found.
-/
import proofs.«207136_g6528350290482_cont_9to1c4b_434_22_alg».proof.Proof.Bits.Tc1RunB

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

set_option maxHeartbeats 4000000 in
/-- On whole staging memrefs — the batch at `x0`, the class-row block at `x1`, the result block at anything, the
    row of log-sums at `xi3`, the scratch row at anything — the body runs to the continuation holding the inputs as
    they were, the result block at `out1_2 x0 x1`, the row of log-sums as found, the scratch at `sout1A x0 x1`. -/
theorem sound_kernel1_A (c : Dev nD) (E : Set ℕ) (i : grid1.Coords) (arg1 : Memref sig .tc .vmem S1024x128 .f32) (harg1 : arg1.IsWhole) (arg2 : Memref sig .tc .vmem S4000x128 .f32) (harg2 : arg2.IsWhole) (arg3 : Memref sig .tc .vmem S4000x1024 .f32) (harg3 : arg3.IsWhole) (arg4 : Memref sig .tc .vmem S1x1024 .f32) (harg4 : arg4.IsWhole) (arg5 : Memref sig .tc .vmem S1x1024 .f32) (harg5 : arg5.IsWhole)
    (hc0 : cond1_0 i) (hc1 : ¬cond1_1 i)
    (x0 : Vec F S1024x128 .f32) (x1 : Vec F S4000x128 .f32) (xi3 : Vec F S1x1024 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare xi3 ∗ owns (c : Thread nD τ) arg5 fullShare (sout1A x0 x1)) -∗ K ⟨⟩))
      ⊢ wp frame (wpE (defs₀ (F := F)) Variants.none c none) E (cc1__exloss_kernel i arg1 harg1 arg2 harg2 arg3 harg3 arg4 harg4 arg5 harg5) K := by
  simp only [cc1__exloss_kernel_eq_skeleton]; unfold cc1__exloss_kernel_skel
  simp only [k1_part1_eq_skeleton, k1_part2_eq_skeleton]
  unfold owns
  iintro ⟨⟨%f0, %hf0, H0⟩, ⟨%f1, %hf1, H1⟩, ⟨%d2, %f2, -, H2⟩, ⟨%f3, %hf3, H3⟩, ⟨%ds, %fs, -, HS⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _ _ _ _ _ _ _ _ _ _)
  isplitl [H3]
  · iexists f3; isplitr; · ipureintro; rfl
    iexact H3
  iexists _; isplitr
  swap; · iexact HS
  ipureintro
  refine (View.read_writes_eq_canon _ _ _ (cover1_s _ _)).trans ?_
  unfold sout1A
  sl_unfold_run_names
  first
    | rw [View.readCov_unit_zero arg5.view hz1]
    | rw [View.readCov_cons_toLoadRect]
  rfl

end Cert.Proof.KB

end
-- ==== Proof.Bits.Tc1RunC.lean ====
/-
  The body of the second call at the LAST point: the scratch row is found at what the point before left and left
  at that plus this point's sums; the result block is filled; the log of the new scratch row is stored into the row
  of log-sums.
-/
import proofs.«207136_g6528350290482_cont_9to1c4b_434_22_alg».proof.Proof.Bits.Tc1RunA

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

set_option maxHeartbeats 4000000 in
/-- On whole staging memrefs — the batch at `x0`, the class-row block at `x1`, the result block and the row of
    log-sums at anything, the scratch row at `xs` — the body runs to the continuation holding the inputs as they
    were, the result block at `out1_2 x0 x1`, the row of log-sums at `out1_3 x0 x1 xs`, the scratch at
    `sout1 x0 x1 xs`. -/
theorem sound_kernel1_C (c : Dev nD) (E : Set ℕ) (i : grid1.Coords) (arg1 : Memref sig .tc .vmem S1024x128 .f32) (harg1 : arg1.IsWhole) (arg2 : Memref sig .tc .vmem S4000x128 .f32) (harg2 : arg2.IsWhole) (arg3 : Memref sig .tc .vmem S4000x1024 .f32) (harg3 : arg3.IsWhole) (arg4 : Memref sig .tc .vmem S1x1024 .f32) (harg4 : arg4.IsWhole) (arg5 : Memref sig .tc .vmem S1x1024 .f32) (harg5 : arg5.IsWhole)
    (hc0 : ¬cond1_0 i) (hc1 : cond1_1 i)
    (x0 : Vec F S1024x128 .f32) (x1 : Vec F S4000x128 .f32) (xs : Vec F S1x1024 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1 xs) ∗ owns (c : Thread nD τ) arg5 fullShare (sout1 x0 x1 xs)) -∗ K ⟨⟩))
      ⊢ wp frame (wpE (defs₀ (F := F)) Variants.none c none) E (cc1__exloss_kernel i arg1 harg1 arg2 harg2 arg3 harg3 arg4 harg4 arg5 harg5) K := by
  simp only [cc1__exloss_kernel_eq_skeleton]; unfold cc1__exloss_kernel_skel
  simp only [k1_part1_eq_skeleton, k1_part2_eq_skeleton]
  unfold owns
  iintro ⟨⟨%f0, %hf0, H0⟩, ⟨%f1, %hf1, H1⟩, ⟨%d2, %f2, -, H2⟩, ⟨%d3, %f3, -, H3⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _ _ _ _ _ _ _ _ _ _)
  isplitl [H3]
  · iexists _; isplitr
    swap; · iexact H3
    ipureintro
    exact View.read_writes_eq_canon _ _ _ (cover1_s _ _)
  iexists _; isplitr
  swap; · iexact HS
  ipureintro
  exact View.read_writes_eq_canon _ _ _ (cover1_s _ _)

end Cert.Proof.KB

end
-- ==== Proof.Bits.Tc1.lean ====
/-
  The second call of the program as a pipeline of 25 points: what the scratch row holds point by point, the proof
  data, the body obligation, and how the region takes and returns its invariant.

  The scratch row after point t is s_t = s_{t-1} + (this point's sums of exponentials), s_{-1} the zero row the first
  point writes; the invariant before point t > 0 holds the scratch at s_{t-1}. The result block after point t is the
  ten products of the point's 4000 class rows with the batch; the row of log-sums is stored at the last point only,
  as log s_24, and is idle elsewhere.
-/
import proofs.«207136_g6528350290482_cont_9to1c4b_434_22_alg».proof.Proof.Bits.Tc1RunC

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

variable (V : (c : Dev nD) → (b : Ref sig .tc) → Buf (Elt F) ((c : Thread nD τ).loc b))
variable (Rec : Set (SemLoc sig × HIx 1))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The scratch row, point by point -/

/-- THE ACCUMULATION. The scratch row after the body at position `n`: at the first point the zeroed row plus the
    point's sums; afterwards what the point before left plus the point's sums. -/
def sAt1 (c : Dev nD) : (n : ℕ) → n < cfg1.N → Vec F S1x1024 .f32
  | 0, hn => sout1A (iblk1 V c 0 ⟨0, hn⟩) (iblk1 V c 1 ⟨0, hn⟩)
  | n + 1, hn => sout1 (iblk1 V c 0 ⟨n + 1, hn⟩) (iblk1 V c 1 ⟨n + 1, hn⟩) (sAt1 c n (Nat.lt_of_succ_lt hn))

theorem sAt1_zero (c : Dev nD) (t : Fin cfg1.N) (h0 : t.val = 0) :
    sAt1 V c t.val t.isLt = sout1A (iblk1 V c 0 t) (iblk1 V c 1 t) := by
  obtain ⟨n, hn⟩ := t
  cases n with
  | zero => rfl
  | succ n => exact absurd h0 (Nat.succ_ne_zero n)

theorem sAt1_pos (c : Dev nD) (t : Fin cfg1.N) (h0 : ¬t.val = 0) :
    sAt1 V c t.val t.isLt
      = sout1 (iblk1 V c 0 t) (iblk1 V c 1 t) (sAt1 V c (t.val - 1) (Nat.lt_of_le_of_lt (Nat.sub_le _ _) t.isLt)) := by
  obtain ⟨n, hn⟩ := t
  cases n with
  | zero => exact absurd rfl h0
  | succ n => rfl

/-- The scratch row as point `t` finds it (for `t` not the first): what the point before left. -/
def sPrev (c : Dev nD) (t : Fin cfg1.N) : Vec F S1x1024 .f32 :=
  sAt1 V c (t.val - 1) (Nat.lt_of_le_of_lt (Nat.sub_le _ _) t.isLt)

/-! ## The region invariant -/

/-- Before position `n`: at the first point the plain invariant (the scratch at anything); afterwards the scratch at
    what the point before left, the other scoped buffers at anything, the generator register at some state. -/
def PhiS1 (c : Dev nD) : (n : ℕ) → n ≤ cfg1.N → sProp 𝕄
  | 0, _ => ΦS spec1 c
  | n + 1, hn => iprop(iprop(owns (c : Thread nD τ) scM1 fullShare (sAt1 V c n hn) ∗ rest1 (F := F) (UU := UU) c) ∗ (∃ r, prngReg c r))

theorem PhiS1_zero (c : Dev nD) (n : ℕ) (h : n ≤ cfg1.N) (hz : n = 0) : PhiS1 (UU := UU) V c n h = ΦS spec1 c := by
  subst hz; rfl

theorem PhiS1_succ (c : Dev nD) (n : ℕ) (hn : n < cfg1.N) :
    PhiS1 (UU := UU) V c (n + 1) hn
      = iprop(iprop(owns (c : Thread nD τ) scM1 fullShare (sAt1 V c n hn) ∗ rest1 (F := F) (UU := UU) c) ∗ (∃ r, prngReg c r)) := rfl

theorem PhiS1_pos (c : Dev nD) (n : ℕ) (h : n ≤ cfg1.N) (hz : n ≠ 0) :
    PhiS1 (UU := UU) V c n h
      = iprop(iprop(owns (c : Thread nD τ) scM1 fullShare (sAt1 V c (n - 1) (by omega)) ∗ rest1 (F := F) (UU := UU) c) ∗ (∃ r, prngReg c r)) := by
  cases n with
  | zero => exact absurd rfl hz
  | succ n => rfl

/-! ## The pipeline's proof data -/

/-- The proof data of the call on core `c`: the arrays as the region finds them (`V`); after the body at point `t`
    each input's buffer at its block, the result block at the point's ten products, the row of log-sums (consulted
    at the last point only) at the log of the new scratch row; the invariant carrying the scratch row; nothing owed;
    full shares; the core's recorded waits within `Rec` throughout. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t) (sPrev V c t)
  Φ t := PhiS1 V c t.val (Nat.le_of_lt_succ t.isLt)
  q _ := fullShare
  owed _ := 0
  recorded _ := Rec

theorem A_eq1 (c : Dev nD) (w : Fin cfg1.W) : (dat1 (UU := UU) V Rec c).A w = V c (Pipeline.arrRef spec1 w) := by
  dsimp only [dat1]

theorem PhiS1_castSucc (c : Dev nD) (t : Fin cfg1.N) :
    (dat1 (UU := UU) V Rec c).Φ t.castSucc = PhiS1 (UU := UU) V c t.val (Nat.le_of_lt t.isLt) := by
  dsimp only [dat1]; simp only [Fin.coe_castSucc]

theorem after1_0 (c : Dev nD) (t : Fin cfg1.N) : (dat1 (UU := UU) V Rec c).after 0 t = iblk1 V c 0 t := by dsimp only [dat1]
theorem after1_1 (c : Dev nD) (t : Fin cfg1.N) : (dat1 (UU := UU) V Rec c).after 1 t = iblk1 V c 1 t := by dsimp only [dat1]
theorem after1_2 (c : Dev nD) (t : Fin cfg1.N) : (dat1 (UU := UU) V Rec c).after 2 t = out1_2 (iblk1 V c 0 t) (iblk1 V c 1 t) := by dsimp only [dat1]
theorem after1_3 (c : Dev nD) (t : Fin cfg1.N) :
    (dat1 (UU := UU) V Rec c).after 3 t = out1_3 (iblk1 V c 0 t) (iblk1 V c 1 t) (sPrev V c t) := by dsimp only [dat1]

theorem before1_0 (c : Dev nD) (t : Fin cfg1.N) (d) : (dat1 (UU := UU) V Rec c).before 0 t d = iblk1 V c 0 t :=
  before1_0_of V (dat1 (UU := UU) V Rec c) (A_eq1 V Rec c 0) (after1_0 V Rec c) t d
theorem before1_1 (c : Dev nD) (t : Fin cfg1.N) (d) : (dat1 (UU := UU) V Rec c).before 1 t d = iblk1 V c 1 t :=
  before1_1_of V (dat1 (UU := UU) V Rec c) (A_eq1 V Rec c 1) (after1_1 V Rec c) t d

/-! ## The body obligation, at a generic point -/

def bodyPre1 (c : Dev nD) (t : Fin cfg1.N) : sProp 𝕄 :=
  iprop((dat1 (UU := UU) V Rec c).Φ t.castSucc ∗ (dat1 (UU := UU) V Rec c).owesAt (none : HIx 1) t.castSucc
    ∗ (∃ d, owns (c : Thread nD τ) (ms1_0 t) fullShare ((dat1 (UU := UU) V Rec c).before 0 t d))
    ∗ (∃ d, owns (c : Thread nD τ) (ms1_1 t) fullShare ((dat1 (UU := UU) V Rec c).before 1 t d))
    ∗ (∃ d, owns (c : Thread nD τ) (ms1_2 t) fullShare ((dat1 (UU := UU) V Rec c).before 2 t d))
    ∗ (∃ d, owns (c : Thread nD τ) (ms1_3 t) fullShare ((dat1 (UU := UU) V Rec c).before 3 t d)))

def bodyPost1 (c : Dev nD) (t : Fin cfg1.N) : sProp 𝕄 :=
  iprop((dat1 (UU := UU) V Rec c).Φ t.succ ∗ (dat1 (UU := UU) V Rec c).owesAt (none : HIx 1) t.succ
    ∗ (dat1 (UU := UU) V Rec c).leavesExact 0 t
    ∗ (dat1 (UU := UU) V Rec c).leavesExact 1 t
    ∗ (dat1 (UU := UU) V Rec c).leavesExact 2 t
    ∗ (dat1 (UU := UU) V Rec c).leavesExact 3 t)

set_option maxHeartbeats 4800000 in
/-- The body at any point: the inputs' memrefs hold their blocks; the closed forms say which case the point is in;
    the invariant hands the body the scratch row at what the point before left (at anything at the first point) and
    takes it back at this point's contents; the core owes nothing throughout. -/
theorem sound_body1 (c : Dev nD) (t : Fin cfg1.N) :
    bodyPre1 (UU := UU) V Rec c t ⊢ wp frame (wpE (defs₀ (F := F)) Variants.none c none) Set.univ (bodyAt1 t) (fun _ => bodyPost1 (UU := UU) V Rec c t) := by
  unfold bodyPre1 bodyPost1 bodyAt1
  simp only [before1_0, before1_1]
  rw [show (dat1 (UU := UU) V Rec c).owesAt (none : HIx 1) t.succ = (dat1 (UU := UU) V Rec c).owesAt (none : HIx 1) t.castSucc from rfl]
  rw [show (dat1 (UU := UU) V Rec c).Φ t.succ = PhiS1 (UU := UU) V c (t.val + 1) t.isLt from rfl, PhiS1_succ]
  rw [show (dat1 (UU := UU) V Rec c).leavesExact 0 t = owns (c : Thread nD τ) (ms1_0 t) fullShare ((dat1 (UU := UU) V Rec c).after 0 t) from by
    unfold Dat.leavesExact; rw [liveAt1_0 t], after1_0]
  rw [show (dat1 (UU := UU) V Rec c).leavesExact 1 t = owns (c : Thread nD τ) (ms1_1 t) fullShare ((dat1 (UU := UU) V Rec c).after 1 t) from by
    unfold Dat.leavesExact; rw [liveAt1_1 t], after1_1]
  rw [show (dat1 (UU := UU) V Rec c).leavesExact 2 t = owns (c : Thread nD τ) (ms1_2 t) fullShare ((dat1 (UU := UU) V Rec c).after 2 t) from by
    unfold Dat.leavesExact; rw [liveAt1_2 t], after1_2]
  have hN : t.val < 25 := lt_of_lt_of_eq t.isLt (show cfg1.N = 25 from N_1)
  by_cases h0 : t.val = 0
  · have h1 : ¬t.val = 24 := by omega
    rw [Dat.leavesExact_idle (dat1 (UU := UU) V Rec c) 3 t (idleAt1_3 t (fun h => h1 ((hcond1_1 t).mp h))) (noFlush1_3 t (fun h => h1 ((hcond1_1 t).mp h)))]
    rw [sAt1_zero V c t h0, PhiS1_castSucc, PhiS1_zero V c _ _ h0, ΦS1_eq]
    iintro ⟨⟨⟨HS, Hrest⟩, Hg⟩, Ho, ⟨%d0, H0⟩, ⟨%d1, H1⟩, ⟨%d2, H2⟩, ⟨%d3, H3⟩⟩
    iapply (sound_kernel1_A (UU := UU) c Set.univ (grid1.coords t) _ _ _ _ _ _ _ _ _ _ ((hcond1_0 t).mpr h0) (fun h => h1 ((hcond1_1 t).mp h)) (iblk1 V c 0 t) (iblk1 V c 1 t) ((dat1 (UU := UU) V Rec c).before 3 t d3) _)
    isplitl [H0]; · iexact H0
    isplitl [H1]; · iexact H1
    isplitl [H2]; · iexists _; iexact H2
    isplitl [H3]; · iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexists _; iexact H3
  · rw [sAt1_pos V c t h0, PhiS1_castSucc, PhiS1_pos V c _ _ h0]
    by_cases h1 : t.val = 24
    · rw [show (dat1 (UU := UU) V Rec c).leavesExact 3 t = owns (c : Thread nD τ) (ms1_3 t) fullShare ((dat1 (UU := UU) V Rec c).after 3 t) from by
        unfold Dat.leavesExact; rw [liveAt1_3 t ((hcond1_1 t).mpr h1)], after1_3]
      unfold sPrev
      iintro ⟨⟨⟨HS, Hrest⟩, Hg⟩, Ho, ⟨%d0, H0⟩, ⟨%d1, H1⟩, ⟨%d2, H2⟩, ⟨%d3, H3⟩⟩
      iapply (sound_kernel1_C (UU := UU) c Set.univ (grid1.coords t) _ _ _ _ _ _ _ _ _ _ (fun h => h0 ((hcond1_0 t).mp h)) ((hcond1_1 t).mpr h1) (iblk1 V c 0 t) (iblk1 V c 1 t) _ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [Dat.leavesExact_idle (dat1 (UU := UU) V Rec c) 3 t (idleAt1_3 t (fun h => h1 ((hcond1_1 t).mp h))) (noFlush1_3 t (fun h => h1 ((hcond1_1 t).mp h)))]
      iintro ⟨⟨⟨HS, Hrest⟩, Hg⟩, Ho, ⟨%d0, H0⟩, ⟨%d1, H1⟩, ⟨%d2, H2⟩, ⟨%d3, H3⟩⟩
      iapply (sound_kernel1_B (UU := UU) c Set.univ (grid1.coords t) _ _ _ _ _ _ _ _ _ _ (fun h => h0 ((hcond1_0 t).mp h)) (fun h => h1 ((hcond1_1 t).mp h)) (iblk1 V c 0 t) (iblk1 V c 1 t) ((dat1 (UU := UU) V Rec c).before 3 t d3) _ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) :
    BodyObligation (dat1 (F := F) (UU := UU) V Rec c) (defs₀ (F := F)) Variants.none (none : HIx 1) Set.univ := fun t => by
  rw [bigSep_W1, bigSep_W1]
  exact sound_body1 (UU := UU) V Rec c t

/-! ## Into the region and out of it -/

/-- What the launch hands the region is the invariant before the first point. -/
theorem hin1 (c : Dev nD) :
    iprop((∃ r, prngReg c r) ∗ Pipeline.scopedRest (Ix := HIx 1) (Name := ℕ) (U := UU) (Lvl := ℕ) (Val := Elt F) spec1 c) ⊢ (dat1 (UU := UU) V Rec c).Φ 0 := by
  rw [show (dat1 (UU := UU) V Rec c).Φ 0 = ΦS spec1 c from rfl]; unfold ΦS
  iintro ⟨Hp, Hr⟩
  isplitl [Hr]; · iexact Hr
  iexact Hp

/-- After the last point the invariant gives the plain one back: the scratch row's contents are forgotten. -/
theorem hout1 (c : Dev nD) :
    (dat1 (UU := UU) V Rec c).Φ (Fin.last cfg1.N) ⊢ iprop((∃ r, prngReg c r) ∗ Pipeline.scopedRest (Ix := HIx 1) (Name := ℕ) (U := UU) (Lvl := ℕ) (Val := Elt F) spec1 c) := by
  have hne : (Fin.last cfg1.N).val ≠ 0 := by rw [Fin.val_last]; have : cfg1.N = 25 := N_1; omega
  have hΦ : (dat1 (UU := UU) V Rec c).Φ (Fin.last cfg1.N) ⊢ (ΦS spec1 c : sProp 𝕄) := by
    rw [show (dat1 (UU := UU) V Rec c).Φ (Fin.last cfg1.N) = PhiS1 (UU := UU) V c (Fin.last cfg1.N).val (Nat.le_of_lt_succ (Fin.last cfg1.N).isLt) from rfl,
      PhiS1_pos V c _ _ hne, ΦS1_eq]
    iintro ⟨⟨HS, Hrest⟩, Hg⟩
    isplitl [HS Hrest]
    · isplitl [HS]; · iexists _; iexact HS
      iexact Hrest
    iexact Hg
  refine hΦ.trans ?_
  unfold ΦS
  iintro ⟨Hr, Hp⟩
  isplitl [Hp]; · iexact Hp
  iexact Hr

end Cert.Proof.KB

end
-- ==== Proof.Bits.Reg1.lean ====
/-
  The first pallas_call's proof data as the assembly takes it: the data (each input's staging buffer at its block, the
  similarity block and the running sum of exponentials after each grid point, the log of the sum written at the last
  point), what it owes (nothing), the bound on its recorded waits, how its invariant is entered and left, and the body
  obligation.
-/
import proofs.«207136_g6528350290482_cont_9to1c4b_434_22_alg».proof.Proof.Bits.Reads
import proofs.«207136_g6528350290482_cont_9to1c4b_434_22_alg».proof.Proof.Bits.Tc1

noncomputable section

namespace Cert.Proof.KB

open Cert.Kernel Cert.Kernel.Gen
open Idealize.ShloMosaic Idealize.ShloMosaic.TcCoe
open Idealize.ShloMosaic.SparseCore.Cfg (HIx)
open Idealize.SL Idealize.SL.Sem

variable {F : FTy → Type} [FloatOps F]

def reg1Data : Reg1Data (F := F) where
  dat := fun Vv Rc c => dat1 (UU := UU) Vv Rc c
  hA := fun Vv Rc c w => A_eq1 (UU := UU) Vv Rc c w
  hq := fun _ _ _ _ => rfl
  howed := fun _ _ _ _ => rfl
  hrec := fun _ _ _ _ => rfl
  hin := fun Vv Rc c => hin1 (UU := UU) Vv Rc c
  hout := fun Vv Rc c => hout1 (UU := UU) Vv Rc c
  hbody := fun Vv Rc c => body_obligation1 (UU := UU) Vv Rc c

end Cert.Proof.KB

end
-- ==== Proof.Bits.ScPay.lean ====
/-
  What the handshakes of the one SparseCore call carry, and the array it computes.

  The call gathers, for each of the 1024 batch rows b, row t[b] of the table of class rows (100000 rows of 128
  features) into row b of the result. The work is cut among 2 SparseCores of 16 vector subcores each: subcore s of
  SparseCore c is task w = 2 s + c of 32, and task w handles the 32 batch rows 32 w, …, 32 w + 31.

  * `PreOK`: every class number names a row of the table.
  * `gathered`: the whole result as one function of the launch memory: entry (b, f) is the table at
    (t[b], f) (the row reduced into the table's range, which changes nothing under `PreOK`).
  * `P`: what task w is handed — its 32 class numbers, a share of the whole table (the full share cut in 32
    pieces), its block of 32 rows of the result at the launch contents — and what it hands back — the same, its block
    at `gathered`. A SparseCore is handed, and hands back, what its sixteen tasks are.
-/
import proofs.«207136_g6528350290482_cont_9to1c4b_434_22_alg».proof.Proof.Bits.ScBase
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

/-! ## The precondition and the result -/

/-- Every class number names a row of the table. -/
def PreOK : Prop := ∀ (d : Dev nD) (j : S1024.Idx), (m (tLoc d) j).toNat < 100000

/-- The class row of batch row `b`, as a row of the table (reduced into range). -/
def rowOfB (d : Dev nD) (b : Fin 1024) : Fin 100000 :=
  ⟨(m (tLoc d) (ix1 b)).toNat % 100000, Nat.mod_lt _ (by omega)⟩

/-- The gathered rows: entry `(b, f)` is the table at `(t[b], f)`. -/
def gathered (d : Dev nD) : Buf (Elt F) (oLoc d) :=
  fun x : S1024x128.Idx => m (vLoc d) (ix2 (rowOfB m d (x 0)) (x 1))

theorem gathered_apply (d : Dev nD) (b : Fin 1024) (f : Fin 128) :
    gathered m d (ix2 b f) = m (vLoc d) (ix2 (rowOfB m d b) f) := rfl

theorem rowOfB_val (hpre : PreOK m) (d : Dev nD) (b : Fin 1024) : (rowOfB m d b).val = (m (tLoc d) (ix1 b)).toNat :=
  Nat.mod_eq_of_lt (hpre d _)

/-! ## The arrays as the vector subcores name them; the 32 blocks of rows; the 32 shares of the table -/

local notation "tV" => (Memref.whole Cert.Kernel.main_arg1_scv : Memref Cert.Kernel.sig Kind.scVector Space.hbm Cert.Kernel.S1024 EltTy.i32)
local notation "oV" => (Memref.whole Cert.Kernel.main_v0_scv : Memref Cert.Kernel.sig Kind.scVector Space.hbm Cert.Kernel.S1024x128 EltTy.f32)

theorem tdiv : 32 ∣ S1024.size 0 := ⟨32, rfl⟩
theorem odiv : 32 ∣ S1024x128.size 0 := ⟨32, rfl⟩
/-- Block `w` of the class numbers: 32 consecutive ones. -/
abbrev trow (w : Fin 32) : Rect S1024 := Rect.part (s := S1024) (a₀ := 0) tdiv w
/-- Block `w` of the result: 32 consecutive rows, whole. -/
abbrev orow (w : Fin 32) : Rect S1024x128 := Rect.part (s := S1024x128) (a₀ := 0) odiv w
abbrev tRowSet (w : Fin 32) : Finset S1024.Idx := ((tV).view.slice (trow w)).set
abbrev oRowSet (w : Fin 32) : Finset S1024x128.Idx := ((oV).view.slice (orow w)).set

/-- Task `w`'s share of the table: piece `w` of the full share cut in 32. -/
abbrev vq (w : Fin 32) : PosShare TreeShare := pieceOf fullShare 32 (by omega) w

/-- The task that vector subcore `i` of SparseCore `c` is. -/
def wOf (c : Fin 2) (i : Fin 16) : Fin 32 := ⟨2 * i.val + c.val, by omega⟩

/-! ## What the handshakes carry -/

abbrev tPts (d : Dev nD) : sProp 𝕄 := tLoc d ↦{fullShare} m (tLoc d)
abbrev vPts (d : Dev nD) : sProp 𝕄 := vLoc d ↦{fullShare} m (vLoc d)
abbrev oPts (d : Dev nD) (f : Buf (Elt F) (oLoc d)) : sProp 𝕄 := oLoc d ↦{fullShare} f
abbrev tRowPts (d : Dev nD) (w : Fin 32) : sProp 𝕄 := tLoc d ↦[tRowSet w]{fullShare} m (tLoc d)
abbrev vShPts (d : Dev nD) (w : Fin 32) : sProp 𝕄 := vLoc d ↦{vq w} m (vLoc d)
abbrev oRowPts (d : Dev nD) (w : Fin 32) (f : Buf (Elt F) (oLoc d)) : sProp 𝕄 := oLoc d ↦[oRowSet w]{fullShare} f

/-- What task `w` takes: its class numbers, its share of the table, its block of the result as launched. -/
abbrev goA (d : Dev nD) (w : Fin 32) : sProp 𝕄 := iprop(tRowPts m d w ∗ vShPts m d w ∗ oRowPts d w (m (oLoc d)))
/-- What task `w` brings back: the same, its block of the result holding the gathered rows. -/
abbrev tdA (d : Dev nD) (w : Fin 32) : sProp 𝕄 := iprop(tRowPts m d w ∗ vShPts m d w ∗ oRowPts d w (gathered m d))

/-- The one call: each vector subcore takes and brings back its task's part; a SparseCore what its sixteen do. -/
def P : (K (F := F)).Pay (nD := nD) (Val := Elt F) (Name := ℕ) (U := UU) where
  st := fun q d c => match q with
    | 0 => bigSep Finset.univ fun i : Fin ((K (F := F)).nSub 0) => goA m d (wOf (Fin.cast nCore_zero c) (Fin.cast nSub_zero i))
  dn := fun q d c => match q with
    | 0 => bigSep Finset.univ fun i : Fin ((K (F := F)).nSub 0) => tdA m d (wOf (Fin.cast nCore_zero c) (Fin.cast nSub_zero i))
  go := fun q d c i => match q with
    | 0 => goA m d (wOf (Fin.cast nCore_zero c) (Fin.cast nSub_zero i))
  td := fun q d c i => match q with
    | 0 => tdA m d (wOf (Fin.cast nCore_zero c) (Fin.cast nSub_zero i))
  x := fun _ _ => iprop(emp)

theorem P_st (d : Dev nD) (c : Fin ((K (F := F)).nCore 0)) :
    (P (UU := UU) m).st 0 d c = bigSep Finset.univ fun i : Fin ((K (F := F)).nSub 0) => goA m d (wOf (Fin.cast nCore_zero c) (Fin.cast nSub_zero i)) := rfl
theorem P_dn (d : Dev nD) (c : Fin ((K (F := F)).nCore 0)) :
    (P (UU := UU) m).dn 0 d c = bigSep Finset.univ fun i : Fin ((K (F := F)).nSub 0) => tdA m d (wOf (Fin.cast nCore_zero c) (Fin.cast nSub_zero i)) := rfl
theorem P_go (d : Dev nD) (c : Fin ((K (F := F)).nCore 0)) (i : Fin ((K (F := F)).nSub 0)) :
    (P (UU := UU) m).go 0 d c i = goA m d (wOf (Fin.cast nCore_zero c) (Fin.cast nSub_zero i)) := rfl
theorem P_td (d : Dev nD) (c : Fin ((K (F := F)).nCore 0)) (i : Fin ((K (F := F)).nSub 0)) :
    (P (UU := UU) m).td 0 d c i = tdA m d (wOf (Fin.cast nCore_zero c) (Fin.cast nSub_zero i)) := rfl
theorem P_x (q : Fin 1) (thr : Thread nD τ) : (P (UU := UU) m).x q thr = iprop(emp) := rfl
theorem P_ox : (P (UU := UU) m).ox = fun _ _ => 0 := rfl

instance P_storable : (P (UU := UU) m).IsStorable where
  st q d c := match q with
    | 0 => (inferInstance : BI.Storable (upEmb : UEmb _ 𝕄)
      (bigSep Finset.univ fun i : Fin ((K (F := F)).nSub 0) => goA m d (wOf (Fin.cast nCore_zero c) (Fin.cast nSub_zero i))))
  dn q d c := match q with
    | 0 => (inferInstance : BI.Storable (upEmb : UEmb _ 𝕄)
      (bigSep Finset.univ fun i : Fin ((K (F := F)).nSub 0) => tdA m d (wOf (Fin.cast nCore_zero c) (Fin.cast nSub_zero i))))
  go q d c i := match q with
    | 0 => (inferInstance : BI.Storable (upEmb : UEmb _ 𝕄) (goA m d (wOf (Fin.cast nCore_zero c) (Fin.cast nSub_zero i))))
  td q d c i := match q with
    | 0 => (inferInstance : BI.Storable (upEmb : UEmb _ 𝕄) (tdA m d (wOf (Fin.cast nCore_zero c) (Fin.cast nSub_zero i))))

end Cert.Proof.KB

end
-- ==== Proof.Bits.ScPlace.lean ====
/-
  The place of one task of the SparseCore call: grid point L = (c, s) is task w = 2 s + c of 32. The blocks of the
  class numbers and of the result that the task addresses (through the offsets the program computes) are blocks w
  of the cut of those arrays into 32; the task's own scratch buffers and DMA semaphores among its subcore's.
-/
import proofs.«207136_g6528350290482_cont_9to1c4b_434_22_alg».proof.Proof.Bits.ScPay
import proofs.«207136_g6528350290482_cont_9to1c4b_434_22_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

local notation "tV" => (Memref.whole Cert.Kernel.main_arg1_scv : Memref Cert.Kernel.sig Kind.scVector Space.hbm Cert.Kernel.S1024 EltTy.i32)
local notation "vV" => (Memref.whole Cert.Kernel.main_arg5_scv : Memref Cert.Kernel.sig Kind.scVector Space.hbm Cert.Kernel.S100000x128 EltTy.f32)
local notation "oV" => (Memref.whole Cert.Kernel.main_v0_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S32 EltTy.i32)
local notation "rV" => (Memref.whole Cert.Kernel.cc0_scratch1 : Memref Cert.Kernel.sig Kind.scVector Space.vmem Cert.Kernel.S32x128 EltTy.f32)

/-! ## The place -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The task at grid point `L`. -/
abbrev wL (L : grid0.Coords) : Fin 32 :=
  ⟨2 * (L 1).val + (L 0).val, by have h0 : (L 0).val < 2 := (L 0).isLt; have h1 : (L 1).val < 16 := (L 1).isLt; omega⟩

theorem wL_val : (wL L).val = 2 * (L 1).val + (L 0).val := rfl

abbrev trowK (L : grid0.Coords) : Rect S1024 := Rect.unit (s := S1024) (k0_off1 L) S32.size (k0_off1_inb L)
abbrev orowK (L : grid0.Coords) : Rect S1024x128 := Rect.unit (s := S1024x128) (k0_off2 L) S32x128.size (k0_off2_inb L)
/-- Block `wL L` of the class numbers and of the result, and all of the table, as the task addresses them. -/
abbrev tRowK (L : grid0.Coords) : Memref sig .scVector .hbm S32 .i32 := (tV).slice (trowK L) (fun _ => rfl)
abbrev oRowK (L : grid0.Coords) : Memref sig .scVector .hbm S32x128 .f32 := (oV).slice (orowK L) (fun _ => rfl)
abbrev vAllK : Memref sig .scVector .hbm S100000x128 .f32 := (vV).slice (Rect.unit (s := S100000x128) ![0, 0] S100000x128.size inb_S100000x128_S100000x128_0_0) (fun _ => rfl)

theorem trowK_eq : trowK L = trow (wL L) := by
  unfold trowK trow Rect.part Rect.block
  congr 1 <;> funext a
  · rw [k0_off1_eq]
    match a with
    | 0 => simp [Shape.partIx, Shape.partSize]; omega
  · match a with
    | 0 => simp [Shape.partSize]
theorem orowK_eq : orowK L = orow (wL L) := by
  unfold orowK orow Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

theorem set_tRowK : (tRowK L).view.set = tRowSet (wL L) := by
  show ((tV).view.slice (trowK L)).set = ((tV).view.slice (trow (wL L))).set
  rw [trowK_eq]
theorem set_oRowK : (oRowK L).view.set = oRowSet (wL L) := by
  show ((oV).view.slice (orowK L)).set = ((oV).view.slice (orow (wL L))).set
  rw [orowK_eq]

theorem pts_tRowK (f : Buf (Elt F) (tLoc d)) :
    ((tRowK L).view.loc (V d (cV L) (jV L)) ↦[(tRowK L).view.set]{fullShare} f : sProp 𝕄) = tLoc d ↦[tRowSet (wL L)]{fullShare} f := by
  rw [set_tRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_vV (q : PosShare TreeShare) (f : Buf (Elt F) (vLoc d)) :
    ((vV).view.loc (V d (cV L) (jV L)) ↦{q} f : sProp 𝕄) = vLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

end Tile

section Own

variable (d : Dev nD) (L : grid0.Coords)

/-- The three DMA semaphores of the task: the index fetch's, the gather's, the copy-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Own

end Cert.Proof.KB

end
-- ==== Proof.Bits.ScValue.lean ====
/-
  The value one task leaves in its block of the result.

  The index fetch lands block w of the class numbers t in the index scratch; the stream's payload is, at (k, f), the
  table at (row named by word k of the scratch, f); the copy-out writes the row scratch's contents to rows
  32 w .. 32 w + 31 of the result. So entry (32 w + k, f) of the result is the table at (t[32 w + k], f): the
  whole-array function `gathered` on the block.
-/
import proofs.«207136_g6528350290482_cont_9to1c4b_434_22_alg».proof.Proof.Bits.ScPlace

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

local notation "tV" => (Memref.whole Cert.Kernel.main_arg1_scv : Memref Cert.Kernel.sig Kind.scVector Space.hbm Cert.Kernel.S1024 EltTy.i32)
local notation "vV" => (Memref.whole Cert.Kernel.main_arg5_scv : Memref Cert.Kernel.sig Kind.scVector Space.hbm Cert.Kernel.S100000x128 EltTy.f32)
local notation "oV" => (Memref.whole Cert.Kernel.main_v0_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S32 EltTy.i32)
local notation "rV" => (Memref.whole Cert.Kernel.cc0_scratch1 : Memref Cert.Kernel.sig Kind.scVector Space.vmem Cert.Kernel.S32x128 EltTy.f32)

variable (d : Dev nD) (L : grid0.Coords)

/-- What the index fetch lands: block `wL L` of the class numbers. -/
abbrev landed (L : grid0.Coords) : S32.Idx → Elt F .i32 := (tRowK L).view.read (Elt F) (m (tLoc d))

/-- Word `k` of what the fetch lands is class number `32 w + k`. -/
theorem landed_apply (k : S32.Idx) : landed m d L k = m (tLoc d) ((tRowK L).view.emb k) :=
  (View.read_apply _ _).trans (cast_eq _ _)

/-- The offsets the stream reads are in range: what the index fetch landed in its scratch is block `wL L` of the
    class numbers, each naming a row of the table. -/
theorem inb_of_pre (hpre : PreOK m) (fs : Buf (Elt F) ((V d (cV L) (jV L)).loc cc0_scratch0)) (pay : S32.Idx → Elt F .i32)
    (hpay : pay = landed m d L) :
    ∀ x, ((sV).view.read (Elt F) (View.write (Elt F) (sV).view fs pay Finset.univ) x).toNat < S100000x128.size gathers_S100000x128_S32x128.axis := by
  subst hpay; intro x
  rw [View.read_write_univ, landed_apply]
  exact hpre d _

/-- The class number under word `k` of block `wL L` sits at `32 w + k`; so does row `k` of block `wL L` of the result. -/
theorem tRowK_emb_val (k : S32.Idx) : (((tRowK L).view.emb k) 0).val = 32 * (wL L).val + (k 0).val := by
  show (k0_off1 L) 0 + 1 * (k 0).val = _
  rw [k0_off1_eq]; simp; omega
theorem oRowK_emb_val0 (j : S32x128.Idx) : (((oRowK L).view.emb j) 0).val = 32 * (wL L).val + (j 0).val := by
  show (k0_off2 L) 0 + 1 * (j 0).val = _
  rw [k0_off2_eq]; simp; omega
theorem oRowK_emb_val1 (j : S32x128.Idx) : (((oRowK L).view.emb j) 1).val = (j 1).val := by
  show (k0_off2 L) 1 + 1 * (j 1).val = _
  rw [k0_off2_eq]; simp

/-- A rank-one index of 32 is its row-major position. -/
theorem rowMajor_symm_val (k : Fin S32.numel) : ((S32.rowMajor.symm k) 0).val = k.val := by
  have h := Shape.rowMajor_val_one (d := ![32]) (S32.rowMajor.symm k)
  rw [Equiv.apply_symm_apply] at h
  exact h.symm

/-- The table as the stream addresses it is the table. -/
theorem vAllK_emb (y : S100000x128.Idx) : (vAllK).view.emb y = y := by
  funext a
  match a with
  | 0 => exact Fin.ext (by show 0 + 1 * (y 0).val = (y 0).val; omega)
  | 1 => exact Fin.ext (by show 0 + 1 * (y 1).val = (y 1).val; omega)

/-- The row the stream reads for its entry `k`: the class number of batch row `32 w + k`. -/
theorem row_val (fs : Buf (Elt F) ((V d (cV L) (jV L)).loc cc0_scratch0))
    (hin : ∀ x, ((sV).view.read (Elt F) (View.write (Elt F) (sV).view fs (landed m d L) Finset.univ) x).toNat < S100000x128.size gathers_S100000x128_S32x128.axis)
    (k : Fin (S32x128.size gathers_S100000x128_S32x128.axis')) (b : Fin 1024) (hb : b.val = 32 * (wL L).val + k.val) :
    (SparseCore.rows ((sV).view.read (Elt F) (View.write (Elt F) (sV).view fs (landed m d L) Finset.univ)) (rfl : S32.numel = S32x128.size gathers_S100000x128_S32x128.axis') hin k).val
      = (m (tLoc d) (ix1 b)).toNat := by
  show ((sV).view.read (Elt F) (View.write (Elt F) (sV).view fs (landed m d L) Finset.univ) (S32.rowMajor.symm (k.cast rfl))).toNat = _
  rw [View.read_write_univ, landed_apply]
  congr 2
  funext a
  match a with
  | 0 => exact Fin.ext (by rw [tRowK_emb_val, rowMajor_symm_val]; exact hb.symm)

/-- The gather's payload over what the fetch landed, read through the row scratch and written through block `wL L`
    of the result, is `gathered` on that block. -/
theorem out_value (hpre : PreOK m) (fs : Buf (Elt F) ((V d (cV L) (jV L)).loc cc0_scratch0)) (fr : Buf (Elt F) ((V d (cV L) (jV L)).loc cc0_scratch1))
    (hin : ∀ x, ((sV).view.read (Elt F) (View.write (Elt F) (sV).view fs (landed m d L) Finset.univ) x).toNat < S100000x128.size gathers_S100000x128_S32x128.axis)
    (pay : S32x128.Idx → Elt F .f32)
    (hpay : pay = (rV).view.read (Elt F) ((rV).view.write (Elt F) fr
        (SparseCore.gatherPayload gathers_S100000x128_S32x128 ((vAllK).view.read (Elt F) (m (vLoc d)))
          (SparseCore.rows ((sV).view.read (Elt F) (View.write (Elt F) (sV).view fs (landed m d L) Finset.univ)) rfl hin)) Finset.univ)) :
    ∀ i ∈ (oRowK L).view.set, View.write (Elt F) (oRowK L).view (m (oLoc d)) pay Finset.univ i = gathered m d i := by
  subst hpay
  intro i hi
  obtain ⟨j, -, rfl⟩ := Finset.mem_map.mp hi
  rw [View.write_emb_of_mem _ _ (Finset.mem_univ j), View.read_write_univ]
  unfold SparseCore.gatherPayload
  rw [View.read_apply]
  simp only [cast_eq]
  unfold gathered
  refine congrArg (m (vLoc d)) ?_
  rw [vAllK_emb]
  funext a
  match a with
  | 0 =>
    refine Fin.ext ?_
    have h1 := congrArg Fin.val (Shape.Gathers.idx_axis gathers_S100000x128_S32x128
      (SparseCore.rows ((sV).view.read (Elt F) (View.write (Elt F) (sV).view fs (landed m d L) Finset.univ)) (rfl : S32.numel = S32x128.size gathers_S100000x128_S32x128.axis') hin) j)
    have h2 := row_val m d L fs hin (j gathers_S100000x128_S32x128.axis') (((oRowK L).view.emb j) 0) (oRowK_emb_val0 L j)
    exact h1.trans (h2.trans (rowOfB_val m hpre d _).symm)
  | 1 =>
    refine Fin.ext ?_
    have h1 := Shape.Gathers.idx_of_ne gathers_S100000x128_S32x128
      (SparseCore.rows ((sV).view.read (Elt F) (View.write (Elt F) (sV).view fs (landed m d L) Finset.univ)) (rfl : S32.numel = S32x128.size gathers_S100000x128_S32x128.axis') hin) j 1 (by decide)
    exact h1.trans (oRowK_emb_val1 L j).symm

/-- The whole rectangle of the row scratch's shape places every index at itself. -/
theorem whole_emb32 (j : S32x128.Idx) : (Rect.whole S32x128).emb j = j := by
  funext a; exact Fin.ext (by show 0 + 1 * (j a).val = (j a).val; omega)

/-- The same, the copy-out's write kept as the one whole piece of a list of writes. -/
theorem out_value_writes (hpre : PreOK m) (fs : Buf (Elt F) ((V d (cV L) (jV L)).loc cc0_scratch0)) (fr : Buf (Elt F) ((V d (cV L) (jV L)).loc cc0_scratch1))
    (hin : ∀ x, ((sV).view.read (Elt F) (View.write (Elt F) (sV).view fs (landed m d L) Finset.univ) x).toNat < S100000x128.size gathers_S100000x128_S32x128.axis)
    (pay : S32x128.Idx → Elt F .f32)
    (hpay : pay = (rV).view.read (Elt F) ((rV).view.write (Elt F) fr
        (SparseCore.gatherPayload gathers_S100000x128_S32x128 ((vAllK).view.read (Elt F) (m (vLoc d)))
          (SparseCore.rows ((sV).view.read (Elt F) (View.write (Elt F) (sV).view fs (landed m d L) Finset.univ)) rfl hin)) Finset.univ)) :
    ∀ i ∈ (oRowK L).view.set, (oRowK L).view.writes (Elt F) (m (oLoc d)) [⟨Rect.whole S32x128, pay⟩] i = gathered m d i := by
  intro i hi
  rw [← out_value m d L hpre fs fr hin pay hpay i hi]
  obtain ⟨j, -, rfl⟩ := Finset.mem_map.mp hi
  have e : ((oRowK L).view.slice (Rect.whole S32x128)).emb j = (oRowK L).view.emb j := by
    show (oRowK L).view.emb ((Rect.whole S32x128).emb j) = _
    rw [whole_emb32]
  rw [View.writes_singleton]
  conv_lhs => rw [← e]
  rw [View.write_emb_of_mem _ _ (Finset.mem_univ j), View.write_emb_of_mem _ _ (Finset.mem_univ j)]

end Cert.Proof.KB

end
-- ==== Proof.Bits.ScTile.lean ====
/-
  The task of one vector subcore of the SparseCore call, at a symbolic place, and the call's obligation.

  Task w = 2 s + c (subcore s of SparseCore c) fetches class numbers t[32 w .. 32 w + 31] into its index scratch
  and waits; gathers the rows of the table those numbers name into its row scratch (the indirect stream) and waits;
  copies the row scratch out to rows 32 w .. 32 w + 31 of the result and waits. Each transfer completes on a DMA
  semaphore of its own, held at zero before and after. The task returns its class numbers and its share of the
  table unchanged and its block of the result holding the gathered rows.
-/
import proofs.«207136_g6528350290482_cont_9to1c4b_434_22_alg».proof.Proof.Bits.ScValue
import proofs.«207136_g6528350290482_cont_9to1c4b_434_22_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

local notation "tV" => (Memref.whole Cert.Kernel.main_arg1_scv : Memref Cert.Kernel.sig Kind.scVector Space.hbm Cert.Kernel.S1024 EltTy.i32)
local notation "vV" => (Memref.whole Cert.Kernel.main_arg5_scv : Memref Cert.Kernel.sig Kind.scVector Space.hbm Cert.Kernel.S100000x128 EltTy.f32)
local notation "oV" => (Memref.whole Cert.Kernel.main_v0_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S32 EltTy.i32)
local notation "rV" => (Memref.whole Cert.Kernel.cc0_scratch1 : Memref Cert.Kernel.sig Kind.scVector Space.vmem Cert.Kernel.S32x128 EltTy.f32)

variable [FloatOps F]

section Tile

variable (d : Dev nD) (L : grid0.Coords)

set_option maxHeartbeats 4000000 in
/-- The task on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tRowPts m d (wL L) ∗ vShPts m d (wL L) ∗ oRowPts d (wL L) (m (oLoc d)))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0_k L vV (Memref.isWhole_whole _) tV (Memref.isWhole_whole _) oV (Memref.isWhole_whole _)
            sV (Memref.isWhole_whole _) rV (Memref.isWhole_whole _) cc0_scratch2 cc0_scoped0 cc0_scoped1)
          fun _ => iprop((tRowPts m d (wL L) ∗ vShPts m d (wL L) ∗ oRowPts d (wL L) (gathered m d))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_tRowK (F := F) d L _).symm) $$ Hi
  ihave Ho' := (Entails.of_eq (pts_oRowK (F := F) d L _).symm) $$ Ho
  ihave Hx' := (Entails.of_eq (pts_vV (F := F) d L _ _).symm) $$ Hx
  ihave Hs' := (Entails.of_eq (pts_sV (F := F) d L _).symm) $$ Hs
  ihave Hr' := (Entails.of_eq (pts_rV (F := F) d L _).symm) $$ Hr
  sl_exec
  -- THE INDIRECT GATHER: the stream over the fetched class numbers. The task hands in its share of the table, the row
  -- scratch, the index scratch whole and the gather's cell at zero; the words are in range by the precondition.
  ihave Hxs := (pointsTo_split_subset (q := vq (wL L)) (f := m (vLoc d)) (S := Finset.univ) (Finset.subset_univ (vAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hN : ∀ h : S100000x128.Gathers 0 S32x128, ∑ j, ((rV).slice (S32x128.rowRect h.axis' j) (S32x128.stride_rowRect h.axis' j)).view.dmaCredit
      = (rV).view.dmaCredit := by decide
  iapply (SparseCore.wp_indirectGatherLocal countersEmb 𝒱₀ (V d (cV L) (jV L)) none (hg := gathers_S100000x128_S32x128) (default : HIx 1)
      (rV).view.dmaCredit (hN _) (by decide) (inb_of_pre m d L hpre fs _ rfl)) $$ [Hxs Hr'' Hs'' HsemB]
  · isplitl [Hxs]; · iexact Hxs
    isplitl [Hr'']; · iexact Hr''
    isplitl [Hs'']; · iexact Hs''
    iexact HsemB
  iintro Hfl
  sl_exec
  -- ITS WAIT: the row scratch written with the gathered rows, the share of the table and the index scratch back,
  -- the cell at zero, the wait recorded.
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := vq (wL L)) (f := m (vLoc d)) (S := Finset.univ) (Finset.subset_univ (vAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  -- The post: the class numbers and the share of the table as they came; the block of the result, written with the
  -- row scratch's contents, holds the gathered rows there (out_value_writes); scratch, cells, the waits recorded.
  isplitl [Hi' Hx' Ho']
  · isplitl [Hi']; · iapply (Entails.of_eq (pts_tRowK (F := F) d L _)); iexact Hi'
    isplitl [Hx']; · iexact Hx'
    iapply (Entails.of_eq ((pointsTo_congr (out_value_writes m d L hpre fs fr (inb_of_pre m d L hpre fs _ rfl) _ rfl)).trans
      (pts_oRowK (F := F) d L (gathered m d)))); iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          vV (Memref.isWhole_whole _) tV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P (UU := UU) m) v₀ 0 := by
  intro d c i O W hO _ _
  simp only [show (P (UU := UU) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.KB

end
-- ==== Proof.Bits.ScSplit.lean ====
/-
  How the arrays of the SparseCore call split among its 32 tasks and join again.

  The 1024 class numbers and the 1024 rows of the result are cut into 32 blocks of 32 (disjoint, covering); the
  table, which every task reads whole, goes out as the 32 pieces of its full share. Task w = 2 s + c is subcore
  s of SparseCore c, so the family over the 32 tasks is the family over the 2 SparseCores of the families over
  their 16 subcores. A SparseCore is handed exactly what its subcores are (the split is the identity).
-/
import proofs.«207136_g6528350290482_cont_9to1c4b_434_22_alg».proof.Proof.Bits.ScPay

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

/-! ## The blocks split and join; the shares of the table -/

theorem tRowSet_eq (w : Fin 32) : tRowSet w = (trow w).set := by
  show ((View.whole (main_arg1_scv : Ref sig .scVector)).slice (trow w)).set = _
  rw [View.set_slice]; exact Finset.map_refl
theorem oRowSet_eq (w : Fin 32) : oRowSet w = (orow w).set := by
  show ((View.whole (main_v0_scv : Ref sig .scVector)).slice (orow w)).set = _
  rw [View.set_slice]; exact Finset.map_refl
theorem trows_disjoint : ∀ i ∈ (Finset.univ : Finset (Fin 32)), ∀ j ∈ (Finset.univ : Finset (Fin 32)), i ≠ j → Disjoint (tRowSet i) (tRowSet j) :=
  fun i _ j _ h => by rw [tRowSet_eq, tRowSet_eq]; exact Rect.part_disjoint tdiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem trows_cover : (Finset.univ : Finset (Fin 32)).biUnion tRowSet = Finset.univ :=
  (Finset.biUnion_congr rfl fun i _ => tRowSet_eq i).trans (Rect.biUnion_part tdiv)
theorem orows_cover : (Finset.univ : Finset (Fin 32)).biUnion oRowSet = Finset.univ :=
  (Finset.biUnion_congr rfl fun i _ => oRowSet_eq i).trans (Rect.biUnion_part odiv)

theorem tPts_rows (d : Dev nD) (f : Buf (Elt F) (tLoc d)) :
    (tLoc d ↦{fullShare} f : sProp 𝕄) = bigSep Finset.univ fun w : Fin 32 => tLoc d ↦[tRowSet w]{fullShare} f := by
  rw [← pointsTo_biUnion Finset.univ (ℓ := tLoc d) tRowSet trows_disjoint, trows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
theorem vPts_shares (d : Dev nD) (f : Buf (Elt F) (vLoc d)) :
    (vLoc d ↦{fullShare} f : sProp 𝕄) = bigSep Finset.univ fun w : Fin 32 => vLoc d ↦{vq w} f :=
  pointsTo_piecesOf Finset.univ f (by omega) fullShare

/-! ## Tasks by SparseCore and subcore -/

/-- Subcore `i` of SparseCore `c` is task `2 i + c`: a bijection onto the 32 tasks. -/
def tileEquiv : Fin 2 × Fin 16 ≃ Fin 32 where
  toFun p := wOf p.1 p.2
  invFun w := (⟨w.val % 2, Nat.mod_lt _ (by omega)⟩, ⟨w.val / 2, by omega⟩)
  left_inv p := by
    obtain ⟨c, i⟩ := p
    refine Prod.ext (Fin.ext ?_) (Fin.ext ?_)
    · show (2 * i.val + c.val) % 2 = c.val
      omega
    · show (2 * i.val + c.val) / 2 = i.val
      omega
  right_inv w := Fin.ext (by show 2 * (w.val / 2) + w.val % 2 = w.val; omega)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A family over the 32 tasks is the family over the SparseCores of the families over their subcores. -/
theorem bigSep_byCore (Ψ : Fin 32 → sProp 𝕄) :
    bigSep Finset.univ Ψ
      = bigSep Finset.univ fun c : Fin ((K (F := F)).nCore 0) => bigSep Finset.univ fun i : Fin ((K (F := F)).nSub 0) =>
          Ψ (wOf (Fin.cast nCore_zero c) (Fin.cast nSub_zero i)) := by
  rw [bigSep_univ_equiv tileEquiv Ψ, bigSep_univ_prod (fun p : Fin 2 × Fin 16 => Ψ (tileEquiv p)),
    bigSep_cores (F := F) (fun c => bigSep Finset.univ fun i : Fin ((K (F := F)).nSub 0) => Ψ (wOf c (Fin.cast nSub_zero i)))]
  exact bigSep_congr fun c _ => (bigSep_tasks (F := F) (fun i => Ψ (wOf c i))).symm

/-- The three arrays whole, the result at `f`, are the tasks' parts, the blocks of the result at `f`. -/
theorem arrays_eq (d : Dev nD) (f : Buf (Elt F) (oLoc d)) :
    (iprop(tPts m d ∗ vPts m d ∗ oPts d f) : sProp 𝕄)
      = bigSep Finset.univ fun c : Fin ((K (F := F)).nCore 0) => bigSep Finset.univ fun i : Fin ((K (F := F)).nSub 0) =>
          iprop(tRowPts m d (wOf (Fin.cast nCore_zero c) (Fin.cast nSub_zero i)) ∗ vShPts m d (wOf (Fin.cast nCore_zero c) (Fin.cast nSub_zero i))
            ∗ oRowPts d (wOf (Fin.cast nCore_zero c) (Fin.cast nSub_zero i)) f) := by
  rw [← bigSep_byCore (F := F) (fun w => iprop(tRowPts m d w ∗ vShPts m d w ∗ oRowPts d w f)), bigSep_sep', bigSep_sep']
  unfold tPts vPts oPts tRowPts vShPts oRowPts
  rw [tPts_rows, vPts_shares, oPts_rows]

theorem st_of_arrays (d : Dev nD) :
    (iprop(tPts m d ∗ vPts m d ∗ oPts d (m (oLoc d))) : sProp 𝕄) ⊢ bigSep Finset.univ fun c : Fin ((K (F := F)).nCore 0) => (P (UU := UU) m).st 0 d c :=
  Entails.of_eq ((arrays_eq m d (m (oLoc d))).trans (bigSep_congr fun c _ => (P_st m d c).symm))

theorem arrays_of_dn (d : Dev nD) :
    (bigSep Finset.univ fun c : Fin ((K (F := F)).nCore 0) => (P (UU := UU) m).dn 0 d c) ⊢ (iprop(tPts m d ∗ vPts m d ∗ oPts d (gathered m d)) : sProp 𝕄) :=
  Entails.of_eq ((arrays_eq m d (gathered m d)).trans (bigSep_congr fun c _ => (P_dn m d c).symm)).symm

/-- A SparseCore is handed what its sixteen subcores take, and hands back what they bring. -/
theorem vecSplit : (K (F := F)).VecSplit' (P (UU := UU) m) 0 := by
  intro d c
  show (bigSep Finset.univ fun i : Fin ((K (F := F)).nSub 0) => goA m d (wOf (Fin.cast nCore_zero c) (Fin.cast nSub_zero i)))
    ⊢ |={Set.univ}=> iprop(
      (bigSep Finset.univ fun i : Fin ((K (F := F)).nSub 0) => goA m d (wOf (Fin.cast nCore_zero c) (Fin.cast nSub_zero i)))
      ∗ ((bigSep Finset.univ fun i : Fin ((K (F := F)).nSub 0) => tdA m d (wOf (Fin.cast nCore_zero c) (Fin.cast nSub_zero i)))
          -∗ (bigSep Finset.univ fun i : Fin ((K (F := F)).nSub 0) => tdA m d (wOf (Fin.cast nCore_zero c) (Fin.cast nSub_zero i)))))
  iintro H; imodintro
  isplitl [H]; · iexact H
  iintro H; iexact H

end Cert.Proof.KB

end
-- ==== Proof.Bits.FrameRun.lean ====
/-
  The kernel program's run, at any float instance: from a launch memory whose class numbers are in the table's range,
  every weakly fair execution of @main on the TensorCore and of the gather kernel's sequencers and tiles terminates,
  nothing faulting, with every unscoped buffer at the last boundary's contents; in particular the six arguments are as
  launched (the frame).
-/
import proofs.«207136_g6528350290482_cont_9to1c4b_434_22_alg».proof.Proof.Bits.Reg1
import proofs.«207136_g6528350290482_cont_9to1c4b_434_22_alg».proof.Proof.Bits.ScTile
import proofs.«207136_g6528350290482_cont_9to1c4b_434_22_alg».proof.Proof.Bits.ScSplit

noncomputable section

namespace Cert.Proof.KB

open Cert.Kernel Cert.Kernel.Gen
open Idealize.ShloMosaic Idealize.ShloMosaic.TcCoe
open Idealize.ShloMosaic.SparseCore.Cfg (HIx)
open Idealize.SL Idealize.SL.Sem

variable {F : FTy → Type} [FloatOps F] [∀ e, Nonempty (Elt F e)]

variable (m : (ℓ : Loc nD τ sig) → Buf (Elt F) ℓ) (ρ : Dev nD → PrngReg)

/-- An unscoped TensorCore reference is among those the final assertions hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last boundary's contents: after the gather, the two pallas_calls and the two host operations. -/
abbrev Wend (c : Dev nD) : Valuation τ sig (Elt F) := W4 m (gathered m) reg1Data c

/-- The run, with every unscoped buffer read off the final state. -/
theorem run_full (hpre : PreOK m) (Q' : PUnit × MemSt nD τ sig (Elt F) → Prop)
    (hQ : ∀ s' : Phys nD τ sig (Elt F), (∀ d, fq (Wend m) d s') → Q' (⟨⟩, s'.mem)) :
    θ_run (Cert.Kernel.defs (F := F)) (Cert.Kernel.threads (F := F)) ⟨m, fun _ => 0, ρ⟩ Q' :=
  run_KI m (gathered m) reg1Data ρ (P (UU := UU) m) (P_x m) rfl (tileObl m facts hpre) (vecSplit m) (st_of_arrays m) (arrays_of_dn m) Q' hQ

/-- The frame: the six arguments end as launched. -/
theorem frame_run (hpre : PreOK m) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_full m ρ hpre _ fun s' h c =>
    ⟨(h c _ (mem_uc main_arg0 (by decide))).trans (W4_arg0 m _ _ c),
     (h c _ (mem_uc main_arg1 (by decide))).trans (W4_arg1 m _ _ c),
     (h c _ (mem_uc main_arg2 (by decide))).trans (W4_arg2 m _ _ c),
     (h c _ (mem_uc main_arg3 (by decide))).trans (W4_arg3 m _ _ c),
     (h c _ (mem_uc main_arg4 (by decide))).trans (W4_arg4 m _ _ c),
     (h c _ (mem_uc main_arg5 (by decide))).trans (W4_arg5 m _ _ c)⟩

end Cert.Proof.KB

end
-- ==== Proof.RefFrame.lean ====
/-
  The reference program's frame: its host operations run to the end without a fault and leave the six
  argument arrays as they were. Read off the reference's run (each result at the operations' composed term
  of the arguments, the arguments unchanged) by forgetting the two results.
-/
import proofs.«207136_g6528350290482_cont_9to1c4b_434_22_alg».proof.Defs
import proofs.«207136_g6528350290482_cont_9to1c4b_434_22_alg».proof.Proof.Gen.ReferenceIdeal
import proofs.«207136_g6528350290482_cont_9to1c4b_434_22_alg».proof.Proof.RefRunP
import proofs.«207136_g6528350290482_cont_9to1c4b_434_22_alg».proof.Proof.Gen.Pre_input_domain

noncomputable section

open Idealize.ShloMosaic Idealize.SL.Sem

namespace Cert.Proof.RefFrame

theorem frame_ri [Cert.ReferenceIdeal.Facts] [Cert.Pre_input_domain.Facts] : Cert.frame_ReferenceIdeal := fun m ρ _ =>
  (θ_run Cert.ReferenceIdeal.defs _ _).mono (fun _ h c => (h c).2.2) (Cert.ReferenceIdeal.ValueP.run (F := Ideal) m ρ)

end Cert.Proof.RefFrame

end
-- ==== Proof.PreDecode.lean ====
/-
  What the precondition says, read back.

  The precondition is one word: the conjunction of six "all elements satisfy …" tests, one per argument array —
  every entry of the two float arrays is smaller in magnitude than +∞, and every entry of each integer array lies
  between two literal bounds, compared as signed words. When that word is 1, each test was 1 at every element.
  Two consequences are stated here: the labels are row numbers of the class table (below 100000 as natural
  numbers, at any float instance), and over the extended reals every entry of the two float arrays is a real number.
-/
import proofs.«207136_g6528350290482_cont_9to1c4b_434_22_alg».proof.Pre_input_domain
import Idealize.ShloMosaic.PureOps.Ideal
import Idealize.ShloMosaic.Lib.ReduceAll
import Idealize.ShloMosaic.Lib.ValueIdx

noncomputable section

namespace Cert.Proof.PreDecode

open Idealize.ShloMosaic Cert.Pre_input_domain

/-- The scalar shape has one index. -/
instance : Subsingleton S_.Idx := ⟨fun _ _ => funext fun d => d.elim0⟩

variable [Cert.Pre_input_domain.Facts]

/-- Three of the six tests, separately: the precondition word is the conjunction of all six, grouped to the
    left, and each test is a conjunction over all the elements of its array. -/
theorem split {F : FTy → Type} [FloatOps F]
    (a0 : FVec F S1024x128 .f32) (a1 : IVec S1024 32) (a2 : IVec S1024 32) (a3 : IVec S1024x2 32)
    (a4 : IVec S100000 32) (a5 : FVec F S100000x128 .f32)
    (h : Cert.Pre_input_domain.fn (F := F) a0 a1 a2 a3 a4 a5 = fun _ => 1#1) :
    (∀ i, cmpf .olt (Host.absf a0) (broadcastInDim S1024x128 ![] Facts.bcast_S_S1024x128 (constant (F := F) S_ .f32 0x7F800000#32)) i = 1#1)
    ∧ (∀ i, cmpf .olt (Host.absf a5) (broadcastInDim S100000x128 ![] Facts.bcast_S_S100000x128 (constant (F := F) S_ .f32 0x7F800000#32)) i = 1#1)
    ∧ (∀ i, andi (cmpi .sge a1 (broadcastInDim S1024 ![] Facts.bcast_S_S1024 (constantI S_ 32 0#32)))
              (cmpi .sle a1 (broadcastInDim S1024 ![] Facts.bcast_S_S1024 (constantI S_ 32 99999#32))) i = 1#1) := by
  have e := congrFun h ValueIdx.ix0
  dsimp only [fn, fn_part1, fn_part2] at e
  obtain ⟨e5, -⟩ := IntOp.andi_eq_one.1 e
  obtain ⟨e4, -⟩ := IntOp.andi_eq_one.1 e5
  obtain ⟨e3, -⟩ := IntOp.andi_eq_one.1 e4
  obtain ⟨e2, e14⟩ := IntOp.andi_eq_one.1 e3
  obtain ⟨e0, e7⟩ := IntOp.andi_eq_one.1 e2
  exact ⟨Host.reduce_andi_all _ _ _ _ _ e0, Host.reduce_andi_all _ _ _ _ _ e7, Host.reduce_andi_all _ _ _ _ _ e14⟩

/-- The labels are row numbers of the class table: a signed word between 0 and 99999 is, read as a natural
    number, below 100000. At any float instance. -/
theorem targets_lt {F : FTy → Type} [FloatOps F]
    (a0 : FVec F S1024x128 .f32) (a1 : IVec S1024 32) (a2 : IVec S1024 32) (a3 : IVec S1024x2 32)
    (a4 : IVec S100000 32) (a5 : FVec F S100000x128 .f32)
    (h : Cert.Pre_input_domain.fn (F := F) a0 a1 a2 a3 a4 a5 = fun _ => 1#1) (j : S1024.Idx) :
    (a1 j).toNat < 100000 := by
  obtain ⟨e1, e2⟩ := IntOp.andi_eq_one.1 ((split a0 a1 a2 a3 a4 a5 h).2.2 j)
  have h1 : (0#32 : BitVec 32).toInt ≤ (a1 j).toInt := IntOp.cmpi_sge.1 e1
  have h2 : (a1 j).toInt ≤ (99999#32 : BitVec 32).toInt := IntOp.cmpi_sle.1 e2
  rw [show (0#32 : BitVec 32).toInt = 0 from by decide] at h1
  rw [show (99999#32 : BitVec 32).toInt = 99999 from by decide] at h2
  rw [BitVec.toInt_eq_toNat_cond] at h1 h2
  have := (a1 j).isLt
  split at h1 <;> omega

/-- An extended real whose magnitude is below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- Over the extended reals, every entry of the batch of feature rows and of the class table is a real number. -/
theorem finite
    (a0 : FVec Ideal S1024x128 .f32) (a1 : IVec S1024 32) (a2 : IVec S1024 32) (a3 : IVec S1024x2 32)
    (a4 : IVec S100000 32) (a5 : FVec Ideal S100000x128 .f32)
    (h : Cert.Pre_input_domain.fn (F := Ideal) a0 a1 a2 a3 a4 a5 = fun _ => 1#1) :
    (∀ j, ∃ r : ℝ, a0 j = (r : EReal)) ∧ (∀ j, ∃ r : ℝ, a5 j = (r : EReal)) :=
  ⟨fun j => real_of_abs_lt_top _ ((split a0 a1 a2 a3 a4 a5 h).1 j),
   fun j => real_of_abs_lt_top _ ((split a0 a1 a2 a3 a4 a5 h).2.1 j)⟩

end Cert.Proof.PreDecode

end
-- ==== Proof.Tc1Val.lean ====
/-
  The similarity matrix the second call leaves, at the ideal values: entry (r, b) of the [100000, 1024] result is
  Σ_f V[r, f] · x[b, f], the product of class row r and batch row b.

  One product of 400 class rows with the batch, read at an entry, is that sum over the 128 features; the ten stores
  of a point put the products of rows 400 k … 400 k + 399 of the point's block at those rows of the result block;
  block t of the result is rows 4000 t … 4000 t + 3999, and the 25 blocks cover the array.
-/
import proofs.«207136_g6528350290482_cont_9to1c4b_434_22_alg».proof.Proof.Tc1
import Idealize.ShloMosaic.Lib.Pipeline.Value
import Idealize.ShloMosaic.Lib.ValueIdx
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

open Idealize.ShloMosaic.ValueIdx

/-! ## One 400-row product at an entry -/

theorem lhs_mm_0 (i : S400x1024.Idx) (q : dot_S400x128_S1024x128_S400x1024_1_1_0_0_n_n.contr.Idx) : (dot_S400x128_S1024x128_S400x1024_1_1_0_0_n_n.lhsIdx i q 0).val = (i 0).val := by
  unfold DotDims.lhsIdx
  rw [dif_neg (show ¬(0 : Fin S400x128.rank) ∈ dot_S400x128_S1024x128_S400x1024_1_1_0_0_n_n.lhsBatch by decide), dif_pos (show (0 : Fin S400x128.rank) ∈ dot_S400x128_S1024x128_S400x1024_1_1_0_0_n_n.lhsNonContracting by decide)]
  rfl
theorem lhs_mm_1 (i : S400x1024.Idx) (q : dot_S400x128_S1024x128_S400x1024_1_1_0_0_n_n.contr.Idx) : (dot_S400x128_S1024x128_S400x1024_1_1_0_0_n_n.lhsIdx i q 1).val = (q ⟨0, by decide⟩).val :=
  dot_S400x128_S1024x128_S400x1024_1_1_0_0_n_n.lhsIdx_val_of_single rfl i q
theorem rhs_mm_0 (i : S400x1024.Idx) (q : dot_S400x128_S1024x128_S400x1024_1_1_0_0_n_n.contr.Idx) : (dot_S400x128_S1024x128_S400x1024_1_1_0_0_n_n.rhsIdx i q 0).val = (i 1).val := by
  unfold DotDims.rhsIdx
  rw [dif_neg (show ¬(0 : Fin S1024x128.rank) ∈ dot_S400x128_S1024x128_S400x1024_1_1_0_0_n_n.rhsBatch by decide), dif_pos (show (0 : Fin S1024x128.rank) ∈ dot_S400x128_S1024x128_S400x1024_1_1_0_0_n_n.rhsNonContracting by decide)]
  rfl
theorem rhs_mm_1 (i : S400x1024.Idx) (q : dot_S400x128_S1024x128_S400x1024_1_1_0_0_n_n.contr.Idx) : (dot_S400x128_S1024x128_S400x1024_1_1_0_0_n_n.rhsIdx i q 1).val = (q ⟨0, by decide⟩).val :=
  dot_S400x128_S1024x128_S400x1024_1_1_0_0_n_n.rhsIdx_val_of_single rfl i q

/-- The product of 400 class rows `v` with the batch `x`, into the zero block, at entry (r, b): Σ_f v[r, f] · x[b, f]. -/
theorem mm_apply (x : FVec Ideal S1024x128 .f32) (v : FVec Ideal S400x128 .f32) (r : Fin 400) (b : Fin 1024) :
    matmul (F := Ideal) dot_S400x128_S1024x128_S400x1024_1_1_0_0_n_n none v x (constant (F := Ideal) S400x1024 .f32 0x00000000#32) (ix2 r b) = ∑ k : Fin 128, v (ix2 r k) * x (ix2 b k) := by
  simp only [matmul]
  refine (Ideal.matmul_constant_zero_apply dot_S400x128_S1024x128_S400x1024_1_1_0_0_n_n none v x (ix2 r b)).trans ?_
  refine (Equiv.sum_comp (ValueIdx.contrEquiv1 dot_S400x128_S1024x128_S400x1024_1_1_0_0_n_n 128 rfl rfl).symm _).symm.trans ?_
  refine Finset.sum_congr rfl fun k _ => ?_
  have hk := ValueIdx.contrEquiv1_symm_val dot_S400x128_S1024x128_S400x1024_1_1_0_0_n_n 128 rfl rfl k
  have el : dot_S400x128_S1024x128_S400x1024_1_1_0_0_n_n.lhsIdx (ix2 r b) ((ValueIdx.contrEquiv1 dot_S400x128_S1024x128_S400x1024_1_1_0_0_n_n 128 rfl rfl).symm k) = ix2 r k := funext fun a => Fin.ext (by
    match a with
    | ⟨0, _⟩ => exact lhs_mm_0 _ _
    | ⟨1, _⟩ => exact (lhs_mm_1 _ _).trans hk)
  have er : dot_S400x128_S1024x128_S400x1024_1_1_0_0_n_n.rhsIdx (ix2 r b) ((ValueIdx.contrEquiv1 dot_S400x128_S1024x128_S400x1024_1_1_0_0_n_n 128 rfl rfl).symm k) = ix2 b k := funext fun a => Fin.ext (by
    match a with
    | ⟨0, _⟩ => exact rhs_mm_0 _ _
    | ⟨1, _⟩ => exact (rhs_mm_1 _ _).trans hk)
  rw [el, er]

/-! ## The result block of a point -/

/-- Entry (r, b) of the block's products: class row r of the point's block against batch row b. -/
def blkSim (x0 : Vec Ideal S1024x128 .f32) (x1 : Vec Ideal S4000x128 .f32) : S4000x1024.Idx → EReal :=
  fun j => ∑ k : Fin 128, x1 (ix2 (j 0) k) * x0 (ix2 (j 1) k)

/-- One store's payload — the product of the 400 rows at offset `o` — is those rows of `blkSim`. -/
theorem piece_eq (o : ℕ) (inbv : ∀ a, (![o, 0] : Fin 2 → ℕ) a + S400x128.size a ≤ S4000x128.size a)
    (inbo : ∀ a, (![o, 0] : Fin 2 → ℕ) a + S400x1024.size a ≤ S4000x1024.size a)
    (x0 : Vec Ideal S1024x128 .f32) (x1 : Vec Ideal S4000x128 .f32) (y : S400x1024.Idx) :
    matmul (F := Ideal) (φ₁ := .f32) (φ₂ := .f32) dot_S400x128_S1024x128_S400x1024_1_1_0_0_n_n none (View.ld x1 (Rect.unit (s := S4000x128) ![o, 0] S400x128.size inbv)) (View.ld x0 r1_x) (constant (F := Ideal) S400x1024 .f32 0x00000000#32) y
      = blkSim x0 x1 ((Rect.unit (s := S4000x1024) ![o, 0] S400x1024.size inbo).emb y) := by
  obtain ⟨r, b, rfl⟩ : ∃ (r : Fin 400) (b : Fin 1024), y = ix2 r b := ⟨y 0, y 1, eq_ix2 y⟩
  refine (mm_apply _ _ r b).trans ?_
  unfold blkSim
  refine Finset.sum_congr rfl fun k _ => ?_
  show x1 ((Rect.unit (s := S4000x128) ![o, 0] S400x128.size inbv).idx (ix2 r k)) * x0 (r1_x.idx (ix2 b k)) = _
  refine congrArg₂ (· * ·) (congrArg x1 ?_) (congrArg x0 ?_)
  · funext a; apply Fin.ext
    match a with
    | ⟨0, _⟩ => rfl
    | ⟨1, _⟩ => show 0 + 1 * k.val = k.val; omega
  · funext a; apply Fin.ext
    match a with
    | ⟨0, _⟩ => rfl
    | ⟨1, _⟩ => show 0 + 1 * k.val = k.val; omega

/-- The result block after the body is `blkSim` of the two input blocks. -/
theorem out1_2_eq (x0 : Vec Ideal S1024x128 .f32) (x1 : Vec Ideal S4000x128 .f32) : out1_2 x0 x1 = blkSim x0 x1 := by
  funext j
  unfold out1_2
  refine View.canon_apply_of_pieces (Val := Elt Ideal) (blkSim x0 x1) _ ?_ j (cover1_2 _ _ _ _ _ _ _ _ _ _ j)
  intro p hp
  simp only [List.mem_cons, List.not_mem_nil, or_false] at hp
  rcases hp with rfl | rfl | rfl | rfl | rfl | rfl | rfl | rfl | rfl | rfl
  · exact fun y => piece_eq 3600 inb_S4000x128_S400x128_3600_0 inb_S4000x1024_S400x1024_3600_0 x0 x1 y
  · exact fun y => piece_eq 3200 inb_S4000x128_S400x128_3200_0 inb_S4000x1024_S400x1024_3200_0 x0 x1 y
  · exact fun y => piece_eq 2800 inb_S4000x128_S400x128_2800_0 inb_S4000x1024_S400x1024_2800_0 x0 x1 y
  · exact fun y => piece_eq 2400 inb_S4000x128_S400x128_2400_0 inb_S4000x1024_S400x1024_2400_0 x0 x1 y
  · exact fun y => piece_eq 2000 inb_S4000x128_S400x128_2000_0 inb_S4000x1024_S400x1024_2000_0 x0 x1 y
  · exact fun y => piece_eq 1600 inb_S4000x128_S400x128_1600_0 inb_S4000x1024_S400x1024_1600_0 x0 x1 y
  · exact fun y => piece_eq 1200 inb_S4000x128_S400x128_1200_0 inb_S4000x1024_S400x1024_1200_0 x0 x1 y
  · exact fun y => piece_eq 800 inb_S4000x128_S400x128_800_0 inb_S4000x1024_S400x1024_800_0 x0 x1 y
  · exact fun y => piece_eq 400 inb_S4000x128_S400x128_400_0 inb_S4000x1024_S400x1024_400_0 x0 x1 y
  · exact fun y => piece_eq 0 inb_S4000x128_S400x128_0_0 inb_S4000x1024_S400x1024_0_0 x0 x1 y

/-! ## From the blocks to the array -/

variable (V : (c : Dev nD) → (b : Ref sig .tc) → Buf (Elt Ideal) ((c : Thread nD τ).loc b))
variable (Rec : Set (SemLoc sig × HIx 1))

/-- The similarity of class row r and batch row b, in the body's order of the factors. -/
def simK (x : S1024x128.Idx → EReal) (Vt : S100000x128.Idx → EReal) (r : Fin 100000) (b : Fin 1024) : EReal :=
  ∑ k : Fin 128, Vt (ix2 r k) * x (ix2 b k)

/-- The whole result: the similarity matrix, class rows by batch rows. -/
def simT (x : S1024x128.Idx → EReal) (Vt : S100000x128.Idx → EReal) : S100000x1024.Idx → EReal :=
  fun i => simK x Vt (i 0) (i 1)

/-- The printed index maps over the 25 points: the batch and the row of log-sums stay at block 0, the class rows and
    the result move with the point along the rows. -/
theorem idx_facts1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- The batch block at any point is the batch. -/
theorem iblk1_0_apply (c : Dev nD) (t : Fin cfg1.N) (j : S1024x128.Idx) : iblk1 V c 0 t j = V c main_arg0 j := by
  show V c main_arg0 (((cfg1.win 0).blk t).view.emb j) = V c main_arg0 j
  obtain ⟨e0, e1, -⟩ := idx_facts1 t
  refine congrArg (V c main_arg0) ?_
  funext a; apply Fin.ext
  match a with
  | ⟨0, _⟩ => show win1_0.index t (0 : Fin 2) * 1024 + 1 * (j 0).val = (j 0).val; omega
  | ⟨1, _⟩ => show win1_0.index t (1 : Fin 2) * 128 + 1 * (j 1).val = (j 1).val; omega

/-- The class-row block at point `t` is rows 4000 t … of the table. -/
theorem iblk1_1_apply (c : Dev nD) (t : Fin cfg1.N) (j : S4000x128.Idx) (i : S100000x128.Idx)
    (h0 : (i 0).val = 4000 * t.val + (j 0).val) (h1 : (i 1).val = (j 1).val) : iblk1 V c 1 t j = V c main_arg5 i := by
  show V c main_arg5 (((cfg1.win 1).blk t).view.emb j) = V c main_arg5 i
  obtain ⟨-, -, e2, e3, -⟩ := idx_facts1 t
  refine congrArg (V c main_arg5) ?_
  funext a; apply Fin.ext
  match a with
  | ⟨0, _⟩ => show win1_1.index t (0 : Fin 2) * 4000 + 1 * (j 0).val = (i 0).val; omega
  | ⟨1, _⟩ => show win1_1.index t (1 : Fin 2) * 128 + 1 * (j 1).val = (i 1).val; omega

/-- An entry of the point's block of products is the similarity of the table's row 4000 t + r and batch row b. -/
theorem blkSim_iblk (c : Dev nD) (t : Fin cfg1.N) (j : S4000x1024.Idx) (i : S100000x1024.Idx)
    (h0 : (i 0).val = 4000 * t.val + (j 0).val) (h1 : (i 1).val = (j 1).val) :
    blkSim (iblk1 V c 0 t) (iblk1 V c 1 t) j = simT (V c main_arg0) (V c main_arg5) i := by
  unfold blkSim simT simK
  refine Finset.sum_congr rfl fun k _ => ?_
  refine congrArg₂ (· * ·) (iblk1_1_apply V c t _ _ h0 rfl) ((iblk1_0_apply V c t _).trans (congrArg (V c main_arg0) ?_))
  funext a; apply Fin.ext
  match a with
  | ⟨0, _⟩ => exact h1.symm
  | ⟨1, _⟩ => rfl

/-- WHAT POINT `t` WRITES BACK is block `t` of the similarity matrix of the arrays as the region finds them. -/
theorem flushed1_2_eq (c : Dev nD) (t : Fin cfg1.N) :
    (dat1 (F := Ideal) (UU := UU) V Rec c).flushed 2 t = ((cfg1.win 2).blk t).view.read (Elt Ideal) (simT (V c main_arg0) (V c main_arg5)) := by
  show (cfg1.win 2).cut (grid1.coords t) ((dat1 (F := Ideal) (UU := UU) V Rec c).after 2 t) = _
  rw [after1_2]
  obtain ⟨-, -, -, -, e4, e5, -⟩ := idx_facts1 t
  funext j
  show out1_2 (iblk1 V c 0 t) (iblk1 V c 1 t) j = simT (V c main_arg0) (V c main_arg5) (((cfg1.win 2).blk t).view.emb j)
  refine (congrFun (out1_2_eq (iblk1 V c 0 t) (iblk1 V c 1 t)) j).trans ?_
  refine blkSim_iblk V c t j _ ?_ ?_
  · show win1_2.index t (0 : Fin 2) * 4000 + 1 * (j 0).val = 4000 * t.val + (j 0).val; omega
  · show win1_2.index t (1 : Fin 2) * 1024 + 1 * (j 1).val = (j 1).val; omega

/-- An index of the result is in point `t`'s block iff each coordinate is in the block's range on its axis. -/
theorem mem_blk1_2 (t : Fin cfg1.N) (i : S100000x1024.Idx) :
    i ∈ ((cfg1.win 2).blk t).view.set ↔ ∀ a : Fin 2, win1_2.index t a * S4000x1024.size a ≤ (i a).val ∧ (i a).val < win1_2.index t a * S4000x1024.size a + S4000x1024.size a := by
  show i ∈ ((View.whole main_v1_0).slice (win1_2.rect t)).set ↔ _
  rw [View.set_slice_whole, Rect.mem_set_unit]
  exact Iff.rfl

/-- The point whose block holds row `n`. -/
def ptOf (n : ℕ) (h : n < 100000) : Fin cfg1.N := ⟨n / 4000, lt_of_lt_of_eq (by omega : n / 4000 < 25) (show 25 = cfg1.N from N_1.symm)⟩

/-- Every entry of the result is in the block of the point its row belongs to. -/
theorem cover1_2_arr (i : S100000x1024.Idx) :
    ∃ t : Fin cfg1.N, (cfg1.win 2).flush t = true ∧ i ∈ ((cfg1.win 2).blk t).view.set := by
  have hi0 : (i 0).val < 100000 := (i 0).isLt
  have hi1 : (i 1).val < 1024 := (i 1).isLt
  refine ⟨ptOf (i 0).val hi0, flush1_2 _, ?_⟩
  rw [mem_blk1_2]
  obtain ⟨-, -, -, -, e4, e5, -⟩ := idx_facts1 (ptOf (i 0).val hi0)
  have hv : (ptOf (i 0).val hi0).val = (i 0).val / 4000 := rfl
  intro a
  match a with
  | ⟨0, _⟩ =>
    show win1_2.index _ (0 : Fin 2) * 4000 ≤ (i 0).val ∧ (i 0).val < win1_2.index _ (0 : Fin 2) * 4000 + 4000
    rw [e4, hv]; omega
  | ⟨1, _⟩ =>
    show win1_2.index _ (1 : Fin 2) * 1024 ≤ (i 1).val ∧ (i 1).val < win1_2.index _ (1 : Fin 2) * 1024 + 1024
    rw [e5]; omega

/-- THE RESULT after the call: the similarity matrix of the batch and the class table as the region finds them. -/
theorem final1_2 (c : Dev nD) :
    (dat1 (F := Ideal) (UU := UU) V Rec c).arrAt 2 cfg1.N = simT (V c main_arg0) (V c main_arg5) :=
  (dat1 (F := Ideal) (UU := UU) V Rec c).arrAt_eq_of_cover 2 _ (fun t _ => flushed1_2_eq V Rec c t) cover1_2_arr

end Cert.Proof.KI

end
-- ==== Proof.Spec.lean ====
/-
  The two results as functions of the argument arrays, over the extended reals.

  With x : [1024, 128] the batch of feature rows, V : [100000, 128] the table of class rows and
  t : [1024] the class number of each batch row:

    sim b c   =  Σ_f x[b, f] · V[c, f]                      (the similarity of batch row b and class c)
    out[b, c] =  sim b c
    loss      =  ( Σ_b log (Σ_c exp (sim b c))  −  Σ_b sim b (t b) ) / 1024

  i.e. the mean over the batch of the cross-entropy of the similarity rows against the classes t.
  No program is imported here: both programs' results are compared with these functions.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![1024, 128]⟩
abbrev ST : Shape := ⟨1, ![1024]⟩
abbrev SV : Shape := ⟨2, ![100000, 128]⟩
abbrev SO : Shape := ⟨2, ![1024, 100000]⟩
abbrev S0 : Shape := ⟨0, ![]⟩

/-- The similarity of batch row `b` and class row `c`: the sum over the 128 features of the products. -/
def sim (x : SX.Idx → EReal) (V : SV.Idx → EReal) (b : Fin 1024) (c : Fin 100000) : EReal :=
  ∑ f : Fin 128, x (ix2 b f) * V (ix2 c f)

/-- The class row batch row `b` is labelled with: the word read as a natural number (reduced into the table's
    range, which changes nothing for a label that is in range). -/
def cls (t : ST.Idx → BitVec 32) (b : Fin 1024) : Fin 100000 :=
  ⟨(t (ix1 b)).toNat % 100000, Nat.mod_lt _ (by norm_num)⟩

/-- The similarity matrix, batch rows by classes. -/
def out (x : SX.Idx → EReal) (V : SV.Idx → EReal) : SO.Idx → EReal :=
  fun i => sim x V (i 0) (i 1)

/-- The log of the sum over all classes of the exponentials of row `b`'s similarities. -/
def lse (x : SX.Idx → EReal) (V : SV.Idx → EReal) (b : Fin 1024) : EReal :=
  Ideal.log (∑ c : Fin 100000, Ideal.exp (sim x V b c))

/-- The mean cross-entropy, a scalar. -/
def loss (x : SX.Idx → EReal) (t : ST.Idx → BitVec 32) (V : SV.Idx → EReal) : S0.Idx → EReal :=
  fun _ => Ideal.div ((∑ b : Fin 1024, lse x V b) - ∑ b : Fin 1024, sim x V b (cls t b)) ((1024 : ℝ) : EReal)

end Cert.Spec

end
-- ==== Proof.KernelOut.lean ====
/-
  The matrix result of the idealized kernel program is the specification's similarity matrix: the first pallas_call
  leaves entry (r, b) of its first result at Σ_k V[r, k] · x[b, k]; the host transposes it; and the product of two
  extended reals does not depend on the order of its factors.
-/
import proofs.«207136_g6528350290482_cont_9to1c4b_434_22_alg».proof.Proof.Reg1
import proofs.«207136_g6528350290482_cont_9to1c4b_434_22_alg».proof.Proof.Tc1Val
import proofs.«207136_g6528350290482_cont_9to1c4b_434_22_alg».proof.Proof.Spec
import Idealize.ShloMosaic.Lib.ValueLayout

noncomputable section

namespace Cert.Proof.KI

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.Sem

variable (m : (ℓ : Loc nD τ sig) → Buf (Elt Ideal) ℓ) (gath : (d : Dev nD) → Buf (Elt Ideal) (oLoc d))

/-- The first region finds the batch and the table as launched. -/
theorem V1_arg0 (c : Dev nD) : V1 m gath c main_arg0 = m (xLoc c) :=
  Function.update_of_ne (StableHlo.devRef_ne_of_ne (by decide)) _ _
theorem V1_arg5 (c : Dev nD) : V1 m gath c main_arg5 = m (vLoc c) :=
  Function.update_of_ne (StableHlo.devRef_ne_of_ne (by decide)) _ _

/-- The similarity matrix transposed is the specification's: the two orders of the factors agree. -/
theorem transpose_simT (x : S1024x128.Idx → EReal) (Vt : S100000x128.Idx → EReal) :
    transpose S1024x100000 [1, 0] (simT x Vt) transposes_S100000x1024_S1024x100000_1_0 = Cert.Spec.out x Vt := by
  funext i
  obtain ⟨b, r, rfl⟩ : ∃ (b : Fin 1024) (r : Fin 100000), i = ix2 b r := ⟨i 0, i 1, eq_ix2 i⟩
  rw [transpose_ix2_apply]
  show (∑ k : Fin 128, Vt (ix2 r k) * x (ix2 b k)) = ∑ k : Fin 128, x (ix2 b k) * Vt (ix2 r k)
  exact Finset.sum_congr rfl fun k _ => mul_comm _ _

theorem matrix_value (c : Dev nD) :
    W4 m gath reg1Data c (Proc.devRef .tc main_v4) = Cert.Spec.out (m (xLoc c)) (m (vLoc c)) := by
  rw [W4_v4]
  show transpose S1024x100000 [1, 0] ((dat1 (F := Ideal) (UU := UU) (V1 m gath) (Rec (F := Ideal) c) c).arrAt 2 cfg1.N) _ = _
  rw [final1_2, V1_arg0, V1_arg5]
  exact transpose_simT _ _

end Cert.Proof.KI

end
-- ==== Proof.Tc2Val.lean ====
/-
  The loss combiner's result array after its one point, as one function of the three arrays it reads: the one
  store's payload of the whole arrays (each window is its whole array, at block index zero, so each block read
  is the array itself and the one write-back fills the [1, 1] result).
-/
import proofs.«207136_g6528350290482_cont_9to1c4b_434_22_alg».proof.Proof.Tc2
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

variable (V : (c : Dev nD) → (b : Ref sig .tc) → Buf (Elt F) ((c : Thread nD τ).loc b))
variable (Rec : Set (SemLoc sig × HIx 1))

theorem hz2 : (![0, 0] : Fin 2 → Nat) = fun _ => 0 := funext fun a => by fin_cases a <;> rfl

/-- The result of the call from the three arrays: the body's one payload. -/
abbrev lossOf (x g : S1024x128.Idx → Elt F .f32) (l : S1x1024.Idx → Elt F .f32) : S1x1.Idx → Elt F .f32 := k2_pay1 x g l

/-- What the body leaves in the result's buffer is that payload of the input blocks. -/
theorem out2_3_eq (x0 x1 : Vec F S1024x128 .f32) (x2 : Vec F S1x1024 .f32) : out2_3 x0 x1 x2 = lossOf x0 x1 x2 := by
  unfold out2_3
  rw [View.canon_unit_zero hz2]
  simp only [View.ld_unit_zero (S := S1024x128) hz2, View.ld_unit_zero (S := S1x1024) hz2]

/-- Each input block is its whole array. -/
theorem iblk2_0 (c : Dev nD) (t : Fin cfg2.N) : iblk2 V c 0 t = (V c main_arg0 : S1024x128.Idx → Elt F .f32) := by
  funext j
  show V c main_arg0 (((cfg2.win 0).blk t).view.emb j) = V c main_arg0 j
  congr 1
  funext a; apply Fin.ext
  match a with
  | ⟨0, _⟩ => show 0 * 1024 + 1 * (j 0).val = (j 0).val; omega
  | ⟨1, _⟩ => show 0 * 128 + 1 * (j 1).val = (j 1).val; omega
theorem iblk2_1 (c : Dev nD) (t : Fin cfg2.N) : iblk2 V c 1 t = (V c main_v0 : S1024x128.Idx → Elt F .f32) := by
  funext j
  show V c main_v0 (((cfg2.win 1).blk t).view.emb j) = V c main_v0 j
  congr 1
  funext a; apply Fin.ext
  match a with
  | ⟨0, _⟩ => show 0 * 1024 + 1 * (j 0).val = (j 0).val; omega
  | ⟨1, _⟩ => show 0 * 128 + 1 * (j 1).val = (j 1).val; omega
theorem iblk2_2 (c : Dev nD) (t : Fin cfg2.N) : iblk2 V c 2 t = (V c main_v1_1 : S1x1024.Idx → Elt F .f32) := by
  funext j
  show V c main_v1_1 (((cfg2.win 2).blk t).view.emb j) = V c main_v1_1 j
  congr 1
  funext a; apply Fin.ext
  match a with
  | ⟨0, _⟩ => show 0 * 1 + 1 * (j 0).val = (j 0).val; omega
  | ⟨1, _⟩ => show 0 * 1024 + 1 * (j 1).val = (j 1).val; omega

/-- What the point writes back is the block (the whole) of the payload of the arrays. -/
theorem flushed2_3_eq (c : Dev nD) (t : Fin cfg2.N) :
    (dat2 (UU := UU) V Rec c).flushed 3 t
      = ((cfg2.win 3).blk t).view.read (Elt F) (lossOf (V c main_arg0) (V c main_v0) (V c main_v1_1)) := by
  show (cfg2.win 3).cut (grid2.coords t) ((dat2 (UU := UU) V Rec c).after 3 t) = _
  rw [after2_3, out2_3_eq, iblk2_0, iblk2_1, iblk2_2]
  funext j
  show lossOf (V c main_arg0) (V c main_v0) (V c main_v1_1) j
    = lossOf (V c main_arg0) (V c main_v0) (V c main_v1_1) (((cfg2.win 3).blk t).view.emb j)
  congr 1
  funext a; apply Fin.ext
  match a with
  | ⟨0, _⟩ => show (j 0).val = 0 * 1 + 1 * (j 0).val; omega
  | ⟨1, _⟩ => show (j 1).val = 0 * 1 + 1 * (j 1).val; omega

/-- An index of the result is in the point's block. -/
theorem mem_blk2_3 (t : Fin cfg2.N) (i : S1x1.Idx) : i ∈ ((cfg2.win 3).blk t).view.set := by
  show i ∈ ((View.whole main_v2).slice (win2_3.rect t)).set
  rw [View.set_slice_whole, Rect.mem_set_unit]
  intro a
  match a with
  | ⟨0, _⟩ => show 0 * 1 ≤ (i 0).val ∧ (i 0).val < 0 * 1 + 1; have h : (i 0).val < 1 := (i 0).isLt; omega
  | ⟨1, _⟩ => show 0 * 1 ≤ (i 1).val ∧ (i 1).val < 0 * 1 + 1; have h : (i 1).val < 1 := (i 1).isLt; omega

/-- THE RESULT after the call: the payload of the three arrays as the region finds them. -/
theorem final2 (c : Dev nD) :
    (dat2 (UU := UU) V Rec c).arrAt 3 cfg2.N = lossOf (V c main_arg0) (V c main_v0) (V c main_v1_1) :=
  (dat2 (UU := UU) V Rec c).arrAt_eq_of_cover 3 _ (fun t _ => flushed2_3_eq V Rec c t)
    (fun i => ⟨t2_0, flush2_3 t2_0, mem_blk2_3 t2_0 i⟩)

end Cert.Proof.KI

end
-- ==== Proof.Tc2Ideal.lean ====
/-
  The loss combiner's result at the ideal values: ( Σ_b l[0, b]  −  Σ_{(b, f)} x[b, f] · g[b, f] ) / 1024.

  Both sums are total sums: the body adds a unit axis to the operand, reduces over the two others into a one-element
  vector, and extracts that element; a total add-reduction at the ideal values is the sum over every index of the
  source, and the unit axis changes the indexing only (a bijection of the indices). The divisor stays the word
  0x44800000 (1024.0) read as an ideal value.
-/
import proofs.«207136_g6528350290482_cont_9to1c4b_434_22_alg».proof.Proof.Tc2Val
import Idealize.ShloMosaic.Lib.ValueIdx
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

open Idealize.ShloMosaic.ValueIdx

/-- A total add-reduction into one element, recast to [1, 1, 1] and extracted: the sum over the source. -/
theorem total_sum {s : Shape} {axes : List (Fin s.rank)} (src : FVec Ideal s .f32) (h : s.Reduces axes S1) (hφ : FKind.Formats .f32)
    (hacc : (0x00000000#32 : BitVec 32) = 0x00000000#32) (hc : S1.ShapeCasts S1x1x1) (hp : ∀ a, (![0, 0, 0] : Fin 3 → ℕ) a < S1x1x1.size a) :
    extractAt ![0, 0, 0] (shapeCast S1x1x1 (multiReduction (F := Ideal) .add axes S1 src 0x00000000#32 h hφ hacc) hc) hp = ∑ i : s.Idx, src i := by
  unfold extractAt shapeCast
  exact Ideal.multiReduction_add_total src 0x00000000#32 h (by decide) hφ hacc _

/-- Summing a recast vector over its indices is summing the vector. -/
theorem sum_shapeCast {s t : Shape} (v : s.Idx → EReal) (h : s.ShapeCasts t) : ∑ i : t.Idx, shapeCast t v h i = ∑ j : s.Idx, v j := by
  unfold shapeCast
  exact Equiv.sum_comp (Shape.reshapeEquiv h) v

/-- THE PAYLOAD at the ideal values. -/
theorem lossOf_apply (x g : S1024x128.Idx → EReal) (l : S1x1024.Idx → EReal) (i : S1x1.Idx) :
    lossOf (F := Ideal) x g l i
      = Ideal.div ((∑ j : S1x1024.Idx, l j) - ∑ j : S1024x128.Idx, x j * g j) (Ideal.ofBits .f32 0x44800000#32) := by
  have hl : extractAt ![0, 0, 0] (shapeCast S1x1x1 (multiReduction (F := Ideal) .add [1, 2] S1 (shapeCast S1x1x1024 (shapeCast S1x1024 l shapeCasts_S1x1024_S1x1024) shapeCasts_S1x1024_S1x1x1024) 0x00000000#32 reduces_S1x1x1024_S1 (.inl rfl) rfl) shapeCasts_S1_S1x1x1) inpos_S1x1x1_p0_0_0
      = ∑ j : S1x1024.Idx, l j := by
    rw [total_sum, sum_shapeCast, shapeCast_self]
  have hx : extractAt ![0, 0, 0] (shapeCast S1x1x1 (multiReduction (F := Ideal) .add [1, 2] S1 (shapeCast S1x1024x128 (mulf (F := Ideal) x (shapeCast S1024x128 g shapeCasts_S1024x128_S1024x128)) shapeCasts_S1024x128_S1x1024x128) 0x00000000#32 reduces_S1x1024x128_S1 (.inl rfl) rfl) shapeCasts_S1_S1x1x1) inpos_S1x1x1_p0_0_0
      = ∑ j : S1024x128.Idx, x j * g j := by
    rw [total_sum, sum_shapeCast, shapeCast_self]
    rfl
  unfold lossOf k2_pay1
  dsimp only
  rw [hl, hx]
  rfl

/-- The combined loss from the batch `x`, the gathered class rows `g` and the row of log-sums `l`: the difference of
    the two total sums over 1024. -/
def lossI (x g : S1024x128.Idx → EReal) (l : S1x1024.Idx → EReal) : S1x1.Idx → EReal :=
  fun _ => Ideal.div ((∑ j : S1x1024.Idx, l j) - ∑ j : S1024x128.Idx, x j * g j) (Ideal.ofBits .f32 0x44800000#32)

variable (V : (c : Dev nD) → (b : Ref sig .tc) → Buf (Elt Ideal) ((c : Thread nD τ).loc b))
variable (Rec : Set (SemLoc sig × HIx 1))

/-- THE RESULT after the call, at the ideal values. -/
theorem final2_ideal (c : Dev nD) :
    (dat2 (F := Ideal) (UU := UU) V Rec c).arrAt 3 cfg2.N = lossI (V c main_arg0) (V c main_v0) (V c main_v1_1) :=
  (final2 (F := Ideal) (UU := UU) V Rec c).trans (funext fun i => lossOf_apply _ _ _ i)

end Cert.Proof.KI

end
-- ==== Proof.Tc1Acc.lean ====
/-
  The scratch row's step and the row of log-sums, at the ideal values, from the two input blocks of a point.

  A column sum of a [400, 1024] block over its rows, recast to a [1, 1024] row, reads at column b as the sum over the
  400 rows; the ten partial sums of exponentials of a point are those of the ten 400-row products, i.e. of rows
  o … o + 399 of the point's block of similarities for o = 0, 400, …, 3600; they are added, in the body's order,
  into a zero row, and that row is added to the scratch row as loaded. The row of log-sums is the log of the result.
-/
import proofs.«207136_g6528350290482_cont_9to1c4b_434_22_alg».proof.Proof.Tc1Val

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

open Idealize.ShloMosaic.ValueIdx

/-- A column sum over the 400 rows, recast to a row: at column `b` the sum over the rows. -/
theorem cs_apply (m : FVec Ideal S400x1024 .f32) (hφ : FKind.Formats .f32) (hacc : (0x00000000#32 : BitVec 32) = 0x00000000#32)
    (hc : S1024.ShapeCasts S1x1024) (z : Fin 1) (b : Fin 1024) :
    shapeCast S1x1024 (multiReduction (F := Ideal) .add [0] S1024 m 0x00000000#32 reduces_S400x1024_S1024 hφ hacc) hc (ix2 z b)
      = ∑ r : Fin 400, m (ix2 r b) := by
  refine (shapeCast_addUnit_apply ![1024] _ hc (ix2 z b)).trans ?_
  refine (Ideal.multiReduction_add_single m 0x00000000#32 reduces_S400x1024_S1024 hφ hacc _).trans ?_
  refine Finset.sum_congr rfl fun r _ => congrArg m ?_
  funext a; apply Fin.ext
  match a with
  | ⟨0, _⟩ => rfl
  | ⟨1, _⟩ => rfl

/-- The row of column sums of the exponentials of a [400, 1024] block. -/
def cse (p : FVec Ideal S400x1024 .f32) : FVec Ideal S1x1024 .f32 :=
  shapeCast S1x1024 (multiReduction (F := Ideal) .add [0] S1024 (Idealize.ShloMosaic.exp (F := Ideal) p) 0x00000000#32 reduces_S400x1024_S1024 (.inl rfl) rfl) shapeCasts_S1024_S1x1024

theorem cse_apply (p : FVec Ideal S400x1024 .f32) (z : Fin 1) (b : Fin 1024) :
    cse p (ix2 z b) = ∑ r : Fin 400, Ideal.exp (p (ix2 r b)) :=
  cs_apply (Idealize.ShloMosaic.exp (F := Ideal) p) (.inl rfl) rfl shapeCasts_S1024_S1x1024 z b

/-- The sum over rows o … o + 399 of the point's block of the exponentials of the similarities with batch row b. -/
def rowsE (x0 : Vec Ideal S1024x128 .f32) (x1 : Vec Ideal S4000x128 .f32) (o : ℕ) (ho : o + 400 ≤ 4000) (b : Fin 1024) : EReal :=
  ∑ r : Fin 400, Ideal.exp (blkSim x0 x1 (ix2 (⟨o + r.val, by have := r.isLt; omega⟩ : Fin 4000) b))

/-- The column sums of the exponentials of the product of the 400 rows at offset `o` are `rowsE` at `o`. -/
theorem cse_piece (o : ℕ) (ho : o + 400 ≤ 4000) (inbv : ∀ a, (![o, 0] : Fin 2 → ℕ) a + S400x128.size a ≤ S4000x128.size a)
    (inbo : ∀ a, (![o, 0] : Fin 2 → ℕ) a + S400x1024.size a ≤ S4000x1024.size a)
    (x0 : Vec Ideal S1024x128 .f32) (x1 : Vec Ideal S4000x128 .f32) (z : Fin 1) (b : Fin 1024) :
    cse (matmul (F := Ideal) (φ₁ := .f32) (φ₂ := .f32) dot_S400x128_S1024x128_S400x1024_1_1_0_0_n_n none (View.ld x1 (Rect.unit (s := S4000x128) ![o, 0] S400x128.size inbv)) (View.ld x0 r1_x) (constant (F := Ideal) S400x1024 .f32 0x00000000#32)) (ix2 z b)
      = rowsE x0 x1 o ho b := by
  refine (cse_apply _ z b).trans ?_
  unfold rowsE
  refine Finset.sum_congr rfl fun r _ => congrArg Ideal.exp ?_
  refine (piece_eq o inbv inbo x0 x1 (ix2 r b)).trans (congrArg (blkSim x0 x1) ?_)
  funext a; apply Fin.ext
  match a with
  | ⟨0, _⟩ => show o + 1 * r.val = o + r.val; omega
  | ⟨1, _⟩ => show 0 + 1 * b.val = b.val; omega

/-- The point's row of sums of exponentials, as the body builds it: ten partial sums added, in order, into a zero row. -/
def accV (x0 : Vec Ideal S1024x128 .f32) (x1 : Vec Ideal S4000x128 .f32) : FVec Ideal S1x1024 .f32 :=
  (addf (addf (addf (addf (addf (addf (addf (addf (addf (addf (broadcast S1x1024 (Scalar.ofBits (F := Ideal) .f32 0x00000000#32)) (cse (k1_pay7 (View.ld x0 r1_x) (View.ld x1 r1_v0)))) (cse (k1_pay8 (View.ld x0 r1_x) (View.ld x1 r1_v1)))) (cse (k1_pay9 (View.ld x0 r1_x) (View.ld x1 r1_v2)))) (cse (k1_pay11 (View.ld x0 r1_x) (View.ld x1 r1_v3)))) (cse (k1_pay12 (View.ld x0 r1_x) (View.ld x1 r1_v4)))) (cse (k1_pay13 (View.ld x0 r1_x) (View.ld x1 r1_v5)))) (cse (k1_pay14 (View.ld x0 r1_x) (View.ld x1 r1_v6)))) (cse (k1_pay16 (View.ld x0 r1_x) (View.ld x1 r1_v7)))) (cse (k1_pay1 (View.ld x0 r1_x) (View.ld x1 r1_v8)))) (cse (k1_pay2 (View.ld x0 r1_x) (View.ld x1 r1_v9))))

/-- The same at batch column `b`, over the point's block of similarities. -/
def accB (x0 : Vec Ideal S1024x128 .f32) (x1 : Vec Ideal S4000x128 .f32) (b : Fin 1024) : EReal :=
  (((((((((((0 : EReal) + rowsE x0 x1 0 (by norm_num) b) + rowsE x0 x1 400 (by norm_num) b) + rowsE x0 x1 800 (by norm_num) b) + rowsE x0 x1 1200 (by norm_num) b) + rowsE x0 x1 1600 (by norm_num) b) + rowsE x0 x1 2000 (by norm_num) b) + rowsE x0 x1 2400 (by norm_num) b) + rowsE x0 x1 2800 (by norm_num) b) + rowsE x0 x1 3200 (by norm_num) b) + rowsE x0 x1 3600 (by norm_num) b)

theorem accV_apply (x0 : Vec Ideal S1024x128 .f32) (x1 : Vec Ideal S4000x128 .f32) (z : Fin 1) (b : Fin 1024) :
    accV x0 x1 (ix2 z b) = accB x0 x1 b := by
  have e0 : cse (k1_pay7 (View.ld x0 r1_x) (View.ld x1 r1_v0)) (ix2 z b) = rowsE x0 x1 0 (by norm_num) b := cse_piece 0 (by norm_num) inb_S4000x128_S400x128_0_0 inb_S4000x1024_S400x1024_0_0 x0 x1 z b
  have e1 : cse (k1_pay8 (View.ld x0 r1_x) (View.ld x1 r1_v1)) (ix2 z b) = rowsE x0 x1 400 (by norm_num) b := cse_piece 400 (by norm_num) inb_S4000x128_S400x128_400_0 inb_S4000x1024_S400x1024_400_0 x0 x1 z b
  have e2 : cse (k1_pay9 (View.ld x0 r1_x) (View.ld x1 r1_v2)) (ix2 z b) = rowsE x0 x1 800 (by norm_num) b := cse_piece 800 (by norm_num) inb_S4000x128_S400x128_800_0 inb_S4000x1024_S400x1024_800_0 x0 x1 z b
  have e3 : cse (k1_pay11 (View.ld x0 r1_x) (View.ld x1 r1_v3)) (ix2 z b) = rowsE x0 x1 1200 (by norm_num) b := cse_piece 1200 (by norm_num) inb_S4000x128_S400x128_1200_0 inb_S4000x1024_S400x1024_1200_0 x0 x1 z b
  have e4 : cse (k1_pay12 (View.ld x0 r1_x) (View.ld x1 r1_v4)) (ix2 z b) = rowsE x0 x1 1600 (by norm_num) b := cse_piece 1600 (by norm_num) inb_S4000x128_S400x128_1600_0 inb_S4000x1024_S400x1024_1600_0 x0 x1 z b
  have e5 : cse (k1_pay13 (View.ld x0 r1_x) (View.ld x1 r1_v5)) (ix2 z b) = rowsE x0 x1 2000 (by norm_num) b := cse_piece 2000 (by norm_num) inb_S4000x128_S400x128_2000_0 inb_S4000x1024_S400x1024_2000_0 x0 x1 z b
  have e6 : cse (k1_pay14 (View.ld x0 r1_x) (View.ld x1 r1_v6)) (ix2 z b) = rowsE x0 x1 2400 (by norm_num) b := cse_piece 2400 (by norm_num) inb_S4000x128_S400x128_2400_0 inb_S4000x1024_S400x1024_2400_0 x0 x1 z b
  have e7 : cse (k1_pay16 (View.ld x0 r1_x) (View.ld x1 r1_v7)) (ix2 z b) = rowsE x0 x1 2800 (by norm_num) b := cse_piece 2800 (by norm_num) inb_S4000x128_S400x128_2800_0 inb_S4000x1024_S400x1024_2800_0 x0 x1 z b
  have e8 : cse (k1_pay1 (View.ld x0 r1_x) (View.ld x1 r1_v8)) (ix2 z b) = rowsE x0 x1 3200 (by norm_num) b := cse_piece 3200 (by norm_num) inb_S4000x128_S400x128_3200_0 inb_S4000x1024_S400x1024_3200_0 x0 x1 z b
  have e9 : cse (k1_pay2 (View.ld x0 r1_x) (View.ld x1 r1_v9)) (ix2 z b) = rowsE x0 x1 3600 (by norm_num) b := cse_piece 3600 (by norm_num) inb_S4000x128_S400x128_3600_0 inb_S4000x1024_S400x1024_3600_0 x0 x1 z b
  show (((((((((((Ideal.ofBits .f32 0x00000000#32 : EReal) + cse (k1_pay7 (View.ld x0 r1_x) (View.ld x1 r1_v0)) (ix2 z b)) + cse (k1_pay8 (View.ld x0 r1_x) (View.ld x1 r1_v1)) (ix2 z b)) + cse (k1_pay9 (View.ld x0 r1_x) (View.ld x1 r1_v2)) (ix2 z b)) + cse (k1_pay11 (View.ld x0 r1_x) (View.ld x1 r1_v3)) (ix2 z b)) + cse (k1_pay12 (View.ld x0 r1_x) (View.ld x1 r1_v4)) (ix2 z b)) + cse (k1_pay13 (View.ld x0 r1_x) (View.ld x1 r1_v5)) (ix2 z b)) + cse (k1_pay14 (View.ld x0 r1_x) (View.ld x1 r1_v6)) (ix2 z b)) + cse (k1_pay16 (View.ld x0 r1_x) (View.ld x1 r1_v7)) (ix2 z b)) + cse (k1_pay1 (View.ld x0 r1_x) (View.ld x1 r1_v8)) (ix2 z b)) + cse (k1_pay2 (View.ld x0 r1_x) (View.ld x1 r1_v9)) (ix2 z b)) = _
  rw [e0, e1, e2, e3, e4, e5, e6, e7, e8, e9, Ideal.ofBits_zero_f32]
  rfl

/-- The scratch row's new contents are the loaded row plus the point's sums, -/
theorem sNext_eq (x0 : Vec Ideal S1024x128 .f32) (x1 : Vec Ideal S4000x128 .f32) (s : Vec Ideal S1x1024 .f32) :
    sNext x0 x1 s = shapeCast S1x1024 (addf (F := Ideal) (φ := .f32) s (accV x0 x1)) shapeCasts_S1x1024_S1x1024 := rfl

/-- and the row of log-sums the log of that. -/
theorem lseNext_eq (x0 : Vec Ideal S1024x128 .f32) (x1 : Vec Ideal S4000x128 .f32) (s : Vec Ideal S1x1024 .f32) :
    lseNext x0 x1 s = Idealize.ShloMosaic.log (F := Ideal) (addf (F := Ideal) (φ := .f32) s (accV x0 x1)) := rfl

theorem sNext_apply (x0 : Vec Ideal S1024x128 .f32) (x1 : Vec Ideal S4000x128 .f32) (s : Vec Ideal S1x1024 .f32) (z : Fin 1) (b : Fin 1024) :
    sNext x0 x1 s (ix2 z b) = s (ix2 z b) + accB x0 x1 b := by
  rw [sNext_eq, shapeCast_self]
  show s (ix2 z b) + accV x0 x1 (ix2 z b) = _
  rw [accV_apply]

theorem lseNext_apply (x0 : Vec Ideal S1024x128 .f32) (x1 : Vec Ideal S4000x128 .f32) (s : Vec Ideal S1x1024 .f32) (z : Fin 1) (b : Fin 1024) :
    lseNext x0 x1 s (ix2 z b) = Ideal.log (s (ix2 z b) + accB x0 x1 b) := by
  rw [lseNext_eq]
  show Ideal.log (s (ix2 z b) + accV x0 x1 (ix2 z b)) = _
  rw [accV_apply]

/-! ## What the stores leave, without the store lists -/

theorem sout1_eq (x0 : Vec Ideal S1024x128 .f32) (x1 : Vec Ideal S4000x128 .f32) (xs : Vec Ideal S1x1024 .f32) :
    sout1 x0 x1 xs = sNext x0 x1 xs := by
  unfold sout1
  rw [View.canon_unit_zero hz1, View.ld_unit_zero (S := S1x1024) hz1]

theorem sout1A_eq (x0 : Vec Ideal S1024x128 .f32) (x1 : Vec Ideal S4000x128 .f32) :
    sout1A x0 x1 = sNext x0 x1 (k1_pay6 (F := Ideal)) := by
  unfold sout1A
  rw [View.canon_cons_unit_zero hz1]

theorem out1_3_eq (x0 : Vec Ideal S1024x128 .f32) (x1 : Vec Ideal S4000x128 .f32) (xs : Vec Ideal S1x1024 .f32) :
    out1_3 x0 x1 xs = lseNext x0 x1 xs := by
  unfold out1_3
  rw [View.canon_unit_zero hz1, View.ld_unit_zero (S := S1x1024) hz1]

/-- The zeroed scratch row reads zero. -/
theorem pay6_apply (j : S1x1024.Idx) : k1_pay6 (F := Ideal) j = 0 :=
  (show k1_pay6 (F := Ideal) j = Ideal.ofBits .f32 0x00000000#32 from rfl).trans Ideal.ofBits_zero_f32

end Cert.Proof.KI

end
-- ==== Proof.Tc1Lse.lean ====
/-
  The scratch row point by point and the row of log-sums the second call leaves, at the ideal values, from the batch
  x and the class table V as the region finds them.

  Point t adds to the scratch row, per batch column b, acc_t(b): the ten sums, over rows 4000 t + o … + 399 of the
  table (o = 0, 400, …, 3600), of exp of the similarity with batch row b, added in that order into zero. The scratch
  row after point t is s_t = s_{t-1} + acc_t, with s_0 = 0 + acc_0 (the first point zeroes the row first); the row
  of log-sums, stored at the last point only, is log (s_23 + acc_24).
-/
import proofs.«207136_g6528350290482_cont_9to1c4b_434_22_alg».proof.Proof.Tc1Acc

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

open Idealize.ShloMosaic.ValueIdx

variable (V : (c : Dev nD) → (b : Ref sig .tc) → Buf (Elt Ideal) ((c : Thread nD τ).loc b))
variable (Rec : Set (SemLoc sig × HIx 1))

/-- The table's row number of row `r` of the 400 rows at offset `o` of point `t`'s block. -/
def rowOf (t : Fin 25) (o : ℕ) (ho : o + 400 ≤ 4000) (r : Fin 400) : Fin 100000 :=
  ⟨4000 * t.val + o + r.val, by have := t.isLt; have := r.isLt; omega⟩

/-- The sum over those 400 rows of exp of the similarity with batch row `b`. -/
def ET (x : S1024x128.Idx → EReal) (Vt : S100000x128.Idx → EReal) (t : Fin 25) (o : ℕ) (ho : o + 400 ≤ 4000) (b : Fin 1024) : EReal :=
  ∑ r : Fin 400, Ideal.exp (simK x Vt (rowOf t o ho r) b)

/-- What point `t` adds to the scratch row at column `b`: its ten partial sums, added in order into zero. -/
def accT (x : S1024x128.Idx → EReal) (Vt : S100000x128.Idx → EReal) (t : Fin 25) (b : Fin 1024) : EReal :=
  (((((((((((0 : EReal) + ET x Vt t 0 (by norm_num) b) + ET x Vt t 400 (by norm_num) b) + ET x Vt t 800 (by norm_num) b) + ET x Vt t 1200 (by norm_num) b) + ET x Vt t 1600 (by norm_num) b) + ET x Vt t 2000 (by norm_num) b) + ET x Vt t 2400 (by norm_num) b) + ET x Vt t 2800 (by norm_num) b) + ET x Vt t 3200 (by norm_num) b) + ET x Vt t 3600 (by norm_num) b)

/-- The scratch row after point `n`, at column `b`. -/
def sT (x : S1024x128.Idx → EReal) (Vt : S100000x128.Idx → EReal) : (n : ℕ) → n < 25 → Fin 1024 → EReal
  | 0, h => fun b => 0 + accT x Vt ⟨0, h⟩ b
  | n + 1, h => fun b => sT x Vt n (Nat.lt_of_succ_lt h) b + accT x Vt ⟨n + 1, h⟩ b

/-- The row of log-sums after the last point. -/
def lseT (x : S1024x128.Idx → EReal) (Vt : S100000x128.Idx → EReal) : S1x1024.Idx → EReal :=
  fun i => Ideal.log (sT x Vt 23 (by norm_num) (i 1) + accT x Vt ⟨24, by norm_num⟩ (i 1))

theorem rowsE_iblk (c : Dev nD) (t : Fin cfg1.N) (ht : t.val < 25) (o : ℕ) (ho : o + 400 ≤ 4000) (b : Fin 1024) :
    rowsE (iblk1 V c 0 t) (iblk1 V c 1 t) o ho b = ET (V c main_arg0) (V c main_arg5) ⟨t.val, ht⟩ o ho b := by
  unfold rowsE ET
  refine Finset.sum_congr rfl fun r _ => congrArg Ideal.exp ?_
  exact blkSim_iblk V c t _ (ix2 (rowOf ⟨t.val, ht⟩ o ho r) b)
    (by show 4000 * t.val + o + r.val = 4000 * t.val + (o + r.val); omega) rfl

theorem accB_iblk (c : Dev nD) (t : Fin cfg1.N) (ht : t.val < 25) (b : Fin 1024) :
    accB (iblk1 V c 0 t) (iblk1 V c 1 t) b = accT (V c main_arg0) (V c main_arg5) ⟨t.val, ht⟩ b := by
  unfold accB accT
  rw [rowsE_iblk V c t ht 0, rowsE_iblk V c t ht 400, rowsE_iblk V c t ht 800, rowsE_iblk V c t ht 1200, rowsE_iblk V c t ht 1600, rowsE_iblk V c t ht 2000, rowsE_iblk V c t ht 2400, rowsE_iblk V c t ht 2800, rowsE_iblk V c t ht 3200, rowsE_iblk V c t ht 3600]

/-- THE SCRATCH ROW after point `n`, at the ideal values. -/
theorem sAt1_apply (c : Dev nD) : ∀ (n : ℕ) (hn : n < cfg1.N) (h25 : n < 25) (z : Fin 1) (b : Fin 1024),
    sAt1 V c n hn (ix2 z b) = sT (V c main_arg0) (V c main_arg5) n h25 b
  | 0, hn, h25, z, b => by
    show sout1A (iblk1 V c 0 ⟨0, hn⟩) (iblk1 V c 1 ⟨0, hn⟩) (ix2 z b) = _
    refine (congrFun (sout1A_eq (iblk1 V c 0 ⟨0, hn⟩) (iblk1 V c 1 ⟨0, hn⟩)) (ix2 z b)).trans ?_
    refine (sNext_apply (iblk1 V c 0 ⟨0, hn⟩) (iblk1 V c 1 ⟨0, hn⟩) _ z b).trans ?_
    rw [pay6_apply, accB_iblk V c ⟨0, hn⟩ h25]
    rfl
  | n + 1, hn, h25, z, b => by
    show sout1 (iblk1 V c 0 ⟨n + 1, hn⟩) (iblk1 V c 1 ⟨n + 1, hn⟩) (sAt1 V c n (Nat.lt_of_succ_lt hn)) (ix2 z b) = _
    refine (congrFun (sout1_eq (iblk1 V c 0 ⟨n + 1, hn⟩) (iblk1 V c 1 ⟨n + 1, hn⟩) _) (ix2 z b)).trans ?_
    refine (sNext_apply (iblk1 V c 0 ⟨n + 1, hn⟩) (iblk1 V c 1 ⟨n + 1, hn⟩) _ z b).trans ?_
    rw [sAt1_apply c n (Nat.lt_of_succ_lt hn) (Nat.lt_of_succ_lt h25) z b, accB_iblk V c ⟨n + 1, hn⟩ h25]
    rfl

/-- The last point. -/
def t24 : Fin cfg1.N := ⟨24, lt_of_lt_of_eq (by norm_num : 24 < 25) (show 25 = cfg1.N from N_1.symm)⟩

/-- WHAT THE LAST POINT WRITES BACK into the row of log-sums. -/
theorem flushed1_3_eq (c : Dev nD) (t : Fin cfg1.N) (hf : (cfg1.win 3).flush t = true) :
    (dat1 (F := Ideal) (UU := UU) V Rec c).flushed 3 t = ((cfg1.win 3).blk t).view.read (Elt Ideal) (lseT (V c main_arg0) (V c main_arg5)) := by
  have h24 : t.val = 24 := by
    have h := (flush1_3 t).mp hf
    have hN : t.val < 25 := lt_of_lt_of_eq t.isLt (show cfg1.N = 25 from N_1)
    omega
  obtain ⟨n, hn⟩ := t
  dsimp only at h24
  subst h24
  show (cfg1.win 3).cut (grid1.coords ⟨24, hn⟩) ((dat1 (F := Ideal) (UU := UU) V Rec c).after 3 ⟨24, hn⟩) = _
  rw [after1_3]
  obtain ⟨-, -, -, -, -, -, e6, e7⟩ := idx_facts1 ⟨24, hn⟩
  funext j
  obtain ⟨z, b, rfl⟩ : ∃ (z : Fin 1) (b : Fin 1024), j = ix2 z b := ⟨j 0, j 1, eq_ix2 j⟩
  show out1_3 (iblk1 V c 0 ⟨24, hn⟩) (iblk1 V c 1 ⟨24, hn⟩) (sPrev V c ⟨24, hn⟩) (ix2 z b)
    = lseT (V c main_arg0) (V c main_arg5) (((cfg1.win 3).blk ⟨24, hn⟩).view.emb (ix2 z b))
  refine (congrFun (out1_3_eq (iblk1 V c 0 ⟨24, hn⟩) (iblk1 V c 1 ⟨24, hn⟩) _) (ix2 z b)).trans ?_
  refine (lseNext_apply (iblk1 V c 0 ⟨24, hn⟩) (iblk1 V c 1 ⟨24, hn⟩) _ z b).trans ?_
  unfold lseT
  refine congrArg Ideal.log ?_
  have hE : ((((cfg1.win 3).blk ⟨24, hn⟩).view.emb (ix2 z b)) 1) = b :=
    Fin.ext (by show win1_3.index ⟨24, hn⟩ (1 : Fin 2) * 1024 + 1 * b.val = b.val; omega)
  have key : ∀ b' : Fin 1024, b' = b →
      sT (V c main_arg0) (V c main_arg5) 23 (by norm_num) b + accT (V c main_arg0) (V c main_arg5) ⟨24, by norm_num⟩ b
        = sT (V c main_arg0) (V c main_arg5) 23 (by norm_num) b' + accT (V c main_arg0) (V c main_arg5) ⟨24, by norm_num⟩ b' := fun b' h => by rw [h]
  refine Eq.trans ?_ (key _ hE)
  show sAt1 V c 23 _ (ix2 z b) + accB (iblk1 V c 0 ⟨24, hn⟩) (iblk1 V c 1 ⟨24, hn⟩) b = _
  rw [sAt1_apply V c 23 _ (by norm_num) z b, accB_iblk V c ⟨24, hn⟩ (by norm_num)]

/-- Every entry of the row of log-sums is in the last point's block (the whole row). -/
theorem mem_blk1_3 (t : Fin cfg1.N) (i : S1x1024.Idx) : i ∈ ((cfg1.win 3).blk t).view.set := by
  show i ∈ ((View.whole main_v1_1).slice (win1_3.rect t)).set
  rw [View.set_slice_whole, Rect.mem_set_unit]
  obtain ⟨-, -, -, -, -, -, e6, e7⟩ := idx_facts1 t
  intro a
  match a with
  | ⟨0, _⟩ => show win1_3.index t (0 : Fin 2) * 1 ≤ (i 0).val ∧ (i 0).val < win1_3.index t (0 : Fin 2) * 1 + 1; have h : (i 0).val < 1 := (i 0).isLt; omega
  | ⟨1, _⟩ => show win1_3.index t (1 : Fin 2) * 1024 ≤ (i 1).val ∧ (i 1).val < win1_3.index t (1 : Fin 2) * 1024 + 1024; have h : (i 1).val < 1024 := (i 1).isLt; omega

/-- THE ROW OF LOG-SUMS after the call, at the ideal values. -/
theorem final1_3 (c : Dev nD) :
    (dat1 (F := Ideal) (UU := UU) V Rec c).arrAt 3 cfg1.N = lseT (V c main_arg0) (V c main_arg5) :=
  (dat1 (F := Ideal) (UU := UU) V Rec c).arrAt_eq_of_cover 3 _ (fun t hf => flushed1_3_eq V Rec c t hf)
    (fun i => ⟨t24, (flush1_3 t24).mpr rfl, mem_blk1_3 t24 i⟩)

end Cert.Proof.KI

end
-- ==== Proof.LibBlockSum.lean ====
/-
  A sum over m consecutive blocks of n is the sum over the m·n positions: for any function f of a position,
  Σ_{k < m} Σ_{l < n} f (n·k + l) = Σ_{j < m·n} f j, in any additive commutative monoid. This is how an accumulation
  over the blocks of a tiled axis becomes one sum over the axis.
-/
import Mathlib.Algebra.BigOperators.Fin
import Mathlib.Logic.Equiv.Fin.Basic

namespace Cert.BlockSum

/-- Blocks indexed by a range, positions inside a block by `Fin n`. -/
theorem sum_range_blocks {M : Type*} [AddCommMonoid M] (m n : ℕ) (f : ℕ → M) :
    ∑ k ∈ Finset.range m, ∑ l : Fin n, f (n * k + l.val) = ∑ j : Fin (m * n), f j.val := by
  rw [← Fin.sum_univ_eq_sum_range (fun k => ∑ l : Fin n, f (n * k + l.val)) m,
    ← Equiv.sum_comp (finProdFinEquiv (m := m) (n := n)) (fun j : Fin (m * n) => f j.val), Fintype.sum_prod_type]
  refine Finset.sum_congr rfl fun k _ => Finset.sum_congr rfl fun l _ => ?_
  show f (n * k.val + l.val) = f ((finProdFinEquiv (k, l)).val)
  rw [finProdFinEquiv_apply_val, Nat.add_comm]

/-- The same with the blocks indexed by `Fin m`. -/
theorem sum_fin_blocks {M : Type*} [AddCommMonoid M] (m n : ℕ) (f : ℕ → M) :
    ∑ k : Fin m, ∑ l : Fin n, f (n * k.val + l.val) = ∑ j : Fin (m * n), f j.val := by
  rw [← sum_range_blocks m n f, ← Fin.sum_univ_eq_sum_range (fun k => ∑ l : Fin n, f (n * k + l.val)) m]

end Cert.BlockSum
-- ==== Proof.Tc1Flat.lean ====
/-
  The row of log-sums as the log of ONE sum over the 100000 class rows.

  The body's accumulation is a sum over 25 points of a sum over 10 sub-blocks of a sum over 400 rows, each level
  added left to right starting from zero; addition of extended reals is an additive commutative monoid, so the nested
  sum is the sum over the 25 · 10 · 400 = 100000 rows in order: a left-nested sum from zero is the sum over Fin n, and
  a sum over m blocks of n is the sum over the m · n positions.
-/
import proofs.«207136_g6528350290482_cont_9to1c4b_434_22_alg».proof.Proof.Tc1Lse
import proofs.«207136_g6528350290482_cont_9to1c4b_434_22_alg».proof.Proof.LibBlockSum

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {UU : Type} [URA UU]

local notation "𝕄" => MT nD τ sig (HIx 1) (Elt F) ℕ UU ℕ

open Idealize.ShloMosaic.ValueIdx

variable (x : S1024x128.Idx → EReal) (Vt : S100000x128.Idx → EReal)

/-- The summand at class row `j` for batch column `b`, as a function of every natural number (zero off the table). -/
def gRow (b : Fin 1024) (j : ℕ) : EReal := if h : j < 100000 then Ideal.exp (simK x Vt ⟨j, h⟩ b) else 0

/-- Ten terms added left to right from zero are the sum over Fin 10. -/
theorem sum_fin10 {M : Type*} [AddCommMonoid M] (G : ℕ → M) :
    ∑ k : Fin 10, G k.val = (((((((((0 + G 0) + G 1) + G 2) + G 3) + G 4) + G 5) + G 6) + G 7) + G 8) + G 9 := by
  simp only [Fin.sum_univ_castSucc, Fin.sum_univ_zero, Fin.coe_castSucc, Fin.val_last]

/-- The sum over the 400 rows at offset `o = 400 k` of point `t`'s block, through `gRow`. -/
theorem ET_eq (t : Fin 25) (o k : ℕ) (hok : o = 400 * k) (ho : o + 400 ≤ 4000) (b : Fin 1024) :
    ET x Vt t o ho b = ∑ r : Fin 400, gRow x Vt b (4000 * t.val + (400 * k + r.val)) := by
  subst hok
  unfold ET
  refine Finset.sum_congr rfl fun r _ => ?_
  have hlt : 4000 * t.val + (400 * k + r.val) < 100000 := by have := t.isLt; have := r.isLt; omega
  unfold gRow
  rw [dif_pos hlt]
  refine congrArg (fun q => Ideal.exp (simK x Vt q b)) (Fin.ext ?_)
  show 4000 * t.val + 400 * k + r.val = 4000 * t.val + (400 * k + r.val)
  omega

/-- What point `t` adds: the sum over its 4000 rows. -/
theorem accT_flat (t : Fin 25) (b : Fin 1024) :
    accT x Vt t b = ∑ j : Fin 4000, gRow x Vt b (4000 * t.val + j.val) := by
  have h1 : accT x Vt t b = ∑ k : Fin 10, ∑ r : Fin 400, gRow x Vt b (4000 * t.val + (400 * k.val + r.val)) := by
    refine Eq.trans ?_ (sum_fin10 (fun k => ∑ r : Fin 400, gRow x Vt b (4000 * t.val + (400 * k + r.val)))).symm
    unfold accT
    exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl (ET_eq x Vt t 0 0 (by norm_num) (by norm_num) b)) (ET_eq x Vt t 400 1 (by norm_num) (by norm_num) b)) (ET_eq x Vt t 800 2 (by norm_num) (by norm_num) b)) (ET_eq x Vt t 1200 3 (by norm_num) (by norm_num) b)) (ET_eq x Vt t 1600 4 (by norm_num) (by norm_num) b)) (ET_eq x Vt t 2000 5 (by norm_num) (by norm_num) b)) (ET_eq x Vt t 2400 6 (by norm_num) (by norm_num) b)) (ET_eq x Vt t 2800 7 (by norm_num) (by norm_num) b)) (ET_eq x Vt t 3200 8 (by norm_num) (by norm_num) b)) (ET_eq x Vt t 3600 9 (by norm_num) (by norm_num) b))
  rw [h1]
  exact Cert.BlockSum.sum_fin_blocks 10 400 (fun j => gRow x Vt b (4000 * t.val + j))

/-- The scratch row after point `n`: the sum over the rows of points 0 … n. -/
theorem sT_flat (b : Fin 1024) : ∀ (n : ℕ) (h : n < 25),
    sT x Vt n h b = ∑ t : Fin (n + 1), ∑ j : Fin 4000, gRow x Vt b (4000 * t.val + j.val)
  | 0, h => by
    show 0 + accT x Vt ⟨0, h⟩ b = _
    rw [zero_add, accT_flat, Fin.sum_univ_one]
    rfl
  | n + 1, h => by
    show sT x Vt n (Nat.lt_of_succ_lt h) b + accT x Vt ⟨n + 1, h⟩ b = _
    rw [sT_flat b n (Nat.lt_of_succ_lt h), accT_flat, Fin.sum_univ_castSucc (n := n + 1)]
    simp only [Fin.coe_castSucc, Fin.val_last]

/-- The scratch row after the last point, at column `b`: the sum over all 100000 class rows. -/
theorem lse_sum (b : Fin 1024) :
    sT x Vt 23 (by norm_num) b + accT x Vt ⟨24, by norm_num⟩ b = ∑ r : Fin 100000, Ideal.exp (simK x Vt r b) := by
  rw [sT_flat x Vt b 23 (by norm_num), accT_flat]
  have h25 : (∑ t : Fin (23 + 1), ∑ j : Fin 4000, gRow x Vt b (4000 * t.val + j.val))
      + ∑ j : Fin 4000, gRow x Vt b (4000 * (⟨24, by norm_num⟩ : Fin 25).val + j.val)
      = ∑ t : Fin 25, ∑ j : Fin 4000, gRow x Vt b (4000 * t.val + j.val) := by
    rw [Fin.sum_univ_castSucc (n := 24)]
    simp only [Fin.coe_castSucc, Fin.val_last]
  rw [h25]
  refine (Cert.BlockSum.sum_fin_blocks 25 4000 (gRow x Vt b)).trans ?_
  show ∑ r : Fin 100000, gRow x Vt b r.val = _
  refine Finset.sum_congr rfl fun r _ => ?_
  unfold gRow
  rw [dif_pos r.isLt]

/-- THE RE-ASSOCIATION: the row of log-sums is the log of the sum over all 100000 class rows. -/
theorem lseT_flat (i : S1x1024.Idx) :
    lseT x Vt i = Ideal.log (∑ r : Fin 100000, Ideal.exp (simK x Vt r (i 1))) := by
  unfold lseT
  exact congrArg Ideal.log (lse_sum x Vt (i 1))

end Cert.Proof.KI

end
-- ==== Proof.KernelLoss.lean ====
/-
  The scalar result of the idealized kernel program is the specification's loss.

  The loss combiner leaves ( Σ_b l[0, b] − Σ_{(b, f)} x[b, f] · g[b, f] ) / 1024, with x the batch as launched, g the
  gathered class rows and l the row of log-sums the first pallas_call left; the host reshapes the 1x1 result to a
  scalar. Entry (0, b) of l is log Σ_r exp (Σ_k V[r, k] · x[b, k]), which is the specification's log-sum of batch
  row b (a product of two extended reals does not depend on the order of its factors); g[b, f] is V[t[b], f], so the
  sum over f of x[b, f] · g[b, f] is the similarity of batch row b and its own class row; the word 0x44800000 is 1024.
-/
import proofs.«207136_g6528350290482_cont_9to1c4b_434_22_alg».proof.Proof.Reg1
import proofs.«207136_g6528350290482_cont_9to1c4b_434_22_alg».proof.Proof.Tc2Ideal
import proofs.«207136_g6528350290482_cont_9to1c4b_434_22_alg».proof.Proof.Tc1Flat
import proofs.«207136_g6528350290482_cont_9to1c4b_434_22_alg».proof.Proof.ScPay
import proofs.«207136_g6528350290482_cont_9to1c4b_434_22_alg».proof.Proof.Spec

noncomputable section

namespace Cert.Proof.KI

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.Sem

/-! ## The pure part -/

/-- The word 0x44800000 read as an ideal value is 1024. -/
theorem ofBits_1024 : Ideal.ofBits .f32 0x44800000#32 = ((1024 : ℝ) : EReal) := by
  simp [Ideal.ofBits, Ideal.ieee, -EReal.coe_mul]; norm_num

/-- A sum over a one-row array is the sum over its columns. -/
theorem sum_row (l : S1x1024.Idx → EReal) : ∑ j, l j = ∑ b : Fin 1024, l (ix2 (0 : Fin 1) b) := by
  rw [sum_idx2 l, Fin.sum_univ_one]

/-- The similarity in the body's order of the factors is the specification's. -/
theorem simK_eq_sim (x : S1024x128.Idx → EReal) (Vt : S100000x128.Idx → EReal) (r : Fin 100000) (b : Fin 1024) :
    simK x Vt r b = Cert.Spec.sim x Vt b r :=
  Finset.sum_congr rfl fun k _ => mul_comm _ _

/-- The row of log-sums, summed, is the sum of the specification's log-sums. -/
theorem sum_lse (x : S1024x128.Idx → EReal) (Vt : S100000x128.Idx → EReal)
    (hflat : ∀ i : S1x1024.Idx, lseT x Vt i = Ideal.log (∑ r : Fin 100000, Ideal.exp (simK x Vt r (i 1)))) :
    ∑ j : S1x1024.Idx, lseT x Vt j = ∑ b : Fin 1024, Cert.Spec.lse x Vt b := by
  rw [sum_row]
  refine Finset.sum_congr rfl fun b _ => ?_
  rw [hflat]
  unfold Cert.Spec.lse
  refine congrArg Ideal.log (Finset.sum_congr rfl fun r _ => congrArg Ideal.exp ?_)
  exact simK_eq_sim x Vt r b

/-- A batch against rows gathered from a table by class numbers, summed over all entries, is the sum over the batch of
    the similarity of each row with its own class row. -/
theorem sum_gathered (x g : S1024x128.Idx → EReal) (Vt : S100000x128.Idx → EReal) (t : S1024.Idx → BitVec 32)
    (hg : ∀ (b : Fin 1024) (f : Fin 128), g (ix2 b f) = Vt (ix2 (Cert.Spec.cls t b) f)) :
    ∑ j : S1024x128.Idx, x j * g j = ∑ b : Fin 1024, Cert.Spec.sim x Vt b (Cert.Spec.cls t b) := by
  rw [sum_idx2]
  refine Finset.sum_congr rfl fun b _ => ?_
  unfold Cert.Spec.sim
  refine Finset.sum_congr rfl fun f _ => ?_
  rw [hg]

/-- The loss combiner's result over the row of log-sums, the batch and the gathered rows is the specification's loss. -/
theorem lossI_eq_spec (x g : S1024x128.Idx → EReal) (Vt : S100000x128.Idx → EReal) (t : S1024.Idx → BitVec 32)
    (hg : ∀ (b : Fin 1024) (f : Fin 128), g (ix2 b f) = Vt (ix2 (Cert.Spec.cls t b) f))
    (hflat : ∀ i : S1x1024.Idx, lseT x Vt i = Ideal.log (∑ r : Fin 100000, Ideal.exp (simK x Vt r (i 1))))
    (i : S1x1.Idx) (j : S_.Idx) :
    lossI x g (lseT x Vt) i = Cert.Spec.loss x t Vt j := by
  unfold lossI Cert.Spec.loss
  rw [sum_lse x Vt hflat, sum_gathered x g Vt t hg, ofBits_1024]

variable (m : (ℓ : Loc nD τ sig) → Buf (Elt Ideal) ℓ)

/-- The gathered rows are rows of the table at the specification's class rows. -/
theorem gathered_cls (c : Dev nD) (b : Fin 1024) (f : Fin 128) :
    gathered m c (ix2 b f) = m (vLoc c) (ix2 (Cert.Spec.cls (m (tLoc c)) b) f) := rfl

/-! ## The program's scalar result -/

/-- The first region finds the batch and the table as launched. -/
theorem V1_batch (gath : (d : Dev nD) → Buf (Elt Ideal) (oLoc d)) (c : Dev nD) : V1 m gath c main_arg0 = m (xLoc c) :=
  Function.update_of_ne (StableHlo.devRef_ne_of_ne (by decide)) _ _
theorem V1_table (gath : (d : Dev nD) → Buf (Elt Ideal) (oLoc d)) (c : Dev nD) : V1 m gath c main_arg5 = m (vLoc c) :=
  Function.update_of_ne (StableHlo.devRef_ne_of_ne (by decide)) _ _

/-- The scalar and the 1x1 shape have one index each, at row-major position 0. -/
theorem pos_S1x1 (k : S1x1.Idx) (j : S_.Idx) : (S1x1.rowMajor k).val = (S_.rowMajor j).val := by
  rw [Shape.rowMajor_val_two]
  have h0 : (k 0).val < 1 := (k 0).isLt
  have h1 : (k 1).val < 1 := (k 1).isLt
  have hj : (S_.rowMajor j).val = 0 := Shape.rowMajorPi_zero _ _
  rw [hj]
  simp
  omega

/-- THE SCALAR RESULT, given the row of log-sums as one sum over the classes. -/
theorem loss_value_of_flat (c : Dev nD)
    (hflat : ∀ (x : S1024x128.Idx → EReal) (Vt : S100000x128.Idx → EReal) (i : S1x1024.Idx),
      lseT x Vt i = Ideal.log (∑ r : Fin 100000, Ideal.exp (simK x Vt r (i 1)))) :
    W4 m (gathered m) reg1Data c (Proc.devRef .tc main_v3) = Cert.Spec.loss (m (xLoc c)) (m (tLoc c)) (m (vLoc c)) := by
  rw [W4_v3]
  funext j
  rw [shapeCast_apply _ shapeCasts_S1x1_S_ j (ix2 (0 : Fin 1) (0 : Fin 1)) (pos_S1x1 _ _), final2_ideal]
  have h0 : V2 m (gathered m) reg1Data c main_arg0 = m (xLoc c) := W2_arg0 m (gathered m) reg1Data c
  have hv0 : V2 m (gathered m) reg1Data c main_v0 = gathered m c := W2_v0 m (gathered m) reg1Data c
  have hl : V2 m (gathered m) reg1Data c main_v1_1 = lseT (m (xLoc c)) (m (vLoc c)) := by
    refine (W2_arr m (gathered m) reg1Data c 3).trans ?_
    show (dat1 (F := Ideal) (UU := UU) (V1 m (gathered m)) (Rec (F := Ideal) c) c).arrAt 3 cfg1.N = _
    rw [final1_3, V1_batch, V1_table]
  rw [h0, hv0, hl]
  exact lossI_eq_spec _ _ _ _ (gathered_cls m c) (hflat _ _) _ j

/-- THE SCALAR RESULT of the idealized kernel program: the specification's loss of the batch, the class numbers and
    the table as launched. -/
theorem loss_value (c : Dev nD) :
    W4 m (gathered m) reg1Data c (Proc.devRef .tc main_v3) = Cert.Spec.loss (m (xLoc c)) (m (tLoc c)) (m (vLoc c)) :=
  loss_value_of_flat m c lseT_flat

end Cert.Proof.KI

end
-- ==== Proof.RefOpsCut.lean ====
import proofs.«207136_g6528350290482_cont_9to1c4b_434_22_alg».proof.Proof.RefReadP

noncomputable section

namespace Cert.Proof.RefOps

open Cert.ReferenceIdeal Cert.ReferenceIdeal.Gen Cert.ReferenceIdeal.ValueP Idealize.ShloMosaic
  Idealize.ShloMosaic.TcCoe Idealize.SL.Sem Idealize.ShloMosaic.StableHlo

variable {F : FTy → Type} [FloatOps F]

/-- Operations 1 to 5 of the reference, in order. -/
abbrev ops1 : List (HloOp τ sig (Elt F)) :=
  [ unary main_arg5 main_v0 ((transpose S128x100000 [1, 0] · transposes_S100000x128_S128x100000_1_0) : (⟨S100000x128, .f32⟩ : BufTy).Contents (Elt F) → (⟨S128x100000, .f32⟩ : BufTy).Contents (Elt F)),
    binary main_arg0 main_v0 main_v1 ((fun l r => Host.dotGeneral dot_S1024x128_S128x100000_S1024x100000_1_0_0_1_n_n none l r) : (⟨S1024x128, .f32⟩ : BufTy).Contents (Elt F) → (⟨S128x100000, .f32⟩ : BufTy).Contents (Elt F) → (⟨S1024x100000, .f32⟩ : BufTy).Contents (Elt F)),
    nullary main_cst (constant S_ .f32 0x3F800000#32),
    unary main_cst main_v2 (broadcastInDim S1024x100000 ![] bcast_S_S1024x100000 : (⟨S_, .f32⟩ : BufTy).Contents (Elt F) → (⟨S1024x100000, .f32⟩ : BufTy).Contents (Elt F)),
    binary main_v1 main_v2 main_v3 (mulf : (⟨S1024x100000, .f32⟩ : BufTy).Contents (Elt F) → (⟨S1024x100000, .f32⟩ : BufTy).Contents (Elt F) → (⟨S1024x100000, .f32⟩ : BufTy).Contents (Elt F)) ]

/-- Operations 6 to 10 of the reference, in order. -/
abbrev ops2 : List (HloOp τ sig (Elt F)) :=
  [ TRef.nullary (TRef.of (T := ⟨S_, .f32⟩) main_call0_cst) (constant S_ .f32 0xFF800000#32),
    TRef.binary (TRef.of (T := ⟨S1024x100000, .f32⟩) main_v3) (TRef.of (T := ⟨S_, .f32⟩) main_call0_cst) (TRef.of (T := ⟨S1024, .f32⟩) main_call0_v0) (fun x v => Host.reduce FloatOps.maximumf x v reducesTo_S1024x100000_S1024_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1024, .f32⟩) main_call0_v1) (broadcastInDim S1024 ![] bcast_S_S1024),
    TRef.binary (TRef.of (T := ⟨S1024, .f32⟩) main_call0_v1) (TRef.of (T := ⟨S1024, .f32⟩) main_call0_v0) (TRef.of (T := ⟨S1024, .f32⟩) main_call0_v2) maximumf ]

/-- Operations 11 to 13 of the reference, in order. -/
abbrev ops3 : List (HloOp τ sig (Elt F)) :=
  [ TRef.unary (TRef.of (T := ⟨S1024, .f32⟩) main_call0_v2) (TRef.of (T := ⟨S1024x1, .f32⟩) main_call0_v3) (broadcastInDim S1024x1 ![0] bcast_S1024_S1024x1_0),
    TRef.unary (TRef.of (T := ⟨S1024x1, .f32⟩) main_call0_v3) (TRef.of (T := ⟨S1024x100000, .f32⟩) main_call0_v4) (broadcastInDim S1024x100000 ![0, 1] bcast_S1024x1_S1024x100000_0_1),
    TRef.binary (TRef.of (T := ⟨S1024x100000, .f32⟩) main_v3) (TRef.of (T := ⟨S1024x100000, .f32⟩) main_call0_v4) (TRef.of (T := ⟨S1024x100000, .f32⟩) main_call0_v5) subf ]

/-- Operations 14 to 20 of the reference, in order. -/
abbrev ops4 : List (HloOp τ sig (Elt F)) :=
  [ TRef.unary (TRef.of (T := ⟨S1024x100000, .f32⟩) main_call0_v5) (TRef.of (T := ⟨S1024x100000, .f32⟩) main_call0_v6) Host.exp,
    TRef.nullary (TRef.of (T := ⟨S_, .f32⟩) main_call0_cst_1) (constant S_ .f32 0x00000000#32),
    TRef.binary (TRef.of (T := ⟨S1024x100000, .f32⟩) main_call0_v6) (TRef.of (T := ⟨S_, .f32⟩) main_call0_cst_1) (TRef.of (T := ⟨S1024, .f32⟩) main_call0_v7) (fun x v => Host.reduceAdd x v reducesTo_S1024x100000_S1024_d1 h_S_),
    TRef.unary (TRef.of (T := ⟨S1024, .f32⟩) main_call0_v7) (TRef.of (T := ⟨S1024x1, .f32⟩) main_call0_v8) (broadcastInDim S1024x1 ![0] bcast_S1024_S1024x1_0),
    TRef.unary (TRef.of (T := ⟨S1024x1, .f32⟩) main_call0_v8) (TRef.of (T := ⟨S1024x1, .f32⟩) main_call0_v9) Host.log,
    TRef.unary (TRef.of (T := ⟨S1024x1, .f32⟩) main_call0_v9) (TRef.of (T := ⟨S1024x100000, .f32⟩) main_call0_v10) (broadcastInDim S1024x100000 ![0, 1] bcast_S1024x1_S1024x100000_0_1),
    TRef.binary (TRef.of (T := ⟨S1024x100000, .f32⟩) main_call0_v5) (TRef.of (T := ⟨S1024x100000, .f32⟩) main_call0_v10) (TRef.of (T := ⟨S1024x100000, .f32⟩) main_v4) subf ]

/-- Operations 21 to 21 of the reference, in order. -/
abbrev ops5 : List (HloOp τ sig (Elt F)) :=
  [ unary main_arg1 main_v5 (broadcastInDim S1024x1 ![0] bcast_S1024_S1024x1_0 : (⟨S1024, .i32⟩ : BufTy).Contents (Elt F) → (⟨S1024x1, .i32⟩ : BufTy).Contents (Elt F)) ]

/-- Operations 22 to 43 of the reference, in order. -/
abbrev ops6 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S1024x1, .i32⟩) main_call1_v0) (broadcastInDim S1024x1 ![] bcast_S_S1024x1),
    TRef.binary (TRef.of (T := ⟨S1024x1, .i32⟩) main_v5) (TRef.of (T := ⟨S1024x1, .i32⟩) main_call1_v0) (TRef.of (T := ⟨S1024x1, .i1⟩) main_call1_v1) (cmpi .slt),
    TRef.nullary (TRef.of (T := ⟨S_, .i32⟩) main_call1_c_0) (constantI S_ 32 100000#32),
    TRef.unary (TRef.of (T := ⟨S_, .i32⟩) main_call1_c_0) (TRef.of (T := ⟨S1024x1, .i32⟩) main_call1_v2) (broadcastInDim S1024x1 ![] bcast_S_S1024x1),
    TRef.binary (TRef.of (T := ⟨S1024x1, .i32⟩) main_v5) (TRef.of (T := ⟨S1024x1, .i32⟩) main_call1_v2) (TRef.of (T := ⟨S1024x1, .i32⟩) main_call1_v3) addi,
    TRef.ternary (TRef.of (T := ⟨S1024x1, .i1⟩) main_call1_v1) (TRef.of (T := ⟨S1024x1, .i32⟩) main_call1_v3) (TRef.of (T := ⟨S1024x1, .i32⟩) main_v5) (TRef.of (T := ⟨S1024x1, .i32⟩) main_call1_v4) select,
    TRef.reshape (TRef.of (T := ⟨S1024x1, .i32⟩) main_call1_v4) (TRef.of (T := ⟨S1024x1x1, .i32⟩) main_call1_v5) rfl shapeCasts_S1024x1_S1024x1x1,
    TRef.nullary (TRef.of (T := ⟨S1, .i32⟩) main_call1_c_1) (constantI S1 32 99999#32),
    TRef.nullary (TRef.of (T := ⟨S_, .i32⟩) main_call1_c_2) (constantI S_ 32 0#32),
    TRef.unary (TRef.of (T := ⟨S_, .i32⟩) main_call1_c_2) (TRef.of (T := ⟨S1024x1x1, .i32⟩) main_call1_v6) (broadcastInDim S1024x1x1 ![] bcast_S_S1024x1x1),
    TRef.binary (TRef.of (T := ⟨S1024x1x1, .i32⟩) main_call1_v5) (TRef.of (T := ⟨S1024x1x1, .i32⟩) main_call1_v6) (TRef.of (T := ⟨S1024x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S1024x1x1, .i32⟩) main_call1_v9) (broadcastInDim S1024x1x1 ![0, 1, 2] bcast_S1x1x1_S1024x1x1_0_1_2),
    TRef.binary (TRef.of (T := ⟨S1024x1x1, .i32⟩) main_call1_v5) (TRef.of (T := ⟨S1024x1x1, .i32⟩) main_call1_v9) (TRef.of (T := ⟨S1024x1x1, .i1⟩) main_call1_v10) (cmpi .sle),
    TRef.binary (TRef.of (T := ⟨S1024x1x1, .i1⟩) main_call1_v7) (TRef.of (T := ⟨S1024x1x1, .i1⟩) main_call1_v10) (TRef.of (T := ⟨S1024x1x1, .i1⟩) main_call1_v11) andi,
    TRef.nullary (TRef.of (T := ⟨S_, .i1⟩) main_call1_c_3) (constantI S_ 1 1#1),
    TRef.binary (TRef.of (T := ⟨S1024x1x1, .i1⟩) main_call1_v11) (TRef.of (T := ⟨S_, .i1⟩) main_call1_c_3) (TRef.of (T := ⟨S1024x1, .i1⟩) main_call1_v12) (fun x v => Host.reduce IntOp.andi x v reducesTo_S1024x1x1_S1024x1_d2 h_S_),
    TRef.binary (TRef.of (T := ⟨S1024x100000, .f32⟩) main_v4) (TRef.of (T := ⟨S1024x1x1, .i32⟩) main_call1_v5) (TRef.of (T := ⟨S1024x1, .f32⟩) main_call1_v13) (fun x i => Host.gather gather_S1024x100000_S1024x1x1_S1024x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S1024x1, .f32⟩) main_call1_v14) (broadcastInDim S1024x1 ![] bcast_S_S1024x1),
    TRef.ternary (TRef.of (T := ⟨S1024x1, .i1⟩) main_call1_v12) (TRef.of (T := ⟨S1024x1, .f32⟩) main_call1_v13) (TRef.of (T := ⟨S1024x1, .f32⟩) main_call1_v14) (TRef.of (T := ⟨S1024x1, .f32⟩) main_v6) select ]

/-- Operations 44 to 48 of the reference, in order. -/
abbrev ops7 : List (HloOp τ sig (Elt F)) :=
  [ nullary main_cst_0 (constant S_ .f32 0x00000000#32),
    binary main_v6 main_cst_0 main_v7 ((fun x v => Host.reduceAdd x v reducesTo_S1024x1_S_d0_1 h_S_) : (⟨S1024x1, .f32⟩ : BufTy).Contents (Elt F) → (⟨S_, .f32⟩ : BufTy).Contents (Elt F) → (⟨S_, .f32⟩ : BufTy).Contents (Elt F)),
    nullary main_cst_1 (constant S_ .f32 0x44800000#32),
    binary main_v7 main_cst_1 main_v8 (Host.divf : (⟨S_, .f32⟩ : BufTy).Contents (Elt F) → (⟨S_, .f32⟩ : BufTy).Contents (Elt F) → (⟨S_, .f32⟩ : BufTy).Contents (Elt F)),
    unary main_v8 main_v9 (Host.negf : (⟨S_, .f32⟩ : BufTy).Contents (Elt F) → (⟨S_, .f32⟩ : BufTy).Contents (Elt F)) ]

/-- Operations 49 to 160 of the reference, in order. -/
abbrev ops8 : List (HloOp τ sig (Elt F)) :=
  [ unary main_arg0 main_v10 ((transpose S128x1024 [1, 0] · transposes_S1024x128_S128x1024_1_0) : (⟨S1024x128, .f32⟩ : BufTy).Contents (Elt F) → (⟨S128x1024, .f32⟩ : BufTy).Contents (Elt F)),
    binary main_arg0 main_v10 main_v11 ((fun l r => Host.dotGeneral dot_S1024x128_S128x1024_S1024x1024_1_0_0_1_n_n none l r) : (⟨S1024x128, .f32⟩ : BufTy).Contents (Elt F) → (⟨S128x1024, .f32⟩ : BufTy).Contents (Elt F) → (⟨S1024x1024, .f32⟩ : BufTy).Contents (Elt F)),
    unary main_arg1 main_v12 (broadcastInDim S1024x1 ![0] bcast_S1024_S1024x1_0 : (⟨S1024, .i32⟩ : BufTy).Contents (Elt F) → (⟨S1024x1, .i32⟩ : BufTy).Contents (Elt F)),
    unary main_arg1 main_v13 (broadcastInDim S1x1024 ![1] bcast_S1024_S1x1024_1 : (⟨S1024, .i32⟩ : BufTy).Contents (Elt F) → (⟨S1x1024, .i32⟩ : BufTy).Contents (Elt F)),
    unary main_v12 main_v14 (broadcastInDim S1024x1024 ![0, 1] bcast_S1024x1_S1024x1024_0_1 : (⟨S1024x1, .i32⟩ : BufTy).Contents (Elt F) → (⟨S1024x1024, .i32⟩ : BufTy).Contents (Elt F)),
    unary main_v13 main_v15 (broadcastInDim S1024x1024 ![0, 1] bcast_S1x1024_S1024x1024_0_1 : (⟨S1x1024, .i32⟩ : BufTy).Contents (Elt F) → (⟨S1024x1024, .i32⟩ : BufTy).Contents (Elt F)),
    binary main_v14 main_v15 main_v16 (cmpi .eq : (⟨S1024x1024, .i32⟩ : BufTy).Contents (Elt F) → (⟨S1024x1024, .i32⟩ : BufTy).Contents (Elt F) → (⟨S1024x1024, .i1⟩ : BufTy).Contents (Elt F)),
    unary main_v16 main_v17 (noti : (⟨S1024x1024, .i1⟩ : BufTy).Contents (Elt F) → (⟨S1024x1024, .i1⟩ : BufTy).Contents (Elt F)),
    nullary main_cst_2 (constant S_ .f32 0xFF800000#32),
    TRef.unary (TRef.of (T := ⟨S_, .f32⟩) main_cst_2) (TRef.of (T := ⟨S_, .f32⟩) main_call2_v0) id,
    TRef.unary (TRef.of (T := ⟨S_, .f32⟩) main_call2_v0) (TRef.of (T := ⟨S1024x1024, .f32⟩) main_call2_v1) (broadcastInDim S1024x1024 ![] bcast_S_S1024x1024),
    TRef.ternary (TRef.of (T := ⟨S1024x1024, .i1⟩) main_v17) (TRef.of (T := ⟨S1024x1024, .f32⟩) main_v11) (TRef.of (T := ⟨S1024x1024, .f32⟩) main_call2_v1) (TRef.of (T := ⟨S1024x1024, .f32⟩) main_v18) select,
    nullary main_cst_3 (constant S_ .f32 0xFF800000#32),
    binary main_v18 main_cst_3 main_v19 ((fun x v => Host.reduce FloatOps.maximumf x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    nullary main_c (constantI S_ 1 0#1),
    binary main_v17 main_c main_v20 ((fun x v => Host.reduce IntOp.ori x v reducesTo_S1024x1024_S1024_d1 h_S_) : (⟨S1024x1024, .i1⟩ : BufTy).Contents (Elt F) → (⟨S_, .i1⟩ : BufTy).Contents (Elt F) → (⟨S1024, .i1⟩ : BufTy).Contents (Elt F)),
    nullary main_cst_4 (constant S_ .f32 0xC0400000#32),
    TRef.unary (TRef.of (T := ⟨S_, .f32⟩) main_cst_4) (TRef.of (T := ⟨S_, .f32⟩) main_call3_v0) id,
    TRef.unary (TRef.of (T := ⟨S_, .f32⟩) main_call3_v0) (TRef.of (T := ⟨S1024, .f32⟩) main_call3_v1) (broadcastInDim S1024 ![] bcast_S_S1024),
    TRef.ternary (TRef.of (T := ⟨S1024, .i1⟩) main_v20) (TRef.of (T := ⟨S1024, .f32⟩) main_v19) (TRef.of (T := ⟨S1024, .f32⟩) main_call3_v1) (TRef.of (T := ⟨S1024, .f32⟩) main_v21) select,
    nullary main_cst_5 (constant S_ .f32 0x3F000000#32),
    unary main_cst_5 main_v22 (broadcastInDim S1024 ![] bcast_S_S1024 : (⟨S_, .f32⟩ : BufTy).Contents (Elt F) → (⟨S1024, .f32⟩ : BufTy).Contents (Elt F)),
    binary main_v21 main_v22 main_v23 (addf : (⟨S1024, .f32⟩ : BufTy).Contents (Elt F) → (⟨S1024, .f32⟩ : BufTy).Contents (Elt F) → (⟨S1024, .f32⟩ : BufTy).Contents (Elt F)),
    nullary main_cst_6 (constant S_ .f32 0x7F800000#32),
    TRef.unary (TRef.of (T := ⟨S_, .f32⟩) main_cst_6) (TRef.of (T := ⟨S_, .f32⟩) main_call4_v0) id,
    TRef.unary (TRef.of (T := ⟨S_, .f32⟩) main_call4_v0) (TRef.of (T := ⟨S1024x1024, .f32⟩) main_call4_v1) (broadcastInDim S1024x1024 ![] bcast_S_S1024x1024),
    TRef.ternary (TRef.of (T := ⟨S1024x1024, .i1⟩) main_v16) (TRef.of (T := ⟨S1024x1024, .f32⟩) main_v11) (TRef.of (T := ⟨S1024x1024, .f32⟩) main_call4_v1) (TRef.of (T := ⟨S1024x1024, .f32⟩) main_v24) select,
    nullary main_cst_7 (constant S_ .f32 0x7F800000#32),
    binary main_v24 main_cst_7 main_v25 ((fun x v => Host.reduce FloatOps.minimumf x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    nullary main_c_8 (constantI S_ 1 0#1),
    binary main_v16 main_c_8 main_v26 ((fun x v => Host.reduce IntOp.ori x v reducesTo_S1024x1024_S1024_d1 h_S_) : (⟨S1024x1024, .i1⟩ : BufTy).Contents (Elt F) → (⟨S_, .i1⟩ : BufTy).Contents (Elt F) → (⟨S1024, .i1⟩ : BufTy).Contents (Elt F)),
    nullary main_cst_9 (constant S_ .f32 0x40400000#32),
    TRef.unary (TRef.of (T := ⟨S_, .f32⟩) main_cst_9) (TRef.of (T := ⟨S_, .f32⟩) main_call5_v0) id,
    TRef.unary (TRef.of (T := ⟨S_, .f32⟩) main_call5_v0) (TRef.of (T := ⟨S1024, .f32⟩) main_call5_v1) (broadcastInDim S1024 ![] bcast_S_S1024),
    TRef.ternary (TRef.of (T := ⟨S1024, .i1⟩) main_v26) (TRef.of (T := ⟨S1024, .f32⟩) main_v25) (TRef.of (T := ⟨S1024, .f32⟩) main_call5_v1) (TRef.of (T := ⟨S1024, .f32⟩) main_v27) select,
    nullary main_cst_10 (constant S_ .f32 0x3F000000#32),
    unary main_cst_10 main_v28 (broadcastInDim S1024 ![] bcast_S_S1024 : (⟨S_, .f32⟩ : BufTy).Contents (Elt F) → (⟨S1024, .f32⟩ : BufTy).Contents (Elt F)),
    binary main_v27 main_v28 main_v29 (subf : (⟨S1024, .f32⟩ : BufTy).Contents (Elt F) → (⟨S1024, .f32⟩ : BufTy).Contents (Elt F) → (⟨S1024, .f32⟩ : BufTy).Contents (Elt F)),
    unary main_v23 main_v30 (broadcastInDim S1024x1 ![0] bcast_S1024_S1024x1_0 : (⟨S1024, .f32⟩ : BufTy).Contents (Elt F) → (⟨S1024x1, .f32⟩ : BufTy).Contents (Elt F)),
    unary main_v30 main_v31 (broadcastInDim S1024x1024 ![0, 1] bcast_S1024x1_S1024x1024_0_1 : (⟨S1024x1, .f32⟩ : BufTy).Contents (Elt F) → (⟨S1024x1024, .f32⟩ : BufTy).Contents (Elt F)),
    binary main_v11 main_v31 main_v32 (cmpf .olt : (⟨S1024x1024, .f32⟩ : BufTy).Contents (Elt F) → (⟨S1024x1024, .f32⟩ : BufTy).Contents (Elt F) → (⟨S1024x1024, .i1⟩ : BufTy).Contents (Elt F)),
    binary main_v16 main_v32 main_v33 (andi : (⟨S1024x1024, .i1⟩ : BufTy).Contents (Elt F) → (⟨S1024x1024, .i1⟩ : BufTy).Contents (Elt F) → (⟨S1024x1024, .i1⟩ : BufTy).Contents (Elt F)),
    unary main_v29 main_v34 (broadcastInDim S1024x1 ![0] bcast_S1024_S1024x1_0 : (⟨S1024, .f32⟩ : BufTy).Contents (Elt F) → (⟨S1024x1, .f32⟩ : BufTy).Contents (Elt F)),
    unary main_v34 main_v35 (broadcastInDim S1024x1024 ![0, 1] bcast_S1024x1_S1024x1024_0_1 : (⟨S1024x1, .f32⟩ : BufTy).Contents (Elt F) → (⟨S1024x1024, .f32⟩ : BufTy).Contents (Elt F)),
    binary main_v11 main_v35 main_v36 (cmpf .ogt : (⟨S1024x1024, .f32⟩ : BufTy).Contents (Elt F) → (⟨S1024x1024, .f32⟩ : BufTy).Contents (Elt F) → (⟨S1024x1024, .i1⟩ : BufTy).Contents (Elt F)),
    binary main_v17 main_v36 main_v37 (andi : (⟨S1024x1024, .i1⟩ : BufTy).Contents (Elt F) → (⟨S1024x1024, .i1⟩ : BufTy).Contents (Elt F) → (⟨S1024x1024, .i1⟩ : BufTy).Contents (Elt F)),
    nullary main_cst_11 (constant S_ .f32 0x3F7FFFEF#32),
    unary main_cst_11 main_v38 (broadcastInDim S1024x1024 ![] bcast_S_S1024x1024 : (⟨S_, .f32⟩ : BufTy).Contents (Elt F) → (⟨S1024x1024, .f32⟩ : BufTy).Contents (Elt F)),
    binary main_v11 main_v38 main_v39 (cmpf .olt : (⟨S1024x1024, .f32⟩ : BufTy).Contents (Elt F) → (⟨S1024x1024, .f32⟩ : BufTy).Contents (Elt F) → (⟨S1024x1024, .i1⟩ : BufTy).Contents (Elt F)),
    binary main_v37 main_v39 main_v40 (andi : (⟨S1024x1024, .i1⟩ : BufTy).Contents (Elt F) → (⟨S1024x1024, .i1⟩ : BufTy).Contents (Elt F) → (⟨S1024x1024, .i1⟩ : BufTy).Contents (Elt F)),
    unary main_v33 main_v41 ((extui 32 · natLt_1_32) : (⟨S1024x1024, .i1⟩ : BufTy).Contents (Elt F) → (⟨S1024x1024, .i32⟩ : BufTy).Contents (Elt F)),
    nullary main_c_12 (constantI S_ 32 0#32),
    binary main_v41 main_c_12 main_v42 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)),
    unary main_v40 main_v43 ((extui 32 · natLt_1_32) : (⟨S1024x1024, .i1⟩ : BufTy).Contents (Elt F) → (⟨S1024x1024, .i32⟩ : BufTy).Contents (Elt F)),
    nullary main_c_13 (constantI S_ 32 0#32),
    binary main_v43 main_c_13 main_v44 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)),
    nullary main_c_14 (constantI S_ 32 0#32),
    binary main_v42 main_c_14 main_v45 (cmpi .sgt : (⟨S_, .i32⟩ : BufTy).Contents (Elt F) → (⟨S_, .i32⟩ : BufTy).Contents (Elt F) → (⟨S_, .i1⟩ : BufTy).Contents (Elt F)),
    unary main_v11 main_v46 (Host.negf : (⟨S1024x1024, .f32⟩ : BufTy).Contents (Elt F) → (⟨S1024x1024, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1024x1024, .f32⟩) main_call6_v0) (broadcastInDim S1024x1024 ![] bcast_S_S1024x1024),
    TRef.binary (TRef.of (T := ⟨S1024x1024, .f32⟩) main_v46) (TRef.of (T := ⟨S1024x1024, .f32⟩) main_call6_v0) (TRef.of (T := ⟨S1024x1024, .f32⟩) main_call6_v1) maximumf,
    TRef.unary (TRef.of (T := ⟨S_, .f32⟩) main_call6_cst) (TRef.of (T := ⟨S1024x1024, .f32⟩) main_call6_v2) (broadcastInDim S1024x1024 ![] bcast_S_S1024x1024),
    TRef.binary (TRef.of (T := ⟨S1024x1024, .f32⟩) main_v46) (TRef.of (T := ⟨S1024x1024, .f32⟩) main_call6_v2) (TRef.of (T := ⟨S1024x1024, .f32⟩) main_call6_v3) subf,
    TRef.binary (TRef.of (T := ⟨S1024x1024, .f32⟩) main_call6_v3) (TRef.of (T := ⟨S1024x1024, .f32⟩) main_call6_v3) (TRef.of (T := ⟨S1024x1024, .i1⟩) main_call6_v4) (cmpf .une),
    TRef.unary (TRef.of (T := ⟨S_, .f32⟩) main_call6_cst) (TRef.of (T := ⟨S1024x1024, .f32⟩) main_call6_v5) (broadcastInDim S1024x1024 ![] bcast_S_S1024x1024),
    TRef.binary (TRef.of (T := ⟨S1024x1024, .f32⟩) main_v46) (TRef.of (T := ⟨S1024x1024, .f32⟩) main_call6_v5) (TRef.of (T := ⟨S1024x1024, .f32⟩) main_call6_v6) addf,
    TRef.unary (TRef.of (T := ⟨S1024x1024, .f32⟩) main_call6_v3) (TRef.of (T := ⟨S1024x1024, .f32⟩) main_call6_v7) Host.absf,
    TRef.unary (TRef.of (T := ⟨S1024x1024, .f32⟩) main_call6_v7) (TRef.of (T := ⟨S1024x1024, .f32⟩) main_call6_v8) Host.negf,
    TRef.unary (TRef.of (T := ⟨S1024x1024, .f32⟩) main_call6_v8) (TRef.of (T := ⟨S1024x1024, .f32⟩) main_call6_v9) Host.exp,
    TRef.unary (TRef.of (T := ⟨S1024x1024, .f32⟩) main_call6_v9) (TRef.of (T := ⟨S1024x1024, .f32⟩) main_call6_v10) Host.log1p,
    TRef.binary (TRef.of (T := ⟨S1024x1024, .f32⟩) main_call6_v1) (TRef.of (T := ⟨S1024x1024, .f32⟩) main_call6_v10) (TRef.of (T := ⟨S1024x1024, .f32⟩) main_call6_v11) addf,
    TRef.ternary (TRef.of (T := ⟨S1024x1024, .i1⟩) main_call6_v4) (TRef.of (T := ⟨S1024x1024, .f32⟩) main_call6_v6) (TRef.of (T := ⟨S1024x1024, .f32⟩) main_call6_v11) (TRef.of (T := ⟨S1024x1024, .f32⟩) main_v47) select,
    unary main_v33 main_v48 (uitofp .f32 : (⟨S1024x1024, .i1⟩ : BufTy).Contents (Elt F) → (⟨S1024x1024, .f32⟩ : BufTy).Contents (Elt F)),
    binary main_v47 main_v48 main_v49 (mulf : (⟨S1024x1024, .f32⟩ : BufTy).Contents (Elt F) → (⟨S1024x1024, .f32⟩ : BufTy).Contents (Elt F) → (⟨S1024x1024, .f32⟩ : BufTy).Contents (Elt F)),
    nullary main_cst_15 (constant S_ .f32 0x00000000#32),
    binary main_v49 main_cst_15 main_v50 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_c_16 (constantI S_ 32 1#32),
    binary main_v42 main_c_16 main_v51 (maxsi : (⟨S_, .i32⟩ : BufTy).Contents (Elt F) → (⟨S_, .i32⟩ : BufTy).Contents (Elt F) → (⟨S_, .i32⟩ : BufTy).Contents (Elt F)),
    unary main_v51 main_v52 (sitofp .f32 : (⟨S_, .i32⟩ : BufTy).Contents (Elt F) → (⟨S_, .f32⟩ : BufTy).Contents (Elt F)),
    binary main_v50 main_v52 main_v53 (Host.divf : (⟨S_, .f32⟩ : BufTy).Contents (Elt F) → (⟨S_, .f32⟩ : BufTy).Contents (Elt F) → (⟨S_, .f32⟩ : BufTy).Contents (Elt F)),
    nullary main_cst_17 (constant S_ .f32 0x00000000#32),
    TRef.unary (TRef.of (T := ⟨S_, .f32⟩) main_cst_17) (TRef.of (T := ⟨S_, .f32⟩) main_call7_v0) id,
    TRef.ternary (TRef.of (T := ⟨S_, .i1⟩) main_v45) (TRef.of (T := ⟨S_, .f32⟩) main_v53) (TRef.of (T := ⟨S_, .f32⟩) main_call7_v0) (TRef.of (T := ⟨S_, .f32⟩) main_v54) select,
    nullary main_c_18 (constantI S_ 32 0#32),
    binary main_v44 main_c_18 main_v55 (cmpi .sgt : (⟨S_, .i32⟩ : BufTy).Contents (Elt F) → (⟨S_, .i32⟩ : BufTy).Contents (Elt F) → (⟨S_, .i1⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S1024x1024, .f32⟩) main_call8_v0) (broadcastInDim S1024x1024 ![] bcast_S_S1024x1024),
    TRef.binary (TRef.of (T := ⟨S1024x1024, .f32⟩) main_v11) (TRef.of (T := ⟨S1024x1024, .f32⟩) main_call8_v0) (TRef.of (T := ⟨S1024x1024, .f32⟩) main_call8_v1) maximumf,
    TRef.unary (TRef.of (T := ⟨S_, .f32⟩) main_call8_cst) (TRef.of (T := ⟨S1024x1024, .f32⟩) main_call8_v2) (broadcastInDim S1024x1024 ![] bcast_S_S1024x1024),
    TRef.binary (TRef.of (T := ⟨S1024x1024, .f32⟩) main_v11) (TRef.of (T := ⟨S1024x1024, .f32⟩) main_call8_v2) (TRef.of (T := ⟨S1024x1024, .f32⟩) main_call8_v3) subf,
    TRef.binary (TRef.of (T := ⟨S1024x1024, .f32⟩) main_call8_v3) (TRef.of (T := ⟨S1024x1024, .f32⟩) main_call8_v3) (TRef.of (T := ⟨S1024x1024, .i1⟩) main_call8_v4) (cmpf .une),
    TRef.unary (TRef.of (T := ⟨S_, .f32⟩) main_call8_cst) (TRef.of (T := ⟨S1024x1024, .f32⟩) main_call8_v5) (broadcastInDim S1024x1024 ![] bcast_S_S1024x1024),
    TRef.binary (TRef.of (T := ⟨S1024x1024, .f32⟩) main_v11) (TRef.of (T := ⟨S1024x1024, .f32⟩) main_call8_v5) (TRef.of (T := ⟨S1024x1024, .f32⟩) main_call8_v6) addf,
    TRef.unary (TRef.of (T := ⟨S1024x1024, .f32⟩) main_call8_v3) (TRef.of (T := ⟨S1024x1024, .f32⟩) main_call8_v7) Host.absf,
    TRef.unary (TRef.of (T := ⟨S1024x1024, .f32⟩) main_call8_v7) (TRef.of (T := ⟨S1024x1024, .f32⟩) main_call8_v8) Host.negf,
    TRef.unary (TRef.of (T := ⟨S1024x1024, .f32⟩) main_call8_v8) (TRef.of (T := ⟨S1024x1024, .f32⟩) main_call8_v9) Host.exp,
    TRef.unary (TRef.of (T := ⟨S1024x1024, .f32⟩) main_call8_v9) (TRef.of (T := ⟨S1024x1024, .f32⟩) main_call8_v10) Host.log1p,
    TRef.binary (TRef.of (T := ⟨S1024x1024, .f32⟩) main_call8_v1) (TRef.of (T := ⟨S1024x1024, .f32⟩) main_call8_v10) (TRef.of (T := ⟨S1024x1024, .f32⟩) main_call8_v11) addf,
    TRef.ternary (TRef.of (T := ⟨S1024x1024, .i1⟩) main_call8_v4) (TRef.of (T := ⟨S1024x1024, .f32⟩) main_call8_v6) (TRef.of (T := ⟨S1024x1024, .f32⟩) main_call8_v11) (TRef.of (T := ⟨S1024x1024, .f32⟩) main_v56) select,
    unary main_v40 main_v57 (uitofp .f32 : (⟨S1024x1024, .i1⟩ : BufTy).Contents (Elt F) → (⟨S1024x1024, .f32⟩ : BufTy).Contents (Elt F)),
    binary main_v56 main_v57 main_v58 (mulf : (⟨S1024x1024, .f32⟩ : BufTy).Contents (Elt F) → (⟨S1024x1024, .f32⟩ : BufTy).Contents (Elt F) → (⟨S1024x1024, .f32⟩ : BufTy).Contents (Elt F)),
    nullary main_cst_19 (constant S_ .f32 0x00000000#32),
    binary main_v58 main_cst_19 main_v59 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_c_20 (constantI S_ 32 1#32),
    binary main_v44 main_c_20 main_v60 (maxsi : (⟨S_, .i32⟩ : BufTy).Contents (Elt F) → (⟨S_, .i32⟩ : BufTy).Contents (Elt F) → (⟨S_, .i32⟩ : BufTy).Contents (Elt F)),
    unary main_v60 main_v61 (sitofp .f32 : (⟨S_, .i32⟩ : BufTy).Contents (Elt F) → (⟨S_, .f32⟩ : BufTy).Contents (Elt F)),
    binary main_v59 main_v61 main_v62 (Host.divf : (⟨S_, .f32⟩ : BufTy).Contents (Elt F) → (⟨S_, .f32⟩ : BufTy).Contents (Elt F) → (⟨S_, .f32⟩ : BufTy).Contents (Elt F)),
    nullary main_cst_21 (constant S_ .f32 0x00000000#32),
    TRef.unary (TRef.of (T := ⟨S_, .f32⟩) main_cst_21) (TRef.of (T := ⟨S_, .f32⟩) main_call9_v0) id,
    TRef.ternary (TRef.of (T := ⟨S_, .i1⟩) main_v55) (TRef.of (T := ⟨S_, .f32⟩) main_v62) (TRef.of (T := ⟨S_, .f32⟩) main_call9_v0) (TRef.of (T := ⟨S_, .f32⟩) main_v63) select,
    binary main_v54 main_v63 main_v64 (addf : (⟨S_, .f32⟩ : BufTy).Contents (Elt F) → (⟨S_, .f32⟩ : BufTy).Contents (Elt F) → (⟨S_, .f32⟩ : BufTy).Contents (Elt F)) ]

/-- Operations 161 to 168 of the reference, in order. -/
abbrev ops9 : List (HloOp τ sig (Elt F)) :=
  [ nullary main_cst_22 (constant S_ .f32 0x00000000#32),
    binary main_cst_22 main_v64 main_v65 (mulf : (⟨S_, .f32⟩ : BufTy).Contents (Elt F) → (⟨S_, .f32⟩ : BufTy).Contents (Elt F) → (⟨S_, .f32⟩ : BufTy).Contents (Elt F)),
    nullary main_cst_23 (constant S_ .f32 0x3F800000#32),
    binary main_cst_23 main_v9 main_v66 (mulf : (⟨S_, .f32⟩ : BufTy).Contents (Elt F) → (⟨S_, .f32⟩ : BufTy).Contents (Elt F) → (⟨S_, .f32⟩ : BufTy).Contents (Elt F)),
    binary main_v65 main_v66 main_v67 (addf : (⟨S_, .f32⟩ : BufTy).Contents (Elt F) → (⟨S_, .f32⟩ : BufTy).Contents (Elt F) → (⟨S_, .f32⟩ : BufTy).Contents (Elt F)),
    nullary main_cst_24 (constant S_ .f32 0x3F800000#32),
    unary main_cst_24 main_v68 (broadcastInDim S1024x100000 ![] bcast_S_S1024x100000 : (⟨S_, .f32⟩ : BufTy).Contents (Elt F) → (⟨S1024x100000, .f32⟩ : BufTy).Contents (Elt F)),
    binary main_v68 main_v3 main_v69 (mulf : (⟨S1024x100000, .f32⟩ : BufTy).Contents (Elt F) → (⟨S1024x100000, .f32⟩ : BufTy).Contents (Elt F) → (⟨S1024x100000, .f32⟩ : BufTy).Contents (Elt F)) ]

/-- The reference's operations are those stretches one after the other. -/
theorem ops_eq : (ops (F := F)) = ops1 (F := F) ++ ops2 (F := F) ++ ops3 (F := F) ++ ops4 (F := F) ++ ops5 (F := F) ++ ops6 (F := F) ++ ops7 (F := F) ++ ops8 (F := F) ++ ops9 (F := F) := rfl

end Cert.Proof.RefOps

end
-- ==== Proof.RefEvalS.lean ====
/-
  Two stretches of the reference's fold of operations, read without expanding the pairwise-similarity branch.

  Operations 49–160 (that branch) write none of the buffers of the cross-entropy term, so that term's buffer holds
  after them what it held before. Operations 161–168 combine the two terms: the loss buffer ends at
      add (mul (the literal 0) Y) (mul (the literal 1) Z)
  with Y what ms_loss's buffer held and Z what the cross-entropy term's buffer held.
-/
import proofs.«207136_g6528350290482_cont_9to1c4b_434_22_alg».proof.Proof.RefReadP

set_option Elab.async false

noncomputable section

namespace Cert.Proof.RefEval

open Cert.ReferenceIdeal Cert.ReferenceIdeal.Gen Cert.ReferenceIdeal.ValueP Cert.ReferenceIdeal.ReadP Idealize.ShloMosaic
  Idealize.ShloMosaic.TcCoe Idealize.SL.Sem Idealize.ShloMosaic.StableHlo

variable {F : FTy → Type} [FloatOps F]

/-- A reference other than the one an operation writes is not among the buffers it writes. -/
theorem not_mem_single {r y : Ref sig .tc} (h : r ≠ y) :
    (Proc.devRef (τ := τ) .tc r) ∉ ({Proc.devRef .tc y} : Finset (DevRef τ sig)) :=
  fun hm => devRef_ne_of_ne h (Finset.mem_singleton.mp hm)

set_option maxRecDepth 16384 in
/-- Operations 49–160 (the pairwise-similarity branch) leave the cross-entropy term's buffer alone. -/
theorem stretch7 (W : Valuation τ sig (Elt F)) :
    after (((ops (F := F)).drop 48).take 112) W (Proc.devRef .tc main_v9) = W (Proc.devRef .tc main_v9) := by
  refine after_of_forall_not_mem _ _ (List.forall_iff_forall_mem.mp ?_)
  repeat' constructor
  all_goals exact not_mem_single (by decide)

set_option maxRecDepth 16384 in
/-- Operations 161–168: the loss is 0 · (ms_loss's buffer) + 1 · (the cross-entropy term's buffer). -/
theorem stretch8 (W : Valuation τ sig (Elt F)) :
    after ((ops (F := F)).drop 160) W (Proc.devRef .tc main_v67)
      = addf (mulf (constant S_ .f32 0x00000000#32) (W (Proc.devRef .tc main_v64)))
          (mulf (constant S_ .f32 0x3F800000#32) (W (Proc.devRef .tc main_v9))) := by
  show after (_ :: _ :: _ :: _ :: _ :: _ :: _ :: _ :: []) W _ = _
  after_results_simp

end Cert.Proof.RefEval

end
-- ==== Proof.RefEval.lean ====
/-
  The reference's first result, read off the fold of its operations without ever expanding the pairwise-similarity
  branch.

  The loss is  0 · ms_loss + 1 · bu_loss.  Running a list of operations is running its stretches one after the other,
  and between two stretches only the few buffers a later stretch still reads matter. The first 48 operations compute
  the cross-entropy term bu_loss; they are run here in seven short stretches (the scaled product; the row maximum; the
  shifted rows; log_softmax; the labels as a column; take_along_axis; the negated mean), each stretch read against the
  staged value of the one buffer it is there to fill, from the staged values of the buffers it reads. The next 112
  operations compute ms_loss and write none of those buffers; the last 8 combine the two and compute the second result.
  So the loss buffer ends at
      add (mul (the literal 0) Y) (mul (the literal 1) bu_loss)
  where Y is whatever the middle stretch left in ms_loss's buffer: its value is never needed, because 0 · y = 0 for
  every extended real y.

  The operations of an inlined function move each value between its buffer's type and the value's own type. The two
  types are the same, so each such move is the identity; to keep that out of the way, what a stretch knows about a
  buffer such an operation reads or writes is stated of the buffer's contents READ AT THE VALUE'S OWN TYPE.
-/
import proofs.«207136_g6528350290482_cont_9to1c4b_434_22_alg».proof.Proof.RefOpsCut
import proofs.«207136_g6528350290482_cont_9to1c4b_434_22_alg».proof.Proof.RefEvalS

set_option Elab.async false

noncomputable section

namespace Cert.Proof.RefEval

open Cert.ReferenceIdeal Cert.ReferenceIdeal.Gen Cert.ReferenceIdeal.ValueP Cert.ReferenceIdeal.ReadP Idealize.ShloMosaic
  Idealize.ShloMosaic.TcCoe Idealize.SL.Sem Idealize.ShloMosaic.StableHlo Cert.Proof.RefOps

/-- Running two lists of operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Writing a value into a buffer of an inlined function and reading it back at the value's own type gives the value. -/
theorem ofBuf_toBuf {T : BufTy} {Val : EltTy → Type} (x : TRef sig T) (v : T.Contents Val) : x.ofBuf (x.toBuf v) = v := by
  unfold TRef.ofBuf TRef.toBuf
  rw [cast_cast, cast_eq]

variable {F : FTy → Type} [FloatOps F]

/-- A buffer's contents read at the value's own type are the contents. -/
theorem ofBuf_val {T : BufTy} (x : TRef sig T) (W : Valuation τ sig (Elt F)) (w : T.Contents (Elt F))
    (h : HEq (W (Proc.devRef .tc x.ref)) w) : x.ofBuf (W (Proc.devRef .tc x.ref)) = w :=
  eq_of_heq ((cast_heq _ _).trans h)

set_option maxRecDepth 16384 in
/-- Operations 1–5: the scaled product x · Vᵀ · 1. -/
theorem st1 (W : Valuation τ sig (Elt F)) (x0 : (⟨S1024x128, .f32⟩ : BufTy).Contents (Elt F)) (x1 : (⟨S1024, .i32⟩ : BufTy).Contents (Elt F))
    (x5 : (⟨S100000x128, .f32⟩ : BufTy).Contents (Elt F))
    (h0 : W (Proc.devRef .tc main_arg0) = x0) (h1 : W (Proc.devRef .tc main_arg1) = x1) (h5 : W (Proc.devRef .tc main_arg5) = x5) :
    after (ops1 (F := F)) W (Proc.devRef .tc main_v3) = val_main_v3 (F := F) x0 x5
    ∧ after (ops1 (F := F)) W (Proc.devRef .tc main_arg1) = x1 := by
  refine ⟨?_, ?_⟩
  · unfold ops1
    after_results_simp
    rw [h0, h5]
    rfl
  · unfold ops1
    after_results_simp
    exact h1

set_option maxRecDepth 16384 in
/-- Operations 6–10: the row maximum. -/
theorem st2 (W : Valuation τ sig (Elt F)) (x0 : (⟨S1024x128, .f32⟩ : BufTy).Contents (Elt F)) (x1 : (⟨S1024, .i32⟩ : BufTy).Contents (Elt F))
    (x5 : (⟨S100000x128, .f32⟩ : BufTy).Contents (Elt F))
    (h3 : W (Proc.devRef .tc main_v3) = val_main_v3 (F := F) x0 x5) (h1 : W (Proc.devRef .tc main_arg1) = x1) :
    (TRef.of (T := ⟨S1024, .f32⟩) main_call0_v2).ofBuf (after (ops2 (F := F)) W (Proc.devRef .tc main_call0_v2)) = val_main_call0_v2 (F := F) x0 x5
    ∧ after (ops2 (F := F)) W (Proc.devRef .tc main_v3) = val_main_v3 (F := F) x0 x5
    ∧ after (ops2 (F := F)) W (Proc.devRef .tc main_arg1) = x1 := by
  refine ⟨?_, ?_, ?_⟩
  · have k3 : (TRef.of (T := ⟨S1024x100000, .f32⟩) main_v3).ofBuf (W (Proc.devRef .tc main_v3)) = val_main_v3 (F := F) x0 x5 :=
      ofBuf_val (TRef.of (T := ⟨S1024x100000, .f32⟩) main_v3) W _ (heq_of_eq h3)
    unfold ops2
    after_results_simp
    simp only [k3, ofBuf_toBuf]
    rfl
  · unfold ops2
    after_results_simp
    exact h3
  · unfold ops2
    after_results_simp
    exact h1

set_option maxRecDepth 16384 in
/-- Operations 11–13: the rows less their maximum. -/
theorem st3 (W : Valuation τ sig (Elt F)) (x0 : (⟨S1024x128, .f32⟩ : BufTy).Contents (Elt F)) (x1 : (⟨S1024, .i32⟩ : BufTy).Contents (Elt F))
    (x5 : (⟨S100000x128, .f32⟩ : BufTy).Contents (Elt F))
    (h2 : (TRef.of (T := ⟨S1024, .f32⟩) main_call0_v2).ofBuf (W (Proc.devRef .tc main_call0_v2)) = val_main_call0_v2 (F := F) x0 x5) (h3 : W (Proc.devRef .tc main_v3) = val_main_v3 (F := F) x0 x5)
    (h1 : W (Proc.devRef .tc main_arg1) = x1) :
    (TRef.of (T := ⟨S1024x100000, .f32⟩) main_call0_v5).ofBuf (after (ops3 (F := F)) W (Proc.devRef .tc main_call0_v5)) = val_main_call0_v5 (F := F) x0 x5
    ∧ after (ops3 (F := F)) W (Proc.devRef .tc main_arg1) = x1 := by
  refine ⟨?_, ?_⟩
  · have k3 : (TRef.of (T := ⟨S1024x100000, .f32⟩) main_v3).ofBuf (W (Proc.devRef .tc main_v3)) = val_main_v3 (F := F) x0 x5 :=
      ofBuf_val (TRef.of (T := ⟨S1024x100000, .f32⟩) main_v3) W _ (heq_of_eq h3)
    unfold ops3
    after_results_simp
    simp only [h2, k3, ofBuf_toBuf]
    rfl
  · unfold ops3
    after_results_simp
    exact h1

set_option maxRecDepth 16384 in
/-- Operations 14–20: log_softmax from the shifted rows. -/
theorem st4 (W : Valuation τ sig (Elt F)) (x0 : (⟨S1024x128, .f32⟩ : BufTy).Contents (Elt F)) (x1 : (⟨S1024, .i32⟩ : BufTy).Contents (Elt F))
    (x5 : (⟨S100000x128, .f32⟩ : BufTy).Contents (Elt F))
    (h5 : (TRef.of (T := ⟨S1024x100000, .f32⟩) main_call0_v5).ofBuf (W (Proc.devRef .tc main_call0_v5)) = val_main_call0_v5 (F := F) x0 x5) (h1 : W (Proc.devRef .tc main_arg1) = x1) :
    (TRef.of (T := ⟨S1024x100000, .f32⟩) main_v4).ofBuf (after (ops4 (F := F)) W (Proc.devRef .tc main_v4)) = val_main_v4 (F := F) x0 x5
    ∧ after (ops4 (F := F)) W (Proc.devRef .tc main_arg1) = x1 := by
  refine ⟨?_, ?_⟩
  · unfold ops4
    after_results_simp
    simp only [h5, ofBuf_toBuf]
    rfl
  · unfold ops4
    after_results_simp
    exact h1

set_option maxRecDepth 16384 in
/-- Operation 21: the labels as a column. -/
theorem st5 (W : Valuation τ sig (Elt F)) (x0 : (⟨S1024x128, .f32⟩ : BufTy).Contents (Elt F)) (x1 : (⟨S1024, .i32⟩ : BufTy).Contents (Elt F))
    (x5 : (⟨S100000x128, .f32⟩ : BufTy).Contents (Elt F))
    (h4 : (TRef.of (T := ⟨S1024x100000, .f32⟩) main_v4).ofBuf (W (Proc.devRef .tc main_v4)) = val_main_v4 (F := F) x0 x5) (h1 : W (Proc.devRef .tc main_arg1) = x1) :
    after (ops5 (F := F)) W (Proc.devRef .tc main_v5) = val_main_v5 (F := F) x1
    ∧ (TRef.of (T := ⟨S1024x100000, .f32⟩) main_v4).ofBuf (after (ops5 (F := F)) W (Proc.devRef .tc main_v4)) = val_main_v4 (F := F) x0 x5 := by
  refine ⟨?_, ?_⟩
  · unfold ops5
    after_results_simp
    rw [h1]
    rfl
  · unfold ops5
    after_results_simp
    exact h4

set_option maxRecDepth 16384 in
/-- Operations 22–43: take_along_axis. -/
theorem st6 (W : Valuation τ sig (Elt F)) (x0 : (⟨S1024x128, .f32⟩ : BufTy).Contents (Elt F)) (x1 : (⟨S1024, .i32⟩ : BufTy).Contents (Elt F))
    (x5 : (⟨S100000x128, .f32⟩ : BufTy).Contents (Elt F))
    (h4 : (TRef.of (T := ⟨S1024x100000, .f32⟩) main_v4).ofBuf (W (Proc.devRef .tc main_v4)) = val_main_v4 (F := F) x0 x5) (h5 : W (Proc.devRef .tc main_v5) = val_main_v5 (F := F) x1) :
    (TRef.of (T := ⟨S1024x1, .f32⟩) main_v6).ofBuf (after (ops6 (F := F)) W (Proc.devRef .tc main_v6)) = val_main_v6 (F := F) x0 x1 x5 := by
  have k5 : (TRef.of (T := ⟨S1024x1, .i32⟩) main_v5).ofBuf (W (Proc.devRef .tc main_v5)) = val_main_v5 (F := F) x1 :=
    ofBuf_val (TRef.of (T := ⟨S1024x1, .i32⟩) main_v5) W _ (heq_of_eq h5)
  unfold ops6
  after_results_simp
  simp only [h4, k5, ofBuf_toBuf]
  rfl

set_option maxRecDepth 16384 in
/-- Operations 44–48: the negated mean. -/
theorem st7 (W : Valuation τ sig (Elt F)) (x0 : (⟨S1024x128, .f32⟩ : BufTy).Contents (Elt F)) (x1 : (⟨S1024, .i32⟩ : BufTy).Contents (Elt F))
    (x5 : (⟨S100000x128, .f32⟩ : BufTy).Contents (Elt F))
    (h6 : (TRef.of (T := ⟨S1024x1, .f32⟩) main_v6).ofBuf (W (Proc.devRef .tc main_v6)) = val_main_v6 (F := F) x0 x1 x5) :
    after (ops7 (F := F)) W (Proc.devRef .tc main_v9) = val_main_v9 (F := F) x0 x1 x5 := by
  have k6 : W (Proc.devRef .tc main_v6) = val_main_v6 (F := F) x0 x1 x5 := eq_of_heq ((cast_heq _ _).symm.trans (heq_of_eq h6))
  unfold ops7
  after_results_simp
  rw [k6]
  rfl

set_option maxRecDepth 16384 in
/-- THE LOSS BUFFER after all the operations: 0 · Y + 1 · (the cross-entropy stage of the arguments), for some Y. -/
theorem v67_after (m : (ℓ : Loc nD τ sig) → Buf (Elt F) ℓ) (c : Dev nD) :
    ∃ Y : (⟨S_, .f32⟩ : BufTy).Contents (Elt F),
      after (ops (F := F)) (launchContents m c) (Proc.devRef .tc main_v67)
        = addf (mulf (constant S_ .f32 0x00000000#32) Y)
            (mulf (constant S_ .f32 0x3F800000#32) (val_main_v9 (F := F) (m ((c.tc : Thread nD τ).loc main_arg0)) (m ((c.tc : Thread nD τ).loc main_arg1)) (m ((c.tc : Thread nD τ).loc main_arg5)))) := by
  rw [ops_eq, after_append, after_append, after_append, after_append, after_append, after_append, after_append, after_append]
  obtain ⟨a3, a1⟩ := st1 (F := F) (launchContents m c) (m ((c.tc : Thread nD τ).loc main_arg0)) (m ((c.tc : Thread nD τ).loc main_arg1)) (m ((c.tc : Thread nD τ).loc main_arg5)) rfl rfl rfl
  generalize after (ops1 (F := F)) (launchContents m c) = W₁ at a3 a1 ⊢
  obtain ⟨b2, b3, b1⟩ := st2 W₁ _ _ _ a3 a1
  generalize after (ops2 (F := F)) W₁ = W₂ at b2 b3 b1 ⊢
  obtain ⟨c5, c1⟩ := st3 W₂ _ _ _ b2 b3 b1
  generalize after (ops3 (F := F)) W₂ = W₃ at c5 c1 ⊢
  obtain ⟨d4, d1⟩ := st4 W₃ _ _ _ c5 c1
  generalize after (ops4 (F := F)) W₃ = W₄ at d4 d1 ⊢
  obtain ⟨e5, e4⟩ := st5 W₄ _ _ _ d4 d1
  generalize after (ops5 (F := F)) W₄ = W₅ at e5 e4 ⊢
  have f6 := st6 W₅ _ _ _ e4 e5
  generalize after (ops6 (F := F)) W₅ = W₆ at f6 ⊢
  have g9 := st7 W₆ _ _ _ f6
  generalize after (ops7 (F := F)) W₆ = W₇ at g9 ⊢
  have i9 : after (ops8 (F := F)) W₇ (Proc.devRef .tc main_v9) = W₇ (Proc.devRef .tc main_v9) := stretch7 W₇
  generalize after (ops8 (F := F)) W₇ = W₈ at i9 ⊢
  refine ⟨W₈ (Proc.devRef .tc main_v64), ?_⟩
  have j67 : after (ops9 (F := F)) W₈ (Proc.devRef .tc main_v67)
      = addf (mulf (constant S_ .f32 0x00000000#32) (W₈ (Proc.devRef .tc main_v64)))
          (mulf (constant S_ .f32 0x3F800000#32) (W₈ (Proc.devRef .tc main_v9))) := stretch8 W₈
  rw [j67, i9, g9]

end Cert.Proof.RefEval

end
-- ==== Proof.RefOut.lean ====
/-
  The reference's second result is the similarity matrix.

  The reference computes  1 · ((x · Vᵀ) · 1):  the product of the batch of feature rows with the transposed class table,
  multiplied by the literal 1 on either side. On the extended reals  1 · (s · 1) = s  for every s, so no finiteness is
  needed; the product at (b, c) is the sum over the 128 features of x[b, f] · V[c, f], the transposition only swapping
  the two coordinates of the table's index.
-/
import proofs.«207136_g6528350290482_cont_9to1c4b_434_22_alg».proof.Proof.RefReadP
import proofs.«207136_g6528350290482_cont_9to1c4b_434_22_alg».proof.Proof.Spec

noncomputable section

open scoped BigOperators

namespace Cert.Proof.RefOut

open Cert.ReferenceIdeal Cert.ReferenceIdeal.Gen Cert.ReferenceIdeal.ReadP Idealize.ShloMosaic Idealize.ShloMosaic.ValueIdx

/-- The word 0x3F800000 is the number one. -/
theorem ofBits_one : Ideal.ofBits .f32 0x3F800000#32 = 1 := by
  simp [Ideal.ofBits, Ideal.ieee, -EReal.coe_mul]; norm_num

/-- The scaled product (x · Vᵀ) · 1 at (b, c) is the similarity of batch row b and class row c. -/
theorem v3_apply (x0 : (⟨S1024x128, .f32⟩ : BufTy).Contents (Elt Ideal)) (x5 : (⟨S100000x128, .f32⟩ : BufTy).Contents (Elt Ideal))
    (i : S1024x100000.Idx) : val_main_v3 (F := Ideal) x0 x5 i = Cert.Spec.sim x0 x5 (i 0) (i 1) := by
  rw [val_main_v3_apply, val_main_v1_apply, val_main_v2_apply, val_main_cst_apply]
  simp only [val_main_v0_apply]
  show (∑ k : Fin 128, x0 (lidx_main_v1 i k) * x5 (idx_main_v0 (ridx_main_v1 i k))) * Ideal.ofBits .f32 0x3F800000#32 = _
  rw [ofBits_one, mul_one]
  unfold Cert.Spec.sim
  refine Finset.sum_congr rfl fun k _ => ?_
  have e1 : lidx_main_v1 i k = ix2 (i 0) k := funext fun a => Fin.ext (by match a with | ⟨0, _⟩ => rfl | ⟨1, _⟩ => rfl)
  have e2 : idx_main_v0 (ridx_main_v1 i k) = ix2 (i 1) k := funext fun a => Fin.ext (by match a with | ⟨0, _⟩ => rfl | ⟨1, _⟩ => rfl)
  rw [e1, e2]
  rfl

/-- The second result, 1 · ((x · Vᵀ) · 1), is the similarity matrix. -/
theorem out_eq (x0 : (⟨S1024x128, .f32⟩ : BufTy).Contents (Elt Ideal)) (x5 : (⟨S100000x128, .f32⟩ : BufTy).Contents (Elt Ideal)) :
    val_main_v69 (F := Ideal) x0 x5 = Cert.Spec.out x0 x5 := by
  funext i
  rw [val_main_v69_apply, val_main_v68_apply, val_main_cst_24_apply, v3_apply]
  show Ideal.ofBits .f32 0x3F800000#32 * _ = _
  rw [ofBits_one, one_mul]
  rfl

end Cert.Proof.RefOut

end
-- ==== Proof.RefLaw.lean ====
/-
  The real-number laws behind the cross-entropy, over abstract finite index types.

  A row of similarities s c (c a class) that are all real numbers has a largest element M, a real number; the
  reference subtracts it before exponentiating. Because  Σ_c exp (s c − M) = exp (−M) · Σ_c exp (s c)  is a positive
  real,  log Σ_c exp (s c − M) = log Σ_c exp (s c) − M,  so the shifted row  (s c₀ − M) − log Σ_c exp (s c − M)  is
  s c₀ − log Σ_c exp (s c):  the shift cancels. The mean of the negated rows is then a quotient of real numbers, and
  negation and the division by the batch size distribute over the two sums.

  Everything is stated on the extended reals with the hypotheses "is a real number", and proved by passing to ℝ.
-/
import Idealize.ShloMosaic.PureOps.Ideal

noncomputable section

open scoped BigOperators

namespace Cert.Proof.RefLaw

open Idealize.ShloMosaic

/-- The coercion of the reals into the extended reals commutes with finite sums. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real numbers is a real number. -/
theorem sum_real {ι : Type*} (s : Finset ι) (g : ι → EReal) (hg : ∀ i ∈ s, ∃ r : ℝ, g i = (r : EReal)) :
    ∃ r : ℝ, ∑ i ∈ s, g i = (r : EReal) := by
  classical
  refine ⟨∑ i ∈ s, (g i).toReal, ?_⟩
  rw [← coe_sum]
  refine Finset.sum_congr rfl fun i hi => ?_
  obtain ⟨r, hr⟩ := hg i hi
  rw [hr, EReal.toReal_coe]

/-- A finite sum of products of real numbers is a real number. -/
theorem sum_mul_real {ι : Type*} (s : Finset ι) (a b : ι → EReal) (ha : ∀ i, ∃ r : ℝ, a i = (r : EReal))
    (hb : ∀ i, ∃ r : ℝ, b i = (r : EReal)) : ∃ r : ℝ, ∑ i ∈ s, a i * b i = (r : EReal) :=
  sum_real s _ fun i _ => by
    obtain ⟨x, hx⟩ := ha i
    obtain ⟨y, hy⟩ := hb i
    exact ⟨x * y, by rw [hx, hy, EReal.coe_mul]⟩

/-- The largest of finitely many (at least one) real numbers, taken as a fold of `max` from −∞, is a real number. -/
theorem fold_max_real {ι : Type*} (s : Finset ι) (hs : s.Nonempty) (g : ι → EReal)
    (hg : ∀ i ∈ s, ∃ r : ℝ, g i = (r : EReal)) : ∃ μ : ℝ, s.fold max ⊥ g = (μ : EReal) := by
  have htop : s.fold max ⊥ g < ⊤ := by
    rw [Finset.fold_max_lt]
    refine ⟨bot_lt_top, fun i hi => ?_⟩
    obtain ⟨r, hr⟩ := hg i hi
    rw [hr]; exact EReal.coe_lt_top r
  obtain ⟨i, hi⟩ := hs
  obtain ⟨r, hr⟩ := hg i hi
  have hbot : (r : EReal) ≤ s.fold max ⊥ g := by
    rw [Finset.le_fold_max]
    exact Or.inr ⟨i, hi, hr ▸ le_rfl⟩
  refine ⟨(s.fold max ⊥ g).toReal, (EReal.coe_toReal htop.ne ?_).symm⟩
  exact (lt_of_lt_of_le (EReal.bot_lt_coe r) hbot).ne'

/-- The log of the sum of the exponentials of finitely many (at least one) real numbers is a real number. -/
theorem lse_real {C : Type*} [Fintype C] [Nonempty C] (σ : C → ℝ) :
    Ideal.log (∑ c, Ideal.exp ((σ c : ℝ) : EReal)) = ((Real.log (∑ c, Real.exp (σ c)) : ℝ) : EReal) := by
  have hpos : 0 < ∑ c, Real.exp (σ c) := Finset.sum_pos (fun c _ => Real.exp_pos _) Finset.univ_nonempty
  simp only [Ideal.exp_coe]
  rw [coe_sum, Ideal.log_coe, if_neg (not_le.2 hpos)]

/-- THE SHIFT CANCELS: for a row of real numbers and any real shift `M`,
    `(s c₀ − M) − log (0 + Σ_c exp (s c − M)) = s c₀ − log Σ_c exp (s c)`. -/
theorem row_law {C : Type*} [Fintype C] [Nonempty C] (s : C → EReal) (hs : ∀ c, ∃ r : ℝ, s c = (r : EReal))
    (M : EReal) (hM : ∃ μ : ℝ, M = (μ : EReal)) (c₀ : C) :
    (s c₀ - M) - Ideal.log (0 + ∑ c, Ideal.exp (s c - M)) = s c₀ - Ideal.log (∑ c, Ideal.exp (s c)) := by
  choose σ hσ using hs
  obtain ⟨μ, rfl⟩ := hM
  have hs' : s = fun c => ((σ c : ℝ) : EReal) := funext hσ
  subst hs'
  have hpos : 0 < ∑ c, Real.exp (σ c) := Finset.sum_pos (fun c _ => Real.exp_pos _) Finset.univ_nonempty
  have hpos' : 0 < ∑ c, Real.exp (σ c - μ) := Finset.sum_pos (fun c _ => Real.exp_pos _) Finset.univ_nonempty
  have hsub : ∀ c, ((σ c : ℝ) : EReal) - (μ : EReal) = ((σ c - μ : ℝ) : EReal) := fun c => (EReal.coe_sub _ _).symm
  simp only [hsub, Ideal.exp_coe]
  rw [coe_sum, coe_sum, zero_add, Ideal.log_coe, Ideal.log_coe, if_neg (not_le.2 hpos'), if_neg (not_le.2 hpos), ← EReal.coe_sub,
    ← EReal.coe_sub]
  congr 1
  have hexp : ∑ c, Real.exp (σ c - μ) = (∑ c, Real.exp (σ c)) / Real.exp μ := by
    rw [Finset.sum_div]; exact Finset.sum_congr rfl fun c _ => Real.exp_sub _ _
  rw [hexp, Real.log_div hpos.ne' (Real.exp_pos μ).ne', Real.log_exp]
  ring

/-- THE MEAN: with `a b` the picked similarity and `l b` the log-sum-exp of row `b`, all real numbers,
    `−((0 + Σ_b (a b − l b)) / n) = (Σ_b l b − Σ_b a b) / n` for a nonzero real `n`. -/
theorem mean_law {B : Type*} [Fintype B] (a l : B → EReal) (ha : ∀ b, ∃ r : ℝ, a b = (r : EReal))
    (hl : ∀ b, ∃ r : ℝ, l b = (r : EReal)) (n : ℝ) (hn : n ≠ 0) :
    -(Ideal.div (0 + ∑ b, (a b - l b)) (n : EReal)) = Ideal.div ((∑ b, l b) - ∑ b, a b) (n : EReal) := by
  choose α hα using ha
  choose lam hlam using hl
  have ha' : a = fun b => ((α b : ℝ) : EReal) := funext hα
  have hl' : l = fun b => ((lam b : ℝ) : EReal) := funext hlam
  subst ha' hl'
  have hsub : ∀ b, ((α b : ℝ) : EReal) - ((lam b : ℝ) : EReal) = ((α b - lam b : ℝ) : EReal) := fun b => (EReal.coe_sub _ _).symm
  simp only [hsub]
  rw [coe_sum, coe_sum, coe_sum, zero_add, Ideal.div_coe hn, Ideal.div_coe hn, ← EReal.coe_sub, ← EReal.coe_mul, ← EReal.coe_mul,
    ← EReal.coe_neg]
  congr 1
  rw [Finset.sum_sub_distrib]
  ring

/-- Zero times anything is zero on the extended reals, so the sum of `0 · y` and `1 · z` is `z`. -/
theorem zero_mul_add_one_mul (y z : EReal) : (0 : EReal) * y + 1 * z = z := by
  rw [zero_mul, one_mul, zero_add]

end Cert.Proof.RefLaw

end
-- ==== Proof.RefGather.lean ====
/-
  The reference's `take_along_axis`, read at an index.

  `logp[b, t[b]]` is printed as a gather with a batching axis: operand `[1024, 100000]`, start indices `[1024, 1, 1]`,
  result `[1024, 1]`; axis 0 of the operand is paired with axis 0 of the start indices, axis 1 is collapsed and is the one
  the start index addresses. Result element `(b, 0)` is therefore the operand at row `b`, column the start index
  `idx[b, 0, 0]` read as a signed integer and clamped into `[0, 99999]`.
-/
import proofs.«207136_g6528350290482_cont_9to1c4b_434_22_alg».proof.ReferenceIdeal
import Idealize.ShloMosaic.Lib.ValueIdx

noncomputable section

namespace Cert.Proof.RefGather

open Idealize.ShloMosaic Idealize.ShloMosaic.ValueIdx Cert.ReferenceIdeal

variable [Cert.ReferenceIdeal.Facts₀]

/-- THE GATHER READ AT `(b, 0)`: row `b` of the operand at the column its start index names, read signed and clamped. -/
theorem gather_row_apply {α : Type} (x : S1024x100000.Idx → α) (idx : IVec S1024x1x1 32) (j : S1024x1.Idx) :
    Host.gather gather_S1024x100000_S1024x1x1_S1024x1_n_1_0_0_1_2_11 x idx j
      = x (ix2 (j 0) ⟨min (idx (ix3 (j 0) (j 1) (0 : Fin 1))).toInt.toNat 99999, by omega⟩) := by
  unfold Host.gather
  congr 1
  funext a
  refine Fin.ext ?_
  match a with
  | ⟨0, _⟩ =>
    show gather_S1024x100000_S1024x1x1_S1024x1_n_1_0_0_1_2_11.start j idx 0
        + gather_S1024x100000_S1024x1x1_S1024x1_n_1_0_0_1_2_11.batchCoord j 0
        + gather_S1024x100000_S1024x1x1_S1024x1_n_1_0_0_1_2_11.offCoord j 0 = (j 0).val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin S1024x100000.rank) ∈ gather_S1024x100000_S1024x1x1_S1024x1_n_1_0_0_1_2_11.operandBatchingDims from
      List.mem_singleton.mpr rfl)]
    rfl
  | ⟨1, _⟩ =>
    show gather_S1024x100000_S1024x1x1_S1024x1_n_1_0_0_1_2_11.start j idx 1
        + gather_S1024x100000_S1024x1x1_S1024x1_n_1_0_0_1_2_11.batchCoord j 1
        + gather_S1024x100000_S1024x1x1_S1024x1_n_1_0_0_1_2_11.offCoord j 1 = _
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin S1024x100000.rank) ∈ gather_S1024x100000_S1024x1x1_S1024x1_n_1_0_0_1_2_11.startIndexMap from
      List.mem_singleton.mpr rfl)]
    have hsi : gather_S1024x100000_S1024x1x1_S1024x1_n_1_0_0_1_2_11.siIdx j
        ⟨List.idxOf (1 : Fin S1024x100000.rank) gather_S1024x100000_S1024x1x1_S1024x1_n_1_0_0_1_2_11.startIndexMap,
          List.idxOf_lt_length_iff.2 (List.mem_singleton.mpr rfl)⟩ = ix3 (j 0) (j 1) (0 : Fin 1) := by
      funext b; refine Fin.ext ?_
      match b with
      | ⟨0, _⟩ => rfl
      | ⟨1, _⟩ => rfl
      | ⟨2, _⟩ => rfl
    rw [hsi]
    rfl

end Cert.Proof.RefGather

end
-- ==== Proof.RefLoss.lean ====
/-
  The reference's cross-entropy term is the specification's loss.

  Under the precondition every entry of x and V is a real number and every label t[b] is a row number of V. Then:
  every similarity s[b, c] is a real number; the row maximum M[b] (a max-reduce from −∞ over 100000 reals) is a real
  number; log_softmax's  (s − M) − log Σ_c exp (s − M)  is  s − log Σ_c exp s  (the shift cancels: RefLaw.row_law);
  take_along_axis, whose label is in range and so neither wraps nor falls outside the table, picks column t[b] of that
  row; and the negated mean over the batch is  (Σ_b lse[b] − Σ_b s[b, t[b]]) / 1024  (RefLaw.mean_law).
-/
import proofs.«207136_g6528350290482_cont_9to1c4b_434_22_alg».proof.Proof.RefOut
import proofs.«207136_g6528350290482_cont_9to1c4b_434_22_alg».proof.Proof.RefLaw
import proofs.«207136_g6528350290482_cont_9to1c4b_434_22_alg».proof.Proof.RefGather

noncomputable section

open scoped BigOperators

namespace Cert.Proof.RefLoss

open Cert.ReferenceIdeal Cert.ReferenceIdeal.Gen Cert.ReferenceIdeal.ReadP Idealize.ShloMosaic Idealize.ShloMosaic.ValueIdx
open Cert.Proof

/-! ## Words and literals -/

/-- The word 0xFF800000 is −∞. -/
theorem ofBits_neg_inf : Ideal.ofBits .f32 0xFF800000#32 = ⊥ := by simp [Ideal.ofBits, Ideal.ieee]

/-- The word 0x44800000 is the number 1024. -/
theorem ofBits_1024 : Ideal.ofBits .f32 0x44800000#32 = ((1024 : ℝ) : EReal) := by
  simp [Ideal.ofBits, Ideal.ieee, -EReal.coe_mul]; norm_num

/-- A label below 100000 reads the same signed and unsigned. -/
theorem toInt_of_lt {w : BitVec 32} (h : w.toNat < 100000) : w.toInt = (w.toNat : Int) :=
  BitVec.toInt_eq_toNat_of_lt (by omega)

/-- … it is not negative, … -/
theorem slt_zero {w : BitVec 32} (h : w.toNat < 100000) : IntOp.cmpi .slt w 0#32 = 0#1 :=
  eq_zero_of_ne_one fun e => by
    have := IntOp.cmpi_slt.1 e
    rw [toInt_of_lt h, show (0#32 : BitVec 32).toInt = 0 from by decide] at this
    omega
theorem sge_zero {w : BitVec 32} (h : w.toNat < 100000) : IntOp.cmpi .sge w 0#32 = 1#1 :=
  IntOp.cmpi_sge.2 (by rw [toInt_of_lt h, show (0#32 : BitVec 32).toInt = 0 from by decide]; omega)
/-- … and it is at most 99999. -/
theorem sle_max {w : BitVec 32} (h : w.toNat < 100000) : IntOp.cmpi .sle w 99999#32 = 1#1 :=
  IntOp.cmpi_sle.2 (by rw [toInt_of_lt h, show (99999#32 : BitVec 32).toInt = 99999 from by decide]; omega)

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A max-reduce from −∞ over one axis of positive extent of an array of real numbers is a real number. -/
theorem reduce_max_real {s t u : Shape} {a : Fin s.rank} (h' : s.ReducesTo [a] t) (h : s.Reduces [a] t) (hpos : 0 < s.size a)
    (x : s.Idx → EReal) (hx : ∀ i, ∃ r : ℝ, x i = (r : EReal)) (init : u.Idx → EReal) (hinit : ∀ i, init i = ⊥)
    (hu : 0 < u.numel) (j : t.Idx) :
    ∃ μ : ℝ, Host.reduce (FloatOps.maximumf (F := Ideal) (φ := .f32)) x init h' hu j = (μ : EReal) := by
  rw [Host.reduce_eq_fold_single _ x init h' h hu j, hinit]
  haveI : Nonempty (Fin (s.size a)) := ⟨⟨0, hpos⟩⟩
  exact RefLaw.fold_max_real Finset.univ Finset.univ_nonempty _ (fun k _ => hx _)

/-! ## The arrays -/

variable (x0 : (⟨S1024x128, .f32⟩ : BufTy).Contents (Elt Ideal)) (x1 : (⟨S1024, .i32⟩ : BufTy).Contents (Elt Ideal))
  (x5 : (⟨S100000x128, .f32⟩ : BufTy).Contents (Elt Ideal))
  (hx : ∀ j, ∃ r : ℝ, x0 j = (r : EReal)) (hV : ∀ j, ∃ r : ℝ, x5 j = (r : EReal)) (ht : ∀ j, (x1 j).toNat < 100000)

include hx hV in
/-- Every similarity is a real number. -/
theorem sim_real (b : Fin 1024) (c : Fin 100000) : ∃ r : ℝ, Cert.Spec.sim x0 x5 b c = (r : EReal) := by
  unfold Cert.Spec.sim
  exact RefLaw.sum_mul_real Finset.univ _ _ (fun f => hx _) (fun f => hV _)

include hx hV in
/-- Every row's log-sum-exp is a real number. -/
theorem lse_real (b : Fin 1024) : ∃ r : ℝ, Cert.Spec.lse x0 x5 b = (r : EReal) := by
  choose σ hσ using sim_real x0 x5 hx hV b
  haveI : Nonempty (Fin 100000) := ⟨⟨0, by norm_num⟩⟩
  refine ⟨Real.log (∑ c, Real.exp (σ c)), ?_⟩
  unfold Cert.Spec.lse
  simp only [hσ]
  exact RefLaw.lse_real σ

include hx hV in
/-- The row maximum log_softmax subtracts is a real number. -/
theorem rowMax_real (b : Fin 1024) : ∃ μ : ℝ, val_main_call0_v2 (F := Ideal) x0 x5 (ix1 b) = (μ : EReal) := by
  rw [val_main_call0_v2_apply, val_main_call0_v1_apply, val_main_call0_cst_0_apply]
  show ∃ μ : ℝ, max (Ideal.ofBits .f32 0xFF800000#32) (val_main_call0_v0 (F := Ideal) x0 x5 (ix1 b)) = (μ : EReal)
  rw [ofBits_neg_inf, max_bot_left]
  unfold val_main_call0_v0
  exact reduce_max_real _ (by decide) (by decide) _
    (fun i => by rw [RefOut.v3_apply]; exact sim_real x0 x5 hx hV _ _) _ (fun _ => ofBits_neg_inf) _ _

/-- The row maximum, broadcast along the classes, at (b, c) is row b's. -/
theorem c0v4_apply (i : S1024x100000.Idx) :
    val_main_call0_v4 (F := Ideal) x0 x5 i = val_main_call0_v2 (F := Ideal) x0 x5 (ix1 (i 0)) := by
  rw [val_main_call0_v4_apply, val_main_call0_v3_apply]
  exact congrArg _ (funext fun a => Fin.ext (by match a with | ⟨0, _⟩ => rfl))

/-- The sum of the shifted exponentials of row b. -/
theorem c0v7_apply (b : Fin 1024) :
    val_main_call0_v7 (F := Ideal) x0 x5 (ix1 b)
      = 0 + ∑ k : Fin 100000, Ideal.exp (Cert.Spec.sim x0 x5 b k - val_main_call0_v2 (F := Ideal) x0 x5 (ix1 b)) := by
  rw [val_main_call0_v7_apply]
  show Ideal.ofBits .f32 0x00000000#32 + _ = _
  rw [Ideal.ofBits_zero_f32]
  refine congrArg (0 + ·) (Finset.sum_congr rfl fun k _ => ?_)
  rw [val_main_call0_v6_apply, val_main_call0_v5_apply, c0v4_apply, RefOut.v3_apply]
  rfl

/-- The row maximum, broadcast along the classes, at row b and any class. -/
theorem c0v4_apply_at (b : Fin 1024) (c : Fin 100000) :
    val_main_call0_v4 (F := Ideal) x0 x5 (ix2 b c) = val_main_call0_v2 (F := Ideal) x0 x5 (ix1 b) := by
  rw [val_main_call0_v4_apply, val_main_call0_v3_apply]
  exact congrArg _ (funext fun a => Fin.ext (by match a with | ⟨0, _⟩ => rfl))

/-- The scaled product at row b, class c is their similarity. -/
theorem v3_at (b : Fin 1024) (c : Fin 100000) : val_main_v3 (F := Ideal) x0 x5 (ix2 b c) = Cert.Spec.sim x0 x5 b c :=
  RefOut.v3_apply x0 x5 (ix2 b c)

include hx hV in
/-- log_softmax at row b, class c: the similarity less the row's log-sum-exp — the shift by the row maximum cancels. -/
theorem v4_apply_at (b : Fin 1024) (c : Fin 100000) :
    val_main_v4 (F := Ideal) x0 x5 (ix2 b c) = Cert.Spec.sim x0 x5 b c - Cert.Spec.lse x0 x5 b := by
  rw [val_main_v4_apply, val_main_call0_v5_apply, val_main_call0_v10_apply, val_main_call0_v9_apply, val_main_call0_v8_apply,
    c0v4_apply_at, v3_at]
  have e : idx_main_call0_v8 (idx_main_call0_v10 (ix2 b c)) = ix1 b :=
    funext fun a => Fin.ext (by match a with | ⟨0, _⟩ => rfl)
  rw [e, c0v7_apply]
  simp only [Ideal.subf_def, Ideal.hostUnary_log_def]
  haveI : Nonempty (Fin 100000) := ⟨⟨0, by norm_num⟩⟩
  exact RefLaw.row_law (fun c => Cert.Spec.sim x0 x5 b c) (fun c => sim_real x0 x5 hx hV b c) _
    (rowMax_real x0 x5 hx hV b) c

include hx hV in
/-- log_softmax at (b, c): the similarity less the row's log-sum-exp — the shift by the row maximum cancels. -/
theorem v4_apply (i : S1024x100000.Idx) :
    val_main_v4 (F := Ideal) x0 x5 i = Cert.Spec.sim x0 x5 (i 0) (i 1) - Cert.Spec.lse x0 x5 (i 0) := by
  obtain ⟨b, c, rfl⟩ : ∃ (b : Fin 1024) (c : Fin 100000), i = ix2 b c := ⟨i 0, i 1, eq_ix2 i⟩
  exact v4_apply_at x0 x5 hx hV b c

include ht in
/-- take_along_axis's start index at (b, 0, 0) is the label of row b: a label in range is not wrapped. -/
theorem c1v5_apply_at (b : Fin 1024) (u v : Fin 1) : val_main_call1_v5 (F := Ideal) x1 (ix3 b u v) = x1 (ix1 b) := by
  rw [val_main_call1_v5_apply, val_main_call1_v4_apply, val_main_call1_v1_apply, val_main_v5_apply, val_main_call1_v0_apply,
    val_main_call1_c_apply]
  have e : idx_main_v5 (idx_main_call1_v5 (ix3 b u v)) = ix1 b :=
    funext fun a => Fin.ext (by
      match a with
      | ⟨0, _⟩ =>
        have h1 : u.val < 1 := u.isLt
        have h2 : v.val < 1 := v.isLt
        show ((b.val * 1 + u.val) * 1 + v.val) / 1 = b.val
        omega)
  rw [e, slt_zero (ht _), select_zero]

include ht in
theorem c1v5_apply (i : S1024x1x1.Idx) : val_main_call1_v5 (F := Ideal) x1 i = x1 (ix1 (i 0)) := by
  obtain ⟨b, u, v, rfl⟩ : ∃ (b : Fin 1024) (u v : Fin 1), i = ix3 b u v := ⟨i 0, i 1, i 2, eq_ix3 i⟩
  exact c1v5_apply_at x1 ht b u v

include ht in
/-- The "label inside the table" test of take_along_axis holds at every row. -/
theorem c1v12_apply (j : S1024x1.Idx) : val_main_call1_v12 (F := Ideal) x1 j = 1#1 := by
  unfold val_main_call1_v12
  rw [Host.reduce_eq_foldl]
  refine foldl_andi_one _ _ (fun n _ => ?_)
  rw [val_main_call1_v11_apply, val_main_call1_v7_apply, val_main_call1_v10_apply, c1v5_apply x1 ht, val_main_call1_v6_apply,
    val_main_call1_c_2_apply, val_main_call1_v9_apply, val_main_call1_v8_apply, val_main_call1_c_1_apply, sge_zero (ht _),
    sle_max (ht _)]
  decide

include ht in
/-- The gather of take_along_axis at (b, 0): log_softmax at (b, t[b]). -/
theorem c1v13_apply (j : S1024x1.Idx) :
    val_main_call1_v13 (F := Ideal) x0 x1 x5 j = val_main_v4 (F := Ideal) x0 x5 (ix2 (j 0) (Cert.Spec.cls x1 (j 0))) := by
  unfold val_main_call1_v13
  rw [RefGather.gather_row_apply]
  refine congrArg (val_main_v4 (F := Ideal) x0 x5) (funext fun a => Fin.ext ?_)
  match a with
  | ⟨0, _⟩ => rfl
  | ⟨1, _⟩ =>
    show min (val_main_call1_v5 (F := Ideal) x1 (ix3 (j 0) (j 1) (0 : Fin 1))).toInt.toNat 99999 = (x1 (ix1 (j 0))).toNat % 100000
    rw [c1v5_apply x1 ht]
    have h : (x1 (ix1 (j 0))).toNat < 100000 := ht _
    show min (x1 (ix1 (j 0))).toInt.toNat 99999 = _
    rw [toInt_of_lt h, Int.toNat_natCast, Nat.mod_eq_of_lt h]
    exact Nat.min_eq_left (by omega)

include hx hV ht in
/-- take_along_axis's result at (b, 0): the picked similarity less the row's log-sum-exp. -/
theorem v6_apply (j : S1024x1.Idx) :
    val_main_v6 (F := Ideal) x0 x1 x5 j
      = Cert.Spec.sim x0 x5 (j 0) (Cert.Spec.cls x1 (j 0)) - Cert.Spec.lse x0 x5 (j 0) := by
  rw [val_main_v6_apply, c1v12_apply x1 ht, select_one, c1v13_apply x0 x1 x5 ht, v4_apply x0 x5 hx hV]

include hx hV ht in
/-- THE CROSS-ENTROPY TERM IS THE LOSS: the negated mean of take_along_axis's column. -/
theorem v9_eq : val_main_v9 (F := Ideal) x0 x1 x5 = Cert.Spec.loss x0 x1 x5 := by
  funext i
  rw [val_main_v9_apply, val_main_v8_apply, val_main_v7_apply, val_main_cst_1_apply]
  show -(Ideal.div (Ideal.ofBits .f32 0x00000000#32 + ∑ j : S1024x1.Idx, val_main_v6 (F := Ideal) x0 x1 x5 j)
      (Ideal.ofBits .f32 0x44800000#32)) = _
  rw [Ideal.ofBits_zero_f32, ofBits_1024, sum_idx2]
  simp only [Fin.sum_univ_one, v6_apply x0 x1 x5 hx hV ht]
  exact RefLaw.mean_law (fun b => Cert.Spec.sim x0 x5 b (Cert.Spec.cls x1 b)) (fun b => Cert.Spec.lse x0 x5 b)
    (fun b => sim_real x0 x5 hx hV b _) (fun b => lse_real x0 x5 hx hV b) 1024 (by norm_num)

end Cert.Proof.RefLoss

end
-- ==== Proof.RefRun.lean ====
/-
  The reference's run in the form the comparison with the kernel uses: under the precondition, every weakly fair
  execution of the reference terminates with the loss buffer at the specification's loss, the matrix buffer at the
  specification's similarity matrix, and the six argument arrays unchanged.

  The loss buffer holds  0 · Y + 1 · (the cross-entropy term)  for some Y (RefEval); the cross-entropy term is the
  specification's loss where every entry of x and V is a real number and every label is a row number of V (RefLoss),
  which is what the precondition says (PreDecode); and  0 · Y + 1 · z = z  on the extended reals, whatever Y is.
-/
import proofs.«207136_g6528350290482_cont_9to1c4b_434_22_alg».proof.Defs
import proofs.«207136_g6528350290482_cont_9to1c4b_434_22_alg».proof.Proof.Gen.ReferenceIdeal
import proofs.«207136_g6528350290482_cont_9to1c4b_434_22_alg».proof.Proof.Gen.Pre_input_domain
import proofs.«207136_g6528350290482_cont_9to1c4b_434_22_alg».proof.Proof.PreDecode
import proofs.«207136_g6528350290482_cont_9to1c4b_434_22_alg».proof.Proof.RefEval
import proofs.«207136_g6528350290482_cont_9to1c4b_434_22_alg».proof.Proof.RefLoss

noncomputable section

namespace Cert.Proof.RefRun

open Cert.ReferenceIdeal Cert.ReferenceIdeal.ReadP Cert.ReferenceIdeal.ValueP Idealize.ShloMosaic Idealize.SL.Sem
  Idealize.ShloMosaic.StableHlo
open Cert.Proof

/-- The loss buffer after the reference's operations is the specification's loss. -/
theorem loss_after [Cert.Pre_input_domain.Facts]
    (m : (ℓ : Loc Cert.ReferenceIdeal.nD Cert.ReferenceIdeal.τ Cert.ReferenceIdeal.sig) → Buf (Elt Ideal) ℓ)
    (c : Dev Cert.ReferenceIdeal.nD)
    (hpre : Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) = (fun _ => 1#1)) :
    after (ops (F := Ideal)) (launchContents m c) (Proc.devRef .tc main_v67)
      = Cert.Spec.loss (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg5)) := by
  obtain ⟨Y, hY⟩ := RefEval.v67_after (F := Ideal) m c
  obtain ⟨hx, hV⟩ := PreDecode.finite _ _ _ _ _ _ hpre
  have ht := PreDecode.targets_lt _ _ _ _ _ _ hpre
  rw [hY, RefLoss.v9_eq _ _ _ hx hV ht]
  funext i
  show Ideal.ofBits .f32 0x00000000#32 * Y i + Ideal.ofBits .f32 0x3F800000#32 * Cert.Spec.loss _ _ _ i = _
  rw [Ideal.ofBits_zero_f32, RefOut.ofBits_one, zero_mul, one_mul, zero_add]

/-- THE REFERENCE'S RUN, against the specification. -/
theorem ref_run [Cert.ReferenceIdeal.Facts] [Cert.Pre_input_domain.Facts]
    (m' : (ℓ : Loc Cert.ReferenceIdeal.nD Cert.ReferenceIdeal.τ Cert.ReferenceIdeal.sig) → Buf (Elt Ideal) ℓ)
    (ρ' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v67) = Cert.Spec.loss (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_v69) = Cert.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono
    (fun _ h c => ⟨(h c).1.trans (loss_after m' c (hpre c)),
      (h c).2.1.trans ((val_main_v69_eq _ _).trans (RefOut.out_eq _ _)), (h c).2.2⟩)
    (Cert.ReferenceIdeal.ValueP.run (F := Ideal) m' ρ')

end Cert.Proof.RefRun

end
-- ==== Proof.lean ====
/-
  The certificate's claim: the three programs' frames, and the two idealized programs equal over the extended reals.

  The kernel program gathers the labelled class rows on the SparseCore, computes the similarity matrix of the batch
  against the whole class table block by block while accumulating each batch row's sum of exponentials, and combines
  the logs of those sums with the similarities of the labelled rows into the mean cross-entropy; the reference computes
  the same two results with a log-softmax over the whole matrix. Both are compared with one specification
  (Proof/Spec.lean): the kernel's results are the specification's by commutativity and re-association of finite sums
  alone; the reference's by the shift law of log-sum-exp on real numbers, for which the precondition's finiteness of the
  inputs is used, its pairwise branch being multiplied by zero.

  The frames of the kernel program (at the word level and idealized) are its run through the SparseCore launch theorem:
  the gather kernel's task on each tile, @main on the TensorCore with the two pallas_calls as regions; the class
  numbers' range, which the gather needs, is read off the precondition. The reference's frame is its run.
-/
import proofs.«207136_g6528350290482_cont_9to1c4b_434_22_alg».proof.Defs
import proofs.«207136_g6528350290482_cont_9to1c4b_434_22_alg».proof.Proof.Gen.Kernel
import proofs.«207136_g6528350290482_cont_9to1c4b_434_22_alg».proof.Proof.Gen.KernelIdeal
import proofs.«207136_g6528350290482_cont_9to1c4b_434_22_alg».proof.Proof.Gen.ReferenceIdeal
import proofs.«207136_g6528350290482_cont_9to1c4b_434_22_alg».proof.Proof.Gen.Pre_input_domain
import proofs.«207136_g6528350290482_cont_9to1c4b_434_22_alg».proof.Proof.FrameRun
import proofs.«207136_g6528350290482_cont_9to1c4b_434_22_alg».proof.Proof.Bits.FrameRun
import proofs.«207136_g6528350290482_cont_9to1c4b_434_22_alg».proof.Proof.RefFrame
import proofs.«207136_g6528350290482_cont_9to1c4b_434_22_alg».proof.Proof.PreDecode
import proofs.«207136_g6528350290482_cont_9to1c4b_434_22_alg».proof.Proof.KernelOut
import proofs.«207136_g6528350290482_cont_9to1c4b_434_22_alg».proof.Proof.KernelLoss
import proofs.«207136_g6528350290482_cont_9to1c4b_434_22_alg».proof.Proof.RefRun
import Idealize.ShloMosaic.Adequacy
import Idealize.ShloMosaic.Init

noncomputable section

namespace Cert.Proof

open Idealize.ShloMosaic Idealize.SL.Sem

/-- The precondition puts every class number inside the table's range (word-level program). -/
theorem preOK_KB (m : (ℓ : Loc Cert.Kernel.nD Cert.Kernel.τ Cert.Kernel.sig) → Buf (Elt Bits) ℓ) (h : Cert.Pre_Kernel m) :
    Cert.Proof.KB.PreOK m := fun d j => Cert.Proof.PreDecode.targets_lt _ _ _ _ _ _ (h d) j
/-- The same for the idealized program. -/
theorem preOK_KI (m : (ℓ : Loc Cert.KernelIdeal.nD Cert.KernelIdeal.τ Cert.KernelIdeal.sig) → Buf (Elt Ideal) ℓ) (h : Cert.Pre_KernelIdeal m) :
    Cert.Proof.KI.PreOK m := fun d j => Cert.Proof.PreDecode.targets_lt _ _ _ _ _ _ (h d) j

theorem frame_K : Cert.frame_Kernel := fun m g hpre => Cert.Proof.KB.frame_run (F := Bits) m g (preOK_KB m hpre)
theorem frame_KI : Cert.frame_KernelIdeal := fun m g hpre => Cert.Proof.KI.frame_run (F := Ideal) m g (preOK_KI m hpre)
theorem frame_RI : Cert.frame_ReferenceIdeal := Cert.Proof.RefFrame.frame_ri

open Cert.KernelIdeal in
/-- The two idealized programs end with the specification's loss and similarity matrix of the (shared) arguments. -/
theorem algebraic : Cert.algebraic_KernelIdeal_ReferenceIdeal := by
  intro m g m' g' hpre hagree
  refine ⟨fun c => Cert.Spec.loss (m ((c.tc : Thread nD τ).loc main_arg0)) (m ((c.tc : Thread nD τ).loc main_arg1)) (m ((c.tc : Thread nD τ).loc main_arg5)),
    fun c => Cert.Spec.out (m ((c.tc : Thread nD τ).loc main_arg0)) (m ((c.tc : Thread nD τ).loc main_arg5)), ?_, ?_⟩
  · exact Cert.Proof.KI.run_full (F := Ideal) m g (preOK_KI m hpre) _ fun s' h c =>
      ⟨(h c _ (Cert.Proof.KI.mem_uc main_v3 (by decide))).trans (Cert.Proof.KI.loss_value m c),
       (h c _ (Cert.Proof.KI.mem_uc main_v4 (by decide))).trans (Cert.Proof.KI.matrix_value m _ c),
       (h c _ (Cert.Proof.KI.mem_uc main_arg0 (by decide))).trans (Cert.Proof.KI.W4_arg0 m _ _ c),
       (h c _ (Cert.Proof.KI.mem_uc main_arg1 (by decide))).trans (Cert.Proof.KI.W4_arg1 m _ _ c),
       (h c _ (Cert.Proof.KI.mem_uc main_arg2 (by decide))).trans (Cert.Proof.KI.W4_arg2 m _ _ c),
       (h c _ (Cert.Proof.KI.mem_uc main_arg3 (by decide))).trans (Cert.Proof.KI.W4_arg3 m _ _ c),
       (h c _ (Cert.Proof.KI.mem_uc main_arg4 (by decide))).trans (Cert.Proof.KI.W4_arg4 m _ _ c),
       (h c _ (Cert.Proof.KI.mem_uc main_arg5 (by decide))).trans (Cert.Proof.KI.W4_arg5 m _ _ c)⟩
  · have hpre' : Cert.Pre_ReferenceIdeal m' := fun c => by
      obtain ⟨h0, h1, h2, h3, h4, h5⟩ := hagree c
      show Cert.Pre_input_domain.fn (F := Ideal) _ _ _ _ _ _ = _
      rw [h0, h1, h2, h3, h4, h5]; exact hpre c
    refine (θ_run Cert.ReferenceIdeal.defs _ _).mono (fun r h c => ?_) (Cert.Proof.RefRun.ref_run m' g' hpre')
    obtain ⟨h0, h1, h2, h3, h4, h5⟩ := hagree c
    obtain ⟨hl, ho, ha⟩ := h c
    exact ⟨hl.trans (by rw [h0, h1, h5]), ho.trans (by rw [h0, h5]), ha⟩

theorem claim : Cert.Claim :=
  ⟨Cert.Kernel.Gen.facts, Cert.KernelIdeal.Gen.facts, Cert.ReferenceIdeal.Gen.facts, Cert.Pre_input_domain.Gen.facts,
    frame_K, frame_KI, frame_RI, trivial, algebraic⟩

end Cert.Proof

end
